-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x512x128 : Shape := ⟨3, ![512, 512, 128]⟩
abbrev S4x512x512 : Shape := ⟨3, ![4, 512, 512]⟩
abbrev S4x4x128x32 : Shape := ⟨4, ![4, 4, 128, 32]⟩
abbrev S4x128x32 : Shape := ⟨3, ![4, 128, 32]⟩
abbrev S4x160x32 : Shape := ⟨3, ![4, 160, 32]⟩
abbrev S4x192x32 : Shape := ⟨3, ![4, 192, 32]⟩
abbrev S4x224x32 : Shape := ⟨3, ![4, 224, 32]⟩
abbrev S128 : Shape := ⟨1, ![128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x512x128 : S_.BroadcastsInDim S512x512x128 (![] : Fin 0 → Fin S512x512x128.rank)
  reducesTo_S512x512x128_S_d0_1_2 : S512x512x128.ReducesTo [0, 1, 2] S_
  bcast_S_S4x512x512 : S_.BroadcastsInDim S4x512x512 (![] : Fin 0 → Fin S4x512x512.rank)
  reducesTo_S4x512x512_S_d0_1_2 : S4x512x512.ReducesTo [0, 1, 2] S_
  bcast_S_S4x4x128x32 : S_.BroadcastsInDim S4x4x128x32 (![] : Fin 0 → Fin S4x4x128x32.rank)
  reducesTo_S4x4x128x32_S_d0_1_2_3 : S4x4x128x32.ReducesTo [0, 1, 2, 3] S_
  bcast_S_S4x128x32 : S_.BroadcastsInDim S4x128x32 (![] : Fin 0 → Fin S4x128x32.rank)
  reducesTo_S4x128x32_S_d0_1_2 : S4x128x32.ReducesTo [0, 1, 2] S_
  bcast_S_S4x160x32 : S_.BroadcastsInDim S4x160x32 (![] : Fin 0 → Fin S4x160x32.rank)
  reducesTo_S4x160x32_S_d0_1_2 : S4x160x32.ReducesTo [0, 1, 2] S_
  bcast_S_S4x192x32 : S_.BroadcastsInDim S4x192x32 (![] : Fin 0 → Fin S4x192x32.rank)
  reducesTo_S4x192x32_S_d0_1_2 : S4x192x32.ReducesTo [0, 1, 2] S_
  bcast_S_S4x224x32 : S_.BroadcastsInDim S4x224x32 (![] : Fin 0 → Fin S4x224x32.rank)
  reducesTo_S4x224x32_S_d0_1_2 : S4x224x32.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4x224x32 .f32) (main_arg8 : FVec F S512x128 .f32) (main_arg9 : FVec F S128 .f32) (main_v33 : IVec S_ 1) : IVec S_ 1 :=
  let main_v34 : FVec F S4x224x32 .f32 := Host.absf main_arg7
  let main_cst_12 : FVec F S_ .f32 := constant S_ .f32 0x7F800000#32
  let main_v35 : FVec F S4x224x32 .f32 := broadcastInDim S4x224x32 ![] bcast_S_S4x224x32 main_cst_12
  let main_v36 : IVec S4x224x32 1 := cmpf .olt main_v34 main_v35
  let main_c_13 : IVec S_ 1 := constantI S_ 1 1#1
  let main_v37 : IVec S_ 1 := (fun x v => Host.reduce IntOp.andi x v reducesTo_S4x224x32_S_d0_1_2 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4x128x32 .f32) (main_arg5 : FVec F S4x160x32 .f32) (main_arg6 : FVec F S4x192x32 .f32) (main_arg7 : FVec F S4x224x32 .f32) (main_arg8 : FVec F S512x128 .f32) (main_arg9 : FVec F S128 .f32) (main_v13 : IVec S_ 1) (main_v16 : IVec S4x4x128x32 1) : IVec S_ 1 :=
  let main_c_5 : IVec S_ 1 := constantI S_ 1 1#1
  let main_v17 : IVec S_ 1 := (fun x v => Host.reduce IntOp.andi x v reducesTo_S4x4x128x32_S_d0_1_2_3 h_S_) main_v16 main_c_5
  let main_v18 : IVec S_ 1 := andi main_v13 main_v17
  let main_v19 : FVec F S4x128x32 .f32 := Host.absf main_arg4
  let main_cst_6 : FVec F S_ .f32 := constant S_ .f32 0x7F800000#32
  let main_v20 : FVec F S4x128x32 .f32 := broadcastInDim S4x128x32 ![] bcast_S_S4x128x32 main_cst_6
  let main_v21 : IVec S4x128x32 1 := cmpf .olt main_v19 main_v20
  let main_c_7 : IVec S_ 1 := constantI S_ 1 1#1
  let main_v22 : IVec S_ 1 := (fun x v => Host.reduce IntOp.andi x v reducesTo_S4x128x32_S_d0_1_2 h_S_) main_v21 main_c_7
  let main_v23 : IVec S_ 1 := andi main_v18 main_v22
  let main_v24 : FVec F S4x160x32 .f32 := Host.absf main_arg5
  let main_cst_8 : FVec F S_ .f32 := constant S_ .f32 0x7F800000#32
  let main_v25 : FVec F S4x160x32 .f32 := broadcastInDim S4x160x32 ![] bcast_S_S4x160x32 main_cst_8
  let main_v26 : IVec S4x160x32 1 := cmpf .olt main_v24 main_v25
  let main_c_9 : IVec S_ 1 := constantI S_ 1 1#1
  let main_v27 : IVec S_ 1 := (fun x v => Host.reduce IntOp.andi x v reducesTo_S4x160x32_S_d0_1_2 h_S_) main_v26 main_c_9
  let main_v28 : IVec S_ 1 := andi main_v23 main_v27
  let main_v29 : FVec F S4x192x32 .f32 := Host.absf main_arg6
  let main_cst_10 : FVec F S_ .f32 := constant S_ .f32 0x7F800000#32
  let main_v30 : FVec F S4x192x32 .f32 := broadcastInDim S4x192x32 ![] bcast_S_S4x192x32 main_cst_10
  let main_v31 : IVec S4x192x32 1 := cmpf .olt main_v29 main_v30
  let main_c_11 : IVec S_ 1 := constantI S_ 1 1#1
  let main_v32 : IVec S_ 1 := (fun x v => Host.reduce IntOp.andi x v reducesTo_S4x192x32_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S512x128 .f32) (main_arg1 : FVec F S512x512x128 .f32) (main_arg2 : FVec F S4x512x512 .f32) (main_arg3 : FVec F S4x4x128x32 .f32) (main_arg4 : FVec F S4x128x32 .f32) (main_arg5 : FVec F S4x160x32 .f32) (main_arg6 : FVec F S4x192x32 .f32) (main_arg7 : FVec F S4x224x32 .f32) (main_arg8 : FVec F S512x128 .f32) (main_arg9 : FVec F S128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x512x128 .f32 := Host.absf main_arg1
  let main_cst_0 : FVec F S_ .f32 := constant S_ .f32 0x7F800000#32
  let main_v5 : FVec F S512x512x128 .f32 := broadcastInDim S512x512x128 ![] bcast_S_S512x512x128 main_cst_0
  let main_v6 : IVec S512x512x128 1 := cmpf .olt main_v4 main_v5
  let main_c_1 : IVec S_ 1 := constantI S_ 1 1#1
  let main_v7 : IVec S_ 1 := (fun x v => Host.reduce IntOp.andi x v reducesTo_S512x512x128_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  let main_v14 : FVec F S4x4x128x32 .f32 := Host.absf main_arg3
  let main_cst_4 : FVec F S_ .f32 := constant S_ .f32 0x7F800000#32
  let main_v15 : FVec F S4x4x128x32 .f32 := broadcastInDim S4x4x128x32 ![] bcast_S_S4x4x128x32 main_cst_4
  let main_v16 : IVec S4x4x128x32 1 := cmpf .olt main_v14 main_v15
  fn_part1 (F := F) main_arg4 main_arg5 main_arg6 main_arg7 main_arg8 main_arg9 main_v13 main_v16
-- ==== Kernel.lean ====
abbrev S512x128 : Shape := ⟨2, ![512, 128]⟩
abbrev S512x512x128 : Shape := ⟨3, ![512, 512, 128]⟩
abbrev S4x512x512 : Shape := ⟨3, ![4, 512, 512]⟩
abbrev S4x4x128x32 : Shape := ⟨4, ![4, 4, 128, 32]⟩
abbrev S4x128x32 : Shape := ⟨3, ![4, 128, 32]⟩
abbrev S4x160x32 : Shape := ⟨3, ![4, 160, 32]⟩
abbrev S4x192x32 : Shape := ⟨3, ![4, 192, 32]⟩
abbrev S4x224x32 : Shape := ⟨3, ![4, 224, 32]⟩
abbrev S128 : Shape := ⟨1, ![128]⟩
abbrev S128x128x128 : Shape := ⟨3, ![128, 128, 128]⟩
abbrev S128x128 : Shape := ⟨2, ![128, 128]⟩
abbrev S4x128x4x32 : Shape := ⟨4, ![4, 128, 4, 32]⟩
abbrev S4x128x128 : Shape := ⟨3, ![4, 128, 128]⟩
abbrev S2x512x128 : Shape := ⟨3, ![2, 512, 128]⟩
abbrev S1x512x512 : Shape := ⟨3, ![1, 512, 512]⟩
abbrev S1x128x128 : Shape := ⟨3, ![1, 128, 128]⟩
abbrev S1x128x32 : Shape := ⟨3, ![1, 128, 32]⟩
abbrev S1x160x32 : Shape := ⟨3, ![1, 160, 32]⟩
abbrev S1x192x32 : Shape := ⟨3, ![1, 192, 32]⟩
abbrev S1x224x32 : Shape := ⟨3, ![1, 224, 32]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x32 : Shape := ⟨2, ![512, 32]⟩
abbrev S128x32 : Shape := ⟨2, ![128, 32]⟩
abbrev S160x32 : Shape := ⟨2, ![160, 32]⟩
abbrev S32x32 : Shape := ⟨2, ![32, 32]⟩
abbrev S192x32 : Shape := ⟨2, ![192, 32]⟩
abbrev S224x32 : Shape := ⟨2, ![224, 32]⟩
abbrev S_ : Shape := ⟨0, ![]⟩
abbrev S1x128 : Shape := ⟨2, ![1, 128]⟩

abbrev nBuf : Space → Nat
  | .hbm => 19
  | .vmem => 22
  | .smem => 0
  | _ => 0

abbrev bufTy : (tb : Table) → Fin (tcTables nBuf tb) → BufTy
  | .hbm, ⟨0, _⟩ => ⟨S512x128, .f32⟩
  | .hbm, ⟨1, _⟩ => ⟨S512x512x128, .f32⟩
  | .hbm, ⟨2, _⟩ => ⟨S4x512x512, .f32⟩
  | .hbm, ⟨3, _⟩ => ⟨S4x4x128x32, .f32⟩
  | .hbm, ⟨4, _⟩ => ⟨S4x128x32, .f32⟩
  | .hbm, ⟨5, _⟩ => ⟨S4x160x32, .f32⟩
  | .hbm, ⟨6, _⟩ => ⟨S4x192x32, .f32⟩
  | .hbm, ⟨7, _⟩ => ⟨S4x224x32, .f32⟩
  | .hbm, ⟨8, _⟩ => ⟨S512x128, .f32⟩
  | .hbm, ⟨9, _⟩ => ⟨S128, .f32⟩
  | .hbm, ⟨10, _⟩ => ⟨S512x128, .f32⟩
  | .hbm, ⟨11, _⟩ => ⟨S4x128x4x32, .f32⟩
  | .hbm, ⟨12, _⟩ => ⟨S4x128x128, .f32⟩
  | .hbm, ⟨13, _⟩ => ⟨S2x512x128, .f32⟩
  | .hbm, ⟨14, _⟩ => ⟨S_, .f32⟩
  | .hbm, ⟨15, _⟩ => ⟨S512x128, .f32⟩
  | .hbm, ⟨16, _⟩ => ⟨S1x128, .f32⟩
  | .hbm, ⟨17, _⟩ => ⟨S512x128, .f32⟩
  | .hbm, ⟨18, _⟩ => ⟨S512x128, .f32⟩
  | .local _ .vmem, ⟨0, _⟩ => ⟨S128x128x128, .f32⟩
  | .local _ .vmem, ⟨1, _⟩ => ⟨S128x128x128, .f32⟩
  | .local _ .vmem, ⟨2, _⟩ => ⟨S128x128, .f32⟩
  | .local _ .vmem, ⟨3, _⟩ => ⟨S128x128, .f32⟩
  | .local _ .vmem, ⟨4, _⟩ => ⟨S1x512x512, .f32⟩
  | .local _ .vmem, ⟨5, _⟩ => ⟨S1x512x512, .f32⟩
  | .local _ .vmem, ⟨6, _⟩ => ⟨S512x128, .f32⟩
  | .local _ .vmem, ⟨7, _⟩ => ⟨S512x128, .f32⟩
  | .local _ .vmem, ⟨8, _⟩ => ⟨S1x128x128, .f32⟩
  | .local _ .vmem, ⟨9, _⟩ => ⟨S1x128x128, .f32⟩
  | .local _ .vmem, ⟨10, _⟩ => ⟨S1x128x32, .f32⟩
  | .local _ .vmem, ⟨11, _⟩ => ⟨S1x128x32, .f32⟩
  | .local _ .vmem, ⟨12, _⟩ => ⟨S1x160x32, .f32⟩
  | .local _ .vmem, ⟨13, _⟩ => ⟨S1x160x32, .f32⟩
  | .local _ .vmem, ⟨14, _⟩ => ⟨S1x192x32, .f32⟩
  | .local _ .vmem, ⟨15, _⟩ => ⟨S1x192x32, .f32⟩
  | .local _ .vmem, ⟨16, _⟩ => ⟨S1x224x32, .f32⟩
  | .local _ .vmem, ⟨17, _⟩ => ⟨S1x224x32, .f32⟩
  | .local _ .vmem, ⟨18, _⟩ => ⟨S128x128, .f32⟩
  | .local _ .vmem, ⟨19, _⟩ => ⟨S128x128, .f32⟩
  | .local _ .vmem, ⟨20, _⟩ => ⟨S1x512x128, .f32⟩
  | .local _ .vmem, ⟨21, _⟩ => ⟨S1x512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x160x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x192x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x224x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x128x128_S128x128x128_0_0_0 : ∀ a, (![0, 0, 0] : Fin 3 → Nat) a + S128x128x128.size a ≤ S128x128x128.size a
  h_S128x128x128 : 0 < S128x128x128.numel
  reduces_S128x128x128_S128x128 : S128x128x128.Reduces [1] S128x128
  transposes_S4x4x128x32_S4x128x4x32_0_2_1_3 : S4x4x128x32.Transposes [0, 2, 1, 3] S4x128x4x32
  shapeCasts_S4x128x4x32_S4x128x128 : S4x128x4x32.ShapeCasts S4x128x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  natLt_1_32 : 1 < 32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  slices_S512x128_o0_0_S512x32 : S512x128.Slices ![0, 0] S512x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  broadcasts_S512x1_S512x32 : S512x1.Broadcasts S512x32
  slices_S512x128_o0_32_S512x32 : S512x128.Slices ![0, 32] S512x32
  inb_S1x160x32_S1x160x32_0_0_0 : ∀ a, (![0, 0, 0] : Fin 3 → Nat) a + S1x160x32.size a ≤ S1x160x32.size a
  h_S1x160x32 : 0 < S1x160x32.numel
  shapeCasts_S1x160x32_S160x32 : S1x160x32.ShapeCasts S160x32
  slices_S160x32_o0_0_S128x32 : S160x32.Slices ![0, 0] S128x32
  slices_S160x32_o128_0_S32x32 : S160x32.Slices ![128, 0] S32x32
  slices_S512x128_o0_64_S512x32 : S512x128.Slices ![0, 64] S512x32
  inb_S1x192x32_S1x192x32_0_0_0 : ∀ a, (![0, 0, 0] : Fin 3 → Nat) a + S1x192x32.size a ≤ S1x192x32.size a
  h_S1x192x32 : 0 < S1x192x32.numel
  shapeCasts_S1x192x32_S192x32 : S1x192x32.ShapeCasts S192x32
  slices_S192x32_o0_0_S128x32 : S192x32.Slices ![0, 0] S128x32
  slices_S192x32_o128_0_S32x32 : S192x32.Slices ![128, 0] S32x32
  slices_S192x32_o160_0_S32x32 : S192x32.Slices ![160, 0] S32x32
  slices_S512x128_o0_96_S512x32 : S512x128.Slices ![0, 96] S512x32
  inb_S1x224x32_S1x224x32_0_0_0 : ∀ a, (![0, 0, 0] : Fin 3 → Nat) a + S1x224x32.size a ≤ S1x224x32.size a
  h_S1x224x32 : 0 < S1x224x32.numel
  shapeCasts_S1x224x32_S224x32 : S1x224x32.ShapeCasts S224x32
  slices_S224x32_o0_0_S128x32 : S224x32.Slices ![0, 0] S128x32
  slices_S224x32_o128_0_S32x32 : S224x32.Slices ![128, 0] S32x32
  slices_S224x32_o160_0_S32x32 : S224x32.Slices ![160, 0] S32x32
  slices_S224x32_o192_0_S32x32 : S224x32.Slices ![192, 0] S32x32
  concatenates_S512x32_S512x32_S512x32_S512x32_S512x128_d1 : Shape.Concatenates [S512x32, S512x32, S512x32, S512x32] S512x128 1
  reducesTo_S2x512x128_S512x128_d0 : S2x512x128.ReducesTo [0] S512x128
  h_S_ : 0 < S_.numel
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  dot_S512x128_S128x128_S512x128_1_0_0_1_n_n_wf : DotDims.WF S512x128 S128x128 S512x128 [1] [0] [0] [1] [] []
  dot_S512x128_S128x32_S512x32_1_0_0_1_n_n_wf : DotDims.WF S512x128 S128x32 S512x32 [1] [0] [0] [1] [] []
  dot_S512x512_S512x32_S512x32_1_0_0_1_n_n_wf : DotDims.WF S512x512 S512x32 S512x32 [1] [0] [0] [1] [] []
  dot_S512x32_S32x32_S512x32_1_0_0_1_n_n_wf : DotDims.WF S512x32 S32x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x128.size a ≤ S512x512x128.size a
  hwx0_0 : ∀ i : grid0.Coords, EltTy.bits .f32 = 32 ∨ (Rect.block (s := S512x512x128) S128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x512x512.size a
  hwx1_0 : ∀ i : grid1.Coords, EltTy.bits .f32 = 32 ∨ (Rect.block (s := S4x512x512) S1x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S4x128x128.size a
  hwx1_3 : ∀ i : grid1.Coords, EltTy.bits .f32 = 32 ∨ (Rect.block (s := S4x128x128) S1x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x32.size a ≤ S4x128x32.size a
  hwx1_4 : ∀ i : grid1.Coords, EltTy.bits .f32 = 32 ∨ (Rect.block (s := S4x128x32) S1x128x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x160x32.size a ≤ S4x160x32.size a
  hwx1_5 : ∀ i : grid1.Coords, EltTy.bits .f32 = 32 ∨ (Rect.block (s := S4x160x32) S1x160x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x192x32.size a ≤ S4x192x32.size a
  hwx1_6 : ∀ i : grid1.Coords, EltTy.bits .f32 = 32 ∨ (Rect.block (s := S4x192x32) S1x192x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x224x32.size a ≤ S4x224x32.size a
  hwx1_7 : ∀ i : grid1.Coords, EltTy.bits .f32 = 32 ∨ (Rect.block (s := S4x224x32) S1x224x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S512x128.size a
  hwx1_8 : ∀ i : grid1.Coords, EltTy.bits .f32 = 32 ∨ (Rect.block (s := S512x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x512x128.size a ≤ S2x512x128.size a
  hwx1_9 : ∀ i : grid1.Coords, EltTy.bits .f32 = 32 ∨ (Rect.block (s := S2x512x128) S1x512x128.size (cc1_transform_9 i) (hinb1_9 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

abbrev win0_0 : Pipeline.Window sig grid0 :=
  Pipeline.Window.ofSpec (Memref.whole main_arg1) S128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x128x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x160x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1x192x32.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S1x224x32.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S128x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v3) S1x512x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S512x128 : Shape := ⟨2, ![512, 128]⟩
abbrev S512x512x128 : Shape := ⟨3, ![512, 512, 128]⟩
abbrev S4x512x512 : Shape := ⟨3, ![4, 512, 512]⟩
abbrev S4x4x128x32 : Shape := ⟨4, ![4, 4, 128, 32]⟩
abbrev S4x128x32 : Shape := ⟨3, ![4, 128, 32]⟩
abbrev S4x160x32 : Shape := ⟨3, ![4, 160, 32]⟩
abbrev S4x192x32 : Shape := ⟨3, ![4, 192, 32]⟩
abbrev S4x224x32 : Shape := ⟨3, ![4, 224, 32]⟩
abbrev S128 : Shape := ⟨1, ![128]⟩
abbrev S_ : Shape := ⟨0, ![]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x1x128x32 : Shape := ⟨4, ![1, 1, 128, 32]⟩
abbrev S128x32 : Shape := ⟨2, ![128, 32]⟩
abbrev S512x32 : Shape := ⟨2, ![512, 32]⟩
abbrev S1x128x32 : Shape := ⟨3, ![1, 128, 32]⟩
abbrev S512x160 : Shape := ⟨2, ![512, 160]⟩
abbrev S1x160x32 : Shape := ⟨3, ![1, 160, 32]⟩
abbrev S160x32 : Shape := ⟨2, ![160, 32]⟩
abbrev S512x192 : Shape := ⟨2, ![512, 192]⟩
abbrev S1x192x32 : Shape := ⟨3, ![1, 192, 32]⟩
abbrev S192x32 : Shape := ⟨2, ![192, 32]⟩
abbrev S512x224 : Shape := ⟨2, ![512, 224]⟩
abbrev S1x224x32 : Shape := ⟨3, ![1, 224, 32]⟩
abbrev S224x32 : Shape := ⟨2, ![224, 32]⟩
abbrev S512x256 : Shape := ⟨2, ![512, 256]⟩
abbrev S1x128 : Shape := ⟨2, ![1, 128]⟩

abbrev nBuf : Space → Nat
  | .hbm => 292
  | .vmem => 0
  | .smem => 0
  | _ => 0

abbrev hbmTy0_0 (i : Nat) : BufTy := match i % 128 with
  | 0 => ⟨S512x128, .f32⟩
  | 1 => ⟨S512x512x128, .f32⟩
  | 2 => ⟨S4x512x512, .f32⟩
  | 3 => ⟨S4x4x128x32, .f32⟩
  | 4 => ⟨S4x128x32, .f32⟩
  | 5 => ⟨S4x160x32, .f32⟩
  | 6 => ⟨S4x192x32, .f32⟩
  | 7 => ⟨S4x224x32, .f32⟩
  | 8 => ⟨S512x128, .f32⟩
  | 9 => ⟨S128, .f32⟩
  | 10 => ⟨S_, .f32⟩
  | 11 => ⟨S512x128, .f32⟩
  | 12 => ⟨S_, .f32⟩
  | 13 => ⟨S512x128, .f32⟩
  | 14 => ⟨S512x128, .f32⟩
  | 15 => ⟨S1x512x512, .f32⟩
  | 16 => ⟨S512x512, .f32⟩
  | 17 => ⟨S_, .f32⟩
  | 18 => ⟨S512, .f32⟩
  | 19 => ⟨S_, .f32⟩
  | 20 => ⟨S512, .f32⟩
  | 21 => ⟨S512, .i1⟩
  | 22 => ⟨S512, .f32⟩
  | 23 => ⟨S512, .f32⟩
  | 24 => ⟨S512x1, .f32⟩
  | 25 => ⟨S1x1x128x32, .f32⟩
  | 26 => ⟨S128x32, .f32⟩
  | 27 => ⟨S512x32, .f32⟩
  | 28 => ⟨S1x128x32, .f32⟩
  | 29 => ⟨S128x32, .f32⟩
  | 30 => ⟨S512x32, .f32⟩
  | 31 => ⟨S512x32, .f32⟩
  | 32 => ⟨S512x32, .f32⟩
  | 33 => ⟨S512x32, .f32⟩
  | 34 => ⟨S512x32, .f32⟩
  | 35 => ⟨S_, .f32⟩
  | 36 => ⟨S512x32, .f32⟩
  | 37 => ⟨S512x32, .f32⟩
  | 38 => ⟨S512x160, .f32⟩
  | 39 => ⟨S1x1x128x32, .f32⟩
  | 40 => ⟨S128x32, .f32⟩
  | 41 => ⟨S512x32, .f32⟩
  | 42 => ⟨S1x160x32, .f32⟩
  | 43 => ⟨S160x32, .f32⟩
  | 44 => ⟨S512x32, .f32⟩
  | 45 => ⟨S512x32, .f32⟩
  | 46 => ⟨S512x32, .f32⟩
  | 47 => ⟨S512x32, .f32⟩
  | 48 => ⟨S512x32, .f32⟩
  | 49 => ⟨S_, .f32⟩
  | 50 => ⟨S512x32, .f32⟩
  | 51 => ⟨S512x32, .f32⟩
  | 52 => ⟨S512x192, .f32⟩
  | 53 => ⟨S1x1x128x32, .f32⟩
  | 54 => ⟨S128x32, .f32⟩
  | 55 => ⟨S512x32, .f32⟩
  | 56 => ⟨S1x192x32, .f32⟩
  | 57 => ⟨S192x32, .f32⟩
  | 58 => ⟨S512x32, .f32⟩
  | 59 => ⟨S512x32, .f32⟩
  | 60 => ⟨S512x32, .f32⟩
  | 61 => ⟨S512x32, .f32⟩
  | 62 => ⟨S512x32, .f32⟩
  | 63 => ⟨S_, .f32⟩
  | 64 => ⟨S512x32, .f32⟩
  | 65 => ⟨S512x32, .f32⟩
  | 66 => ⟨S512x224, .f32⟩
  | 67 => ⟨S1x1x128x32, .f32⟩
  | 68 => ⟨S128x32, .f32⟩
  | 69 => ⟨S512x32, .f32⟩
  | 70 => ⟨S1x224x32, .f32⟩
  | 71 => ⟨S224x32, .f32⟩
  | 72 => ⟨S512x32, .f32⟩
  | 73 => ⟨S512x32, .f32⟩
  | 74 => ⟨S512x32, .f32⟩
  | 75 => ⟨S512x32, .f32⟩
  | 76 => ⟨S512x32, .f32⟩
  | 77 => ⟨S_, .f32⟩
  | 78 => ⟨S512x32, .f32⟩
  | 79 => ⟨S512x32, .f32⟩
  | 80 => ⟨S512x256, .f32⟩
  | 81 => ⟨S512x128, .f32⟩
  | 82 => ⟨S512x128, .f32⟩
  | 83 => ⟨S1x512x512, .f32⟩
  | 84 => ⟨S512x512, .f32⟩
  | 85 => ⟨S_, .f32⟩
  | 86 => ⟨S512, .f32⟩
  | 87 => ⟨S_, .f32⟩
  | 88 => ⟨S512, .f32⟩
  | 89 => ⟨S512, .i1⟩
  | 90 => ⟨S512, .f32⟩
  | 91 => ⟨S512, .f32⟩
  | 92 => ⟨S512x1, .f32⟩
  | 93 => ⟨S1x1x128x32, .f32⟩
  | 94 => ⟨S128x32, .f32⟩
  | 95 => ⟨S512x32, .f32⟩
  | 96 => ⟨S1x128x32, .f32⟩
  | 97 => ⟨S128x32, .f32⟩
  | 98 => ⟨S512x32, .f32⟩
  | 99 => ⟨S512x32, .f32⟩
  | 100 => ⟨S512x32, .f32⟩
  | 101 => ⟨S512x32, .f32⟩
  | 102 => ⟨S512x32, .f32⟩
  | 103 => ⟨S_, .f32⟩
  | 104 => ⟨S512x32, .f32⟩
  | 105 => ⟨S512x32, .f32⟩
  | 106 => ⟨S512x160, .f32⟩
  | 107 => ⟨S1x1x128x32, .f32⟩
  | 108 => ⟨S128x32, .f32⟩
  | 109 => ⟨S512x32, .f32⟩
  | 110 => ⟨S1x160x32, .f32⟩
  | 111 => ⟨S160x32, .f32⟩
  | 112 => ⟨S512x32, .f32⟩
  | 113 => ⟨S512x32, .f32⟩
  | 114 => ⟨S512x32, .f32⟩
  | 115 => ⟨S512x32, .f32⟩
  | 116 => ⟨S512x32, .f32⟩
  | 117 => ⟨S_, .f32⟩
  | 118 => ⟨S512x32, .f32⟩
  | 119 => ⟨S512x32, .f32⟩
  | 120 => ⟨S512x192, .f32⟩
  | 121 => ⟨S1x1x128x32, .f32⟩
  | 122 => ⟨S128x32, .f32⟩
  | 123 => ⟨S512x32, .f32⟩
  | 124 => ⟨S1x192x32, .f32⟩
  | 125 => ⟨S192x32, .f32⟩
  | 126 => ⟨S512x32, .f32⟩
  | 127 => ⟨S512x32, .f32⟩
  | _ => ⟨S512x128, .f32⟩

abbrev hbmTy0_1 (i : Nat) : BufTy := match i % 128 with
  | 0 => ⟨S512x32, .f32⟩
  | 1 => ⟨S512x32, .f32⟩
  | 2 => ⟨S512x32, .f32⟩
  | 3 => ⟨S_, .f32⟩
  | 4 => ⟨S512x32, .f32⟩
  | 5 => ⟨S512x32, .f32⟩
  | 6 => ⟨S512x224, .f32⟩
  | 7 => ⟨S1x1x128x32, .f32⟩
  | 8 => ⟨S128x32, .f32⟩
  | 9 => ⟨S512x32, .f32⟩
  | 10 => ⟨S1x224x32, .f32⟩
  | 11 => ⟨S224x32, .f32⟩
  | 12 => ⟨S512x32, .f32⟩
  | 13 => ⟨S512x32, .f32⟩
  | 14 => ⟨S512x32, .f32⟩
  | 15 => ⟨S512x32, .f32⟩
  | 16 => ⟨S512x32, .f32⟩
  | 17 => ⟨S_, .f32⟩
  | 18 => ⟨S512x32, .f32⟩
  | 19 => ⟨S512x32, .f32⟩
  | 20 => ⟨S512x256, .f32⟩
  | 21 => ⟨S512x128, .f32⟩
  | 22 => ⟨S512x128, .f32⟩
  | 23 => ⟨S1x512x512, .f32⟩
  | 24 => ⟨S512x512, .f32⟩
  | 25 => ⟨S_, .f32⟩
  | 26 => ⟨S512, .f32⟩
  | 27 => ⟨S_, .f32⟩
  | 28 => ⟨S512, .f32⟩
  | 29 => ⟨S512, .i1⟩
  | 30 => ⟨S512, .f32⟩
  | 31 => ⟨S512, .f32⟩
  | 32 => ⟨S512x1, .f32⟩
  | 33 => ⟨S1x1x128x32, .f32⟩
  | 34 => ⟨S128x32, .f32⟩
  | 35 => ⟨S512x32, .f32⟩
  | 36 => ⟨S1x128x32, .f32⟩
  | 37 => ⟨S128x32, .f32⟩
  | 38 => ⟨S512x32, .f32⟩
  | 39 => ⟨S512x32, .f32⟩
  | 40 => ⟨S512x32, .f32⟩
  | 41 => ⟨S512x32, .f32⟩
  | 42 => ⟨S512x32, .f32⟩
  | 43 => ⟨S_, .f32⟩
  | 44 => ⟨S512x32, .f32⟩
  | 45 => ⟨S512x32, .f32⟩
  | 46 => ⟨S512x160, .f32⟩
  | 47 => ⟨S1x1x128x32, .f32⟩
  | 48 => ⟨S128x32, .f32⟩
  | 49 => ⟨S512x32, .f32⟩
  | 50 => ⟨S1x160x32, .f32⟩
  | 51 => ⟨S160x32, .f32⟩
  | 52 => ⟨S512x32, .f32⟩
  | 53 => ⟨S512x32, .f32⟩
  | 54 => ⟨S512x32, .f32⟩
  | 55 => ⟨S512x32, .f32⟩
  | 56 => ⟨S512x32, .f32⟩
  | 57 => ⟨S_, .f32⟩
  | 58 => ⟨S512x32, .f32⟩
  | 59 => ⟨S512x32, .f32⟩
  | 60 => ⟨S512x192, .f32⟩
  | 61 => ⟨S1x1x128x32, .f32⟩
  | 62 => ⟨S128x32, .f32⟩
  | 63 => ⟨S512x32, .f32⟩
  | 64 => ⟨S1x192x32, .f32⟩
  | 65 => ⟨S192x32, .f32⟩
  | 66 => ⟨S512x32, .f32⟩
  | 67 => ⟨S512x32, .f32⟩
  | 68 => ⟨S512x32, .f32⟩
  | 69 => ⟨S512x32, .f32⟩
  | 70 => ⟨S512x32, .f32⟩
  | 71 => ⟨S_, .f32⟩
  | 72 => ⟨S512x32, .f32⟩
  | 73 => ⟨S512x32, .f32⟩
  | 74 => ⟨S512x224, .f32⟩
  | 75 => ⟨S1x1x128x32, .f32⟩
  | 76 => ⟨S128x32, .f32⟩
  | 77 => ⟨S512x32, .f32⟩
  | 78 => ⟨S1x224x32, .f32⟩
  | 79 => ⟨S224x32, .f32⟩
  | 80 => ⟨S512x32, .f32⟩
  | 81 => ⟨S512x32, .f32⟩
  | 82 => ⟨S512x32, .f32⟩
  | 83 => ⟨S512x32, .f32⟩
  | 84 => ⟨S512x32, .f32⟩
  | 85 => ⟨S_, .f32⟩
  | 86 => ⟨S512x32, .f32⟩
  | 87 => ⟨S512x32, .f32⟩
  | 88 => ⟨S512x256, .f32⟩
  | 89 => ⟨S512x128, .f32⟩
  | 90 => ⟨S512x128, .f32⟩
  | 91 => ⟨S1x512x512, .f32⟩
  | 92 => ⟨S512x512, .f32⟩
  | 93 => ⟨S_, .f32⟩
  | 94 => ⟨S512, .f32⟩
  | 95 => ⟨S_, .f32⟩
  | 96 => ⟨S512, .f32⟩
  | 97 => ⟨S512, .i1⟩
  | 98 => ⟨S512, .f32⟩
  | 99 => ⟨S512, .f32⟩
  | 100 => ⟨S512x1, .f32⟩
  | 101 => ⟨S1x1x128x32, .f32⟩
  | 102 => ⟨S128x32, .f32⟩
  | 103 => ⟨S512x32, .f32⟩
  | 104 => ⟨S1x128x32, .f32⟩
  | 105 => ⟨S128x32, .f32⟩
  | 106 => ⟨S512x32, .f32⟩
  | 107 => ⟨S512x32, .f32⟩
  | 108 => ⟨S512x32, .f32⟩
  | 109 => ⟨S512x32, .f32⟩
  | 110 => ⟨S512x32, .f32⟩
  | 111 => ⟨S_, .f32⟩
  | 112 => ⟨S512x32, .f32⟩
  | 113 => ⟨S512x32, .f32⟩
  | 114 => ⟨S512x160, .f32⟩
  | 115 => ⟨S1x1x128x32, .f32⟩
  | 116 => ⟨S128x32, .f32⟩
  | 117 => ⟨S512x32, .f32⟩
  | 118 => ⟨S1x160x32, .f32⟩
  | 119 => ⟨S160x32, .f32⟩
  | 120 => ⟨S512x32, .f32⟩
  | 121 => ⟨S512x32, .f32⟩
  | 122 => ⟨S512x32, .f32⟩
  | 123 => ⟨S512x32, .f32⟩
  | 124 => ⟨S512x32, .f32⟩
  | 125 => ⟨S_, .f32⟩
  | 126 => ⟨S512x32, .f32⟩
  | 127 => ⟨S512x32, .f32⟩
  | _ => ⟨S512x128, .f32⟩

abbrev hbmTy0_2 (i : Nat) : BufTy := match i % 128 with
  | 0 => ⟨S512x192, .f32⟩
  | 1 => ⟨S1x1x128x32, .f32⟩
  | 2 => ⟨S128x32, .f32⟩
  | 3 => ⟨S512x32, .f32⟩
  | 4 => ⟨S1x192x32, .f32⟩
  | 5 => ⟨S192x32, .f32⟩
  | 6 => ⟨S512x32, .f32⟩
  | 7 => ⟨S512x32, .f32⟩
  | 8 => ⟨S512x32, .f32⟩
  | 9 => ⟨S512x32, .f32⟩
  | 10 => ⟨S512x32, .f32⟩
  | 11 => ⟨S_, .f32⟩
  | 12 => ⟨S512x32, .f32⟩
  | 13 => ⟨S512x32, .f32⟩
  | 14 => ⟨S512x224, .f32⟩
  | 15 => ⟨S1x1x128x32, .f32⟩
  | 16 => ⟨S128x32, .f32⟩
  | 17 => ⟨S512x32, .f32⟩
  | 18 => ⟨S1x224x32, .f32⟩
  | 19 => ⟨S224x32, .f32⟩
  | 20 => ⟨S512x32, .f32⟩
  | 21 => ⟨S512x32, .f32⟩
  | 22 => ⟨S512x32, .f32⟩
  | 23 => ⟨S512x32, .f32⟩
  | 24 => ⟨S512x32, .f32⟩
  | 25 => ⟨S_, .f32⟩
  | 26 => ⟨S512x32, .f32⟩
  | 27 => ⟨S512x32, .f32⟩
  | 28 => ⟨S512x256, .f32⟩
  | 29 => ⟨S512x128, .f32⟩
  | 30 => ⟨S512x128, .f32⟩
  | 31 => ⟨S512x512, .f32⟩
  | 32 => ⟨S512x128, .f32⟩
  | 33 => ⟨S1x128, .f32⟩
  | 34 => ⟨S512x128, .f32⟩
  | 35 => ⟨S512x128, .f32⟩
  | _ => ⟨S512x128, .f32⟩

abbrev hbmTy (i : Nat) : BufTy := match i / 128 with
  | 0 => hbmTy0_0 i
  | 1 => hbmTy0_1 i
  | 2 => hbmTy0_2 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call2_cst : Ref sig .tc := ⟨.hbm, 63, rfl⟩
abbrev main_call2_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call3_cst : Ref sig .tc := ⟨.hbm, 77, rfl⟩
abbrev main_call3_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call4_cst : Ref sig .tc := ⟨.hbm, 103, rfl⟩
abbrev main_call4_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call5_cst : Ref sig .tc := ⟨.hbm, 117, rfl⟩
abbrev main_call5_v0 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_call6_cst : Ref sig .tc := ⟨.hbm, 131, rfl⟩
abbrev main_call6_v0 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_call7_cst : Ref sig .tc := ⟨.hbm, 145, rfl⟩
abbrev main_call7_v0 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_5 : Ref sig .tc := ⟨.hbm, 153, rfl⟩
abbrev main_v121 : Ref sig .tc := ⟨.hbm, 154, rfl⟩
abbrev main_cst_6 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_call8_cst : Ref sig .tc := ⟨.hbm, 171, rfl⟩
abbrev main_call8_v0 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_call9_cst : Ref sig .tc := ⟨.hbm, 185, rfl⟩
abbrev main_call9_v0 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_call10_cst : Ref sig .tc := ⟨.hbm, 199, rfl⟩
abbrev main_call10_v0 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_call11_cst : Ref sig .tc := ⟨.hbm, 213, rfl⟩
abbrev main_call11_v0 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_cst_7 : Ref sig .tc := ⟨.hbm, 221, rfl⟩
abbrev main_v179 : Ref sig .tc := ⟨.hbm, 222, rfl⟩
abbrev main_cst_8 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_call12_cst : Ref sig .tc := ⟨.hbm, 239, rfl⟩
abbrev main_call12_v0 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_call13_cst : Ref sig .tc := ⟨.hbm, 253, rfl⟩
abbrev main_call13_v0 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_call14_cst : Ref sig .tc := ⟨.hbm, 267, rfl⟩
abbrev main_call14_v0 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_call15_cst : Ref sig .tc := ⟨.hbm, 281, rfl⟩
abbrev main_call15_v0 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩

abbrev nD : Nat := 1
abbrev τ : Topo := Topo.v7x

variable {F : FTy → Type} [FloatOps F]

class Facts₀ : Prop where
  reducesTo_S512x512x128_S512x128_d1 : S512x512x128.ReducesTo [1] S512x128
  h_S_ : 0 < S_.numel
  bcast_S_S512x128 : S_.BroadcastsInDim S512x128 (![] : Fin 0 → Fin S512x128.rank)
  slices_S4x512x512_S1x512x512_0_0_0 : S4x512x512.Slices ![0, 0, 0] S1x512x512
  shapeCasts_S1x512x512_S512x512 : S1x512x512.ShapeCasts S512x512
  reducesTo_S512x512_S512_d1 : S512x512.ReducesTo [1] S512
  bcast_S_S512 : S_.BroadcastsInDim S512 (![] : Fin 0 → Fin S512.rank)
  bcast_S512_S512x1_0 : S512.BroadcastsInDim S512x1 (![0] : Fin 1 → Fin S512x1.rank)
  slices_S4x4x128x32_S1x1x128x32_0_0_0_0 : S4x4x128x32.Slices ![0, 0, 0, 0] S1x1x128x32
  shapeCasts_S1x1x128x32_S128x32 : S1x1x128x32.ShapeCasts S128x32
  slices_S4x128x32_S1x128x32_0_0_0 : S4x128x32.Slices ![0, 0, 0] S1x128x32
  shapeCasts_S1x128x32_S128x32 : S1x128x32.ShapeCasts S128x32
  bcast_S512x1_S512x32_0_1 : S512x1.BroadcastsInDim S512x32 (![0, 1] : Fin 2 → Fin S512x32.rank)
  bcast_S_S512x32 : S_.BroadcastsInDim S512x32 (![] : Fin 0 → Fin S512x32.rank)
  concatenates_S512x128_S512x32_S512x160_d1 : Shape.Concatenates [S512x128, S512x32] S512x160 1
  slices_S4x4x128x32_S1x1x128x32_0_1_0_0 : S4x4x128x32.Slices ![0, 1, 0, 0] S1x1x128x32
  slices_S4x160x32_S1x160x32_0_0_0 : S4x160x32.Slices ![0, 0, 0] S1x160x32
  shapeCasts_S1x160x32_S160x32 : S1x160x32.ShapeCasts S160x32
  concatenates_S512x128_S512x32_S512x32_S512x192_d1 : Shape.Concatenates [S512x128, S512x32, S512x32] S512x192 1
  slices_S4x4x128x32_S1x1x128x32_0_2_0_0 : S4x4x128x32.Slices ![0, 2, 0, 0] S1x1x128x32
  slices_S4x192x32_S1x192x32_0_0_0 : S4x192x32.Slices ![0, 0, 0] S1x192x32
  shapeCasts_S1x192x32_S192x32 : S1x192x32.ShapeCasts S192x32
  concatenates_S512x128_S512x32_S512x32_S512x32_S512x224_d1 : Shape.Concatenates [S512x128, S512x32, S512x32, S512x32] S512x224 1
  slices_S4x4x128x32_S1x1x128x32_0_3_0_0 : S4x4x128x32.Slices ![0, 3, 0, 0] S1x1x128x32
  slices_S4x224x32_S1x224x32_0_0_0 : S4x224x32.Slices ![0, 0, 0] S1x224x32
  shapeCasts_S1x224x32_S224x32 : S1x224x32.ShapeCasts S224x32
  concatenates_S512x128_S512x32_S512x32_S512x32_S512x32_S512x256_d1 : Shape.Concatenates [S512x128, S512x32, S512x32, S512x32, S512x32] S512x256 1
  concatenates_S512x32_S512x32_S512x32_S512x32_S512x128_d1 : Shape.Concatenates [S512x32, S512x32, S512x32, S512x32] S512x128 1
  slices_S4x512x512_S1x512x512_1_0_0 : S4x512x512.Slices ![1, 0, 0] S1x512x512
  slices_S4x4x128x32_S1x1x128x32_1_0_0_0 : S4x4x128x32.Slices ![1, 0, 0, 0] S1x1x128x32
  slices_S4x128x32_S1x128x32_1_0_0 : S4x128x32.Slices ![1, 0, 0] S1x128x32
  slices_S4x4x128x32_S1x1x128x32_1_1_0_0 : S4x4x128x32.Slices ![1, 1, 0, 0] S1x1x128x32
  slices_S4x160x32_S1x160x32_1_0_0 : S4x160x32.Slices ![1, 0, 0] S1x160x32
  slices_S4x4x128x32_S1x1x128x32_1_2_0_0 : S4x4x128x32.Slices ![1, 2, 0, 0] S1x1x128x32
  slices_S4x192x32_S1x192x32_1_0_0 : S4x192x32.Slices ![1, 0, 0] S1x192x32
  slices_S4x4x128x32_S1x1x128x32_1_3_0_0 : S4x4x128x32.Slices ![1, 3, 0, 0] S1x1x128x32
  slices_S4x224x32_S1x224x32_1_0_0 : S4x224x32.Slices ![1, 0, 0] S1x224x32
  slices_S4x512x512_S1x512x512_2_0_0 : S4x512x512.Slices ![2, 0, 0] S1x512x512
  slices_S4x4x128x32_S1x1x128x32_2_0_0_0 : S4x4x128x32.Slices ![2, 0, 0, 0] S1x1x128x32
  slices_S4x128x32_S1x128x32_2_0_0 : S4x128x32.Slices ![2, 0, 0] S1x128x32
  slices_S4x4x128x32_S1x1x128x32_2_1_0_0 : S4x4x128x32.Slices ![2, 1, 0, 0] S1x1x128x32
  slices_S4x160x32_S1x160x32_2_0_0 : S4x160x32.Slices ![2, 0, 0] S1x160x32
  slices_S4x4x128x32_S1x1x128x32_2_2_0_0 : S4x4x128x32.Slices ![2, 2, 0, 0] S1x1x128x32
  slices_S4x192x32_S1x192x32_2_0_0 : S4x192x32.Slices ![2, 0, 0] S1x192x32
  slices_S4x4x128x32_S1x1x128x32_2_3_0_0 : S4x4x128x32.Slices ![2, 3, 0, 0] S1x1x128x32
  slices_S4x224x32_S1x224x32_2_0_0 : S4x224x32.Slices ![2, 0, 0] S1x224x32
  slices_S4x512x512_S1x512x512_3_0_0 : S4x512x512.Slices ![3, 0, 0] S1x512x512
  slices_S4x4x128x32_S1x1x128x32_3_0_0_0 : S4x4x128x32.Slices ![3, 0, 0, 0] S1x1x128x32
  slices_S4x128x32_S1x128x32_3_0_0 : S4x128x32.Slices ![3, 0, 0] S1x128x32
  slices_S4x4x128x32_S1x1x128x32_3_1_0_0 : S4x4x128x32.Slices ![3, 1, 0, 0] S1x1x128x32
  slices_S4x160x32_S1x160x32_3_0_0 : S4x160x32.Slices ![3, 0, 0] S1x160x32
  slices_S4x4x128x32_S1x1x128x32_3_2_0_0 : S4x4x128x32.Slices ![3, 2, 0, 0] S1x1x128x32
  slices_S4x192x32_S1x192x32_3_0_0 : S4x192x32.Slices ![3, 0, 0] S1x192x32
  slices_S4x4x128x32_S1x1x128x32_3_3_0_0 : S4x4x128x32.Slices ![3, 3, 0, 0] S1x1x128x32
  slices_S4x224x32_S1x224x32_3_0_0 : S4x224x32.Slices ![3, 0, 0] S1x224x32
  concatenates_S512x128_S512x128_S512x128_S512x128_S512x512_d1 : Shape.Concatenates [S512x128, S512x128, S512x128, S512x128] S512x512 1
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  dot_S512x128_S128x32_S512x32_1_0_0_1_n_n_wf : DotDims.WF S512x128 S128x32 S512x32 [1] [0] [0] [1] [] []
  dot_S512x512_S512x32_S512x32_1_0_0_1_n_n_wf : DotDims.WF S512x512 S512x32 S512x32 [1] [0] [0] [1] [] []
  dot_S512x160_S160x32_S512x32_1_0_0_1_n_n_wf : DotDims.WF S512x160 S160x32 S512x32 [1] [0] [0] [1] [] []
  dot_S512x192_S192x32_S512x32_1_0_0_1_n_n_wf : DotDims.WF S512x192 S192x32 S512x32 [1] [0] [0] [1] [] []
  dot_S512x224_S224x32_S512x32_1_0_0_1_n_n_wf : DotDims.WF S512x224 S224x32 S512x32 [1] [0] [0] [1] [] []
  dot_S512x512_S512x128_S512x128_1_0_0_1_n_n_wf : DotDims.WF S512x512 S512x128 S512x128 [1] [0] [0] [1] [] []

variable [Facts₀]

def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x160_S160x32_S512x32_1_0_0_1_n_n : DotDims S512x160 S160x32 S512x32 where
  lhsContracting := [1]
  rhsContracting := [0]
  lhsNonContracting := [0]
  rhsNonContracting := [1]
  lhsBatch := []
  rhsBatch := []
  wf := dot_S512x160_S160x32_S512x32_1_0_0_1_n_n_wf
def dot_S512x192_S192x32_S512x32_1_0_0_1_n_n : DotDims S512x192 S192x32 S512x32 where
  lhsContracting := [1]
  rhsContracting := [0]
  lhsNonContracting := [0]
  rhsNonContracting := [1]
  lhsBatch := []
  rhsBatch := []
  wf := dot_S512x192_S192x32_S512x32_1_0_0_1_n_n_wf
def dot_S512x224_S224x32_S512x32_1_0_0_1_n_n : DotDims S512x224 S224x32 S512x32 where
  lhsContracting := [1]
  rhsContracting := [0]
  lhsNonContracting := [0]
  rhsNonContracting := [1]
  lhsBatch := []
  rhsBatch := []
  wf := dot_S512x224_S224x32_S512x32_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

class Facts : Prop extends Facts₀ where

variable [Facts]
-- ==== Proof.Spec.lean ====
/-
  The mathematics of the graph-convolution stack, as functions of the ten argument arrays, index by index over the
  extended reals. Two arrangements of one function are stated side by side.

  Shared by both: a head's degree (row sums of its adjacency slice), the guarded denominator (degree, plus one where the
  degree is zero), the edge term (the edge mean times one head's, one layer's edge weights) and a layer
      relu ((edge term + adjacency · projection) / denominator).

  The kernel's arrangement (suffix K): the edge mean is four partial sums over blocks of 128 neighbours, each scaled
  by 2^-9 and added in order onto zero; a layer's projection is a sum of products over the growing list of feature
  pieces, each piece against its own row range of the layer's weights; the final linear map is taken per head against
  that head's 128 rows of the weights, two heads summed per core, the two cores and the bias added last.

  The reference's arrangement (suffix R): the edge mean is the sum over all 512 neighbours divided by 512; a layer's
  projection is one product of the concatenated features with the layer's weights; the final linear map is one
  product of the four heads' concatenated features with all 512 rows of the weights, plus the bias.
-/
import Idealize.ShloMosaic.PureOps.Ideal
import Idealize.ShloMosaic.PureOps.Ideal.Laws
import Idealize.ShloMosaic.Lib.ValueIdx

noncomputable section

open scoped BigOperators

namespace Cert.GcnSpec

open Idealize.ShloMosaic Idealize.ShloMosaic.ValueIdx

/-- An array of extended reals over a literal shape. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal
abbrev A4 (a b c d : Nat) : Type := (⟨4, ![a, b, c, d]⟩ : Shape).Idx → EReal

/-- A matrix of 512 rows as a function of its row and column. -/
abbrev Mat (w : Nat) : Type := Fin 512 → Fin w → EReal

/-! ## The edge mean -/

/-- The binary value 2^-9 the kernel scales each partial sum by. -/
def scale : EReal := Ideal.ofBits .f32 0x3B000000#32

/-- The sum of edge features over the `b`-th block of 128 neighbours of node `n`, at feature `d`. -/
def blockSum (E : A3 512 512 128) (n : Fin 512) (b : Fin 4) (d : Fin 128) : EReal :=
  ∑ j : Fin 128, E (ix3 n (⟨128 * b.val + j.val, by have := b.isLt; have := j.isLt; omega⟩ : Fin 512) d)

/-- The kernel's edge mean: the four scaled block sums added in order onto zero. -/
def emK (E : A3 512 512 128) : Mat 128 := fun n d =>
  (((0 + blockSum E n 0 d * scale) + blockSum E n 1 d * scale) + blockSum E n 2 d * scale) + blockSum E n 3 d * scale

/-- The reference's edge mean: zero plus the sum over all neighbours, divided by the binary value 512. -/
def emR (E : A3 512 512 128) : Mat 128 := fun n d =>
  Ideal.div (0 + ∑ j : Fin 512, E (ix3 n j d)) (Ideal.ofBits .f32 0x44000000#32)

/-! ## One head: degree, denominator, a layer -/

/-- The degree of node `n` in head `h`: the row sum of the adjacency slice. -/
def deg (Adj : A3 4 512 512) (h : Fin 4) (n : Fin 512) : EReal := ∑ j : Fin 512, Adj (ix3 h n j)

/-- One where the argument is zero, zero elsewhere. -/
def isZero (x : EReal) : EReal := if x = 0 then 1 else 0

/-- The guarded denominator: the degree, plus one where the degree is zero. -/
def den (Adj : A3 4 512 512) (h : Fin 4) (n : Fin 512) : EReal := deg Adj h n + isZero (deg Adj h n)

/-- The edge term of layer `l` of head `h`: the edge mean times that layer's edge weights. -/
def eterm (EM : Mat 128) (We : A4 4 4 128 32) (h l : Fin 4) : Mat 32 := fun n q =>
  ∑ d : Fin 128, EM n d * We (ix4 h l d q)

/-- One layer: relu of (edge term + adjacency times the projected features) over the guarded denominator. -/
def layer (Adj : A3 4 512 512) (h : Fin 4) (e p : Mat 32) : Mat 32 := fun n q =>
  max (Ideal.div (e n q + ∑ j : Fin 512, Adj (ix3 h n j) * p j q) (den Adj h n)) 0

/-- Four 32-column pieces side by side. -/
def cat4 (g0 g1 g2 g3 : Mat 32) : Mat 128 := fun n c =>
  if h0 : c.val < 32 then g0 n ⟨c.val, h0⟩
  else if h1 : c.val < 64 then g1 n ⟨c.val - 32, by omega⟩
  else if h2 : c.val < 96 then g2 n ⟨c.val - 64, by omega⟩
  else g3 n ⟨c.val - 96, by have := c.isLt; omega⟩

/-! ## The kernel's arrangement of a head -/

/-- The node features against the first 128 rows of a layer's weights. -/
def projX {K : Nat} (hK : 128 ≤ K) (X : A2 512 128) (W : A3 4 K 32) (h : Fin 4) : Mat 32 := fun j q =>
  ∑ k : Fin 128, X (ix2 j k) * W (ix3 h (⟨k.val, by have := k.isLt; omega⟩ : Fin K) q)

/-- An earlier layer's output against its own 32 rows (from row `off`) of a later layer's weights. -/
def projG {K : Nat} (off : Nat) (hK : off + 32 ≤ K) (g : Mat 32) (W : A3 4 K 32) (h : Fin 4) : Mat 32 := fun j q =>
  ∑ k : Fin 32, g j k * W (ix3 h (⟨off + k.val, by have := k.isLt; omega⟩ : Fin K) q)

section Head
variable (EM : Mat 128) (X : A2 512 128) (Adj : A3 4 512 512) (We : A4 4 4 128 32)
  (W0 : A3 4 128 32) (W1 : A3 4 160 32) (W2 : A3 4 192 32) (W3 : A3 4 224 32) (h : Fin 4)

def g0K : Mat 32 := layer Adj h (eterm EM We h 0) (projX (by omega) X W0 h)
def g1K : Mat 32 := layer Adj h (eterm EM We h 1) fun j q =>
  projX (by omega) X W1 h j q + projG 128 (by omega) (g0K EM X Adj We W0 h) W1 h j q
def g2K : Mat 32 := layer Adj h (eterm EM We h 2) fun j q =>
  (projX (by omega) X W2 h j q + projG 128 (by omega) (g0K EM X Adj We W0 h) W2 h j q)
    + projG 160 (by omega) (g1K EM X Adj We W0 W1 h) W2 h j q
def g3K : Mat 32 := layer Adj h (eterm EM We h 3) fun j q =>
  ((projX (by omega) X W3 h j q + projG 128 (by omega) (g0K EM X Adj We W0 h) W3 h j q)
    + projG 160 (by omega) (g1K EM X Adj We W0 W1 h) W3 h j q)
    + projG 192 (by omega) (g2K EM X Adj We W0 W1 W2 h) W3 h j q

/-- A head's features: the four layers side by side, plus the node features. -/
def headK : Mat 128 := fun n c =>
  cat4 (g0K EM X Adj We W0 h) (g1K EM X Adj We W0 W1 h) (g2K EM X Adj We W0 W1 W2 h) (g3K EM X Adj We W0 W1 W2 W3 h) n c
    + X (ix2 n c)

/-! ## The reference's arrangement of a head -/

def g0R : Mat 32 := layer Adj h (eterm EM We h 0) fun j q =>
  ∑ k : Fin 128, X (ix2 j k) * W0 (ix3 h k q)

/-- Node features and one layer, side by side. -/
def cat1 (g0 : Mat 32) : Mat 160 := fun j k =>
  if h0 : k.val < 128 then X (ix2 j (⟨k.val, h0⟩ : Fin 128)) else g0 j ⟨k.val - 128, by have := k.isLt; omega⟩
def g1R : Mat 32 := layer Adj h (eterm EM We h 1) fun j q =>
  ∑ k : Fin 160, cat1 X (g0R EM X Adj We W0 h) j k * W1 (ix3 h k q)

def cat2 (g0 g1 : Mat 32) : Mat 192 := fun j k =>
  if h0 : k.val < 128 then X (ix2 j (⟨k.val, h0⟩ : Fin 128))
  else if h1 : k.val < 160 then g0 j ⟨k.val - 128, by omega⟩
  else g1 j ⟨k.val - 160, by have := k.isLt; omega⟩
def g2R : Mat 32 := layer Adj h (eterm EM We h 2) fun j q =>
  ∑ k : Fin 192, cat2 X (g0R EM X Adj We W0 h) (g1R EM X Adj We W0 W1 h) j k * W2 (ix3 h k q)

def cat3 (g0 g1 g2 : Mat 32) : Mat 224 := fun j k =>
  if h0 : k.val < 128 then X (ix2 j (⟨k.val, h0⟩ : Fin 128))
  else if h1 : k.val < 160 then g0 j ⟨k.val - 128, by omega⟩
  else if h2 : k.val < 192 then g1 j ⟨k.val - 160, by omega⟩
  else g2 j ⟨k.val - 192, by have := k.isLt; omega⟩
def g3R : Mat 32 := layer Adj h (eterm EM We h 3) fun j q =>
  ∑ k : Fin 224, cat3 X (g0R EM X Adj We W0 h) (g1R EM X Adj We W0 W1 h) (g2R EM X Adj We W0 W1 W2 h) j k * W3 (ix3 h k q)

def headR : Mat 128 := fun n c =>
  cat4 (g0R EM X Adj We W0 h) (g1R EM X Adj We W0 W1 h) (g2R EM X Adj We W0 W1 W2 h) (g3R EM X Adj We W0 W1 W2 W3 h) n c
    + X (ix2 n c)

end Head

/-! ## The whole function -/

section Whole
variable (X : A2 512 128) (E : A3 512 512 128) (Adj : A3 4 512 512) (We : A4 4 4 128 32)
  (W0 : A3 4 128 32) (W1 : A3 4 160 32) (W2 : A3 4 192 32) (W3 : A3 4 224 32) (Wl : A2 512 128) (B : A1 128)

/-- Head `h`'s contribution to the output: its features against its own 128 rows of the final weights. -/
def contribK (EM : Mat 128) (h : Fin 4) : Mat 128 := fun n o =>
  ∑ c : Fin 128, headK EM X Adj We W0 W1 W2 W3 h n c
    * Wl (ix2 (⟨128 * h.val + c.val, by have := h.isLt; have := c.isLt; omega⟩ : Fin 512) o)

/-- One core's partial output: its two heads added in order onto zero. -/
def partialK (EM : Mat 128) (core : Fin 2) : Mat 128 := fun n o =>
  (0 + contribK X Adj We W0 W1 W2 W3 Wl EM (⟨2 * core.val, by have := core.isLt; omega⟩ : Fin 4) n o)
    + contribK X Adj We W0 W1 W2 W3 Wl EM (⟨2 * core.val + 1, by have := core.isLt; omega⟩ : Fin 4) n o

/-- The kernel's output: zero plus the two cores' partial outputs, plus the bias. -/
def outK (EM : Mat 128) : Mat 128 := fun n o =>
  (0 + (partialK X Adj We W0 W1 W2 W3 Wl EM 0 n o + partialK X Adj We W0 W1 W2 W3 Wl EM 1 n o)) + B (ix1 o)

/-- The four heads' features side by side. -/
def catHeads (hf : Fin 4 → Mat 128) : Mat 512 := fun n k =>
  hf (⟨k.val / 128, by have := k.isLt; omega⟩ : Fin 4) n (⟨k.val % 128, Nat.mod_lt _ (by omega)⟩ : Fin 128)

/-- The reference's output: the concatenated heads against all the final weights, plus the bias. -/
def outR (EM : Mat 128) : Mat 128 := fun n o =>
  (∑ k : Fin 512, catHeads (fun h => headR EM X Adj We W0 W1 W2 W3 h) n k * Wl (ix2 k o)) + B (ix1 o)

end Whole

end Cert.GcnSpec

end
-- ==== Proof.KRun.lean ====
/-
  The idealized kernel's whole run, with its result named. @main is four segments: the edge-mean region, two host
  operations (the edge weights transposed and reshaped), the graph-convolution region, and five host operations (the two
  cores' partial outputs summed, the bias added). Every weakly fair execution terminates, nothing faults, the ten
  argument arrays end as launched, and the result array ends at the contents the fold through the four segments gives
  it: the host operations' functions applied to what the regions' write-backs leave.
-/
import proofs.«145371_j38732015075674_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments unchanged. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KRun

end
-- ==== Proof.Hosts.lean ====
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hosts

open Cert.KernelIdeal Cert.KernelIdeal.Gen

variable {F : FTy → Type} [FloatOps F]
variable (m : (ℓ : Loc nD τ sig) → Buf (Elt F) ℓ) (ρ : Dev nD → PrngReg)

/-! ## Between the two regions: the edge weights transposed and reshaped; nothing else is written -/

/-- A buffer the two host operations between the regions do not write holds what the first region left. -/
theorem W2_keep (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-- An argument array, as the second region finds it, is as launched. -/
theorem V2_arg (c : Dev nD) (b : Ref sig .tc) (h1 : b ≠ main_v1) (h2 : b ≠ main_v2)
    (h0 : ∀ w, Pipeline.arrRef spec0 w ≠ b) : V2 m ρ c b = m ((c : Thread nD τ).loc b) :=
  (W2_keep m ρ c b h1 h2).trans (W1_of_ne m ρ c b h0)

/-- The edge mean, as the second region finds it, is what the first region's write-backs left. -/
theorem V2_main_v0 (c : Dev nD) : V2 m ρ c main_v0 = (dat0 (V0 m ρ) c).arrAt 1 cfg0.N :=
  (W2_keep m ρ c main_v0 (by decide) (by decide)).trans (W1_arr m ρ c 1)

/-- The batched edge weights, as the second region finds them: the edge-weight argument with its layer axis moved
    inside and merged with the output axis. -/
theorem V2_main_v2 (c : Dev nD) : V2 m ρ c main_v2
    = shapeCast S4x128x128 (transpose S4x128x4x32 [0, 2, 1, 3] (m ((c : Thread nD τ).loc main_arg3))
        transposes_S4x4x128x32_S4x128x4x32_0_2_1_3) shapeCasts_S4x128x4x32_S4x128x128 := by
  show StableHlo.after hostOps1 (W1 m ρ c) (Proc.devRef .tc main_v2) = _
  after_results
  rw [W1_of_ne m ρ c main_arg3 (by decide)]
  rfl

/-! ## After the second region: the two cores' partial outputs summed, the bias added -/

/-- A buffer the second region does not own and the host operations up to it do not write is as launched. -/
theorem W3_arg9 (c : Dev nD) : W3 m ρ c (Proc.devRef .tc main_arg9) = m ((c : Thread nD τ).loc main_arg9) :=
  (W3_of_ne m ρ c main_arg9 (by decide)).trans (V2_arg m ρ c main_arg9 (by decide) (by decide) (by decide))

/-- The result array: the sum over the core axis of what the second region's write-backs left, plus the broadcast bias. -/
theorem W4_main_v7 (c : Dev nD) : W4 m ρ c (Proc.devRef .tc main_v7)
    = addf (Host.reduceAdd ((dat1 (V2 m ρ) c).arrAt 9 cfg1.N) (constant (F := F) S_ .f32 0x00000000#32) reducesTo_S2x512x128_S512x128_d0 h_S_)
        (broadcastInDim S512x128 ![0, 1] bcast_S1x128_S512x128_0_1 (broadcastInDim S1x128 ![1] bcast_S128_S1x128_1 (m ((c : Thread nD τ).loc main_arg9)))) := by
  show StableHlo.after hostOps2 (W3 m ρ c) (Proc.devRef .tc main_v7) = _
  after_results
  rw [W3_arg9 m ρ c, W3_arr m ρ c 9]

end Cert.KernelIdeal.Hosts

end
-- ==== Proof.Tail.lean ====
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Tail

open Cert.KernelIdeal Cert.KernelIdeal.Gen
/-!
  After the graph-convolution region: the two cores' partial outputs [2,512,128] are summed over the core axis from
  zero, and the bias [128], broadcast over the rows, is added. At row `n` and column `o`: zero plus the two partial
  outputs there, plus the bias at `o`.
-/

theorem tail_apply (P : FVec Ideal S2x512x128 .f32) (b : FVec Ideal S128 .f32) (n : Fin 512) (o : Fin 128) :
    addf (Host.reduceAdd (F := Ideal) P (constant (F := Ideal) S_ .f32 0x00000000#32) reducesTo_S2x512x128_S512x128_d0 h_S_)
        (broadcastInDim S512x128 ![0, 1] bcast_S1x128_S512x128_0_1 (broadcastInDim S1x128 ![1] bcast_S128_S1x128_1 b)) (ix2 n o)
      = (0 + (P (ix3 (0 : Fin 2) n o) + P (ix3 (1 : Fin 2) n o))) + b (ix1 o) := by
  show Host.reduceAdd (F := Ideal) P (constant (F := Ideal) S_ .f32 0x00000000#32) reducesTo_S2x512x128_S512x128_d0 h_S_ (ix2 n o)
      + broadcastInDim S512x128 ![0, 1] bcast_S1x128_S512x128_0_1 (broadcastInDim S1x128 ![1] bcast_S128_S1x128_1 b) (ix2 n o) = _
  have hb : broadcastInDim S512x128 ![0, 1] bcast_S1x128_S512x128_0_1 (broadcastInDim S1x128 ![1] bcast_S128_S1x128_1 b) (ix2 n o) = b (ix1 o) := by
    rw [broadcastInDim_apply _ bcast_S1x128_S512x128_0_1 _ (ix2 n o) (ix2 (0 : Fin 1) o) (fun a => match a with
      | ⟨0, _⟩ => rfl
      | ⟨1, _⟩ => by show o.val = if (128 : Nat) = 1 then 0 else o.val; rw [if_neg (by decide)])]
    exact broadcastInDim_apply _ bcast_S128_S1x128_1 b (ix2 (0 : Fin 1) o) (ix1 o) (fun a => match a with
      | ⟨0, _⟩ => by show o.val = if (128 : Nat) = 1 then 0 else o.val; rw [if_neg (by decide)])
  rw [hb]
  simp only [Host.reduceAdd, Ideal.hostReduceAdd_def]
  rw [Ideal.hostReduceAdd_single reducesTo_S2x512x128_S512x128_d0 (by decide)]
  refine congrArg (· + b (ix1 o)) ?_
  refine congrArg₂ (· + ·) Ideal.ofBits_zero_f32 ?_
  rw [show (∑ k : Fin (S2x512x128.size 0), P ((by decide : S2x512x128.Reduces [0] S512x128).lift (ix2 n o) k)) = ∑ k : Fin 2, P (ix3 k n o) from
    Finset.sum_congr rfl fun k _ => congrArg P (funext fun a => Fin.ext (by match a with | ⟨0, _⟩ => rfl | ⟨1, _⟩ => rfl | ⟨2, _⟩ => rfl))]
  exact Fin.sum_univ_two _

end Cert.KernelIdeal.Tail

end
-- ==== Proof.R1Ops.lean ====
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1Ops

open Cert.KernelIdeal Cert.KernelIdeal.Gen
/-!
  The graph-convolution body's vector operations read at an index, over the extended reals: a matrix product into
  the zero block is the sum over the contracted index; a row sum is the sum along the row; the comparison with zero
  converted to a float is one at zero and zero elsewhere; a column [512,1] is a vector [512] with a unit axis, and its
  broadcast to [512,32] repeats it along the rows; four [512,32] blocks joined along the columns read block by block.
-/

/-- A [512,128] by [128,128] product into the zero block, at row `n` and column `q`: the sum over the contracted index. -/
theorem mm_128_128 {φ₁ φ₂ : FTy} (a : FVec Ideal S512x128 φ₁) (b : FVec Ideal S128x128 φ₂) (n : Fin 512) (q : Fin 128) :
    matmul dot_S512x128_S128x128_S512x128_1_0_0_1_n_n none a b (constant S512x128 .f32 0x00000000#32) (ix2 n q)
      = ∑ k : Fin 128, a (ix2 n k) * b (ix2 k q) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 n q) ((contrEquiv1 dot_S512x128_S128x128_S512x128_1_0_0_1_n_n 128 rfl rfl).symm k) = ix2 n k := funext fun ax => Fin.ext (by
    match ax with
    | ⟨0, _⟩ =>
      show (dot_S512x128_S128x128_S512x128_1_0_0_1_n_n.lhsIdx (ix2 n q) _ 0).val = n.val
      unfold DotDims.lhsIdx
      rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
      rfl
    | ⟨1, _⟩ => exact (dot_S512x128_S128x128_S512x128_1_0_0_1_n_n.lhsIdx_val_of_single rfl (ix2 n q) _).trans hk)
  have er : dot_S512x128_S128x128_S512x128_1_0_0_1_n_n.rhsIdx (ix2 n q) ((contrEquiv1 dot_S512x128_S128x128_S512x128_1_0_0_1_n_n 128 rfl rfl).symm k) = ix2 k q := funext fun ax => Fin.ext (by
    match ax with
    | ⟨0, _⟩ => exact (dot_S512x128_S128x128_S512x128_1_0_0_1_n_n.rhsIdx_val_of_single rfl (ix2 n q) _).trans hk
    | ⟨1, _⟩ =>
      show (dot_S512x128_S128x128_S512x128_1_0_0_1_n_n.rhsIdx (ix2 n q) _ 1).val = q.val
      unfold DotDims.rhsIdx
      rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
      rfl)
  rw [el, er]

/-- A [512,128] by [128,32] product into the zero block, at row `n` and column `q`: the sum over the contracted index. -/
theorem mm_128_32 {φ₁ φ₂ : FTy} (a : FVec Ideal S512x128 φ₁) (b : FVec Ideal S128x32 φ₂) (n : Fin 512) (q : Fin 32) :
    matmul dot_S512x128_S128x32_S512x32_1_0_0_1_n_n none a b (constant S512x32 .f32 0x00000000#32) (ix2 n q)
      = ∑ k : Fin 128, a (ix2 n k) * b (ix2 k q) := by
  simp only [matmul]
  rw [Ideal.matmul_constant_zero_apply, ← Equiv.sum_comp (contrEquiv1 dot_S512x128_S128x32_S512x32_1_0_0_1_n_n 128 rfl rfl).symm]
  refine Finset.sum_congr rfl fun k _ => ?_
  have hk := contrEquiv1_symm_val dot_S512x128_S128x32_S512x32_1_0_0_1_n_n 128 rfl rfl k
  have el : dot_S512x128_S128x32_S512x32_1_0_0_1_n_n.lhsIdx (ix2 n q) ((contrEquiv1 dot_S512x128_S128x32_S512x32_1_0_0_1_n_n 128 rfl rfl).symm k) = ix2 n k := funext fun ax => Fin.ext (by
    match ax with
    | ⟨0, _⟩ =>
      show (dot_S512x128_S128x32_S512x32_1_0_0_1_n_n.lhsIdx (ix2 n q) _ 0).val = n.val
      unfold DotDims.lhsIdx
      rw [dif_neg (show ¬(0 : Fin S512x128.rank) ∈ dot_S512x128_S128x32_S512x32_1_0_0_1_n_n.lhsBatch by decide), dif_pos (show (0 : Fin S512x128.rank) ∈ dot_S512x128_S128x32_S512x32_1_0_0_1_n_n.lhsNonContracting by decide)]
      rfl
    | ⟨1, _⟩ => exact (dot_S512x128_S128x32_S512x32_1_0_0_1_n_n.lhsIdx_val_of_single rfl (ix2 n q) _).trans hk)
  have er : dot_S512x128_S128x32_S512x32_1_0_0_1_n_n.rhsIdx (ix2 n q) ((contrEquiv1 dot_S512x128_S128x32_S512x32_1_0_0_1_n_n 128 rfl rfl).symm k) = ix2 k q := funext fun ax => Fin.ext (by
    match ax with
    | ⟨0, _⟩ => exact (dot_S512x128_S128x32_S512x32_1_0_0_1_n_n.rhsIdx_val_of_single rfl (ix2 n q) _).trans hk
    | ⟨1, _⟩ =>
      show (dot_S512x128_S128x32_S512x32_1_0_0_1_n_n.rhsIdx (ix2 n q) _ 1).val = q.val
      unfold DotDims.rhsIdx
      rw [dif_neg (show ¬(1 : Fin S128x32.rank) ∈ dot_S512x128_S128x32_S512x32_1_0_0_1_n_n.rhsBatch by decide), dif_pos (show (1 : Fin S128x32.rank) ∈ dot_S512x128_S128x32_S512x32_1_0_0_1_n_n.rhsNonContracting by decide)]
      rfl)
  rw [el, er]

/-- A [512,32] by [32,32] product into the zero block, at row `n` and column `q`: the sum over the contracted index. -/
theorem mm_32_32 {φ₁ φ₂ : FTy} (a : FVec Ideal S512x32 φ₁) (b : FVec Ideal S32x32 φ₂) (n : Fin 512) (q : Fin 32) :
    matmul dot_S512x32_S32x32_S512x32_1_0_0_1_n_n none a b (constant S512x32 .f32 0x00000000#32) (ix2 n q)
      = ∑ k : Fin 32, a (ix2 n k) * b (ix2 k q) := by
  simp only [matmul]
  rw [Ideal.matmul_constant_zero_apply, ← Equiv.sum_comp (contrEquiv1 dot_S512x32_S32x32_S512x32_1_0_0_1_n_n 32 rfl rfl).symm]
  refine Finset.sum_congr rfl fun k _ => ?_
  have hk := contrEquiv1_symm_val dot_S512x32_S32x32_S512x32_1_0_0_1_n_n 32 rfl rfl k
  have el : dot_S512x32_S32x32_S512x32_1_0_0_1_n_n.lhsIdx (ix2 n q) ((contrEquiv1 dot_S512x32_S32x32_S512x32_1_0_0_1_n_n 32 rfl rfl).symm k) = ix2 n k := funext fun ax => Fin.ext (by
    match ax with
    | ⟨0, _⟩ =>
      show (dot_S512x32_S32x32_S512x32_1_0_0_1_n_n.lhsIdx (ix2 n q) _ 0).val = n.val
      unfold DotDims.lhsIdx
      rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
      rfl
    | ⟨1, _⟩ => exact (dot_S512x32_S32x32_S512x32_1_0_0_1_n_n.lhsIdx_val_of_single rfl (ix2 n q) _).trans hk)
  have er : dot_S512x32_S32x32_S512x32_1_0_0_1_n_n.rhsIdx (ix2 n q) ((contrEquiv1 dot_S512x32_S32x32_S512x32_1_0_0_1_n_n 32 rfl rfl).symm k) = ix2 k q := funext fun ax => Fin.ext (by
    match ax with
    | ⟨0, _⟩ => exact (dot_S512x32_S32x32_S512x32_1_0_0_1_n_n.rhsIdx_val_of_single rfl (ix2 n q) _).trans hk
    | ⟨1, _⟩ =>
      show (dot_S512x32_S32x32_S512x32_1_0_0_1_n_n.rhsIdx (ix2 n q) _ 1).val = q.val
      unfold DotDims.rhsIdx
      rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
      rfl)
  rw [el, er]

/-- A [512,512] by [512,32] product into the zero block, at row `n` and column `q`: the sum over the contracted index. -/
theorem mm_512_32 {φ₁ φ₂ : FTy} (a : FVec Ideal S512x512 φ₁) (b : FVec Ideal S512x32 φ₂) (n : Fin 512) (q : Fin 32) :
    matmul dot_S512x512_S512x32_S512x32_1_0_0_1_n_n none a b (constant S512x32 .f32 0x00000000#32) (ix2 n q)
      = ∑ k : Fin 512, a (ix2 n k) * b (ix2 k q) := by
  simp only [matmul]
  rw [Ideal.matmul_constant_zero_apply, ← Equiv.sum_comp (contrEquiv1 dot_S512x512_S512x32_S512x32_1_0_0_1_n_n 512 rfl rfl).symm]
  refine Finset.sum_congr rfl fun k _ => ?_
  have hk := contrEquiv1_symm_val dot_S512x512_S512x32_S512x32_1_0_0_1_n_n 512 rfl rfl k
  have el : dot_S512x512_S512x32_S512x32_1_0_0_1_n_n.lhsIdx (ix2 n q) ((contrEquiv1 dot_S512x512_S512x32_S512x32_1_0_0_1_n_n 512 rfl rfl).symm k) = ix2 n k := funext fun ax => Fin.ext (by
    match ax with
    | ⟨0, _⟩ =>
      show (dot_S512x512_S512x32_S512x32_1_0_0_1_n_n.lhsIdx (ix2 n q) _ 0).val = n.val
      unfold DotDims.lhsIdx
      rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
      rfl
    | ⟨1, _⟩ => exact (dot_S512x512_S512x32_S512x32_1_0_0_1_n_n.lhsIdx_val_of_single rfl (ix2 n q) _).trans hk)
  have er : dot_S512x512_S512x32_S512x32_1_0_0_1_n_n.rhsIdx (ix2 n q) ((contrEquiv1 dot_S512x512_S512x32_S512x32_1_0_0_1_n_n 512 rfl rfl).symm k) = ix2 k q := funext fun ax => Fin.ext (by
    match ax with
    | ⟨0, _⟩ => exact (dot_S512x512_S512x32_S512x32_1_0_0_1_n_n.rhsIdx_val_of_single rfl (ix2 n q) _).trans hk
    | ⟨1, _⟩ =>
      show (dot_S512x512_S512x32_S512x32_1_0_0_1_n_n.rhsIdx (ix2 n q) _ 1).val = q.val
      unfold DotDims.rhsIdx
      rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
      rfl)
  rw [el, er]

/-- The sum along a row of a [512,512] block. -/
theorem rowsum_apply (x : FVec Ideal S512x512 .f32) (n : Fin 512) :
    multiReduction .add [1] S512 x 0x00000000#32 reduces_S512x512_S512 (.inl rfl) rfl (ix1 n) = ∑ j : Fin 512, x (ix2 n j) := by
  refine (Ideal.multiReduction_add_single x 0x00000000#32 reduces_S512x512_S512 (.inl rfl) rfl (ix1 n)).trans ?_
  refine Finset.sum_congr rfl fun k _ => congrArg x ?_
  funext ax
  match ax with
  | ⟨0, _⟩ => rfl
  | ⟨1, _⟩ => rfl

/-- A vector [512] cast to a column [512,1]. -/
theorem col_cast_apply {α : Type} (x : S512.Idx → α) (n : Fin 512) (u : Fin 1) :
    shapeCast S512x1 x shapeCasts_S512_S512x1 (ix2 n u) = x (ix1 n) :=
  shapeCast_apply x _ _ _ (by
    have hu : u.val = 0 := by omega
    rw [Shape.rowMajor_val_one, Shape.rowMajor_val_two]
    show n.val = n.val * 1 + u.val
    omega)

/-- A column [512,1] broadcast along the rows to [512,32]. -/
theorem col_bcast_apply {α : Type} (x : S512x1.Idx → α) (n : Fin 512) (q : Fin 32) :
    broadcastTo S512x32 x broadcasts_S512x1_S512x32 (ix2 n q) = x (ix2 n (0 : Fin 1)) := by
  refine broadcastTo_apply x _ (ix2 n q) (ix2 n (0 : Fin 1)) fun ax => ?_
  match ax with
  | ⟨0, _⟩ => rfl
  | ⟨1, _⟩ => rfl

/-- The comparison with zero, widened and converted: one at zero, zero elsewhere. -/
theorem ind_apply (x : EReal) :
    (FloatOps.sitofp (F := Ideal) .f32 ((FloatOps.cmpf (F := Ideal) (φ := .f32) .oeq x (Scalar.ofBits (F := Ideal) .f32 0x00000000#32)).setWidth 32) : EReal)
      = Cert.GcnSpec.isZero x := by
  show (((BitVec.setWidth 32 (Ideal.cmp .oeq x (Ideal.ofBits .f32 0x00000000#32))).toInt : ℝ) : EReal) = _
  rw [Ideal.ofBits_zero_f32]
  unfold Ideal.cmp Cert.GcnSpec.isZero
  by_cases h : x = 0
  · simp [h]
  · simp [h]

/-- Four [512,32] blocks joined along the columns, read at row `n` and column `c`. -/
theorem concat4_apply (g0 g1 g2 g3 : FVec Ideal S512x32 .f32) (n : Fin 512) (c : Fin 128) :
    concatenate S512x128 1 [⟨S512x32, g0⟩, ⟨S512x32, g1⟩, ⟨S512x32, g2⟩, ⟨S512x32, g3⟩]
        concatenates_S512x32_S512x32_S512x32_S512x32_S512x128_d1 (ix2 n c)
      = Cert.GcnSpec.cat4 (fun a q => g0 (ix2 a q)) (fun a q => g1 (ix2 a q)) (fun a q => g2 (ix2 a q)) (fun a q => g3 (ix2 a q)) n c := by
  unfold Cert.GcnSpec.cat4
  split
  · next h0 =>
    exact concatenate_apply_piece (t := S512x128) (1 : Fin 2) [⟨S512x32, g0⟩, ⟨S512x32, g1⟩, ⟨S512x32, g2⟩, ⟨S512x32, g3⟩] concatenates_S512x32_S512x32_S512x32_S512x32_S512x128_d1 (ix2 n c) 0 (by show 0 < 4; omega) S512x32 g0 rfl rfl 0 rfl (ix2 n ⟨c.val, h0⟩)
      (fun b hb => by match b with | ⟨0, _⟩ => rfl | ⟨1, _⟩ => exact absurd rfl hb) (by show 0 + c.val = c.val; omega)
  · next h0 =>
    split
    · next h1 =>
      exact concatenate_apply_piece (t := S512x128) (1 : Fin 2) [⟨S512x32, g0⟩, ⟨S512x32, g1⟩, ⟨S512x32, g2⟩, ⟨S512x32, g3⟩] concatenates_S512x32_S512x32_S512x32_S512x32_S512x128_d1 (ix2 n c) 1 (by show 1 < 4; omega) S512x32 g1 rfl rfl 32 rfl (ix2 n ⟨c.val - 32, by omega⟩)
        (fun b hb => by match b with | ⟨0, _⟩ => rfl | ⟨1, _⟩ => exact absurd rfl hb) (by show 32 + (c.val - 32) = c.val; omega)
    · next h1 =>
      split
      · next h2 =>
        exact concatenate_apply_piece (t := S512x128) (1 : Fin 2) [⟨S512x32, g0⟩, ⟨S512x32, g1⟩, ⟨S512x32, g2⟩, ⟨S512x32, g3⟩] concatenates_S512x32_S512x32_S512x32_S512x32_S512x128_d1 (ix2 n c) 2 (by show 2 < 4; omega) S512x32 g2 rfl rfl 64 rfl (ix2 n ⟨c.val - 64, by omega⟩)
          (fun b hb => by match b with | ⟨0, _⟩ => rfl | ⟨1, _⟩ => exact absurd rfl hb) (by show 64 + (c.val - 64) = c.val; omega)
      · next h2 =>
        exact concatenate_apply_piece (t := S512x128) (1 : Fin 2) [⟨S512x32, g0⟩, ⟨S512x32, g1⟩, ⟨S512x32, g2⟩, ⟨S512x32, g3⟩] concatenates_S512x32_S512x32_S512x32_S512x32_S512x128_d1 (ix2 n c) 3 (by show 3 < 4; omega) S512x32 g3 rfl rfl 96 rfl (ix2 n ⟨c.val - 96, by have := c.isLt; omega⟩)
          (fun b hb => by match b with | ⟨0, _⟩ => rfl | ⟨1, _⟩ => exact absurd rfl hb) (by show 96 + (c.val - 96) = c.val; have := c.isLt; omega)

end Cert.KernelIdeal.R1Ops

end
-- ==== Proof.R1Blocks.lean ====
/-
  What the nine input blocks of one grid point of the graph-convolution region are, entry by entry, when the point
  works on head `h`: the head's slices of the adjacency, of the batched edge weights, of the four layers' node weights
  and of the final weights, and the whole node features and edge mean.
-/
import proofs.«145371_j38732015075674_2_alg».proof.Proof.Gen.KernelIdeal
import proofs.«145371_j38732015075674_2_alg».proof.Proof.Spec
import Idealize.ShloMosaic.Lib.ValueIdx

noncomputable section

open Idealize.ShloMosaic Idealize.ShloMosaic.ValueIdx

namespace Cert.KernelIdeal.R1Value

open Cert.KernelIdeal Cert.GcnSpec

/-- What a grid point's nine input blocks are, entry by entry, when the point works on head `h`. -/
structure Blocks (h : Fin 4) (EM : Mat 128) (X : A2 512 128) (Adj : A3 4 512 512) (We : A4 4 4 128 32)
    (W0 : A3 4 128 32) (W1 : A3 4 160 32) (W2 : A3 4 192 32) (W3 : A3 4 224 32) (Wl : A2 512 128)
    (x0 : Vec Ideal S1x512x512 .f32) (x1 : Vec Ideal S512x128 .f32) (x2 : Vec Ideal S512x128 .f32) (x3 : Vec Ideal S1x128x128 .f32)
    (x4 : Vec Ideal S1x128x32 .f32) (x5 : Vec Ideal S1x160x32 .f32) (x6 : Vec Ideal S1x192x32 .f32) (x7 : Vec Ideal S1x224x32 .f32)
    (x8 : Vec Ideal S128x128 .f32) : Prop where
  adj : ∀ (n j : Fin 512), x0 (ix3 (0 : Fin 1) n j) = Adj (ix3 h n j)
  feat : ∀ (n : Fin 512) (k : Fin 128), x1 (ix2 n k) = X (ix2 n k)
  em : ∀ (n : Fin 512) (d : Fin 128), x2 (ix2 n d) = EM n d
  we : ∀ (d : Fin 128) (l : Fin 4) (q : Fin 32),
    x3 (ix3 (0 : Fin 1) d (⟨32 * l.val + q.val, by have := l.isLt; have := q.isLt; omega⟩ : Fin 128)) = We (ix4 h l d q)
  w0 : ∀ (k : Fin 128) (q : Fin 32), x4 (ix3 (0 : Fin 1) k q) = W0 (ix3 h k q)
  w1 : ∀ (k : Fin 160) (q : Fin 32), x5 (ix3 (0 : Fin 1) k q) = W1 (ix3 h k q)
  w2 : ∀ (k : Fin 192) (q : Fin 32), x6 (ix3 (0 : Fin 1) k q) = W2 (ix3 h k q)
  w3 : ∀ (k : Fin 224) (q : Fin 32), x7 (ix3 (0 : Fin 1) k q) = W3 (ix3 h k q)
  wl : ∀ (c o : Fin 128), x8 (ix2 c o) = Wl (ix2 (⟨128 * h.val + c.val, by have := h.isLt; have := c.isLt; omega⟩ : Fin 512) o)

end Cert.KernelIdeal.R1Value

end
-- ==== Proof.R1Pieces.lean ====
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1

open Cert.KernelIdeal Cert.KernelIdeal.Gen
/-!
  The graph-convolution region, one grid point at a time. The body loads nine input blocks (a head's adjacency slice,
  the node features, the edge mean, the head's batched edge weights, its four layers' node weights, its 128 rows of
  the final weights), computes the head's contribution to the output, and stores the output block plus that
  contribution; at a core's first head it stores zeros into the output block first. So what a point leaves in the
  output block is ONE function of the nine blocks and of the block as the point found it (zeros at a first head).
-/

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What one grid point adds: the body's last store as one function of the nine input blocks and of the output block as
    the point finds it. -/
def pointVal (x0 : Vec F S1x512x512 .f32) (x1 : Vec F S512x128 .f32) (x2 : Vec F S512x128 .f32) (x3 : Vec F S1x128x128 .f32) (x4 : Vec F S1x128x32 .f32) (x5 : Vec F S1x160x32 .f32) (x6 : Vec F S1x192x32 .f32) (x7 : Vec F S1x224x32 .f32) (x8 : Vec F S128x128 .f32) (acc : Vec F S1x512x128 .f32) : FVec F S1x512x128 .f32 :=
  k1_pay1 (k1_pay4 x0) x1 (k1_pay5 x0) (k1_pay7 x0 x1 x2 x3 x4)
    (k1_pay9 (k1_pay4 x0) x1 (k1_pay5 x0) (k1_pay7 x0 x1 x2 x3 x4) (k1_pay8 x2 x3) x5)
    (k1_pay10 (k1_pay4 x0) x1 (k1_pay5 x0) (k1_pay6 x2 x3) (k1_pay7 x0 x1 x2 x3 x4) (k1_pay8 x2 x3) x5 x6)
    (k1_pay11 (k1_pay6 x2 x3)) x7 x8 acc

/-- A point that is not a core's first: the block as found, plus the head's contribution. -/
theorem out_B (c : Dev nD) (i : grid1.Coords) (a2 : Memref sig .tc .vmem S1x512x512 .f32) (h2 : a2.IsWhole) (a3 : Memref sig .tc .vmem S512x128 .f32) (h3 : a3.IsWhole) (a4 : Memref sig .tc .vmem S512x128 .f32) (h4 : a4.IsWhole) (a5 : Memref sig .tc .vmem S1x128x128 .f32) (h5 : a5.IsWhole) (a6 : Memref sig .tc .vmem S1x128x32 .f32) (h6 : a6.IsWhole) (a7 : Memref sig .tc .vmem S1x160x32 .f32) (h7 : a7.IsWhole) (a8 : Memref sig .tc .vmem S1x192x32 .f32) (h8 : a8.IsWhole) (a9 : Memref sig .tc .vmem S1x224x32 .f32) (h9 : a9.IsWhole) (a10 : Memref sig .tc .vmem S128x128 .f32) (h10 : a10.IsWhole) (a11 : Memref sig .tc .vmem S1x512x128 .f32) (h11 : a11.IsWhole) (hc : ¬cond1_0 i) (x0 : Vec F S1x512x512 .f32) (x1 : Vec F S512x128 .f32) (x2 : Vec F S512x128 .f32) (x3 : Vec F S1x128x128 .f32) (x4 : Vec F S1x128x32 .f32) (x5 : Vec F S1x160x32 .f32) (x6 : Vec F S1x192x32 .f32) (x7 : Vec F S1x224x32 .f32) (x8 : Vec F S128x128 .f32) (xo : Vec F S1x512x128 .f32) :
    out1_B_9 c i a2 h2 a3 h3 a4 h4 a5 h5 a6 h6 a7 h7 a8 h8 a9 h9 a10 h10 a11 h11 hc x0 x1 x2 x3 x4 x5 x6 x7 x8 xo = pointVal x0 x1 x2 x3 x4 x5 x6 x7 x8 xo := by
  unfold out1_B_9
  rw [View.read_writes_eq_canon _ _ _ (cover1_B_9 c i a2 h2 a3 h3 a4 h4 a5 h5 a6 h6 a7 h7 a8 h8 a9 h9 a10 h10 a11 h11 hc x0 x1 x2 x3 x4 x5 x6 x7 x8 xo)]
  unfold kernelRun1_B
  dsimp only
  sl_unfold_words
  rw [View.canon_unit_zero hz3]
  unfold pointVal
  simp only [View.readAt_eq_ld, h2.read_unread, h3.read_unread, h4.read_unread, h5.read_unread, h6.read_unread, h7.read_unread,
    h8.read_unread, h9.read_unread, h10.read_unread, h11.read_unread,
    View.ld_unit_zero (S := S1x512x512) hz3, View.ld_unit_zero (S := S512x128) hz2, View.ld_unit_zero (S := S1x128x128) hz3,
    View.ld_unit_zero (S := S1x128x32) hz3, View.ld_unit_zero (S := S1x160x32) hz3, View.ld_unit_zero (S := S1x192x32) hz3,
    View.ld_unit_zero (S := S1x224x32) hz3, View.ld_unit_zero (S := S128x128) hz2, View.ld_unit_zero (S := S1x512x128) hz3]

/-- A core's first point: zeros are stored first and read back, so the block found is the zero block. -/
theorem out_A (c : Dev nD) (i : grid1.Coords) (a2 : Memref sig .tc .vmem S1x512x512 .f32) (h2 : a2.IsWhole) (a3 : Memref sig .tc .vmem S512x128 .f32) (h3 : a3.IsWhole) (a4 : Memref sig .tc .vmem S512x128 .f32) (h4 : a4.IsWhole) (a5 : Memref sig .tc .vmem S1x128x128 .f32) (h5 : a5.IsWhole) (a6 : Memref sig .tc .vmem S1x128x32 .f32) (h6 : a6.IsWhole) (a7 : Memref sig .tc .vmem S1x160x32 .f32) (h7 : a7.IsWhole) (a8 : Memref sig .tc .vmem S1x192x32 .f32) (h8 : a8.IsWhole) (a9 : Memref sig .tc .vmem S1x224x32 .f32) (h9 : a9.IsWhole) (a10 : Memref sig .tc .vmem S128x128 .f32) (h10 : a10.IsWhole) (a11 : Memref sig .tc .vmem S1x512x128 .f32) (h11 : a11.IsWhole) (hc : cond1_0 i) (x0 : Vec F S1x512x512 .f32) (x1 : Vec F S512x128 .f32) (x2 : Vec F S512x128 .f32) (x3 : Vec F S1x128x128 .f32) (x4 : Vec F S1x128x32 .f32) (x5 : Vec F S1x160x32 .f32) (x6 : Vec F S1x192x32 .f32) (x7 : Vec F S1x224x32 .f32) (x8 : Vec F S128x128 .f32) :
    out1_A_9 c i a2 h2 a3 h3 a4 h4 a5 h5 a6 h6 a7 h7 a8 h8 a9 h9 a10 h10 a11 h11 hc x0 x1 x2 x3 x4 x5 x6 x7 x8 = pointVal x0 x1 x2 x3 x4 x5 x6 x7 x8 k1_pay2 := by
  unfold out1_A_9
  rw [View.read_writes_eq_canon _ _ _ (cover1_A_9 c i a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_cons_unit_zero (S := S1x512x128) hz3, View.readCov_unit_zero (S := S1x512x128) _ hz3]
  unfold pointVal
  simp only [View.readAt_eq_ld, h2.read_unread, h3.read_unread, h4.read_unread, h5.read_unread, h6.read_unread, h7.read_unread,
    h8.read_unread, h9.read_unread, h10.read_unread, h11.read_unread,
    View.ld_unit_zero (S := S1x512x512) hz3, View.ld_unit_zero (S := S512x128) hz2, View.ld_unit_zero (S := S1x128x128) hz3,
    View.ld_unit_zero (S := S1x128x32) hz3, View.ld_unit_zero (S := S1x160x32) hz3, View.ld_unit_zero (S := S1x192x32) hz3,
    View.ld_unit_zero (S := S1x224x32) hz3, View.ld_unit_zero (S := S128x128) hz2, View.ld_unit_zero (S := S1x512x128) hz3]

end Cert.KernelIdeal.R1

end
-- ==== Proof.R1Value.lean ====
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«145371_j38732015075674_2_alg».proof.Proof.R1Ops
import proofs.«145371_j38732015075674_2_alg».proof.Proof.R1Blocks
import proofs.«145371_j38732015075674_2_alg».proof.Proof.R1Pieces
set_option maxRecDepth 16384
set_option pp.maxSteps 6000
set_option pp.deepTerms false

noncomputable section

open Idealize.ShloMosaic Idealize.ShloMosaic.TcCoe Idealize.SL.Sem Idealize.ShloMosaic.ValueIdx
open Idealize.ShloMosaic.Pipeline (Dat)
open scoped BigOperators

namespace Cert.KernelIdeal.R1Value

open Cert.KernelIdeal Cert.KernelIdeal.Gen
/-!
  One grid point of the graph-convolution region, read at an index: when the nine input blocks are head `h`'s slices of
  the argument arrays (and the edge mean), the point adds to the output block exactly head `h`'s contribution in the
  kernel's arrangement — layer by layer: the guarded denominator, the batched edge product cut into its four column
  blocks, each layer's projection as the sum of the pieces' products, relu of the quotient, the four layers side by
  side plus the node features, against the head's rows of the final weights.
-/
open Cert.KernelIdeal.R1Ops Cert.GcnSpec

section Core
variable (h : Fin 4) (X : A2 512 128) (Adj : A3 4 512 512)

theorem zero_lit : (Scalar.ofBits (F := Ideal) .f32 0x00000000#32 : EReal) = 0 := Ideal.ofBits_zero_f32

/-- One layer from its operands read at indices: relu of (edge term + adjacency times projection) over the denominator. -/
theorem layer_apply (e p : FVec Ideal S512x32 .f32) (A : FVec Ideal S512x512 .bf16) (dn : FVec Ideal S512x1 .f32)
    (E P : Mat 32) (he : ∀ n q, e (ix2 n q) = E n q) (hp : ∀ j q, p (ix2 j q) = P j q)
    (hA : ∀ n j, A (ix2 n j) = Adj (ix3 h n j)) (hd : ∀ n, dn (ix2 n (0 : Fin 1)) = den Adj h n) (n : Fin 512) (q : Fin 32) :
    maximumf (divf (addf e (matmul dot_S512x512_S512x32_S512x32_1_0_0_1_n_n none A (truncf .bf16 p bitsLt_bf16_f32) (constant S512x32 .f32 0x00000000#32)))
        (broadcastTo S512x32 dn broadcasts_S512x1_S512x32)) (broadcast S512x32 (Scalar.ofBits .f32 0x00000000#32)) (ix2 n q)
      = layer Adj h E P n q := by
  show max (Ideal.div (e (ix2 n q) + matmul dot_S512x512_S512x32_S512x32_1_0_0_1_n_n none A (truncf .bf16 p bitsLt_bf16_f32) (constant S512x32 .f32 0x00000000#32) (ix2 n q))
      (broadcastTo S512x32 dn broadcasts_S512x1_S512x32 (ix2 n q))) (Scalar.ofBits (F := Ideal) .f32 0x00000000#32) = _
  have hs : ∑ k : Fin 512, A (ix2 n k) * (truncf .bf16 p bitsLt_bf16_f32 : FVec Ideal S512x32 .bf16) (ix2 k q)
      = ∑ j : Fin 512, Adj (ix3 h n j) * P j q :=
    Finset.sum_congr rfl fun k _ => congrArg₂ (· * ·) (hA n k) (hp k q)
  rw [mm_512_32, col_bcast_apply, hd, he, zero_lit, hs]
  rfl

/-- The node features against the first 128 rows of a layer's weights. -/
theorem projX_apply {K : Nat} (hK : 128 ≤ K) (W : A3 4 K 32) (x1 : Vec Ideal S512x128 .f32) (wb : FVec Ideal S128x32 .bf16)
    (hx1 : ∀ (j : Fin 512) (k : Fin 128), x1 (ix2 j k) = X (ix2 j k))
    (hw : ∀ (k : Fin 128) (q : Fin 32), wb (ix2 k q) = W (ix3 h (⟨k.val, by have := k.isLt; omega⟩ : Fin K) q))
    (j : Fin 512) (q : Fin 32) :
    matmul dot_S512x128_S128x32_S512x32_1_0_0_1_n_n none (truncf .bf16 x1 bitsLt_bf16_f32) wb (constant S512x32 .f32 0x00000000#32) (ix2 j q)
      = projX hK X W h j q := by
  rw [mm_128_32]
  unfold projX
  exact Finset.sum_congr rfl fun k _ => congrArg₂ (· * ·) (hx1 j k) (hw k q)

/-- An earlier layer's output against its own 32 rows of a later layer's weights. -/
theorem projG_apply {K : Nat} (off : Nat) (hK : off + 32 ≤ K) (W : A3 4 K 32) (g : FVec Ideal S512x32 .f32) (wb : FVec Ideal S32x32 .bf16)
    (G : Mat 32) (hg : ∀ (j : Fin 512) (k : Fin 32), g (ix2 j k) = G j k)
    (hw : ∀ (k : Fin 32) (q : Fin 32), wb (ix2 k q) = W (ix3 h (⟨off + k.val, by have := k.isLt; omega⟩ : Fin K) q))
    (j : Fin 512) (q : Fin 32) :
    matmul dot_S512x32_S32x32_S512x32_1_0_0_1_n_n none (truncf .bf16 g bitsLt_bf16_f32) wb (constant S512x32 .f32 0x00000000#32) (ix2 j q)
      = projG off hK G W h j q := by
  rw [mm_32_32]
  unfold projG
  exact Finset.sum_congr rfl fun k _ => congrArg₂ (· * ·) (hg j k) (hw k q)

/-- Rows `o …` of a weight block [1,K,32] with its unit axis dropped, at row `k` and column `q`: the block at row `k'`. -/
theorem wrow {K : Nat} (w : Vec Ideal ⟨3, ![1, K, 32]⟩ .f32) (hc : (⟨3, ![1, K, 32]⟩ : Shape).ShapeCasts ⟨2, ![K, 32]⟩)
    (o m : Nat) (hs : (⟨2, ![K, 32]⟩ : Shape).Slices ![o, 0] ⟨2, ![m, 32]⟩) (k : Fin m) (q : Fin 32) (k' : Fin K) (hk : k'.val = o + k.val) :
    (truncf .bf16 (extractStridedSlice ⟨2, ![m, 32]⟩ ![o, 0] (shapeCast ⟨2, ![K, 32]⟩ w hc) hs) bitsLt_bf16_f32 : FVec Ideal ⟨2, ![m, 32]⟩ .bf16) (ix2 k q)
      = w (ix3 (0 : Fin 1) k' q) := by
  show extractStridedSlice ⟨2, ![m, 32]⟩ ![o, 0] (shapeCast ⟨2, ![K, 32]⟩ w hc) hs (ix2 k q) = _
  rw [slice2_axis0_apply o _ hs k q k' hk, shapeCast_1ab_ab_apply]

end Core

section Point
variable {h : Fin 4} {EM : Mat 128} {X : A2 512 128} {Adj : A3 4 512 512} {We : A4 4 4 128 32}
  {W0 : A3 4 128 32} {W1 : A3 4 160 32} {W2 : A3 4 192 32} {W3 : A3 4 224 32} {Wl : A2 512 128}
  {x0 : Vec Ideal S1x512x512 .f32} {x1 : Vec Ideal S512x128 .f32} {x2 : Vec Ideal S512x128 .f32} {x3 : Vec Ideal S1x128x128 .f32}
  {x4 : Vec Ideal S1x128x32 .f32} {x5 : Vec Ideal S1x160x32 .f32} {x6 : Vec Ideal S1x192x32 .f32} {x7 : Vec Ideal S1x224x32 .f32}
  {x8 : Vec Ideal S128x128 .f32}
  (hb : Blocks h EM X Adj We W0 W1 W2 W3 Wl x0 x1 x2 x3 x4 x5 x6 x7 x8)
include hb

/-- The adjacency block with its unit axis dropped. -/
theorem adj_apply (n j : Fin 512) : k1_pay5 (F := Ideal) x0 (ix2 n j) = Adj (ix3 h n j) := by
  unfold k1_pay5 k1_pay3
  show shapeCast S512x512 x0 shapeCasts_S1x512x512_S512x512 (ix2 n j) = _
  rw [shapeCast_1ab_ab_apply, hb.adj]

/-- The guarded denominator: the row sum of the adjacency block, plus one where it is zero. -/
theorem den_apply (n : Fin 512) : k1_pay4 (F := Ideal) x0 (ix2 n (0 : Fin 1)) = den Adj h n := by
  unfold k1_pay4 k1_pay3
  show shapeCast S512x1 (multiReduction .add [1] S512 (shapeCast S512x512 x0 shapeCasts_S1x512x512_S512x512) 0x00000000#32 reduces_S512x512_S512 (.inl rfl) rfl) shapeCasts_S512_S512x1 (ix2 n (0 : Fin 1))
      + FloatOps.sitofp (F := Ideal) .f32 ((FloatOps.cmpf (F := Ideal) (φ := .f32) .oeq
          (shapeCast S512x1 (multiReduction .add [1] S512 (shapeCast S512x512 x0 shapeCasts_S1x512x512_S512x512) 0x00000000#32 reduces_S512x512_S512 (.inl rfl) rfl) shapeCasts_S512_S512x1 (ix2 n (0 : Fin 1)))
          (Scalar.ofBits (F := Ideal) .f32 0x00000000#32)).setWidth 32) = _
  rw [col_cast_apply, ind_apply, rowsum_apply]
  unfold den deg
  simp only [shapeCast_1ab_ab_apply, hb.adj]

/-- The batched edge product: the edge mean against the head's [128,128] batched edge weights. -/
theorem eall_apply (n : Fin 512) (c : Fin 128) :
    k1_pay6 (F := Ideal) x2 x3 (ix2 n c) = ∑ d : Fin 128, EM n d * x3 (ix3 (0 : Fin 1) d c) := by
  unfold k1_pay6
  rw [mm_128_128]
  refine Finset.sum_congr rfl fun d _ => ?_
  show shapeCast S512x128 x2 shapeCasts_S512x128_S512x128 (ix2 n d) * shapeCast S128x128 x3 shapeCasts_S1x128x128_S128x128 (ix2 d c) = _
  rw [shapeCast_self, shapeCast_1ab_ab_apply, hb.em]

/-- Column block `l` of the batched edge product is layer `l`'s edge term. -/
theorem eterm_apply (l : Fin 4) (n : Fin 512) (q : Fin 32) :
    k1_pay6 (F := Ideal) x2 x3 (ix2 n (⟨32 * l.val + q.val, by have := l.isLt; have := q.isLt; omega⟩ : Fin 128)) = eterm EM We h l n q := by
  rw [eall_apply hb]
  unfold eterm
  exact Finset.sum_congr rfl fun d _ => congrArg (EM n d * ·) (hb.we d l q)

end Point

section Layers
variable {h : Fin 4} {EM : Mat 128} {X : A2 512 128} {Adj : A3 4 512 512} {We : A4 4 4 128 32}
  {W0 : A3 4 128 32} {W1 : A3 4 160 32} {W2 : A3 4 192 32} {W3 : A3 4 224 32} {Wl : A2 512 128}
  {x0 : Vec Ideal S1x512x512 .f32} {x1 : Vec Ideal S512x128 .f32} {x2 : Vec Ideal S512x128 .f32} {x3 : Vec Ideal S1x128x128 .f32}
  {x4 : Vec Ideal S1x128x32 .f32} {x5 : Vec Ideal S1x160x32 .f32} {x6 : Vec Ideal S1x192x32 .f32} {x7 : Vec Ideal S1x224x32 .f32}
  {x8 : Vec Ideal S128x128 .f32}
  (hb : Blocks h EM X Adj We W0 W1 W2 W3 Wl x0 x1 x2 x3 x4 x5 x6 x7 x8)
include hb

/-- Layer 0. -/
theorem g0_apply (n : Fin 512) (q : Fin 32) :
    k1_pay7 (F := Ideal) x0 x1 x2 x3 x4 (ix2 n q) = g0K EM X Adj We W0 h n q := by
  unfold k1_pay7
  refine (layer_apply h Adj _ _ _ _ (eterm EM We h 0) (projX (by omega) X W0 h) (fun n q => ?_) (fun j q => ?_)
    (adj_apply hb) (den_apply hb) n q).trans rfl
  · exact (slice2_axis1_apply 0 (k1_pay6 x2 x3) _ n q (⟨32 * (0 : Fin 4).val + q.val, by have := q.isLt; omega⟩ : Fin 128) (by simp)).trans
      (eterm_apply hb 0 n q)
  · refine projX_apply h X (by omega) W0 x1 _ hb.feat (fun k q => ?_) j q
    show shapeCast S128x32 x4 shapeCasts_S1x128x32_S128x32 (ix2 k q) = _
    rw [shapeCast_1ab_ab_apply]
    exact hb.w0 k q

/-- Layer 1, over the values it is handed. -/
theorem pay9_apply (v11 : FVec Ideal S512x1 .f32) (v15 : FVec Ideal S512x512 .bf16) (v33 v34 : FVec Ideal S512x32 .f32) (G0 E1 : Mat 32)
    (h11 : ∀ n, v11 (ix2 n (0 : Fin 1)) = den Adj h n) (h15 : ∀ n j, v15 (ix2 n j) = Adj (ix3 h n j))
    (h33 : ∀ n q, v33 (ix2 n q) = G0 n q) (h34 : ∀ n q, v34 (ix2 n q) = E1 n q) (n : Fin 512) (q : Fin 32) :
    k1_pay9 (F := Ideal) v11 x1 v15 v33 v34 x5 (ix2 n q)
      = layer Adj h E1 (fun j q => projX (by omega) X W1 h j q + projG 128 (by omega) G0 W1 h j q) n q := by
  unfold k1_pay9
  refine (layer_apply h Adj v34 _ v15 v11 E1 _ h34 (fun j q => ?_) h15 h11 n q).trans rfl
  exact congrArg₂ (· + ·)
    (projX_apply h X (by omega) W1 x1 _ hb.feat (fun k q => (wrow x5 _ 0 128 _ k q ⟨k.val, by have := k.isLt; omega⟩ (Nat.zero_add _).symm).trans (hb.w1 _ q)) j q)
    (projG_apply h 128 (by omega) W1 v33 _ G0 h33 (fun k q => (wrow x5 _ 128 32 _ k q ⟨128 + k.val, by have := k.isLt; omega⟩ rfl).trans (hb.w1 _ q)) j q)

/-- Layer 2, over the values it is handed. -/
theorem pay10_apply (v11 : FVec Ideal S512x1 .f32) (v15 : FVec Ideal S512x512 .bf16) (v20 : FVec Ideal S512x128 .f32) (v33 v34 : FVec Ideal S512x32 .f32)
    (G0 G1 E2 : Mat 32)
    (h11 : ∀ n, v11 (ix2 n (0 : Fin 1)) = den Adj h n) (h15 : ∀ n j, v15 (ix2 n j) = Adj (ix3 h n j))
    (h20 : ∀ (n : Fin 512) (q : Fin 32), v20 (ix2 n (⟨64 + q.val, by have := q.isLt; omega⟩ : Fin 128)) = E2 n q)
    (h33 : ∀ n q, v33 (ix2 n q) = G0 n q)
    (h52 : ∀ n q, k1_pay9 (F := Ideal) v11 x1 v15 v33 v34 x5 (ix2 n q) = G1 n q) (n : Fin 512) (q : Fin 32) :
    k1_pay10 (F := Ideal) v11 x1 v15 v20 v33 v34 x5 x6 (ix2 n q)
      = layer Adj h E2 (fun j q => (projX (by omega) X W2 h j q + projG 128 (by omega) G0 W2 h j q) + projG 160 (by omega) G1 W2 h j q) n q := by
  unfold k1_pay10
  refine (layer_apply h Adj _ _ v15 v11 E2 _ (fun n q => ?_) (fun j q => ?_) h15 h11 n q).trans rfl
  · exact (slice2_axis1_apply 64 v20 _ n q (⟨64 + q.val, by have := q.isLt; omega⟩ : Fin 128) rfl).trans (h20 n q)
  · exact congrArg₂ (· + ·) (congrArg₂ (· + ·)
      (projX_apply h X (by omega) W2 x1 _ hb.feat (fun k q => (wrow x6 _ 0 128 _ k q ⟨k.val, by have := k.isLt; omega⟩ (Nat.zero_add _).symm).trans (hb.w2 _ q)) j q)
      (projG_apply h 128 (by omega) W2 v33 _ G0 h33 (fun k q => (wrow x6 _ 128 32 _ k q ⟨128 + k.val, by have := k.isLt; omega⟩ rfl).trans (hb.w2 _ q)) j q))
      (projG_apply h 160 (by omega) W2 _ _ G1 h52 (fun k q => (wrow x6 _ 160 32 _ k q ⟨160 + k.val, by have := k.isLt; omega⟩ rfl).trans (hb.w2 _ q)) j q)

/-- The last payload, over the values it is handed: layer 3, the four layers side by side plus the node features, against
    the head's rows of the final weights, added to the output block as found. -/
theorem pay1_apply (v11 : FVec Ideal S512x1 .f32) (v15 : FVec Ideal S512x512 .bf16) (v33 v52 v76 v77 : FVec Ideal S512x32 .f32)
    (G0 G1 G2 E3 : Mat 32)
    (h11 : ∀ n, v11 (ix2 n (0 : Fin 1)) = den Adj h n) (h15 : ∀ n j, v15 (ix2 n j) = Adj (ix3 h n j))
    (h33 : ∀ n q, v33 (ix2 n q) = G0 n q) (h52 : ∀ n q, v52 (ix2 n q) = G1 n q) (h76 : ∀ n q, v76 (ix2 n q) = G2 n q)
    (h77 : ∀ n q, v77 (ix2 n q) = E3 n q) (acc : Vec Ideal S1x512x128 .f32) (n : Fin 512) (o : Fin 128) :
    k1_pay1 (F := Ideal) v11 x1 v15 v33 v52 v76 v77 x7 x8 acc (ix3 (0 : Fin 1) n o)
      = acc (ix3 (0 : Fin 1) n o) + ∑ c : Fin 128,
          (cat4 G0 G1 G2 (layer Adj h E3 (fun j q => ((projX (by omega) X W3 h j q + projG 128 (by omega) G0 W3 h j q)
              + projG 160 (by omega) G1 W3 h j q) + projG 192 (by omega) G2 W3 h j q)) n c + X (ix2 n c))
            * Wl (ix2 (⟨128 * h.val + c.val, by have := h.isLt; have := c.isLt; omega⟩ : Fin 512) o) := by
  unfold k1_pay1
  rw [shapeCast_ab_1ab_apply]
  refine (congrArg₂ (· + ·) (shapeCast_1ab_ab_apply acc _ n o) (mm_128_128 _ _ n o)).trans ?_
  refine congrArg (acc (ix3 (0 : Fin 1) n o) + ·) (Finset.sum_congr rfl fun c _ => congrArg₂ (· * ·) ?_ (hb.wl c o))
  refine congrArg₂ (· + ·) ((concat4_apply v33 v52 v76 _ n c).trans ?_) (hb.feat n c)
  have e0 : (fun a q => v33 (ix2 a q)) = G0 := funext fun a => funext fun q => h33 a q
  have e1 : (fun a q => v52 (ix2 a q)) = G1 := funext fun a => funext fun q => h52 a q
  have e2 : (fun a q => v76 (ix2 a q)) = G2 := funext fun a => funext fun q => h76 a q
  rw [e0, e1, e2]
  refine congrArg (fun g => cat4 G0 G1 G2 g n c) (funext fun a => funext fun q => ?_)
  refine (layer_apply h Adj v77 _ v15 v11 E3 _ h77 (fun j q => ?_) h15 h11 a q).trans rfl
  exact congrArg₂ (· + ·) (congrArg₂ (· + ·) (congrArg₂ (· + ·)
      (projX_apply h X (by omega) W3 x1 _ hb.feat (fun k q => (wrow x7 _ 0 128 _ k q ⟨k.val, by have := k.isLt; omega⟩ (Nat.zero_add _).symm).trans (hb.w3 _ q)) j q)
      (projG_apply h 128 (by omega) W3 v33 _ G0 h33 (fun k q => (wrow x7 _ 128 32 _ k q ⟨128 + k.val, by have := k.isLt; omega⟩ rfl).trans (hb.w3 _ q)) j q))
      (projG_apply h 160 (by omega) W3 v52 _ G1 h52 (fun k q => (wrow x7 _ 160 32 _ k q ⟨160 + k.val, by have := k.isLt; omega⟩ rfl).trans (hb.w3 _ q)) j q))
      (projG_apply h 192 (by omega) W3 v76 _ G2 h76 (fun k q => (wrow x7 _ 192 32 _ k q ⟨192 + k.val, by have := k.isLt; omega⟩ rfl).trans (hb.w3 _ q)) j q)

/-- One grid point: the output block as found, plus the head's contribution. -/
theorem pointVal_apply (acc : Vec Ideal S1x512x128 .f32) (n : Fin 512) (o : Fin 128) :
    R1.pointVal x0 x1 x2 x3 x4 x5 x6 x7 x8 acc (ix3 (0 : Fin 1) n o)
      = acc (ix3 (0 : Fin 1) n o) + contribK X Adj We W0 W1 W2 W3 Wl EM h n o := by
  unfold R1.pointVal
  have hg0 := g0_apply hb
  have he1 : ∀ n q, k1_pay8 (F := Ideal) x2 x3 (ix2 n q) = eterm EM We h 1 n q := fun n q => by
    unfold k1_pay8
    exact (slice2_axis1_apply 32 (k1_pay6 x2 x3) _ n q (⟨32 * (1 : Fin 4).val + q.val, by have := q.isLt; omega⟩ : Fin 128) rfl).trans (eterm_apply hb 1 n q)
  have hg1 := pay9_apply hb (k1_pay4 x0) (k1_pay5 x0) (k1_pay7 x0 x1 x2 x3 x4) (k1_pay8 x2 x3) _ _ (den_apply hb) (adj_apply hb) hg0 he1
  have he2 : ∀ (n : Fin 512) (q : Fin 32), k1_pay6 (F := Ideal) x2 x3 (ix2 n (⟨64 + q.val, by have := q.isLt; omega⟩ : Fin 128)) = eterm EM We h 2 n q :=
    fun n q => eterm_apply hb 2 n q
  have hg2 := pay10_apply hb (k1_pay4 x0) (k1_pay5 x0) (k1_pay6 x2 x3) (k1_pay7 x0 x1 x2 x3 x4) (k1_pay8 x2 x3) _ _ _ (den_apply hb) (adj_apply hb) he2 hg0 hg1
  have he3 : ∀ n q, k1_pay11 (F := Ideal) (k1_pay6 x2 x3) (ix2 n q) = eterm EM We h 3 n q := fun n q => by
    unfold k1_pay11
    exact (slice2_axis1_apply 96 (k1_pay6 x2 x3) _ n q (⟨32 * (3 : Fin 4).val + q.val, by have := q.isLt; omega⟩ : Fin 128) rfl).trans (eterm_apply hb 3 n q)
  exact pay1_apply hb (k1_pay4 x0) (k1_pay5 x0) _ _ _ _ _ _ _ _ (den_apply hb) (adj_apply hb) hg0 hg1 hg2 he3 acc n o

end Layers

end Cert.KernelIdeal.R1Value

end
-- ==== Proof.R1Final.lean ====
/-
  The graph-convolution region, from one grid point to the whole output array.

  The grid is 2 x 2: point t = 2 * core + hi works on head t, and the two points of a core share one output block,
  the core's block of the output array f32[2,512,128], written back after the core's second point.

  * At point t the nine input blocks are head t's slices of the argument arrays (and the whole node features and edge
    mean): a block's entry sits in its array, on each axis, at block index * block size + the coordinate inside the
    block, and the block indices are (t, 0, 0) — (0, 0) for the two whole arrays, (t, 0) for the final weights.
    The batched edge weights are the edge-weight argument with its layer axis moved inside and merged with the
    output axis: entry (h, d, 32 l + q) is entry (h, l, d, q) of the argument.
  * A point leaves in the output block the block as it found it plus its head's contribution (taken here as the
    hypothesis PointValSpec); a core's first point finds zeros. So after point 2 * core the block holds
    0 + contribution (head 2 * core), and after point 2 * core + 1 that plus contribution (head 2 * core + 1):
    the core's partial output.
  * Entry (core, n, o) of the output array lies in the block written back at point 2 * core + 1, and every entry is
    covered, so the array ends holding the partial outputs.
-/
import proofs.«145371_j38732015075674_2_alg».proof.Proof.Gen.KernelIdeal.Frame
import proofs.«145371_j38732015075674_2_alg».proof.Proof.Spec
import proofs.«145371_j38732015075674_2_alg».proof.Proof.R1Blocks
import proofs.«145371_j38732015075674_2_alg».proof.Proof.R1Pieces
import proofs.«145371_j38732015075674_2_alg».proof.Proof.Hosts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1Final

open Cert.KernelIdeal Cert.KernelIdeal.Gen
open Cert.GcnSpec (Mat A1 A2 A3 A4)

section Points
variable (m : (ℓ : Loc nD τ sig) → Buf (Elt Ideal) ℓ) (ρ : Dev nD → PrngReg)

/-- The head a grid point works on: the point's number. -/
def hd (t : Fin cfg1.N) : Fin 4 := ⟨t.val, lt_of_lt_of_eq t.isLt (show cfg1.N = 4 from N_1)⟩

/-! ## The printed index maps, decided once over the four grid points -/

theorem idx0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 3) = t.val ∧ win1_3.index t (1 : Fin 3) = 0 ∧ win1_3.index t (2 : Fin 3) = 0 :=
  (by decide +kernel : ∀ t : Fin grid1.N, _)
theorem idx4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx5 : ∀ t : Fin cfg1.N, win1_5.index t (0 : Fin 3) = t.val ∧ win1_5.index t (1 : Fin 3) = 0 ∧ win1_5.index t (2 : Fin 3) = 0 :=
  (by decide +kernel : ∀ t : Fin grid1.N, _)
theorem idx6 : ∀ t : Fin cfg1.N, win1_6.index t (0 : Fin 3) = t.val ∧ win1_6.index t (1 : Fin 3) = 0 ∧ win1_6.index t (2 : Fin 3) = 0 :=
  (by decide +kernel : ∀ t : Fin grid1.N, _)
theorem idx7 : ∀ t : Fin cfg1.N, win1_7.index t (0 : Fin 3) = t.val ∧ win1_7.index t (1 : Fin 3) = 0 ∧ win1_7.index t (2 : Fin 3) = 0 :=
  (by decide +kernel : ∀ t : Fin grid1.N, _)
theorem idx8 : ∀ t : Fin cfg1.N, win1_8.index t (0 : Fin 2) = t.val ∧ win1_8.index t (1 : Fin 2) = 0 :=
  (by decide +kernel : ∀ t : Fin grid1.N, _)
theorem idx9 : ∀ t : Fin cfg1.N, win1_9.index t (0 : Fin 3) = t.val / 2 ∧ win1_9.index t (1 : Fin 3) = 0 ∧ win1_9.index t (2 : Fin 3) = 0 :=
  (by decide +kernel : ∀ t : Fin grid1.N, _)

/-! ## The nine input blocks of a point, entry by entry -/

theorem blk0 (c : Dev nD) (t : Fin cfg1.N) (n j : Fin 512) :
    (iblk1 (F := Ideal) (V2 m ρ) c 0 t : Vec Ideal S1x512x512 .f32) (ix3 (0 : Fin 1) n j)
      = m ((c : Thread nD τ).loc main_arg2) (ix3 (hd t) n j) := by
  obtain ⟨e0, e1, e2⟩ := idx0 t
  unfold iblk1
  rw [View.read_apply]
  show V2 m ρ c main_arg2 (((cfg1.win 0).blk t).view.emb (ix3 (0 : Fin 1) n j)) = _
  rw [Hosts.V2_arg m ρ c main_arg2 (by decide) (by decide) (by decide)]
  refine congrArg _ (funext fun a => Fin.ext ?_)
  match a with
  | ⟨0, _⟩ => show win1_0.index t (0 : Fin 3) * 1 + 1 * 0 = t.val; omega
  | ⟨1, _⟩ => show win1_0.index t (1 : Fin 3) * 512 + 1 * n.val = n.val; omega
  | ⟨2, _⟩ => show win1_0.index t (2 : Fin 3) * 512 + 1 * j.val = j.val; omega

theorem blk1 (c : Dev nD) (t : Fin cfg1.N) (n : Fin 512) (k : Fin 128) :
    (iblk1 (F := Ideal) (V2 m ρ) c 1 t : Vec Ideal S512x128 .f32) (ix2 n k)
      = m ((c : Thread nD τ).loc main_arg0) (ix2 n k) := by
  obtain ⟨e0, e1⟩ := idx1 t
  unfold iblk1
  rw [View.read_apply]
  show V2 m ρ c main_arg0 (((cfg1.win 1).blk t).view.emb (ix2 n k)) = _
  rw [Hosts.V2_arg m ρ c main_arg0 (by decide) (by decide) (by decide)]
  refine congrArg _ (funext fun a => Fin.ext ?_)
  match a with
  | ⟨0, _⟩ => show win1_1.index t (0 : Fin 2) * 512 + 1 * n.val = n.val; omega
  | ⟨1, _⟩ => show win1_1.index t (1 : Fin 2) * 128 + 1 * k.val = k.val; omega

theorem blk2 (c : Dev nD) (t : Fin cfg1.N) (n : Fin 512) (d : Fin 128) :
    (iblk1 (F := Ideal) (V2 m ρ) c 2 t : Vec Ideal S512x128 .f32) (ix2 n d)
      = (V2 m ρ c main_v0 : S512x128.Idx → EReal) (ix2 n d) := by
  obtain ⟨e0, e1⟩ := idx2 t
  unfold iblk1
  rw [View.read_apply]
  show V2 m ρ c main_v0 (((cfg1.win 2).blk t).view.emb (ix2 n d)) = _
  refine congrArg _ (funext fun a => Fin.ext ?_)
  match a with
  | ⟨0, _⟩ => show win1_2.index t (0 : Fin 2) * 512 + 1 * n.val = n.val; omega
  | ⟨1, _⟩ => show win1_2.index t (1 : Fin 2) * 128 + 1 * d.val = d.val; omega

theorem blk3 (c : Dev nD) (t : Fin cfg1.N) (d : Fin 128) (l : Fin 4) (q : Fin 32) :
    (iblk1 (F := Ideal) (V2 m ρ) c 3 t : Vec Ideal S1x128x128 .f32)
        (ix3 (0 : Fin 1) d (⟨32 * l.val + q.val, by have := l.isLt; have := q.isLt; omega⟩ : Fin 128))
      = m ((c : Thread nD τ).loc main_arg3) (ix4 (hd t) l d q) := by
  obtain ⟨e0, e1, e2⟩ := idx3 t
  have hl := l.isLt
  have hq := q.isLt
  unfold iblk1
  rw [View.read_apply]
  show V2 m ρ c main_v2 (((cfg1.win 3).blk t).view.emb (ix3 (0 : Fin 1) d (⟨32 * l.val + q.val, by omega⟩ : Fin 128))) = _
  have he : (((cfg1.win 3).blk t).view.emb (ix3 (0 : Fin 1) d (⟨32 * l.val + q.val, by omega⟩ : Fin 128)) : S4x128x128.Idx)
      = ix3 (hd t) d (⟨32 * l.val + q.val, by omega⟩ : Fin 128) := by
    refine funext fun a => Fin.ext ?_
    match a with
    | ⟨0, _⟩ => show win1_3.index t (0 : Fin 3) * 1 + 1 * 0 = t.val; omega
    | ⟨1, _⟩ => show win1_3.index t (1 : Fin 3) * 128 + 1 * d.val = d.val; omega
    | ⟨2, _⟩ => show win1_3.index t (2 : Fin 3) * 128 + 1 * (32 * l.val + q.val) = 32 * l.val + q.val; omega
  rw [he, Hosts.V2_main_v2 m ρ c]
  refine (shapeCast_apply _ _ _ (ix4 (hd t) d l q) ?_).trans ?_
  · rw [Shape.rowMajor_val_four, Shape.rowMajor_val_three]
    show (((hd t).val * 128 + d.val) * 4 + l.val) * 32 + q.val = ((hd t).val * 128 + d.val) * 128 + (32 * l.val + q.val)
    omega
  · exact transpose_apply _ _ _ _ (ix4 (hd t) l d q) fun b => match b with
      | ⟨0, _⟩ => rfl | ⟨1, _⟩ => rfl | ⟨2, _⟩ => rfl | ⟨3, _⟩ => rfl

theorem blk4 (c : Dev nD) (t : Fin cfg1.N) (k : Fin 128) (q : Fin 32) :
    (iblk1 (F := Ideal) (V2 m ρ) c 4 t : Vec Ideal S1x128x32 .f32) (ix3 (0 : Fin 1) k q)
      = m ((c : Thread nD τ).loc main_arg4) (ix3 (hd t) k q) := by
  obtain ⟨e0, e1, e2⟩ := idx4 t
  unfold iblk1
  rw [View.read_apply]
  show V2 m ρ c main_arg4 (((cfg1.win 4).blk t).view.emb (ix3 (0 : Fin 1) k q)) = _
  rw [Hosts.V2_arg m ρ c main_arg4 (by decide) (by decide) (by decide)]
  refine congrArg _ (funext fun a => Fin.ext ?_)
  match a with
  | ⟨0, _⟩ => show win1_4.index t (0 : Fin 3) * 1 + 1 * 0 = t.val; omega
  | ⟨1, _⟩ => show win1_4.index t (1 : Fin 3) * 128 + 1 * k.val = k.val; omega
  | ⟨2, _⟩ => show win1_4.index t (2 : Fin 3) * 32 + 1 * q.val = q.val; omega

theorem blk5 (c : Dev nD) (t : Fin cfg1.N) (k : Fin 160) (q : Fin 32) :
    (iblk1 (F := Ideal) (V2 m ρ) c 5 t : Vec Ideal S1x160x32 .f32) (ix3 (0 : Fin 1) k q)
      = m ((c : Thread nD τ).loc main_arg5) (ix3 (hd t) k q) := by
  obtain ⟨e0, e1, e2⟩ := idx5 t
  unfold iblk1
  rw [View.read_apply]
  show V2 m ρ c main_arg5 (((cfg1.win 5).blk t).view.emb (ix3 (0 : Fin 1) k q)) = _
  rw [Hosts.V2_arg m ρ c main_arg5 (by decide) (by decide) (by decide)]
  refine congrArg _ (funext fun a => Fin.ext ?_)
  match a with
  | ⟨0, _⟩ => show win1_5.index t (0 : Fin 3) * 1 + 1 * 0 = t.val; omega
  | ⟨1, _⟩ => show win1_5.index t (1 : Fin 3) * 160 + 1 * k.val = k.val; omega
  | ⟨2, _⟩ => show win1_5.index t (2 : Fin 3) * 32 + 1 * q.val = q.val; omega

theorem blk6 (c : Dev nD) (t : Fin cfg1.N) (k : Fin 192) (q : Fin 32) :
    (iblk1 (F := Ideal) (V2 m ρ) c 6 t : Vec Ideal S1x192x32 .f32) (ix3 (0 : Fin 1) k q)
      = m ((c : Thread nD τ).loc main_arg6) (ix3 (hd t) k q) := by
  obtain ⟨e0, e1, e2⟩ := idx6 t
  unfold iblk1
  rw [View.read_apply]
  show V2 m ρ c main_arg6 (((cfg1.win 6).blk t).view.emb (ix3 (0 : Fin 1) k q)) = _
  rw [Hosts.V2_arg m ρ c main_arg6 (by decide) (by decide) (by decide)]
  refine congrArg _ (funext fun a => Fin.ext ?_)
  match a with
  | ⟨0, _⟩ => show win1_6.index t (0 : Fin 3) * 1 + 1 * 0 = t.val; omega
  | ⟨1, _⟩ => show win1_6.index t (1 : Fin 3) * 192 + 1 * k.val = k.val; omega
  | ⟨2, _⟩ => show win1_6.index t (2 : Fin 3) * 32 + 1 * q.val = q.val; omega

theorem blk7 (c : Dev nD) (t : Fin cfg1.N) (k : Fin 224) (q : Fin 32) :
    (iblk1 (F := Ideal) (V2 m ρ) c 7 t : Vec Ideal S1x224x32 .f32) (ix3 (0 : Fin 1) k q)
      = m ((c : Thread nD τ).loc main_arg7) (ix3 (hd t) k q) := by
  obtain ⟨e0, e1, e2⟩ := idx7 t
  unfold iblk1
  rw [View.read_apply]
  show V2 m ρ c main_arg7 (((cfg1.win 7).blk t).view.emb (ix3 (0 : Fin 1) k q)) = _
  rw [Hosts.V2_arg m ρ c main_arg7 (by decide) (by decide) (by decide)]
  refine congrArg _ (funext fun a => Fin.ext ?_)
  match a with
  | ⟨0, _⟩ => show win1_7.index t (0 : Fin 3) * 1 + 1 * 0 = t.val; omega
  | ⟨1, _⟩ => show win1_7.index t (1 : Fin 3) * 224 + 1 * k.val = k.val; omega
  | ⟨2, _⟩ => show win1_7.index t (2 : Fin 3) * 32 + 1 * q.val = q.val; omega

theorem blk8 (c : Dev nD) (t : Fin cfg1.N) (r o : Fin 128) :
    (iblk1 (F := Ideal) (V2 m ρ) c 8 t : Vec Ideal S128x128 .f32) (ix2 r o)
      = m ((c : Thread nD τ).loc main_arg8)
          (ix2 (⟨128 * (hd t).val + r.val, by have := (hd t).isLt; have := r.isLt; omega⟩ : Fin 512) o) := by
  obtain ⟨e0, e1⟩ := idx8 t
  unfold iblk1
  rw [View.read_apply]
  show V2 m ρ c main_arg8 (((cfg1.win 8).blk t).view.emb (ix2 r o)) = _
  rw [Hosts.V2_arg m ρ c main_arg8 (by decide) (by decide) (by decide)]
  refine congrArg _ (funext fun a => Fin.ext ?_)
  match a with
  | ⟨0, _⟩ => show win1_8.index t (0 : Fin 2) * 128 + 1 * r.val = 128 * t.val + r.val; omega
  | ⟨1, _⟩ => show win1_8.index t (1 : Fin 2) * 128 + 1 * o.val = o.val; omega

/-! ## One point's store, as the hypothesis the final statement takes -/

/-- What one grid point leaves in the output block, entry by entry: the block as found plus the head's contribution. -/
def PointValSpec : Prop := ∀ (h : Fin 4) (EM : Mat 128) (X : A2 512 128) (Adj : A3 4 512 512) (We : A4 4 4 128 32) (W0 : A3 4 128 32) (W1 : A3 4 160 32) (W2 : A3 4 192 32) (W3 : A3 4 224 32) (Wl : A2 512 128)
    (x0 : Vec Ideal S1x512x512 .f32) (x1 : Vec Ideal S512x128 .f32) (x2 : Vec Ideal S512x128 .f32) (x3 : Vec Ideal S1x128x128 .f32) (x4 : Vec Ideal S1x128x32 .f32) (x5 : Vec Ideal S1x160x32 .f32) (x6 : Vec Ideal S1x192x32 .f32) (x7 : Vec Ideal S1x224x32 .f32) (x8 : Vec Ideal S128x128 .f32),
    R1Value.Blocks h EM X Adj We W0 W1 W2 W3 Wl x0 x1 x2 x3 x4 x5 x6 x7 x8 → ∀ (acc : Vec Ideal S1x512x128 .f32) (n : Fin 512) (o : Fin 128),
    R1.pointVal x0 x1 x2 x3 x4 x5 x6 x7 x8 acc (ix3 (0 : Fin 1) n o) = acc (ix3 (0 : Fin 1) n o) + Cert.GcnSpec.contribK X Adj We W0 W1 W2 W3 Wl EM h n o

/-- The edge mean as the region finds it, as a matrix. -/
def EMof (c : Dev nD) : Mat 128 := fun n d => (V2 m ρ c main_v0 : S512x128.Idx → EReal) (ix2 n d)

/-- Head h's contribution to the output at (n, o), of the argument arrays as launched and the edge mean as found. -/
def ck (c : Dev nD) (h : Fin 4) (n : Fin 512) (o : Fin 128) : EReal :=
  Cert.GcnSpec.contribK (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (EMof m ρ c) h n o

/-- At point t the nine input blocks are head t's slices. -/
theorem blocks_at (c : Dev nD) (t : Fin cfg1.N) :
    R1Value.Blocks (hd t) (EMof m ρ c) (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (iblk1 (F := Ideal) (V2 m ρ) c 0 t) (iblk1 (F := Ideal) (V2 m ρ) c 1 t) (iblk1 (F := Ideal) (V2 m ρ) c 2 t)
      (iblk1 (F := Ideal) (V2 m ρ) c 3 t) (iblk1 (F := Ideal) (V2 m ρ) c 4 t) (iblk1 (F := Ideal) (V2 m ρ) c 5 t)
      (iblk1 (F := Ideal) (V2 m ρ) c 6 t) (iblk1 (F := Ideal) (V2 m ρ) c 7 t) (iblk1 (F := Ideal) (V2 m ρ) c 8 t) where
  adj := blk0 m ρ c t
  feat := blk1 m ρ c t
  em := blk2 m ρ c t
  we := blk3 m ρ c t
  w0 := blk4 m ρ c t
  w1 := blk5 m ρ c t
  w2 := blk6 m ρ c t
  w3 := blk7 m ρ c t
  wl := blk8 m ρ c t

/-- The block a core's first point stores before reading it back is zero. -/
theorem pay2_zero (n : Fin 512) (o : Fin 128) : (k1_pay2 (F := Ideal)) (ix3 (0 : Fin 1) n o) = 0 := by
  unfold k1_pay2
  show Ideal.ofBits .f32 0x00000000#32 = 0
  exact Ideal.ofBits_zero_f32

/-- After a core's first point the output block holds zero plus that head's contribution. -/
theorem outs_even (HPV : PointValSpec) (c : Dev nD) (t : Fin cfg1.N) (h0 : t.val % 2 = 0) (n : Fin 512) (o : Fin 128) :
    (outsAt1 (F := Ideal) (V2 m ρ) c t.val t.isLt : Vec Ideal S1x512x128 .f32) (ix3 (0 : Fin 1) n o)
      = 0 + ck m ρ c (hd t) n o := by
  refine (congrFun (outsAt1_A (F := Ideal) (V2 m ρ) c t h0) _).trans ?_
  refine (congrFun (R1.out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 (F := Ideal) (V2 m ρ) c 0 t) (iblk1 (F := Ideal) (V2 m ρ) c 1 t) (iblk1 (F := Ideal) (V2 m ρ) c 2 t) (iblk1 (F := Ideal) (V2 m ρ) c 3 t) (iblk1 (F := Ideal) (V2 m ρ) c 4 t) (iblk1 (F := Ideal) (V2 m ρ) c 5 t) (iblk1 (F := Ideal) (V2 m ρ) c 6 t) (iblk1 (F := Ideal) (V2 m ρ) c 7 t) (iblk1 (F := Ideal) (V2 m ρ) c 8 t)) _).trans ?_
  refine (HPV (hd t) (EMof m ρ c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (iblk1 (F := Ideal) (V2 m ρ) c 0 t) (iblk1 (F := Ideal) (V2 m ρ) c 1 t) (iblk1 (F := Ideal) (V2 m ρ) c 2 t) (iblk1 (F := Ideal) (V2 m ρ) c 3 t) (iblk1 (F := Ideal) (V2 m ρ) c 4 t) (iblk1 (F := Ideal) (V2 m ρ) c 5 t) (iblk1 (F := Ideal) (V2 m ρ) c 6 t) (iblk1 (F := Ideal) (V2 m ρ) c 7 t) (iblk1 (F := Ideal) (V2 m ρ) c 8 t) (blocks_at m ρ c t) (k1_pay2 (F := Ideal)) n o).trans ?_
  rw [pay2_zero]
  rfl

/-- After a core's second point the output block holds what the first left plus the second head's contribution. -/
theorem outs_odd (HPV : PointValSpec) (c : Dev nD) (t : Fin cfg1.N) (h1 : ¬t.val % 2 = 0) (n : Fin 512) (o : Fin 128) :
    (outsAt1 (F := Ideal) (V2 m ρ) c t.val t.isLt : Vec Ideal S1x512x128 .f32) (ix3 (0 : Fin 1) n o)
      = (0 + ck m ρ c (hd ⟨t.val - 1, Nat.lt_of_le_of_lt (Nat.sub_le _ _) t.isLt⟩) n o) + ck m ρ c (hd t) n o := by
  refine (congrFun (outsAt1_B (F := Ideal) (V2 m ρ) c t h1) _).trans ?_
  refine (congrFun (R1.out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h1 ((hcond1_0 t).mp h)) (iblk1 (F := Ideal) (V2 m ρ) c 0 t) (iblk1 (F := Ideal) (V2 m ρ) c 1 t) (iblk1 (F := Ideal) (V2 m ρ) c 2 t) (iblk1 (F := Ideal) (V2 m ρ) c 3 t) (iblk1 (F := Ideal) (V2 m ρ) c 4 t) (iblk1 (F := Ideal) (V2 m ρ) c 5 t) (iblk1 (F := Ideal) (V2 m ρ) c 6 t) (iblk1 (F := Ideal) (V2 m ρ) c 7 t) (iblk1 (F := Ideal) (V2 m ρ) c 8 t)
    (outsAt1 (F := Ideal) (V2 m ρ) c (t.val - 1) (Nat.lt_of_le_of_lt (Nat.sub_le _ _) t.isLt))) _).trans ?_
  refine (HPV (hd t) (EMof m ρ c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (iblk1 (F := Ideal) (V2 m ρ) c 0 t) (iblk1 (F := Ideal) (V2 m ρ) c 1 t) (iblk1 (F := Ideal) (V2 m ρ) c 2 t) (iblk1 (F := Ideal) (V2 m ρ) c 3 t) (iblk1 (F := Ideal) (V2 m ρ) c 4 t) (iblk1 (F := Ideal) (V2 m ρ) c 5 t) (iblk1 (F := Ideal) (V2 m ρ) c 6 t) (iblk1 (F := Ideal) (V2 m ρ) c 7 t) (iblk1 (F := Ideal) (V2 m ρ) c 8 t) (blocks_at m ρ c t)
    (outsAt1 (F := Ideal) (V2 m ρ) c (t.val - 1) (Nat.lt_of_le_of_lt (Nat.sub_le _ _) t.isLt)) n o).trans ?_
  refine congrArg (· + _) ?_
  exact outs_even m ρ HPV c ⟨t.val - 1, Nat.lt_of_le_of_lt (Nat.sub_le _ _) t.isLt⟩ (by show (t.val - 1) % 2 = 0; omega) n o

/-! ## From the points to the output array -/

/-- The output array in closed form: entry (core, n, o) is the core's two heads' contributions added in order onto zero. -/
def G (c : Dev nD) : S2x512x128.Idx → EReal := fun i =>
  Cert.GcnSpec.partialK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (EMof m ρ c) (i 0) (i 1) (i 2)

/-- The two points that write back (the second point of each core) write the closed form's block. -/
theorem flushed_eq (HPV : PointValSpec) (c : Dev nD) (t : Fin cfg1.N) (hf : (cfg1.win 9).flush t = true) :
    (dat1 (F := Ideal) (V2 m ρ) c).flushed 9 t = ((cfg1.win 9).blk t).view.read (Elt Ideal) (G m ρ c) := by
  have h1 : t.val % 2 = 1 := (flush1_9 t).mp hf
  have hN : t.val < 4 := lt_of_lt_of_eq t.isLt (show cfg1.N = 4 from N_1)
  obtain ⟨e0, e1, e2⟩ := idx9 t
  show (cfg1.win 9).cut (grid1.coords t) ((dat1 (F := Ideal) (V2 m ρ) c).after 9 t) = _
  rw [after1_9]
  funext j
  obtain ⟨z, n, o, rfl⟩ : ∃ (z : Fin 1) (n : Fin 512) (o : Fin 128), j = ix3 z n o := ⟨j 0, j 1, j 2, eq_ix3 j⟩
  obtain rfl : z = 0 := Subsingleton.elim _ _
  show (outsAt1 (F := Ideal) (V2 m ρ) c t.val t.isLt : Vec Ideal S1x512x128 .f32) (ix3 (0 : Fin 1) n o)
    = G m ρ c (((cfg1.win 9).blk t).view.emb (ix3 (0 : Fin 1) n o))
  have he : (((cfg1.win 9).blk t).view.emb (ix3 (0 : Fin 1) n o) : S2x512x128.Idx)
      = ix3 (⟨t.val / 2, by omega⟩ : Fin 2) n o := by
    refine funext fun a => Fin.ext ?_
    match a with
    | ⟨0, _⟩ => show win1_9.index t (0 : Fin 3) * 1 + 1 * 0 = t.val / 2; omega
    | ⟨1, _⟩ => show win1_9.index t (1 : Fin 3) * 512 + 1 * n.val = n.val; omega
    | ⟨2, _⟩ => show win1_9.index t (2 : Fin 3) * 128 + 1 * o.val = o.val; omega
  rw [he, outs_odd m ρ HPV c t (by omega) n o]
  have ha : hd ⟨t.val - 1, Nat.lt_of_le_of_lt (Nat.sub_le _ _) t.isLt⟩ = (⟨2 * (t.val / 2), by omega⟩ : Fin 4) :=
    Fin.ext (by show t.val - 1 = 2 * (t.val / 2); omega)
  have hb : hd t = (⟨2 * (t.val / 2) + 1, by omega⟩ : Fin 4) := Fin.ext (by show t.val = 2 * (t.val / 2) + 1; omega)
  rw [ha, hb]
  rfl

/-- Every entry of the output array lies in the block its core's second point writes back. -/
theorem cover (c : Dev nD) (i : S2x512x128.Idx) :
    ∃ t : Fin cfg1.N, (cfg1.win 9).flush t = true ∧ i ∈ ((cfg1.win 9).blk t).view.set := by
  have h0 : (i 0).val < 2 := (i 0).isLt
  have h1 : (i 1).val < 512 := (i 1).isLt
  have h2 : (i 2).val < 128 := (i 2).isLt
  have hlt : 2 * (i 0).val + 1 < cfg1.N := by rw [show cfg1.N = 4 from N_1]; omega
  obtain ⟨e0, e1, e2⟩ := idx9 ⟨2 * (i 0).val + 1, hlt⟩
  refine ⟨⟨2 * (i 0).val + 1, hlt⟩, (flush1_9 _).mpr (by show (2 * (i 0).val + 1) % 2 = 1; omega), ?_⟩
  show i ∈ ((View.whole main_v3).slice (win1_9.rect ⟨2 * (i 0).val + 1, hlt⟩)).set
  rw [View.set_slice_whole, Rect.mem_set_unit]
  intro a
  match a with
  | ⟨0, _⟩ =>
    show win1_9.index ⟨2 * (i 0).val + 1, hlt⟩ (0 : Fin 3) * 1 ≤ (i 0).val
      ∧ (i 0).val < win1_9.index ⟨2 * (i 0).val + 1, hlt⟩ (0 : Fin 3) * 1 + 1
    rw [e0]; show (2 * (i 0).val + 1) / 2 * 1 ≤ (i 0).val ∧ (i 0).val < (2 * (i 0).val + 1) / 2 * 1 + 1; omega
  | ⟨1, _⟩ =>
    show win1_9.index ⟨2 * (i 0).val + 1, hlt⟩ (1 : Fin 3) * 512 ≤ (i 1).val
      ∧ (i 1).val < win1_9.index ⟨2 * (i 0).val + 1, hlt⟩ (1 : Fin 3) * 512 + 512
    rw [e1]; omega
  | ⟨2, _⟩ =>
    show win1_9.index ⟨2 * (i 0).val + 1, hlt⟩ (2 : Fin 3) * 128 ≤ (i 2).val
      ∧ (i 2).val < win1_9.index ⟨2 * (i 0).val + 1, hlt⟩ (2 : Fin 3) * 128 + 128
    rw [e2]; omega

end Points

/-- The second region's output array ends holding, at (core, n, o), the core's partial output. -/
theorem final1 (HPV : PointValSpec) (m : (ℓ : Loc nD τ sig) → Buf (Elt Ideal) ℓ) (ρ : Dev nD → PrngReg) (c : Dev nD) :
    ((dat1 (F := Ideal) (V2 m ρ) c).arrAt 9 cfg1.N : S2x512x128.Idx → EReal)
      = fun i => Cert.GcnSpec.partialK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (fun n d => (V2 m ρ c main_v0 : S512x128.Idx → EReal) (ix2 n d)) (i 0) (i 1) (i 2) :=
  (dat1 (F := Ideal) (V2 m ρ) c).arrAt_eq_of_cover 9 (G m ρ c) (fun t hf => flushed_eq m ρ HPV c t hf) (cover c)

end Cert.KernelIdeal.R1Final

end
-- ==== Proof.EdgeMeanCases.lean ====
/-
  The edge-mean kernel's body, read as values. At a grid point the body leaves in the output block either the payload
  of the block as it stood and the input block (every point but the first of a row block), or the payload of the zero
  block and the input block (the first point of a row block, where the body stores zeros before it accumulates).
-/
import proofs.«145371_j38732015075674_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.EdgeMean

open Cert.KernelIdeal Cert.KernelIdeal.Gen

variable {F : FTy → Type} [FloatOps F]

/-- The zero offsets of a rank-2 and of a rank-3 rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first point of a row block the body leaves, in the output block holding `xo`, the payload of
    `xo` and the input block `x`: one store covers the block, and its loads read the whole buffers. -/
theorem out_B (c : Dev nD) (i : grid0.Coords) (a1 : Memref sig .tc .vmem S128x128x128 .f32) (h1 : a1.IsWhole)
    (a2 : Memref sig .tc .vmem S128x128 .f32) (h2 : a2.IsWhole) (hc : ¬cond0_0 i)
    (x : Vec F S128x128x128 .f32) (xo : Vec F S128x128 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  rw [View.canon_unit_zero hz2]
  simp only [View.readAt_eq_ld, h1.read_unread, h2.read_unread, View.ld_unit_zero (S := S128x128) hz2,
    View.ld_unit_zero (S := S128x128x128) hz3]

/-- At the first point of a row block the body first stores the zero block, reads it back, and leaves the payload of
    the zero block and the input block `x`: the last store covers the block, and the block it adds onto is the zero
    block the first store left. -/
theorem out_A (c : Dev nD) (i : grid0.Coords) (a1 : Memref sig .tc .vmem S128x128x128 .f32) (h1 : a1.IsWhole)
    (a2 : Memref sig .tc .vmem S128x128 .f32) (h2 : a2.IsWhole) (hc : cond0_0 i)
    (x : Vec F S128x128x128 .f32) :
    out0_A_1 c i a1 h1 a2 h2 hc x = k0_pay2 k0_pay1 x := by
  unfold out0_A_1
  rw [View.read_writes_eq_canon _ _ _ (cover0_A_1 c i a1 h1 a2 h2 hc x)]
  unfold kernelRun0_A
  dsimp only
  sl_unfold_words
  rw [View.canon_cons_unit_zero (S := S128x128) hz2, View.readCov_unit_zero (S := S128x128) _ hz2]
  simp only [View.readAt_eq_ld, h1.read_unread, View.ld_unit_zero (S := S128x128x128) hz3]

end Cert.KernelIdeal.EdgeMean

end
-- ==== Proof.EdgeMean.lean ====
/-
  The edge-mean call of the kernel, read as a value: after the run its output array holds, at row `r` and feature
  `d`, the kernel's arrangement of the edge mean — the four sums over blocks of 128 neighbours of the input array's
  row `r`, each scaled by the binary value 2^-9 and added in order onto zero.

  The grid is 4 x 4: point `t` works on row block `t / 4` and neighbour block `t % 4`. Its input block is the
  (128, 128, 128) block `(t / 4, t % 4, 0)` of the input array; its output block is the (128, 128) block `(t / 4, 0)`
  of the output array, kept across the four points of a row block and written back at the last. At a point the body
  stores zeros first where `t % 4 = 0`, then adds onto the block, at `(p, d)`, the sum over the middle axis of the
  input block times 2^-9. So after point `t` the block holds at `(p, d)` the running mean of row `128 (t / 4) + p`
  over the neighbour blocks `0 … t % 4` (by induction on the point), at a flushing point that is the whole mean, and
  the flushed blocks tile the array.
-/
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.PureOps.Ideal.Laws
import Idealize.ShloMosaic.Lib.Tactic
import proofs.«145371_j38732015075674_2_alg».proof.Proof.EdgeMeanCases

noncomputable section

open Idealize.ShloMosaic Idealize.ShloMosaic.TcCoe Idealize.SL.Sem Idealize.ShloMosaic.ValueIdx
open Idealize.ShloMosaic.Pipeline (Dat)
open scoped BigOperators

namespace Cert.KernelIdeal.EdgeMean

open Cert.KernelIdeal Cert.KernelIdeal.Gen

/-! ## The payloads at an index -/

/-- The binary zero is the extended real zero; the zero block at an index. -/
theorem pay1_apply (i : S128x128.Idx) : (k0_pay1 (F := Ideal) : S128x128.Idx → EReal) i = 0 := by
  unfold k0_pay1
  show Ideal.ofBits .f32 0x00000000#32 = 0
  exact Ideal.ofBits_zero_f32

/-- The sum over the middle axis, read at `(p, d)`: the sum over `j` of the block at `(p, j, d)`. -/
theorem laneSum_apply (x : Vec Ideal S128x128x128 .f32) (hacc : (0x00000000#32 : BitVec 32) = 0x00000000#32) (p d : Fin 128) :
    (multiReduction (F := Ideal) .add [1] S128x128 x 0x00000000#32 reduces_S128x128x128_S128x128 (.inl rfl) hacc : S128x128.Idx → EReal) (ix2 p d)
      = ∑ j : Fin 128, (x : S128x128x128.Idx → EReal) (ix3 p j d) := by
  refine (Ideal.multiReduction_add_single x 0x00000000#32 reduces_S128x128x128_S128x128 (.inl rfl) hacc (ix2 p d)).trans ?_
  show (∑ k : Fin 128, (x : S128x128x128.Idx → EReal) (reduces_S128x128x128_S128x128.lift (ix2 p d) k)) = _
  refine Finset.sum_congr rfl fun k _ => congrArg x ?_
  funext a
  match a with
  | ⟨0, _⟩ => rfl
  | ⟨1, _⟩ => rfl
  | ⟨2, _⟩ => rfl

/-- The accumulating payload at `(p, d)`: the block as it stood there, plus the sum over the middle axis of the input
    block times the binary value 2^-9. -/
theorem pay2_apply (xo : Vec Ideal S128x128 .f32) (x : Vec Ideal S128x128x128 .f32) (p d : Fin 128) :
    (k0_pay2 (F := Ideal) xo x : S128x128.Idx → EReal) (ix2 p d)
      = (xo : S128x128.Idx → EReal) (ix2 p d) + (∑ j : Fin 128, (x : S128x128x128.Idx → EReal) (ix3 p j d)) * Cert.GcnSpec.scale := by
  unfold k0_pay2
  show (shapeCast S128x128 xo shapeCasts_S128x128_S128x128 : S128x128.Idx → EReal) (ix2 p d)
      + (multiReduction (F := Ideal) .add [1] S128x128 x 0x00000000#32 reduces_S128x128x128_S128x128 (.inl rfl) rfl : S128x128.Idx → EReal) (ix2 p d)
        * Ideal.ofBits .f32 0x3B000000#32 = _
  rw [shapeCast_self]
  exact congrArg (fun z => (xo : S128x128.Idx → EReal) (ix2 p d) + z * Cert.GcnSpec.scale) (laneSum_apply x rfl p d)

/-- The printed index maps of the two windows, decided once over the grid: the input block at point `t` is block
    `(t / 4, t % 4, 0)`, the output block is block `(t / 4, 0)`. -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 2) = t.val / 4 ∧ win0_1.index t (1 : Fin 2) = 0 :=
  (by decide +kernel : ∀ t : Fin grid0.N, _)

section Blocks
variable (V : (c : Dev nD) → (b : Ref sig .tc) → Buf (Elt Ideal) ((c : Thread nD τ).loc b))

/-- The input block at point `t`, read at `(p, j, d)`: the array at row `128 (t / 4) + p`, neighbour `128 (t % 4) + j`,
    feature `d`. -/
theorem iblk_apply (c : Dev nD) (t : Fin cfg0.N) (p j d : Fin 128) (r : Fin 512) (q : Fin 512)
    (hr : r.val = 128 * (t.val / 4) + p.val) (hq : q.val = 128 * (t.val % 4) + j.val) :
    (iblk0 V c 0 t : S128x128x128.Idx → EReal) (ix3 p j d) = (V c main_arg1 : S512x512x128.Idx → EReal) (ix3 r q d) := by
  obtain ⟨e0, e1, e2, -, -⟩ := idx_facts t
  unfold iblk0
  rw [View.read_apply]
  show V c main_arg1 _ = V c main_arg1 _
  congr 1
  funext a
  apply Fin.ext
  match a with
  | ⟨0, _⟩ => show win0_0.index t (0 : Fin 3) * 128 + 1 * p.val = r.val; rw [e0, hr]; omega
  | ⟨1, _⟩ => show win0_0.index t (1 : Fin 3) * 128 + 1 * j.val = q.val; rw [e1, hq]; omega
  | ⟨2, _⟩ => show win0_0.index t (2 : Fin 3) * 128 + 1 * d.val = d.val; rw [e2]; omega

end Blocks

/-! ## The running mean over the blocks of neighbours -/

/-- The edge mean after the first `k + 1` blocks of neighbours: the scaled block sums added in order onto zero. -/
def partialMean (E : Cert.GcnSpec.A3 512 512 128) (r : Fin 512) (d : Fin 128) : Nat → EReal
  | 0 => 0 + Cert.GcnSpec.blockSum E r ⟨0, by omega⟩ d * Cert.GcnSpec.scale
  | k + 1 => partialMean E r d k + Cert.GcnSpec.blockSum E r ⟨(k + 1) % 4, Nat.mod_lt _ (by omega)⟩ d * Cert.GcnSpec.scale

/-- After all four blocks it is the edge mean. -/
theorem partialMean_three (E : Cert.GcnSpec.A3 512 512 128) (r : Fin 512) (d : Fin 128) :
    partialMean E r d 3 = Cert.GcnSpec.emK E r d := rfl

section Chain
variable (V : (c : Dev nD) → (b : Ref sig .tc) → Buf (Elt Ideal) ((c : Thread nD τ).loc b))

/-- The input block at point `t`, as a vector of the block's literal shape. -/
abbrev blockAt (c : Dev nD) (t : Fin cfg0.N) : Vec Ideal S128x128x128 .f32 := iblk0 V c 0 t

/-- The sum over the middle axis of the input block at point `t`, at `(p, d)`, is the block sum of the array at row
    `128 (t / 4) + p` over the block `t % 4` of neighbours. -/
theorem blockSum_eq (c : Dev nD) (t : Fin cfg0.N) (p d : Fin 128) (r : Fin 512) (hr : r.val = 128 * (t.val / 4) + p.val)
    (b : Fin 4) (hb : b.val = t.val % 4) :
    (∑ j : Fin 128, (blockAt V c t : S128x128x128.Idx → EReal) (ix3 p j d))
      = Cert.GcnSpec.blockSum (V c main_arg1 : S512x512x128.Idx → EReal) r b d := by
  unfold Cert.GcnSpec.blockSum
  refine Finset.sum_congr rfl fun j _ => ?_
  exact iblk_apply V c t p j d r _ hr (by show 128 * b.val + j.val = _; rw [hb])

/-- What the output block holds after the body at point `n`, at `(p, d)`: the running mean of row `128 (n / 4) + p`
    after the blocks `0 … n % 4` of neighbours. By induction on the point: the first point of a row block starts from
    the zero block, every other point adds onto what the point before left. -/
theorem outsAt_apply (c : Dev nD) : ∀ (n : ℕ) (h : n < cfg0.N) (p d : Fin 128) (r : Fin 512)
    (hr : r.val = 128 * (n / 4) + p.val),
    (outsAt0 V c n h : S128x128.Idx → EReal) (ix2 p d)
      = partialMean (V c main_arg1 : S512x512x128.Idx → EReal) r d (n % 4) := by
  intro n
  induction n with
  | zero =>
    intro h p d r hr
    rw [outsAt0_A V c ⟨0, h⟩ rfl, out_A]
    refine (pay2_apply (k0_pay1 (F := Ideal)) (blockAt V c ⟨0, h⟩) p d).trans ?_
    rw [pay1_apply, blockSum_eq V c ⟨0, h⟩ p d r hr ⟨0, by omega⟩ rfl]
    rfl
  | succ k ih =>
    intro h p d r hr
    by_cases h0 : (k + 1) % 4 = 0
    · rw [outsAt0_A V c ⟨k + 1, h⟩ h0, out_A]
      refine (pay2_apply (k0_pay1 (F := Ideal)) (blockAt V c ⟨k + 1, h⟩) p d).trans ?_
      rw [pay1_apply, blockSum_eq V c ⟨k + 1, h⟩ p d r hr ⟨0, by omega⟩ h0.symm, h0]
      rfl
    · rw [outsAt0_B V c ⟨k + 1, h⟩ h0, out_B]
      refine (pay2_apply (outsAt0 V c k (Nat.lt_of_succ_lt h)) (blockAt V c ⟨k + 1, h⟩) p d).trans ?_
      have hk : (k + 1) / 4 = k / 4 := by omega
      have hm : (k + 1) % 4 = k % 4 + 1 := by omega
      rw [ih (Nat.lt_of_succ_lt h) p d r (by rw [hr, hk]),
        blockSum_eq V c ⟨k + 1, h⟩ p d r hr ⟨(k % 4 + 1) % 4, Nat.mod_lt _ (by omega)⟩ (by show (k % 4 + 1) % 4 = (k + 1) % 4; omega), hm]
      rfl

/-- What the output array ends holding: the edge mean of the input array, row by row. -/
def result (c : Dev nD) : S512x128.Idx → EReal :=
  fun i => Cert.GcnSpec.emK (V c main_arg1 : S512x512x128.Idx → EReal) (i 0) (i 1)

/-- What a flushing point writes back is its block of the edge mean: the point is the last of its row block, so the
    running mean there is the whole mean, and the block's row `p` is the array's row `128 (t / 4) + p`. -/
theorem flushed_eq (c : Dev nD) (t : Fin cfg0.N) (hf : (cfg0.win 1).flush t = true) :
    (dat0 V c).flushed 1 t = ((cfg0.win 1).blk t).view.read (Elt Ideal) (result V c) := by
  have hN : t.val < 16 := lt_of_lt_of_eq t.isLt (show cfg0.N = 16 from N_0)
  have h3 : t.val % 4 = 3 := (flush0_1 t).mp hf
  obtain ⟨-, -, -, e3, e4⟩ := idx_facts t
  show (cfg0.win 1).cut (grid0.coords t) ((dat0 V c).after 1 t) = _
  rw [after0_1]
  show (outsAt0 V c t.val t.isLt : S128x128.Idx → EReal)
    = fun y : S128x128.Idx => result V c (((cfg0.win 1).blk t).view.emb y)
  funext y
  obtain ⟨p, d, rfl⟩ : ∃ p d : Fin 128, y = ix2 p d := ⟨y 0, y 1, eq_ix2 y⟩
  have hr : 128 * (t.val / 4) + p.val < 512 := by have := p.isLt; omega
  refine (outsAt_apply V c t.val t.isLt p d ⟨128 * (t.val / 4) + p.val, hr⟩ rfl).trans ?_
  rw [h3, partialMean_three]
  show Cert.GcnSpec.emK _ _ _ = Cert.GcnSpec.emK _ _ _
  congr 1
  · apply Fin.ext
    show 128 * (t.val / 4) + p.val = win0_1.index t (0 : Fin 2) * 128 + 1 * p.val
    rw [e3]; omega
  · apply Fin.ext
    show d.val = win0_1.index t (1 : Fin 2) * 128 + 1 * d.val
    rw [e4]; omega

/-- An index of the array is in point `t`'s output block iff each coordinate is in the block's range on its axis. -/
theorem mem_blk (t : Fin cfg0.N) (i : S512x128.Idx) :
    i ∈ ((cfg0.win 1).blk t).view.set ↔ ∀ a : Fin 2, win0_1.index t a * S128x128.size a ≤ (i a).val
      ∧ (i a).val < win0_1.index t a * S128x128.size a + S128x128.size a := by
  show i ∈ ((View.whole main_v0).slice (win0_1.rect t)).set ↔ _
  rw [View.set_slice_whole, Rect.mem_set_unit]
  exact Iff.rfl

/-- Every row lies in a flushed block: row `r` in the block written back at the last point of row block `r / 128`. -/
theorem cover (i : S512x128.Idx) :
    ∃ t : Fin cfg0.N, (cfg0.win 1).flush t = true ∧ i ∈ ((cfg0.win 1).blk t).view.set := by
  have hi0 : (i 0).val < 512 := (i 0).isLt
  have hi1 : (i 1).val < 128 := (i 1).isLt
  have hN : cfg0.N = 16 := N_0
  obtain ⟨t, ht⟩ : ∃ t : Fin cfg0.N, t.val = 4 * ((i 0).val / 128) + 3 := ⟨⟨_, by rw [hN]; omega⟩, rfl⟩
  obtain ⟨-, -, -, e3, e4⟩ := idx_facts t
  refine ⟨t, (flush0_1 t).mpr (by rw [ht]; omega), ?_⟩
  rw [mem_blk]
  intro a
  match a with
  | ⟨0, _⟩ =>
    show win0_1.index t (0 : Fin 2) * 128 ≤ (i 0).val ∧ (i 0).val < win0_1.index t (0 : Fin 2) * 128 + 128
    rw [e3, ht]; omega
  | ⟨1, _⟩ =>
    show win0_1.index t (1 : Fin 2) * 128 ≤ (i 1).val ∧ (i 1).val < win0_1.index t (1 : Fin 2) * 128 + 128
    rw [e4]; omega

end Chain

/-- After the run the output array of the edge-mean call holds the edge mean of the input array. -/
theorem final0 (m : (ℓ : Loc nD τ sig) → Buf (Elt Ideal) ℓ) (ρ : Dev nD → PrngReg) (c : Dev nD) :
    ((Gen.dat0 (F := Ideal) (Gen.V0 m ρ) c).arrAt 1 cfg0.N : S512x128.Idx → EReal)
      = fun i => Cert.GcnSpec.emK (m ((c.tc : Thread nD τ).loc main_arg1)) (i 0) (i 1) :=
  (dat0 (V0 m ρ) c).arrAt_eq_of_cover 1 (result (V0 m ρ) c) (flushed_eq (V0 m ρ) c) cover

end Cert.KernelIdeal.EdgeMean

end
-- ==== Proof.KValue.lean ====
import proofs.«145371_j38732015075674_2_alg».proof.Proof.Gen.KernelIdeal.Frame
import proofs.«145371_j38732015075674_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«145371_j38732015075674_2_alg».proof.Proof.KRun
import proofs.«145371_j38732015075674_2_alg».proof.Proof.Hosts
import proofs.«145371_j38732015075674_2_alg».proof.Proof.Tail
import proofs.«145371_j38732015075674_2_alg».proof.Proof.R1Value
import proofs.«145371_j38732015075674_2_alg».proof.Proof.R1Final
import proofs.«145371_j38732015075674_2_alg».proof.Proof.EdgeMean
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen
/-!
  The idealized kernel's result as a function of its arguments. The result array is the host tail (sum over the two
  cores, plus the bias) of what the graph-convolution region leaves, which is each core's two heads' contributions
  added onto zero, each computed from the head's slices and from the edge mean the first region leaves: the kernel's
  arrangement `outK` at the kernel's edge mean `emK`.
-/
open Cert.GcnSpec

/-- One grid point adds its head's contribution (the statement the region's closing part is parametrized by). -/
theorem pointVal_spec : R1Final.PointValSpec :=
  fun _ _ _ _ _ _ _ _ _ _ _ _ _ _ _ _ _ _ _ hb acc n o => R1Value.pointVal_apply hb acc n o

variable (m : (ℓ : Loc nD τ sig) → Buf (Elt Ideal) ℓ) (ρ : Dev nD → PrngReg)

/-- The edge mean as the second region finds it is the kernel's edge mean of the edge features. -/
theorem edge_mean_eq (c : Dev nD) :
    (fun (n : Fin 512) (d : Fin 128) => (Gen.V2 m ρ c main_v0 : S512x128.Idx → EReal) (ix2 n d)) = emK (m ((c.tc : Thread nD τ).loc main_arg1)) := by
  funext n d
  rw [Hosts.V2_main_v0 m ρ c, EdgeMean.final0 m ρ c]
  rfl

/-- The result array's contents after the run. -/
theorem result_eq (c : Dev nD) :
    (Gen.W4 m ρ c (Proc.devRef .tc main_v7) : S512x128.Idx → EReal)
      = fun i => outK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (emK (m ((c.tc : Thread nD τ).loc main_arg1))) (i 0) (i 1) := by
  rw [Hosts.W4_main_v7 m ρ c]
  funext i
  obtain ⟨n, o, rfl⟩ : ∃ (n : Fin 512) (o : Fin 128), i = ix2 n o := ⟨i 0, i 1, eq_ix2 i⟩
  rw [Tail.tail_apply, R1Final.final1 pointVal_spec m ρ c, edge_mean_eq m ρ c]
  rfl

/-- The run: the result array at the kernel's arrangement of the function, the arguments unchanged. -/
theorem run : θ_run defs (onTc (τ := τ) (main (F := Ideal))) ⟨m, fun _ => 0, ρ⟩ (fun r => ∀ c : Dev nD,
      r.2.mem ((c.tc : Thread nD τ).loc main_v7)
        = (fun i => outK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (emK (m ((c.tc : Thread nD τ).loc main_arg1))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (KRun.run (F := Ideal) m ρ)

end Cert.KernelIdeal.KValue

end
-- ==== Proof.Bridge.lean ====
/-
  The two arrangements of the graph-convolution stack agree, index by index, over the extended reals.

  Three facts, in the order the function is built.
  * The edge mean: the kernel adds four block sums of 128 neighbours, each times 2^-9, onto zero; the reference
    divides the sum over all 512 neighbours by 512. Every entry being a real number, both are the real number
    (b0 + b1 + b2 + b3) / 512.
  * A head: the kernel multiplies each feature piece against its own row range of a layer's weights and adds the
    products; the reference multiplies the pieces laid side by side against all the rows. A sum over 160, 192 or
    224 indices splits into the sum over the first 128 and the following blocks of 32; nothing but commutativity
    and associativity of addition on the extended reals is used.
  * The output: the sum over 512 indices of the four heads side by side against the final weights splits into
    four blocks of 128, block h being head h against its own 128 rows.
-/
import proofs.«145371_j38732015075674_2_alg».proof.Proof.Spec
import Mathlib.Algebra.BigOperators.Fin

noncomputable section

open scoped BigOperators

namespace Cert.GcnSpec

open Idealize.ShloMosaic Idealize.ShloMosaic.ValueIdx

/-! ## Splitting a sum over an initial segment of the naturals into consecutive blocks -/

/-- A sum over a + b indices is the sum over the first a plus the sum over the following b. -/
theorem sum_split (a b : Nat) (f : Fin (a + b) → EReal) :
    ∑ k : Fin (a + b), f k
      = ∑ k : Fin a, f ⟨k.val, by have := k.isLt; omega⟩ + ∑ k : Fin b, f ⟨a + k.val, by have := k.isLt; omega⟩ := by
  rw [Fin.sum_univ_add]; rfl

/-- 160 = 128 + 32. -/
theorem sum160 (f : Fin 160 → EReal) :
    ∑ k : Fin 160, f k
      = ∑ k : Fin 128, f ⟨k.val, by have := k.isLt; omega⟩
        + ∑ k : Fin 32, f ⟨128 + k.val, by have := k.isLt; omega⟩ :=
  sum_split 128 32 f

/-- 192 = 128 + 32 + 32. -/
theorem sum192 (f : Fin 192 → EReal) :
    ∑ k : Fin 192, f k
      = (∑ k : Fin 128, f ⟨k.val, by have := k.isLt; omega⟩
        + ∑ k : Fin 32, f ⟨128 + k.val, by have := k.isLt; omega⟩)
        + ∑ k : Fin 32, f ⟨160 + k.val, by have := k.isLt; omega⟩ := by
  refine (sum_split 160 32 f).trans ?_
  refine congrArg (· + _) ?_
  exact sum160 fun k => f ⟨k.val, by have := k.isLt; omega⟩

/-- 224 = 128 + 32 + 32 + 32. -/
theorem sum224 (f : Fin 224 → EReal) :
    ∑ k : Fin 224, f k
      = ((∑ k : Fin 128, f ⟨k.val, by have := k.isLt; omega⟩
        + ∑ k : Fin 32, f ⟨128 + k.val, by have := k.isLt; omega⟩)
        + ∑ k : Fin 32, f ⟨160 + k.val, by have := k.isLt; omega⟩)
        + ∑ k : Fin 32, f ⟨192 + k.val, by have := k.isLt; omega⟩ := by
  refine (sum_split 192 32 f).trans ?_
  refine congrArg (· + _) ?_
  exact sum192 fun k => f ⟨k.val, by have := k.isLt; omega⟩

/-- 512 = 4 · 128: block b holds the indices 128 b + j. -/
theorem sum512 (f : Fin 512 → EReal) :
    ∑ k : Fin 512, f k
      = ((∑ j : Fin 128, f ⟨128 * (0 : Fin 4).val + j.val, by have := j.isLt; simp; omega⟩
        + ∑ j : Fin 128, f ⟨128 * (1 : Fin 4).val + j.val, by have := j.isLt; simp; omega⟩)
        + ∑ j : Fin 128, f ⟨128 * (2 : Fin 4).val + j.val, by have := j.isLt; simp; omega⟩)
        + ∑ j : Fin 128, f ⟨128 * (3 : Fin 4).val + j.val, by have := j.isLt; simp; omega⟩ := by
  refine (sum_split 384 128 f).trans ?_
  refine congrArg₂ (· + ·) ?_ (Finset.sum_congr rfl fun j _ => congrArg f (Fin.ext rfl))
  refine (sum_split 256 128 fun k => f ⟨k.val, by have := k.isLt; omega⟩).trans ?_
  refine congrArg₂ (· + ·) ?_ (Finset.sum_congr rfl fun j _ => congrArg f (Fin.ext rfl))
  refine (sum_split 128 128 fun k => f ⟨k.val, by have := k.isLt; omega⟩).trans ?_
  exact congrArg₂ (· + ·) (Finset.sum_congr rfl fun j _ => congrArg f (Fin.ext (by simp)))
    (Finset.sum_congr rfl fun j _ => congrArg f (Fin.ext rfl))

/-! ## The edge mean -/

/-- The kernel's scale is the real number 1/512. -/
theorem scale_eq : scale = (((1 : ℝ) / 512 : ℝ) : EReal) := by
  unfold scale
  simp [Ideal.ofBits, Ideal.ieee, -EReal.coe_mul]; norm_num

/-- The reference's divisor is the real number 512. -/
theorem ofBits_512 : Ideal.ofBits .f32 0x44000000#32 = ((512 : ℝ) : EReal) := by
  simp [Ideal.ofBits, Ideal.ieee, -EReal.coe_mul]; norm_num

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum over all 512 neighbours is the four block sums added in order. -/
theorem sum_blocks (E : A3 512 512 128) (n : Fin 512) (d : Fin 128) :
    ∑ j : Fin 512, E (ix3 n j d)
      = ((blockSum E n 0 d + blockSum E n 1 d) + blockSum E n 2 d) + blockSum E n 3 d :=
  sum512 fun j => E (ix3 n j d)

/-- A block sum of real entries is a real number. -/
theorem blockSum_real (E : A3 512 512 128) (e : (⟨3, ![512, 512, 128]⟩ : Shape).Idx → ℝ)
    (he : ∀ i, E i = (e i : EReal)) (n : Fin 512) (b : Fin 4) (d : Fin 128) :
    ∃ r : ℝ, blockSum E n b d = (r : EReal) := by
  refine ⟨∑ j : Fin 128, e (ix3 n (⟨128 * b.val + j.val, by have := b.isLt; have := j.isLt; omega⟩ : Fin 512) d), ?_⟩
  unfold blockSum
  rw [coe_sum]
  exact Finset.sum_congr rfl fun j _ => he _

theorem emK_eq_emR (E : A3 512 512 128) (hE : ∀ i, ∃ r : ℝ, E i = (r : EReal)) : emK E = emR E := by
  choose e he using hE
  funext n d
  unfold emK emR
  rw [sum_blocks, scale_eq, ofBits_512, Ideal.div_coe (by norm_num : (512 : ℝ) ≠ 0)]
  obtain ⟨b0, h0⟩ := blockSum_real E e he n 0 d
  obtain ⟨b1, h1⟩ := blockSum_real E e he n 1 d
  obtain ⟨b2, h2⟩ := blockSum_real E e he n 2 d
  obtain ⟨b3, h3⟩ := blockSum_real E e he n 3 d
  rw [h0, h1, h2, h3, zero_add, zero_add]
  simp only [← EReal.coe_mul, ← EReal.coe_add]
  congr 1
  ring

/-! ## One head -/

section Head
variable (EM : Mat 128) (X : A2 512 128) (Adj : A3 4 512 512) (We : A4 4 4 128 32)
  (W0 : A3 4 128 32) (W1 : A3 4 160 32) (W2 : A3 4 192 32) (W3 : A3 4 224 32) (h : Fin 4)

theorem cat1_lo (g0 : Mat 32) (j : Fin 512) (k : Fin 128) :
    cat1 X g0 j ⟨k.val, by have := k.isLt; omega⟩ = X (ix2 j k) := by
  unfold cat1; rw [dif_pos k.isLt]
theorem cat1_hi (g0 : Mat 32) (j : Fin 512) (k : Fin 32) :
    cat1 X g0 j ⟨128 + k.val, by have := k.isLt; omega⟩ = g0 j k := by
  unfold cat1; rw [dif_neg (by simp)]; exact congrArg (g0 j) (Fin.ext (by simp))

theorem cat2_lo (g0 g1 : Mat 32) (j : Fin 512) (k : Fin 128) :
    cat2 X g0 g1 j ⟨k.val, by have := k.isLt; omega⟩ = X (ix2 j k) := by
  unfold cat2; rw [dif_pos k.isLt]
theorem cat2_mid (g0 g1 : Mat 32) (j : Fin 512) (k : Fin 32) :
    cat2 X g0 g1 j ⟨128 + k.val, by have := k.isLt; omega⟩ = g0 j k := by
  unfold cat2
  rw [dif_neg (by simp), dif_pos (by have := k.isLt; simp; omega)]
  exact congrArg (g0 j) (Fin.ext (by simp))
theorem cat2_hi (g0 g1 : Mat 32) (j : Fin 512) (k : Fin 32) :
    cat2 X g0 g1 j ⟨160 + k.val, by have := k.isLt; omega⟩ = g1 j k := by
  unfold cat2
  rw [dif_neg (by simp; omega), dif_neg (by simp)]
  exact congrArg (g1 j) (Fin.ext (by simp))

theorem cat3_lo (g0 g1 g2 : Mat 32) (j : Fin 512) (k : Fin 128) :
    cat3 X g0 g1 g2 j ⟨k.val, by have := k.isLt; omega⟩ = X (ix2 j k) := by
  unfold cat3; rw [dif_pos k.isLt]
theorem cat3_a (g0 g1 g2 : Mat 32) (j : Fin 512) (k : Fin 32) :
    cat3 X g0 g1 g2 j ⟨128 + k.val, by have := k.isLt; omega⟩ = g0 j k := by
  unfold cat3
  rw [dif_neg (by simp), dif_pos (by have := k.isLt; simp; omega)]
  exact congrArg (g0 j) (Fin.ext (by simp))
theorem cat3_b (g0 g1 g2 : Mat 32) (j : Fin 512) (k : Fin 32) :
    cat3 X g0 g1 g2 j ⟨160 + k.val, by have := k.isLt; omega⟩ = g1 j k := by
  unfold cat3
  rw [dif_neg (by simp; omega), dif_neg (by simp), dif_pos (by have := k.isLt; simp; omega)]
  exact congrArg (g1 j) (Fin.ext (by simp))
theorem cat3_c (g0 g1 g2 : Mat 32) (j : Fin 512) (k : Fin 32) :
    cat3 X g0 g1 g2 j ⟨192 + k.val, by have := k.isLt; omega⟩ = g2 j k := by
  unfold cat3
  rw [dif_neg (by simp; omega), dif_neg (by simp; omega), dif_neg (by simp)]
  exact congrArg (g2 j) (Fin.ext (by simp))

/-- Layer 1's projection: the product against the 160 rows is the sum of the two pieces' products. -/
theorem proj1_eq (g0 : Mat 32) (j : Fin 512) (q : Fin 32) :
    ∑ k : Fin 160, cat1 X g0 j k * W1 (ix3 h k q)
      = projX (by omega) X W1 h j q + projG 128 (by omega) g0 W1 h j q := by
  rw [sum160]
  simp only [cat1_lo, cat1_hi]
  rfl

/-- Layer 2's projection: the product against the 192 rows is the sum of the three pieces' products. -/
theorem proj2_eq (g0 g1 : Mat 32) (j : Fin 512) (q : Fin 32) :
    ∑ k : Fin 192, cat2 X g0 g1 j k * W2 (ix3 h k q)
      = (projX (by omega) X W2 h j q + projG 128 (by omega) g0 W2 h j q)
        + projG 160 (by omega) g1 W2 h j q := by
  rw [sum192]
  simp only [cat2_lo, cat2_mid, cat2_hi]
  rfl

/-- Layer 3's projection: the product against the 224 rows is the sum of the four pieces' products. -/
theorem proj3_eq (g0 g1 g2 : Mat 32) (j : Fin 512) (q : Fin 32) :
    ∑ k : Fin 224, cat3 X g0 g1 g2 j k * W3 (ix3 h k q)
      = ((projX (by omega) X W3 h j q + projG 128 (by omega) g0 W3 h j q)
        + projG 160 (by omega) g1 W3 h j q) + projG 192 (by omega) g2 W3 h j q := by
  rw [sum224]
  simp only [cat3_lo, cat3_a, cat3_b, cat3_c]
  rfl

theorem g0K_eq_g0R : g0K EM X Adj We W0 h = g0R EM X Adj We W0 h := rfl

theorem g1K_eq_g1R : g1K EM X Adj We W0 W1 h = g1R EM X Adj We W0 W1 h := by
  unfold g1K g1R
  rw [g0K_eq_g0R]
  exact congrArg (layer Adj h (eterm EM We h 1)) (funext fun j => funext fun q => (proj1_eq X W1 h _ j q).symm)

theorem g2K_eq_g2R : g2K EM X Adj We W0 W1 W2 h = g2R EM X Adj We W0 W1 W2 h := by
  unfold g2K g2R
  rw [g0K_eq_g0R, g1K_eq_g1R]
  exact congrArg (layer Adj h (eterm EM We h 2)) (funext fun j => funext fun q => (proj2_eq X W2 h _ _ j q).symm)

theorem g3K_eq_g3R : g3K EM X Adj We W0 W1 W2 W3 h = g3R EM X Adj We W0 W1 W2 W3 h := by
  unfold g3K g3R
  rw [g0K_eq_g0R, g1K_eq_g1R, g2K_eq_g2R]
  exact congrArg (layer Adj h (eterm EM We h 3)) (funext fun j => funext fun q => (proj3_eq X W3 h _ _ _ j q).symm)

end Head

theorem headK_eq_headR (EM : Mat 128) (X : A2 512 128) (Adj : A3 4 512 512) (We : A4 4 4 128 32)
    (W0 : A3 4 128 32) (W1 : A3 4 160 32) (W2 : A3 4 192 32) (W3 : A3 4 224 32) (h : Fin 4) :
    headK EM X Adj We W0 W1 W2 W3 h = headR EM X Adj We W0 W1 W2 W3 h := by
  unfold headK headR
  rw [g0K_eq_g0R, g1K_eq_g1R, g2K_eq_g2R, g3K_eq_g3R]

/-! ## The whole function -/

/-- Index 128 b + c of the four heads side by side is head b at c. -/
theorem catHeads_blk (hf : Fin 4 → Mat 128) (n : Fin 512) (b : Fin 4) (c : Fin 128) :
    catHeads hf n ⟨128 * b.val + c.val, by have := b.isLt; have := c.isLt; omega⟩ = hf b n c := by
  unfold catHeads
  have hb : (⟨(128 * b.val + c.val) / 128, by have := b.isLt; have := c.isLt; omega⟩ : Fin 4) = b :=
    Fin.ext (by have := c.isLt; show (128 * b.val + c.val) / 128 = b.val; omega)
  have hc : (⟨(128 * b.val + c.val) % 128, Nat.mod_lt _ (by omega)⟩ : Fin 128) = c :=
    Fin.ext (by have := c.isLt; show (128 * b.val + c.val) % 128 = c.val; omega)
  rw [hb, hc]

theorem outK_eq_outR (X : A2 512 128) (Adj : A3 4 512 512) (We : A4 4 4 128 32) (W0 : A3 4 128 32)
    (W1 : A3 4 160 32) (W2 : A3 4 192 32) (W3 : A3 4 224 32) (Wl : A2 512 128) (B : A1 128) (EM : Mat 128) :
    outK X Adj We W0 W1 W2 W3 Wl B EM = outR X Adj We W0 W1 W2 W3 Wl B EM := by
  funext n o
  unfold outK outR partialK contribK
  rw [sum512]
  simp only [catHeads_blk, headK_eq_headR, zero_add, add_assoc]
  rfl

end Cert.GcnSpec

end
-- ==== Proof.Finite.lean ====
/-
  From the precondition to "every entry of the edge-feature array is a real number".

  The precondition says that, on every device, the conjunction over the ten argument arrays of
  "every entry has absolute value below +∞" is true. Its second conjunct, read at one index of the
  edge-feature array, says max x (-x) < +∞ for the entry x; of the three kinds of extended real only
  a real number satisfies that, since max ⊥ (-⊥) = max ⊤ (-⊤) = ⊤.
-/
import proofs.«145371_j38732015075674_2_alg».proof.Defs
import proofs.«145371_j38732015075674_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Finite

open Idealize.ShloMosaic Idealize.ShloMosaic.ValueIdx Idealize.SL.Sem

/-- The binary word 0x7F800000 is +∞. -/
theorem ofBits_inf : Ideal.ofBits .f32 0x7F800000#32 = (⊤ : EReal) := by
  simp [Ideal.ofBits, Ideal.ieee]

/-- An extended real whose absolute value, max x (-x), is below +∞ is a real number. -/
theorem real_of_abs_lt (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

theorem edge_finite (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (i : Cert.KernelIdeal.S512x512x128.Idx) :
    ∃ r : ℝ, m ((c.tc : Thread Cert.KernelIdeal.nD Cert.KernelIdeal.τ).loc Cert.KernelIdeal.main_arg1) i = (r : EReal) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2] at h
  -- the conjunction of ten, nested to the left: the edge-feature array's conjunct is the second of the innermost pair
  have h9 := (IntOp.andi_eq_one.1 h).1
  have h8 := (IntOp.andi_eq_one.1 h9).1
  have h7 := (IntOp.andi_eq_one.1 h8).1
  have h6 := (IntOp.andi_eq_one.1 h7).1
  have h5 := (IntOp.andi_eq_one.1 h6).1
  have h4 := (IntOp.andi_eq_one.1 h5).1
  have h3 := (IntOp.andi_eq_one.1 h4).1
  have h2 := (IntOp.andi_eq_one.1 h3).1
  have h1 := (IntOp.andi_eq_one.1 h2).2
  exact real_of_abs_lt _ (Host.reduce_andi_all _ _ _ _ _ h1 i)

end Cert.KernelIdeal.Finite

end
-- ==== Proof.RefOps.lean ====
/-
  The reference program's straight line of 282 host operations, cut where its mathematics cuts: the edge mean
  (5 operations), one block per attention head (68 operations each, ending at the head's features), and the final
  linear map with its bias (5 operations). The program is the blocks run in order; what a buffer holds after two
  blocks is what the second leaves of what the first left.
-/
import proofs.«145371_j38732015075674_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edge mean: the sum over the neighbour axis, divided by 512. -/
abbrev c0 : List (HloOp τ sig (Elt F)) :=
  [ nullary main_cst (constant S_ .f32 0x00000000#32),
    binary main_arg1 main_cst main_v0 ((fun x v => Host.reduceAdd x v reducesTo_S512x512x128_S512x128_d1 h_S_) : (⟨S512x512x128, .f32⟩ : BufTy).Contents (Elt F) → (⟨S_, .f32⟩ : BufTy).Contents (Elt F) → (⟨S512x128, .f32⟩ : BufTy).Contents (Elt F)),
    nullary main_cst_0 (constant S_ .f32 0x44000000#32),
    unary main_cst_0 main_v1 (broadcastInDim S512x128 ![] bcast_S_S512x128 : (⟨S_, .f32⟩ : BufTy).Contents (Elt F) → (⟨S512x128, .f32⟩ : BufTy).Contents (Elt F)),
    binary main_v0 main_v1 main_v2 (Host.divf : (⟨S512x128, .f32⟩ : BufTy).Contents (Elt F) → (⟨S512x128, .f32⟩ : BufTy).Contents (Elt F) → (⟨S512x128, .f32⟩ : BufTy).Contents (Elt F)) ]

/-- Head 0: degree, guarded denominator, four layers, their concatenation plus the node features. -/
abbrev h0 : List (HloOp τ sig (Elt F)) :=
  [ unary main_arg2 main_v3 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v3 main_v4 rfl shapeCasts_S1x512x512_S512x512,
    nullary main_cst_1 (constant S_ .f32 0x00000000#32),
    binary main_v4 main_cst_1 main_v5 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_2 (constant S_ .f32 0x00000000#32),
    unary main_cst_2 main_v6 (broadcastInDim S512 ![] bcast_S_S512 : (⟨S_, .f32⟩ : BufTy).Contents (Elt F) → (⟨S512, .f32⟩ : BufTy).Contents (Elt F)),
    binary main_v5 main_v6 main_v7 (cmpf .oeq : (⟨S512, .f32⟩ : BufTy).Contents (Elt F) → (⟨S512, .f32⟩ : BufTy).Contents (Elt F) → (⟨S512, .i1⟩ : BufTy).Contents (Elt F)),
    unary main_v7 main_v8 (uitofp .f32 : (⟨S512, .i1⟩ : BufTy).Contents (Elt F) → (⟨S512, .f32⟩ : BufTy).Contents (Elt F)),
    binary main_v5 main_v8 main_v9 (addf : (⟨S512, .f32⟩ : BufTy).Contents (Elt F) → (⟨S512, .f32⟩ : BufTy).Contents (Elt F) → (⟨S512, .f32⟩ : BufTy).Contents (Elt F)),
    unary main_v9 main_v10 (broadcastInDim S512x1 ![0] bcast_S512_S512x1_0 : (⟨S512, .f32⟩ : BufTy).Contents (Elt F) → (⟨S512x1, .f32⟩ : BufTy).Contents (Elt F)),
    unary main_arg3 main_v11 ((extractStridedSlice S1x1x128x32 ![0, 0, 0, 0] · slices_S4x4x128x32_S1x1x128x32_0_0_0_0) : (⟨S4x4x128x32, .f32⟩ : BufTy).Contents (Elt F) → (⟨S1x1x128x32, .f32⟩ : BufTy).Contents (Elt F)),
    reshape main_v11 main_v12 rfl shapeCasts_S1x1x128x32_S128x32,
    binary main_v2 main_v12 main_v13 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v14 ((extractStridedSlice S1x128x32 ![0, 0, 0] · slices_S4x128x32_S1x128x32_0_0_0) : (⟨S4x128x32, .f32⟩ : BufTy).Contents (Elt F) → (⟨S1x128x32, .f32⟩ : BufTy).Contents (Elt F)),
    reshape main_v14 main_v15 rfl shapeCasts_S1x128x32_S128x32,
    binary main_arg0 main_v15 main_v16 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v4 main_v16 main_v17 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v13 main_v17 main_v18 (addf : (⟨S512x32, .f32⟩ : BufTy).Contents (Elt F) → (⟨S512x32, .f32⟩ : BufTy).Contents (Elt F) → (⟨S512x32, .f32⟩ : BufTy).Contents (Elt F)),
    unary main_v10 main_v19 (broadcastInDim S512x32 ![0, 1] bcast_S512x1_S512x32_0_1 : (⟨S512x1, .f32⟩ : BufTy).Contents (Elt F) → (⟨S512x32, .f32⟩ : BufTy).Contents (Elt F)),
    binary main_v18 main_v19 main_v20 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S512x32, .f32⟩) main_call0_v0) (broadcastInDim S512x32 ![] bcast_S_S512x32),
    TRef.binary (TRef.of (T := ⟨S512x32, .f32⟩) main_v20) (TRef.of (T := ⟨S512x32, .f32⟩) main_call0_v0) (TRef.of (T := ⟨S512x32, .f32⟩) main_v21) maximumf,
    binary main_arg0 main_v21 main_v22 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v23 ((extractStridedSlice S1x1x128x32 ![0, 1, 0, 0] · slices_S4x4x128x32_S1x1x128x32_0_1_0_0) : (⟨S4x4x128x32, .f32⟩ : BufTy).Contents (Elt F) → (⟨S1x1x128x32, .f32⟩ : BufTy).Contents (Elt F)),
    reshape main_v23 main_v24 rfl shapeCasts_S1x1x128x32_S128x32,
    binary main_v2 main_v24 main_v25 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v26 ((extractStridedSlice S1x160x32 ![0, 0, 0] · slices_S4x160x32_S1x160x32_0_0_0) : (⟨S4x160x32, .f32⟩ : BufTy).Contents (Elt F) → (⟨S1x160x32, .f32⟩ : BufTy).Contents (Elt F)),
    reshape main_v26 main_v27 rfl shapeCasts_S1x160x32_S160x32,
    binary main_v22 main_v27 main_v28 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v4 main_v28 main_v29 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v25 main_v29 main_v30 (addf : (⟨S512x32, .f32⟩ : BufTy).Contents (Elt F) → (⟨S512x32, .f32⟩ : BufTy).Contents (Elt F) → (⟨S512x32, .f32⟩ : BufTy).Contents (Elt F)),
    unary main_v10 main_v31 (broadcastInDim S512x32 ![0, 1] bcast_S512x1_S512x32_0_1 : (⟨S512x1, .f32⟩ : BufTy).Contents (Elt F) → (⟨S512x32, .f32⟩ : BufTy).Contents (Elt F)),
    binary main_v30 main_v31 main_v32 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S512x32, .f32⟩) main_call1_v0) (broadcastInDim S512x32 ![] bcast_S_S512x32),
    TRef.binary (TRef.of (T := ⟨S512x32, .f32⟩) main_v32) (TRef.of (T := ⟨S512x32, .f32⟩) main_call1_v0) (TRef.of (T := ⟨S512x32, .f32⟩) main_v33) maximumf,
    nary ![main_arg0, main_v21, main_v33] main_v34 (fun u => concatenate S512x192 1 [⟨S512x128, u 0⟩, ⟨S512x32, u 1⟩, ⟨S512x32, u 2⟩] concatenates_S512x128_S512x32_S512x32_S512x192_d1),
    unary main_arg3 main_v35 ((extractStridedSlice S1x1x128x32 ![0, 2, 0, 0] · slices_S4x4x128x32_S1x1x128x32_0_2_0_0) : (⟨S4x4x128x32, .f32⟩ : BufTy).Contents (Elt F) → (⟨S1x1x128x32, .f32⟩ : BufTy).Contents (Elt F)),
    reshape main_v35 main_v36 rfl shapeCasts_S1x1x128x32_S128x32,
    binary main_v2 main_v36 main_v37 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v38 ((extractStridedSlice S1x192x32 ![0, 0, 0] · slices_S4x192x32_S1x192x32_0_0_0) : (⟨S4x192x32, .f32⟩ : BufTy).Contents (Elt F) → (⟨S1x192x32, .f32⟩ : BufTy).Contents (Elt F)),
    reshape main_v38 main_v39 rfl shapeCasts_S1x192x32_S192x32,
    binary main_v34 main_v39 main_v40 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v4 main_v40 main_v41 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v37 main_v41 main_v42 (addf : (⟨S512x32, .f32⟩ : BufTy).Contents (Elt F) → (⟨S512x32, .f32⟩ : BufTy).Contents (Elt F) → (⟨S512x32, .f32⟩ : BufTy).Contents (Elt F)),
    unary main_v10 main_v43 (broadcastInDim S512x32 ![0, 1] bcast_S512x1_S512x32_0_1 : (⟨S512x1, .f32⟩ : BufTy).Contents (Elt F) → (⟨S512x32, .f32⟩ : BufTy).Contents (Elt F)),
    binary main_v42 main_v43 main_v44 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x32, .f32⟩) main_call2_v0) (broadcastInDim S512x32 ![] bcast_S_S512x32),
    TRef.binary (TRef.of (T := ⟨S512x32, .f32⟩) main_v44) (TRef.of (T := ⟨S512x32, .f32⟩) main_call2_v0) (TRef.of (T := ⟨S512x32, .f32⟩) main_v45) maximumf,
    nary ![main_arg0, main_v21, main_v33, main_v45] main_v46 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v47 ((extractStridedSlice S1x1x128x32 ![0, 3, 0, 0] · slices_S4x4x128x32_S1x1x128x32_0_3_0_0) : (⟨S4x4x128x32, .f32⟩ : BufTy).Contents (Elt F) → (⟨S1x1x128x32, .f32⟩ : BufTy).Contents (Elt F)),
    reshape main_v47 main_v48 rfl shapeCasts_S1x1x128x32_S128x32,
    binary main_v2 main_v48 main_v49 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v50 ((extractStridedSlice S1x224x32 ![0, 0, 0] · slices_S4x224x32_S1x224x32_0_0_0) : (⟨S4x224x32, .f32⟩ : BufTy).Contents (Elt F) → (⟨S1x224x32, .f32⟩ : BufTy).Contents (Elt F)),
    reshape main_v50 main_v51 rfl shapeCasts_S1x224x32_S224x32,
    binary main_v46 main_v51 main_v52 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v4 main_v52 main_v53 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v49 main_v53 main_v54 (addf : (⟨S512x32, .f32⟩ : BufTy).Contents (Elt F) → (⟨S512x32, .f32⟩ : BufTy).Contents (Elt F) → (⟨S512x32, .f32⟩ : BufTy).Contents (Elt F)),
    unary main_v10 main_v55 (broadcastInDim S512x32 ![0, 1] bcast_S512x1_S512x32_0_1 : (⟨S512x1, .f32⟩ : BufTy).Contents (Elt F) → (⟨S512x32, .f32⟩ : BufTy).Contents (Elt F)),
    binary main_v54 main_v55 main_v56 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x32, .f32⟩) main_call3_v0) (broadcastInDim S512x32 ![] bcast_S_S512x32),
    TRef.binary (TRef.of (T := ⟨S512x32, .f32⟩) main_v56) (TRef.of (T := ⟨S512x32, .f32⟩) main_call3_v0) (TRef.of (T := ⟨S512x32, .f32⟩) main_v57) maximumf,
    nary ![main_arg0, main_v21, main_v33, main_v45, main_v57] main_v58 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1),
    nary ![main_v21, main_v33, main_v45, main_v57] main_v59 (fun u => concatenate S512x128 1 [⟨S512x32, u 0⟩, ⟨S512x32, u 1⟩, ⟨S512x32, u 2⟩, ⟨S512x32, u 3⟩] concatenates_S512x32_S512x32_S512x32_S512x32_S512x128_d1),
    binary main_v59 main_arg0 main_v60 (addf : (⟨S512x128, .f32⟩ : BufTy).Contents (Elt F) → (⟨S512x128, .f32⟩ : BufTy).Contents (Elt F) → (⟨S512x128, .f32⟩ : BufTy).Contents (Elt F)) ]

/-- Head 1. -/
abbrev h1 : List (HloOp τ sig (Elt F)) :=
  [ unary main_arg2 main_v61 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v61 main_v62 rfl shapeCasts_S1x512x512_S512x512,
    nullary main_cst_3 (constant S_ .f32 0x00000000#32),
    binary main_v62 main_cst_3 main_v63 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_4 (constant S_ .f32 0x00000000#32),
    unary main_cst_4 main_v64 (broadcastInDim S512 ![] bcast_S_S512 : (⟨S_, .f32⟩ : BufTy).Contents (Elt F) → (⟨S512, .f32⟩ : BufTy).Contents (Elt F)),
    binary main_v63 main_v64 main_v65 (cmpf .oeq : (⟨S512, .f32⟩ : BufTy).Contents (Elt F) → (⟨S512, .f32⟩ : BufTy).Contents (Elt F) → (⟨S512, .i1⟩ : BufTy).Contents (Elt F)),
    unary main_v65 main_v66 (uitofp .f32 : (⟨S512, .i1⟩ : BufTy).Contents (Elt F) → (⟨S512, .f32⟩ : BufTy).Contents (Elt F)),
    binary main_v63 main_v66 main_v67 (addf : (⟨S512, .f32⟩ : BufTy).Contents (Elt F) → (⟨S512, .f32⟩ : BufTy).Contents (Elt F) → (⟨S512, .f32⟩ : BufTy).Contents (Elt F)),
    unary main_v67 main_v68 (broadcastInDim S512x1 ![0] bcast_S512_S512x1_0 : (⟨S512, .f32⟩ : BufTy).Contents (Elt F) → (⟨S512x1, .f32⟩ : BufTy).Contents (Elt F)),
    unary main_arg3 main_v69 ((extractStridedSlice S1x1x128x32 ![1, 0, 0, 0] · slices_S4x4x128x32_S1x1x128x32_1_0_0_0) : (⟨S4x4x128x32, .f32⟩ : BufTy).Contents (Elt F) → (⟨S1x1x128x32, .f32⟩ : BufTy).Contents (Elt F)),
    reshape main_v69 main_v70 rfl shapeCasts_S1x1x128x32_S128x32,
    binary main_v2 main_v70 main_v71 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v72 ((extractStridedSlice S1x128x32 ![1, 0, 0] · slices_S4x128x32_S1x128x32_1_0_0) : (⟨S4x128x32, .f32⟩ : BufTy).Contents (Elt F) → (⟨S1x128x32, .f32⟩ : BufTy).Contents (Elt F)),
    reshape main_v72 main_v73 rfl shapeCasts_S1x128x32_S128x32,
    binary main_arg0 main_v73 main_v74 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v62 main_v74 main_v75 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v71 main_v75 main_v76 (addf : (⟨S512x32, .f32⟩ : BufTy).Contents (Elt F) → (⟨S512x32, .f32⟩ : BufTy).Contents (Elt F) → (⟨S512x32, .f32⟩ : BufTy).Contents (Elt F)),
    unary main_v68 main_v77 (broadcastInDim S512x32 ![0, 1] bcast_S512x1_S512x32_0_1 : (⟨S512x1, .f32⟩ : BufTy).Contents (Elt F) → (⟨S512x32, .f32⟩ : BufTy).Contents (Elt F)),
    binary main_v76 main_v77 main_v78 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x32, .f32⟩) main_call4_v0) (broadcastInDim S512x32 ![] bcast_S_S512x32),
    TRef.binary (TRef.of (T := ⟨S512x32, .f32⟩) main_v78) (TRef.of (T := ⟨S512x32, .f32⟩) main_call4_v0) (TRef.of (T := ⟨S512x32, .f32⟩) main_v79) maximumf,
    binary main_arg0 main_v79 main_v80 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v81 ((extractStridedSlice S1x1x128x32 ![1, 1, 0, 0] · slices_S4x4x128x32_S1x1x128x32_1_1_0_0) : (⟨S4x4x128x32, .f32⟩ : BufTy).Contents (Elt F) → (⟨S1x1x128x32, .f32⟩ : BufTy).Contents (Elt F)),
    reshape main_v81 main_v82 rfl shapeCasts_S1x1x128x32_S128x32,
    binary main_v2 main_v82 main_v83 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v84 ((extractStridedSlice S1x160x32 ![1, 0, 0] · slices_S4x160x32_S1x160x32_1_0_0) : (⟨S4x160x32, .f32⟩ : BufTy).Contents (Elt F) → (⟨S1x160x32, .f32⟩ : BufTy).Contents (Elt F)),
    reshape main_v84 main_v85 rfl shapeCasts_S1x160x32_S160x32,
    binary main_v80 main_v85 main_v86 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v62 main_v86 main_v87 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v83 main_v87 main_v88 (addf : (⟨S512x32, .f32⟩ : BufTy).Contents (Elt F) → (⟨S512x32, .f32⟩ : BufTy).Contents (Elt F) → (⟨S512x32, .f32⟩ : BufTy).Contents (Elt F)),
    unary main_v68 main_v89 (broadcastInDim S512x32 ![0, 1] bcast_S512x1_S512x32_0_1 : (⟨S512x1, .f32⟩ : BufTy).Contents (Elt F) → (⟨S512x32, .f32⟩ : BufTy).Contents (Elt F)),
    binary main_v88 main_v89 main_v90 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x32, .f32⟩) main_call5_v0) (broadcastInDim S512x32 ![] bcast_S_S512x32),
    TRef.binary (TRef.of (T := ⟨S512x32, .f32⟩) main_v90) (TRef.of (T := ⟨S512x32, .f32⟩) main_call5_v0) (TRef.of (T := ⟨S512x32, .f32⟩) main_v91) maximumf,
    nary ![main_arg0, main_v79, main_v91] main_v92 (fun u => concatenate S512x192 1 [⟨S512x128, u 0⟩, ⟨S512x32, u 1⟩, ⟨S512x32, u 2⟩] concatenates_S512x128_S512x32_S512x32_S512x192_d1),
    unary main_arg3 main_v93 ((extractStridedSlice S1x1x128x32 ![1, 2, 0, 0] · slices_S4x4x128x32_S1x1x128x32_1_2_0_0) : (⟨S4x4x128x32, .f32⟩ : BufTy).Contents (Elt F) → (⟨S1x1x128x32, .f32⟩ : BufTy).Contents (Elt F)),
    reshape main_v93 main_v94 rfl shapeCasts_S1x1x128x32_S128x32,
    binary main_v2 main_v94 main_v95 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v96 ((extractStridedSlice S1x192x32 ![1, 0, 0] · slices_S4x192x32_S1x192x32_1_0_0) : (⟨S4x192x32, .f32⟩ : BufTy).Contents (Elt F) → (⟨S1x192x32, .f32⟩ : BufTy).Contents (Elt F)),
    reshape main_v96 main_v97 rfl shapeCasts_S1x192x32_S192x32,
    binary main_v92 main_v97 main_v98 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v62 main_v98 main_v99 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v95 main_v99 main_v100 (addf : (⟨S512x32, .f32⟩ : BufTy).Contents (Elt F) → (⟨S512x32, .f32⟩ : BufTy).Contents (Elt F) → (⟨S512x32, .f32⟩ : BufTy).Contents (Elt F)),
    unary main_v68 main_v101 (broadcastInDim S512x32 ![0, 1] bcast_S512x1_S512x32_0_1 : (⟨S512x1, .f32⟩ : BufTy).Contents (Elt F) → (⟨S512x32, .f32⟩ : BufTy).Contents (Elt F)),
    binary main_v100 main_v101 main_v102 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x32, .f32⟩) main_call6_v0) (broadcastInDim S512x32 ![] bcast_S_S512x32),
    TRef.binary (TRef.of (T := ⟨S512x32, .f32⟩) main_v102) (TRef.of (T := ⟨S512x32, .f32⟩) main_call6_v0) (TRef.of (T := ⟨S512x32, .f32⟩) main_v103) maximumf,
    nary ![main_arg0, main_v79, main_v91, main_v103] main_v104 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v105 ((extractStridedSlice S1x1x128x32 ![1, 3, 0, 0] · slices_S4x4x128x32_S1x1x128x32_1_3_0_0) : (⟨S4x4x128x32, .f32⟩ : BufTy).Contents (Elt F) → (⟨S1x1x128x32, .f32⟩ : BufTy).Contents (Elt F)),
    reshape main_v105 main_v106 rfl shapeCasts_S1x1x128x32_S128x32,
    binary main_v2 main_v106 main_v107 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v108 ((extractStridedSlice S1x224x32 ![1, 0, 0] · slices_S4x224x32_S1x224x32_1_0_0) : (⟨S4x224x32, .f32⟩ : BufTy).Contents (Elt F) → (⟨S1x224x32, .f32⟩ : BufTy).Contents (Elt F)),
    reshape main_v108 main_v109 rfl shapeCasts_S1x224x32_S224x32,
    binary main_v104 main_v109 main_v110 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v62 main_v110 main_v111 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v107 main_v111 main_v112 (addf : (⟨S512x32, .f32⟩ : BufTy).Contents (Elt F) → (⟨S512x32, .f32⟩ : BufTy).Contents (Elt F) → (⟨S512x32, .f32⟩ : BufTy).Contents (Elt F)),
    unary main_v68 main_v113 (broadcastInDim S512x32 ![0, 1] bcast_S512x1_S512x32_0_1 : (⟨S512x1, .f32⟩ : BufTy).Contents (Elt F) → (⟨S512x32, .f32⟩ : BufTy).Contents (Elt F)),
    binary main_v112 main_v113 main_v114 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x32, .f32⟩) main_call7_v0) (broadcastInDim S512x32 ![] bcast_S_S512x32),
    TRef.binary (TRef.of (T := ⟨S512x32, .f32⟩) main_v114) (TRef.of (T := ⟨S512x32, .f32⟩) main_call7_v0) (TRef.of (T := ⟨S512x32, .f32⟩) main_v115) maximumf,
    nary ![main_arg0, main_v79, main_v91, main_v103, main_v115] main_v116 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1),
    nary ![main_v79, main_v91, main_v103, main_v115] main_v117 (fun u => concatenate S512x128 1 [⟨S512x32, u 0⟩, ⟨S512x32, u 1⟩, ⟨S512x32, u 2⟩, ⟨S512x32, u 3⟩] concatenates_S512x32_S512x32_S512x32_S512x32_S512x128_d1),
    binary main_v117 main_arg0 main_v118 (addf : (⟨S512x128, .f32⟩ : BufTy).Contents (Elt F) → (⟨S512x128, .f32⟩ : BufTy).Contents (Elt F) → (⟨S512x128, .f32⟩ : BufTy).Contents (Elt F)) ]

/-- Head 2. -/
abbrev h2 : List (HloOp τ sig (Elt F)) :=
  [ unary main_arg2 main_v119 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v119 main_v120 rfl shapeCasts_S1x512x512_S512x512,
    nullary main_cst_5 (constant S_ .f32 0x00000000#32),
    binary main_v120 main_cst_5 main_v121 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_6 (constant S_ .f32 0x00000000#32),
    unary main_cst_6 main_v122 (broadcastInDim S512 ![] bcast_S_S512 : (⟨S_, .f32⟩ : BufTy).Contents (Elt F) → (⟨S512, .f32⟩ : BufTy).Contents (Elt F)),
    binary main_v121 main_v122 main_v123 (cmpf .oeq : (⟨S512, .f32⟩ : BufTy).Contents (Elt F) → (⟨S512, .f32⟩ : BufTy).Contents (Elt F) → (⟨S512, .i1⟩ : BufTy).Contents (Elt F)),
    unary main_v123 main_v124 (uitofp .f32 : (⟨S512, .i1⟩ : BufTy).Contents (Elt F) → (⟨S512, .f32⟩ : BufTy).Contents (Elt F)),
    binary main_v121 main_v124 main_v125 (addf : (⟨S512, .f32⟩ : BufTy).Contents (Elt F) → (⟨S512, .f32⟩ : BufTy).Contents (Elt F) → (⟨S512, .f32⟩ : BufTy).Contents (Elt F)),
    unary main_v125 main_v126 (broadcastInDim S512x1 ![0] bcast_S512_S512x1_0 : (⟨S512, .f32⟩ : BufTy).Contents (Elt F) → (⟨S512x1, .f32⟩ : BufTy).Contents (Elt F)),
    unary main_arg3 main_v127 ((extractStridedSlice S1x1x128x32 ![2, 0, 0, 0] · slices_S4x4x128x32_S1x1x128x32_2_0_0_0) : (⟨S4x4x128x32, .f32⟩ : BufTy).Contents (Elt F) → (⟨S1x1x128x32, .f32⟩ : BufTy).Contents (Elt F)),
    reshape main_v127 main_v128 rfl shapeCasts_S1x1x128x32_S128x32,
    binary main_v2 main_v128 main_v129 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v130 ((extractStridedSlice S1x128x32 ![2, 0, 0] · slices_S4x128x32_S1x128x32_2_0_0) : (⟨S4x128x32, .f32⟩ : BufTy).Contents (Elt F) → (⟨S1x128x32, .f32⟩ : BufTy).Contents (Elt F)),
    reshape main_v130 main_v131 rfl shapeCasts_S1x128x32_S128x32,
    binary main_arg0 main_v131 main_v132 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v120 main_v132 main_v133 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v129 main_v133 main_v134 (addf : (⟨S512x32, .f32⟩ : BufTy).Contents (Elt F) → (⟨S512x32, .f32⟩ : BufTy).Contents (Elt F) → (⟨S512x32, .f32⟩ : BufTy).Contents (Elt F)),
    unary main_v126 main_v135 (broadcastInDim S512x32 ![0, 1] bcast_S512x1_S512x32_0_1 : (⟨S512x1, .f32⟩ : BufTy).Contents (Elt F) → (⟨S512x32, .f32⟩ : BufTy).Contents (Elt F)),
    binary main_v134 main_v135 main_v136 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S512x32, .f32⟩) main_call8_v0) (broadcastInDim S512x32 ![] bcast_S_S512x32),
    TRef.binary (TRef.of (T := ⟨S512x32, .f32⟩) main_v136) (TRef.of (T := ⟨S512x32, .f32⟩) main_call8_v0) (TRef.of (T := ⟨S512x32, .f32⟩) main_v137) maximumf,
    binary main_arg0 main_v137 main_v138 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v139 ((extractStridedSlice S1x1x128x32 ![2, 1, 0, 0] · slices_S4x4x128x32_S1x1x128x32_2_1_0_0) : (⟨S4x4x128x32, .f32⟩ : BufTy).Contents (Elt F) → (⟨S1x1x128x32, .f32⟩ : BufTy).Contents (Elt F)),
    reshape main_v139 main_v140 rfl shapeCasts_S1x1x128x32_S128x32,
    binary main_v2 main_v140 main_v141 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v142 ((extractStridedSlice S1x160x32 ![2, 0, 0] · slices_S4x160x32_S1x160x32_2_0_0) : (⟨S4x160x32, .f32⟩ : BufTy).Contents (Elt F) → (⟨S1x160x32, .f32⟩ : BufTy).Contents (Elt F)),
    reshape main_v142 main_v143 rfl shapeCasts_S1x160x32_S160x32,
    binary main_v138 main_v143 main_v144 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v120 main_v144 main_v145 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v141 main_v145 main_v146 (addf : (⟨S512x32, .f32⟩ : BufTy).Contents (Elt F) → (⟨S512x32, .f32⟩ : BufTy).Contents (Elt F) → (⟨S512x32, .f32⟩ : BufTy).Contents (Elt F)),
    unary main_v126 main_v147 (broadcastInDim S512x32 ![0, 1] bcast_S512x1_S512x32_0_1 : (⟨S512x1, .f32⟩ : BufTy).Contents (Elt F) → (⟨S512x32, .f32⟩ : BufTy).Contents (Elt F)),
    binary main_v146 main_v147 main_v148 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S512x32, .f32⟩) main_call9_v0) (broadcastInDim S512x32 ![] bcast_S_S512x32),
    TRef.binary (TRef.of (T := ⟨S512x32, .f32⟩) main_v148) (TRef.of (T := ⟨S512x32, .f32⟩) main_call9_v0) (TRef.of (T := ⟨S512x32, .f32⟩) main_v149) maximumf,
    nary ![main_arg0, main_v137, main_v149] main_v150 (fun u => concatenate S512x192 1 [⟨S512x128, u 0⟩, ⟨S512x32, u 1⟩, ⟨S512x32, u 2⟩] concatenates_S512x128_S512x32_S512x32_S512x192_d1),
    unary main_arg3 main_v151 ((extractStridedSlice S1x1x128x32 ![2, 2, 0, 0] · slices_S4x4x128x32_S1x1x128x32_2_2_0_0) : (⟨S4x4x128x32, .f32⟩ : BufTy).Contents (Elt F) → (⟨S1x1x128x32, .f32⟩ : BufTy).Contents (Elt F)),
    reshape main_v151 main_v152 rfl shapeCasts_S1x1x128x32_S128x32,
    binary main_v2 main_v152 main_v153 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v154 ((extractStridedSlice S1x192x32 ![2, 0, 0] · slices_S4x192x32_S1x192x32_2_0_0) : (⟨S4x192x32, .f32⟩ : BufTy).Contents (Elt F) → (⟨S1x192x32, .f32⟩ : BufTy).Contents (Elt F)),
    reshape main_v154 main_v155 rfl shapeCasts_S1x192x32_S192x32,
    binary main_v150 main_v155 main_v156 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v120 main_v156 main_v157 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v153 main_v157 main_v158 (addf : (⟨S512x32, .f32⟩ : BufTy).Contents (Elt F) → (⟨S512x32, .f32⟩ : BufTy).Contents (Elt F) → (⟨S512x32, .f32⟩ : BufTy).Contents (Elt F)),
    unary main_v126 main_v159 (broadcastInDim S512x32 ![0, 1] bcast_S512x1_S512x32_0_1 : (⟨S512x1, .f32⟩ : BufTy).Contents (Elt F) → (⟨S512x32, .f32⟩ : BufTy).Contents (Elt F)),
    binary main_v158 main_v159 main_v160 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S512x32, .f32⟩) main_call10_v0) (broadcastInDim S512x32 ![] bcast_S_S512x32),
    TRef.binary (TRef.of (T := ⟨S512x32, .f32⟩) main_v160) (TRef.of (T := ⟨S512x32, .f32⟩) main_call10_v0) (TRef.of (T := ⟨S512x32, .f32⟩) main_v161) maximumf,
    nary ![main_arg0, main_v137, main_v149, main_v161] main_v162 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v163 ((extractStridedSlice S1x1x128x32 ![2, 3, 0, 0] · slices_S4x4x128x32_S1x1x128x32_2_3_0_0) : (⟨S4x4x128x32, .f32⟩ : BufTy).Contents (Elt F) → (⟨S1x1x128x32, .f32⟩ : BufTy).Contents (Elt F)),
    reshape main_v163 main_v164 rfl shapeCasts_S1x1x128x32_S128x32,
    binary main_v2 main_v164 main_v165 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v166 ((extractStridedSlice S1x224x32 ![2, 0, 0] · slices_S4x224x32_S1x224x32_2_0_0) : (⟨S4x224x32, .f32⟩ : BufTy).Contents (Elt F) → (⟨S1x224x32, .f32⟩ : BufTy).Contents (Elt F)),
    reshape main_v166 main_v167 rfl shapeCasts_S1x224x32_S224x32,
    binary main_v162 main_v167 main_v168 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v120 main_v168 main_v169 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v165 main_v169 main_v170 (addf : (⟨S512x32, .f32⟩ : BufTy).Contents (Elt F) → (⟨S512x32, .f32⟩ : BufTy).Contents (Elt F) → (⟨S512x32, .f32⟩ : BufTy).Contents (Elt F)),
    unary main_v126 main_v171 (broadcastInDim S512x32 ![0, 1] bcast_S512x1_S512x32_0_1 : (⟨S512x1, .f32⟩ : BufTy).Contents (Elt F) → (⟨S512x32, .f32⟩ : BufTy).Contents (Elt F)),
    binary main_v170 main_v171 main_v172 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S512x32, .f32⟩) main_call11_v0) (broadcastInDim S512x32 ![] bcast_S_S512x32),
    TRef.binary (TRef.of (T := ⟨S512x32, .f32⟩) main_v172) (TRef.of (T := ⟨S512x32, .f32⟩) main_call11_v0) (TRef.of (T := ⟨S512x32, .f32⟩) main_v173) maximumf,
    nary ![main_arg0, main_v137, main_v149, main_v161, main_v173] main_v174 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1),
    nary ![main_v137, main_v149, main_v161, main_v173] main_v175 (fun u => concatenate S512x128 1 [⟨S512x32, u 0⟩, ⟨S512x32, u 1⟩, ⟨S512x32, u 2⟩, ⟨S512x32, u 3⟩] concatenates_S512x32_S512x32_S512x32_S512x32_S512x128_d1),
    binary main_v175 main_arg0 main_v176 (addf : (⟨S512x128, .f32⟩ : BufTy).Contents (Elt F) → (⟨S512x128, .f32⟩ : BufTy).Contents (Elt F) → (⟨S512x128, .f32⟩ : BufTy).Contents (Elt F)) ]

/-- Head 3. -/
abbrev h3 : List (HloOp τ sig (Elt F)) :=
  [ unary main_arg2 main_v177 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v177 main_v178 rfl shapeCasts_S1x512x512_S512x512,
    nullary main_cst_7 (constant S_ .f32 0x00000000#32),
    binary main_v178 main_cst_7 main_v179 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_8 (constant S_ .f32 0x00000000#32),
    unary main_cst_8 main_v180 (broadcastInDim S512 ![] bcast_S_S512 : (⟨S_, .f32⟩ : BufTy).Contents (Elt F) → (⟨S512, .f32⟩ : BufTy).Contents (Elt F)),
    binary main_v179 main_v180 main_v181 (cmpf .oeq : (⟨S512, .f32⟩ : BufTy).Contents (Elt F) → (⟨S512, .f32⟩ : BufTy).Contents (Elt F) → (⟨S512, .i1⟩ : BufTy).Contents (Elt F)),
    unary main_v181 main_v182 (uitofp .f32 : (⟨S512, .i1⟩ : BufTy).Contents (Elt F) → (⟨S512, .f32⟩ : BufTy).Contents (Elt F)),
    binary main_v179 main_v182 main_v183 (addf : (⟨S512, .f32⟩ : BufTy).Contents (Elt F) → (⟨S512, .f32⟩ : BufTy).Contents (Elt F) → (⟨S512, .f32⟩ : BufTy).Contents (Elt F)),
    unary main_v183 main_v184 (broadcastInDim S512x1 ![0] bcast_S512_S512x1_0 : (⟨S512, .f32⟩ : BufTy).Contents (Elt F) → (⟨S512x1, .f32⟩ : BufTy).Contents (Elt F)),
    unary main_arg3 main_v185 ((extractStridedSlice S1x1x128x32 ![3, 0, 0, 0] · slices_S4x4x128x32_S1x1x128x32_3_0_0_0) : (⟨S4x4x128x32, .f32⟩ : BufTy).Contents (Elt F) → (⟨S1x1x128x32, .f32⟩ : BufTy).Contents (Elt F)),
    reshape main_v185 main_v186 rfl shapeCasts_S1x1x128x32_S128x32,
    binary main_v2 main_v186 main_v187 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v188 ((extractStridedSlice S1x128x32 ![3, 0, 0] · slices_S4x128x32_S1x128x32_3_0_0) : (⟨S4x128x32, .f32⟩ : BufTy).Contents (Elt F) → (⟨S1x128x32, .f32⟩ : BufTy).Contents (Elt F)),
    reshape main_v188 main_v189 rfl shapeCasts_S1x128x32_S128x32,
    binary main_arg0 main_v189 main_v190 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v178 main_v190 main_v191 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v187 main_v191 main_v192 (addf : (⟨S512x32, .f32⟩ : BufTy).Contents (Elt F) → (⟨S512x32, .f32⟩ : BufTy).Contents (Elt F) → (⟨S512x32, .f32⟩ : BufTy).Contents (Elt F)),
    unary main_v184 main_v193 (broadcastInDim S512x32 ![0, 1] bcast_S512x1_S512x32_0_1 : (⟨S512x1, .f32⟩ : BufTy).Contents (Elt F) → (⟨S512x32, .f32⟩ : BufTy).Contents (Elt F)),
    binary main_v192 main_v193 main_v194 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S512x32, .f32⟩) main_call12_v0) (broadcastInDim S512x32 ![] bcast_S_S512x32),
    TRef.binary (TRef.of (T := ⟨S512x32, .f32⟩) main_v194) (TRef.of (T := ⟨S512x32, .f32⟩) main_call12_v0) (TRef.of (T := ⟨S512x32, .f32⟩) main_v195) maximumf,
    binary main_arg0 main_v195 main_v196 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v197 ((extractStridedSlice S1x1x128x32 ![3, 1, 0, 0] · slices_S4x4x128x32_S1x1x128x32_3_1_0_0) : (⟨S4x4x128x32, .f32⟩ : BufTy).Contents (Elt F) → (⟨S1x1x128x32, .f32⟩ : BufTy).Contents (Elt F)),
    reshape main_v197 main_v198 rfl shapeCasts_S1x1x128x32_S128x32,
    binary main_v2 main_v198 main_v199 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v200 ((extractStridedSlice S1x160x32 ![3, 0, 0] · slices_S4x160x32_S1x160x32_3_0_0) : (⟨S4x160x32, .f32⟩ : BufTy).Contents (Elt F) → (⟨S1x160x32, .f32⟩ : BufTy).Contents (Elt F)),
    reshape main_v200 main_v201 rfl shapeCasts_S1x160x32_S160x32,
    binary main_v196 main_v201 main_v202 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v178 main_v202 main_v203 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v199 main_v203 main_v204 (addf : (⟨S512x32, .f32⟩ : BufTy).Contents (Elt F) → (⟨S512x32, .f32⟩ : BufTy).Contents (Elt F) → (⟨S512x32, .f32⟩ : BufTy).Contents (Elt F)),
    unary main_v184 main_v205 (broadcastInDim S512x32 ![0, 1] bcast_S512x1_S512x32_0_1 : (⟨S512x1, .f32⟩ : BufTy).Contents (Elt F) → (⟨S512x32, .f32⟩ : BufTy).Contents (Elt F)),
    binary main_v204 main_v205 main_v206 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S512x32, .f32⟩) main_call13_v0) (broadcastInDim S512x32 ![] bcast_S_S512x32),
    TRef.binary (TRef.of (T := ⟨S512x32, .f32⟩) main_v206) (TRef.of (T := ⟨S512x32, .f32⟩) main_call13_v0) (TRef.of (T := ⟨S512x32, .f32⟩) main_v207) maximumf,
    nary ![main_arg0, main_v195, main_v207] main_v208 (fun u => concatenate S512x192 1 [⟨S512x128, u 0⟩, ⟨S512x32, u 1⟩, ⟨S512x32, u 2⟩] concatenates_S512x128_S512x32_S512x32_S512x192_d1),
    unary main_arg3 main_v209 ((extractStridedSlice S1x1x128x32 ![3, 2, 0, 0] · slices_S4x4x128x32_S1x1x128x32_3_2_0_0) : (⟨S4x4x128x32, .f32⟩ : BufTy).Contents (Elt F) → (⟨S1x1x128x32, .f32⟩ : BufTy).Contents (Elt F)),
    reshape main_v209 main_v210 rfl shapeCasts_S1x1x128x32_S128x32,
    binary main_v2 main_v210 main_v211 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v212 ((extractStridedSlice S1x192x32 ![3, 0, 0] · slices_S4x192x32_S1x192x32_3_0_0) : (⟨S4x192x32, .f32⟩ : BufTy).Contents (Elt F) → (⟨S1x192x32, .f32⟩ : BufTy).Contents (Elt F)),
    reshape main_v212 main_v213 rfl shapeCasts_S1x192x32_S192x32,
    binary main_v208 main_v213 main_v214 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v178 main_v214 main_v215 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v211 main_v215 main_v216 (addf : (⟨S512x32, .f32⟩ : BufTy).Contents (Elt F) → (⟨S512x32, .f32⟩ : BufTy).Contents (Elt F) → (⟨S512x32, .f32⟩ : BufTy).Contents (Elt F)),
    unary main_v184 main_v217 (broadcastInDim S512x32 ![0, 1] bcast_S512x1_S512x32_0_1 : (⟨S512x1, .f32⟩ : BufTy).Contents (Elt F) → (⟨S512x32, .f32⟩ : BufTy).Contents (Elt F)),
    binary main_v216 main_v217 main_v218 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S512x32, .f32⟩) main_call14_v0) (broadcastInDim S512x32 ![] bcast_S_S512x32),
    TRef.binary (TRef.of (T := ⟨S512x32, .f32⟩) main_v218) (TRef.of (T := ⟨S512x32, .f32⟩) main_call14_v0) (TRef.of (T := ⟨S512x32, .f32⟩) main_v219) maximumf,
    nary ![main_arg0, main_v195, main_v207, main_v219] main_v220 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v221 ((extractStridedSlice S1x1x128x32 ![3, 3, 0, 0] · slices_S4x4x128x32_S1x1x128x32_3_3_0_0) : (⟨S4x4x128x32, .f32⟩ : BufTy).Contents (Elt F) → (⟨S1x1x128x32, .f32⟩ : BufTy).Contents (Elt F)),
    reshape main_v221 main_v222 rfl shapeCasts_S1x1x128x32_S128x32,
    binary main_v2 main_v222 main_v223 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v224 ((extractStridedSlice S1x224x32 ![3, 0, 0] · slices_S4x224x32_S1x224x32_3_0_0) : (⟨S4x224x32, .f32⟩ : BufTy).Contents (Elt F) → (⟨S1x224x32, .f32⟩ : BufTy).Contents (Elt F)),
    reshape main_v224 main_v225 rfl shapeCasts_S1x224x32_S224x32,
    binary main_v220 main_v225 main_v226 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v178 main_v226 main_v227 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v223 main_v227 main_v228 (addf : (⟨S512x32, .f32⟩ : BufTy).Contents (Elt F) → (⟨S512x32, .f32⟩ : BufTy).Contents (Elt F) → (⟨S512x32, .f32⟩ : BufTy).Contents (Elt F)),
    unary main_v184 main_v229 (broadcastInDim S512x32 ![0, 1] bcast_S512x1_S512x32_0_1 : (⟨S512x1, .f32⟩ : BufTy).Contents (Elt F) → (⟨S512x32, .f32⟩ : BufTy).Contents (Elt F)),
    binary main_v228 main_v229 main_v230 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S512x32, .f32⟩) main_call15_v0) (broadcastInDim S512x32 ![] bcast_S_S512x32),
    TRef.binary (TRef.of (T := ⟨S512x32, .f32⟩) main_v230) (TRef.of (T := ⟨S512x32, .f32⟩) main_call15_v0) (TRef.of (T := ⟨S512x32, .f32⟩) main_v231) maximumf,
    nary ![main_arg0, main_v195, main_v207, main_v219, main_v231] main_v232 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1),
    nary ![main_v195, main_v207, main_v219, main_v231] main_v233 (fun u => concatenate S512x128 1 [⟨S512x32, u 0⟩, ⟨S512x32, u 1⟩, ⟨S512x32, u 2⟩, ⟨S512x32, u 3⟩] concatenates_S512x32_S512x32_S512x32_S512x32_S512x128_d1),
    binary main_v233 main_arg0 main_v234 (addf : (⟨S512x128, .f32⟩ : BufTy).Contents (Elt F) → (⟨S512x128, .f32⟩ : BufTy).Contents (Elt F) → (⟨S512x128, .f32⟩ : BufTy).Contents (Elt F)) ]

/-- The four heads side by side, the final linear map, the bias. -/
abbrev tl : List (HloOp τ sig (Elt F)) :=
  [ nary ![main_v60, main_v118, main_v176, main_v234] main_v235 (fun u => concatenate S512x512 1 [⟨S512x128, u 0⟩, ⟨S512x128, u 1⟩, ⟨S512x128, u 2⟩, ⟨S512x128, u 3⟩] concatenates_S512x128_S512x128_S512x128_S512x128_S512x512_d1),
    binary main_v235 main_arg8 main_v236 ((fun l r => Host.dotGeneral dot_S512x512_S512x128_S512x128_1_0_0_1_n_n none l r) : (⟨S512x512, .f32⟩ : BufTy).Contents (Elt F) → (⟨S512x128, .f32⟩ : BufTy).Contents (Elt F) → (⟨S512x128, .f32⟩ : BufTy).Contents (Elt F)),
    unary main_arg9 main_v237 (broadcastInDim S1x128 ![1] bcast_S128_S1x128_1 : (⟨S128, .f32⟩ : BufTy).Contents (Elt F) → (⟨S1x128, .f32⟩ : BufTy).Contents (Elt F)),
    unary main_v237 main_v238 (broadcastInDim S512x128 ![0, 1] bcast_S1x128_S512x128_0_1 : (⟨S1x128, .f32⟩ : BufTy).Contents (Elt F) → (⟨S512x128, .f32⟩ : BufTy).Contents (Elt F)),
    binary main_v236 main_v238 main_v239 (addf : (⟨S512x128, .f32⟩ : BufTy).Contents (Elt F) → (⟨S512x128, .f32⟩ : BufTy).Contents (Elt F) → (⟨S512x128, .f32⟩ : BufTy).Contents (Elt F)) ]

/-- The whole line. -/
abbrev ops : List (HloOp τ sig (Elt F)) := c0 ++ (h0 ++ (h1 ++ (h2 ++ (h3 ++ tl))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem c0_sub : (c0 : List (HloOp τ sig (Elt F))).Forall fun op => op.bufs ⊆ tcRefs τ sig :=
  ⟨nullary_bufs_sub .., binary_bufs_sub .., nullary_bufs_sub .., unary_bufs_sub .., binary_bufs_sub ..⟩
theorem h0_sub : (h0 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., binary_bufs_sub .., unary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., nary_bufs_sub .., binary_bufs_sub ..⟩
theorem h1_sub : (h1 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., binary_bufs_sub .., unary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., nary_bufs_sub .., binary_bufs_sub ..⟩
theorem h2_sub : (h2 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., binary_bufs_sub .., unary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., nary_bufs_sub .., binary_bufs_sub ..⟩
theorem h3_sub : (h3 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., binary_bufs_sub .., unary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., unary_bufs_sub .., reshape_bufs_sub .., binary_bufs_sub .., unary_bufs_sub .., reshape_bufs_sub .., binary_bufs_sub .., binary_bufs_sub .., binary_bufs_sub .., unary_bufs_sub .., binary_bufs_sub .., nullary_bufs_sub .., unary_bufs_sub .., binary_bufs_sub .., nary_bufs_sub .., nary_bufs_sub .., binary_bufs_sub ..⟩
theorem tl_sub : (tl : List (HloOp τ sig (Elt F))).Forall fun op => op.bufs ⊆ tcRefs τ sig :=
  ⟨nary_bufs_sub .., binary_bufs_sub .., unary_bufs_sub .., unary_bufs_sub .., binary_bufs_sub ..⟩

theorem forall_append {α : Type _} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append c0_sub (forall_append h0_sub (forall_append h1_sub (forall_append h2_sub (forall_append h3_sub tl_sub))))

theorem c0_fresh : ∀ op ∈ (c0 : List (HloOp τ sig (Elt F))), op.fresh = ∅ := by
  intro _ h; (repeat (cases h with | head => rfl | tail _ h => ?_)); exact nomatch h
theorem h0_fresh : ∀ op ∈ (h0 : List (HloOp τ sig (Elt F))), op.fresh = ∅ := by
  intro _ h; (repeat (cases h with | head => rfl | tail _ h => ?_)); exact nomatch h
theorem h1_fresh : ∀ op ∈ (h1 : List (HloOp τ sig (Elt F))), op.fresh = ∅ := by
  intro _ h; (repeat (cases h with | head => rfl | tail _ h => ?_)); exact nomatch h
theorem h2_fresh : ∀ op ∈ (h2 : List (HloOp τ sig (Elt F))), op.fresh = ∅ := by
  intro _ h; (repeat (cases h with | head => rfl | tail _ h => ?_)); exact nomatch h
theorem h3_fresh : ∀ op ∈ (h3 : List (HloOp τ sig (Elt F))), op.fresh = ∅ := by
  intro _ h; (repeat (cases h with | head => rfl | tail _ h => ?_)); exact nomatch h
theorem tl_fresh : ∀ op ∈ (tl : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.1 h).elim (c0_fresh op) fun h => (List.mem_append.1 h).elim (h0_fresh op) fun h =>
  (List.mem_append.1 h).elim (h1_fresh op) fun h => (List.mem_append.1 h).elim (h2_fresh op) fun h =>
  (List.mem_append.1 h).elim (h3_fresh op) (tl_fresh op)

/-- What the buffers hold after two lines run in order. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The buffers after the whole line: block after block. -/
theorem after_ops (V : Valuation τ sig (Elt F)) :
    after ops V = after tl (after h3 (after h2 (after h1 (after h0 (after c0 V))))) := by
  simp only [ops, after_append]

/-- Every weakly fair execution of the program terminates, each buffer at the line's fold over the launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefValue

end
-- ==== Proof.RefHeadFn.lean ====
/-
  The reference's stages as named functions of already sliced operands, for any float values: the edge mean; a
  head's degree and guarded denominator; one layer (relu of edge term plus adjacency times projection, over the
  denominator); the four layers of a head, each projecting the node features joined with the earlier layers'
  outputs; a head's features; the final linear map with its bias. Each later stage names the earlier ones, so a
  layer's output is written once.
-/
import proofs.«145371_j38732015075674_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A float array over a shape. -/
abbrev C (F : FTy → Type) (S : Shape) : Type := (⟨S, .f32⟩ : BufTy).Contents (Elt F)

variable {F : FTy → Type} [FloatOps F]

/-- The edge mean: the sum over the neighbour axis onto zero, divided by 512. -/
def emF (E : C F S512x512x128) : C F S512x128 :=
  Host.divf (Host.reduceAdd E (constant S_ .f32 0x00000000#32) reducesTo_S512x512x128_S512x128_d1 h_S_)
    (broadcastInDim S512x128 ![] bcast_S_S512x128 (constant S_ .f32 0x44000000#32))

/-- A head's degree: the row sums of its adjacency matrix onto zero. -/
def degF (A : C F S512x512) : C F S512 :=
  Host.reduceAdd A (constant S_ .f32 0x00000000#32) reducesTo_S512x512_S512_d1 h_S_

/-- The guarded denominator as a column: the degree plus the indicator that the degree is zero. -/
def denF (A : C F S512x512) : C F S512x1 :=
  broadcastInDim S512x1 ![0] bcast_S512_S512x1_0
    (addf (degF A) (uitofp .f32 (cmpf .oeq (degF A) (broadcastInDim S512 ![] bcast_S_S512 (constant S_ .f32 0x00000000#32)))))

/-- One layer: relu of (edge mean times edge weights, plus adjacency times projection) over the denominator. -/
def layerF (EM : C F S512x128) (A : C F S512x512) (We : C F S128x32) (P : C F S512x32) : C F S512x32 :=
  maximumf
    (Host.divf
      (addf (Host.dotGeneral dot_S512x128_S128x32_S512x32_1_0_0_1_n_n none EM We)
        (Host.dotGeneral dot_S512x512_S512x32_S512x32_1_0_0_1_n_n none A P))
      (broadcastInDim S512x32 ![0, 1] bcast_S512x1_S512x32_0_1 (denF A)))
    (broadcastInDim S512x32 ![] bcast_S_S512x32 (constant S_ .f32 0x00000000#32))

section Head
variable (X : C F S512x128) (EM : C F S512x128) (A : C F S512x512)
  (We0 We1 We2 We3 : C F S128x32) (W0 : C F S128x32) (W1 : C F S160x32) (W2 : C F S192x32) (W3 : C F S224x32)

/-- Layer 0: the node features against the layer's weights. -/
def g0F : C F S512x32 :=
  layerF EM A We0 (Host.dotGeneral dot_S512x128_S128x32_S512x32_1_0_0_1_n_n none X W0)

/-- Layer 1: the node features joined with layer 0's output. -/
def g1F : C F S512x32 :=
  layerF EM A We1 (Host.dotGeneral dot_S512x160_S160x32_S512x32_1_0_0_1_n_n none
    (concatenate S512x160 1 [⟨S512x128, X⟩, ⟨S512x32, g0F X EM A We0 W0⟩] concatenates_S512x128_S512x32_S512x160_d1) W1)

/-- Layer 2: the node features joined with the outputs of layers 0 and 1. -/
def g2F : C F S512x32 :=
  layerF EM A We2 (Host.dotGeneral dot_S512x192_S192x32_S512x32_1_0_0_1_n_n none
    (concatenate S512x192 1 [⟨S512x128, X⟩, ⟨S512x32, g0F X EM A We0 W0⟩, ⟨S512x32, g1F X EM A We0 We1 W0 W1⟩]
      concatenates_S512x128_S512x32_S512x32_S512x192_d1) W2)

/-- Layer 3: the node features joined with the outputs of layers 0, 1 and 2. -/
def g3F : C F S512x32 :=
  layerF EM A We3 (Host.dotGeneral dot_S512x224_S224x32_S512x32_1_0_0_1_n_n none
    (concatenate S512x224 1 [⟨S512x128, X⟩, ⟨S512x32, g0F X EM A We0 W0⟩, ⟨S512x32, g1F X EM A We0 We1 W0 W1⟩,
        ⟨S512x32, g2F X EM A We0 We1 We2 W0 W1 W2⟩]
      concatenates_S512x128_S512x32_S512x32_S512x32_S512x224_d1) W3)

/-- A head's features: its four layers side by side, plus the node features. -/
def headF : C F S512x128 :=
  addf
    (concatenate S512x128 1 [⟨S512x32, g0F X EM A We0 W0⟩, ⟨S512x32, g1F X EM A We0 We1 W0 W1⟩,
        ⟨S512x32, g2F X EM A We0 We1 We2 W0 W1 W2⟩, ⟨S512x32, g3F X EM A We0 We1 We2 We3 W0 W1 W2 W3⟩]
      concatenates_S512x32_S512x32_S512x32_S512x32_S512x128_d1)
    X

end Head

/-- The output: the four heads side by side against the final weights, plus the bias along the rows. -/
def tailF (H0 H1 H2 H3 : C F S512x128) (Wl : C F S512x128) (B : C F S128) : C F S512x128 :=
  addf
    (Host.dotGeneral dot_S512x512_S512x128_S512x128_1_0_0_1_n_n none
      (concatenate S512x512 1 [⟨S512x128, H0⟩, ⟨S512x128, H1⟩, ⟨S512x128, H2⟩, ⟨S512x128, H3⟩]
        concatenates_S512x128_S512x128_S512x128_S512x128_S512x512_d1) Wl)
    (broadcastInDim S512x128 ![0, 1] bcast_S1x128_S512x128_0_1 (broadcastInDim S1x128 ![1] bcast_S128_S1x128_1 B))

/-! ## The operands of head `k`: slices of the stacked arrays, the unit axes dropped -/

/-- Head `k`'s adjacency matrix. -/
def adjF (k : Nat) (h : S4x512x512.Slices ![k, 0, 0] S1x512x512) (x : C F S4x512x512) : C F S512x512 :=
  shapeCast _ (extractStridedSlice S1x512x512 ![k, 0, 0] x h) shapeCasts_S1x512x512_S512x512

/-- The edge weights of head `k`, layer `l`. -/
def weF (k l : Nat) (h : S4x4x128x32.Slices ![k, l, 0, 0] S1x1x128x32) (x : C F S4x4x128x32) : C F S128x32 :=
  shapeCast _ (extractStridedSlice S1x1x128x32 ![k, l, 0, 0] x h) shapeCasts_S1x1x128x32_S128x32

/-- Head `k`'s node weights of layers 0, 1, 2, 3. -/
def w0F (k : Nat) (h : S4x128x32.Slices ![k, 0, 0] S1x128x32) (x : C F S4x128x32) : C F S128x32 :=
  shapeCast _ (extractStridedSlice S1x128x32 ![k, 0, 0] x h) shapeCasts_S1x128x32_S128x32
def w1F (k : Nat) (h : S4x160x32.Slices ![k, 0, 0] S1x160x32) (x : C F S4x160x32) : C F S160x32 :=
  shapeCast _ (extractStridedSlice S1x160x32 ![k, 0, 0] x h) shapeCasts_S1x160x32_S160x32
def w2F (k : Nat) (h : S4x192x32.Slices ![k, 0, 0] S1x192x32) (x : C F S4x192x32) : C F S192x32 :=
  shapeCast _ (extractStridedSlice S1x192x32 ![k, 0, 0] x h) shapeCasts_S1x192x32_S192x32
def w3F (k : Nat) (h : S4x224x32.Slices ![k, 0, 0] S1x224x32) (x : C F S4x224x32) : C F S224x32 :=
  shapeCast _ (extractStridedSlice S1x224x32 ![k, 0, 0] x h) shapeCasts_S1x224x32_S224x32

/-! ## The four heads and the output, as functions of the ten arguments -/

section Whole
variable (X : C F S512x128) (EM : C F S512x128) (Adj : C F S4x512x512) (We : C F S4x4x128x32)
  (Wn0 : C F S4x128x32) (Wn1 : C F S4x160x32) (Wn2 : C F S4x192x32) (Wn3 : C F S4x224x32)

/-- Head 0's features from the node features, the edge mean and the stacked arrays. -/
def head0F : C F S512x128 :=
  headF X EM (adjF 0 slices_S4x512x512_S1x512x512_0_0_0 Adj)
    (weF 0 0 slices_S4x4x128x32_S1x1x128x32_0_0_0_0 We) (weF 0 1 slices_S4x4x128x32_S1x1x128x32_0_1_0_0 We)
    (weF 0 2 slices_S4x4x128x32_S1x1x128x32_0_2_0_0 We) (weF 0 3 slices_S4x4x128x32_S1x1x128x32_0_3_0_0 We)
    (w0F 0 slices_S4x128x32_S1x128x32_0_0_0 Wn0) (w1F 0 slices_S4x160x32_S1x160x32_0_0_0 Wn1)
    (w2F 0 slices_S4x192x32_S1x192x32_0_0_0 Wn2) (w3F 0 slices_S4x224x32_S1x224x32_0_0_0 Wn3)

/-- Head 1's features from the node features, the edge mean and the stacked arrays. -/
def head1F : C F S512x128 :=
  headF X EM (adjF 1 slices_S4x512x512_S1x512x512_1_0_0 Adj)
    (weF 1 0 slices_S4x4x128x32_S1x1x128x32_1_0_0_0 We) (weF 1 1 slices_S4x4x128x32_S1x1x128x32_1_1_0_0 We)
    (weF 1 2 slices_S4x4x128x32_S1x1x128x32_1_2_0_0 We) (weF 1 3 slices_S4x4x128x32_S1x1x128x32_1_3_0_0 We)
    (w0F 1 slices_S4x128x32_S1x128x32_1_0_0 Wn0) (w1F 1 slices_S4x160x32_S1x160x32_1_0_0 Wn1)
    (w2F 1 slices_S4x192x32_S1x192x32_1_0_0 Wn2) (w3F 1 slices_S4x224x32_S1x224x32_1_0_0 Wn3)

/-- Head 2's features from the node features, the edge mean and the stacked arrays. -/
def head2F : C F S512x128 :=
  headF X EM (adjF 2 slices_S4x512x512_S1x512x512_2_0_0 Adj)
    (weF 2 0 slices_S4x4x128x32_S1x1x128x32_2_0_0_0 We) (weF 2 1 slices_S4x4x128x32_S1x1x128x32_2_1_0_0 We)
    (weF 2 2 slices_S4x4x128x32_S1x1x128x32_2_2_0_0 We) (weF 2 3 slices_S4x4x128x32_S1x1x128x32_2_3_0_0 We)
    (w0F 2 slices_S4x128x32_S1x128x32_2_0_0 Wn0) (w1F 2 slices_S4x160x32_S1x160x32_2_0_0 Wn1)
    (w2F 2 slices_S4x192x32_S1x192x32_2_0_0 Wn2) (w3F 2 slices_S4x224x32_S1x224x32_2_0_0 Wn3)

/-- Head 3's features from the node features, the edge mean and the stacked arrays. -/
def head3F : C F S512x128 :=
  headF X EM (adjF 3 slices_S4x512x512_S1x512x512_3_0_0 Adj)
    (weF 3 0 slices_S4x4x128x32_S1x1x128x32_3_0_0_0 We) (weF 3 1 slices_S4x4x128x32_S1x1x128x32_3_1_0_0 We)
    (weF 3 2 slices_S4x4x128x32_S1x1x128x32_3_2_0_0 We) (weF 3 3 slices_S4x4x128x32_S1x1x128x32_3_3_0_0 We)
    (w0F 3 slices_S4x128x32_S1x128x32_3_0_0 Wn0) (w1F 3 slices_S4x160x32_S1x160x32_3_0_0 Wn1)
    (w2F 3 slices_S4x192x32_S1x192x32_3_0_0 Wn2) (w3F 3 slices_S4x224x32_S1x224x32_3_0_0 Wn3)

end Whole

/-- The reference's result as a function of its ten arguments. -/
def outF (X : C F S512x128) (E : C F S512x512x128) (Adj : C F S4x512x512) (We : C F S4x4x128x32)
    (Wn0 : C F S4x128x32) (Wn1 : C F S4x160x32) (Wn2 : C F S4x192x32) (Wn3 : C F S4x224x32)
    (Wl : C F S512x128) (B : C F S128) : C F S512x128 :=
  tailF (head0F X (emF E) Adj We Wn0 Wn1 Wn2 Wn3) (head1F X (emF E) Adj We Wn0 Wn1 Wn2 Wn3)
    (head2F X (emF E) Adj We Wn0 Wn1 Wn2 Wn3) (head3F X (emF E) Adj We Wn0 Wn1 Wn2 Wn3) Wl B

end Cert.ReferenceIdeal.RefValue

end
-- ==== Proof.RefChunk0.lean ====
/-
  The edge-mean block of the reference: from any contents it leaves the edge mean of the edge features in its
  result buffer and touches no buffer outside its own.
-/
import proofs.«145371_j38732015075674_2_alg».proof.Proof.RefOps
import proofs.«145371_j38732015075674_2_alg».proof.Proof.RefHeadFn

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the block writes. -/
abbrev c0_W : List (Ref sig .tc) := [main_cst, main_v0, main_cst_0, main_v1, main_v2]

set_option maxRecDepth 8192 in
theorem c0_writes : (c0 : List (HloOp τ sig (Elt F))).Forall fun op =>
    op.writes ⊆ (c0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the block does not write keeps its contents through it. -/
theorem c0_keep (V : Valuation τ sig (Elt F)) (r : Ref sig .tc) (h : r ∉ c0_W) :
    after c0 V (Proc.devRef .tc r) = V (Proc.devRef .tc r) :=
  after_of_writes_sub c0 _ c0_writes h

/-- What the block leaves in the edge mean's buffer. -/
theorem c0_val (V : Valuation τ sig (Elt F)) :
    after c0 V (Proc.devRef .tc main_v2) = emF (V (Proc.devRef .tc main_arg1)) := by
  simp only [c0]
  after_results_simp
  rfl

end Cert.ReferenceIdeal.RefValue

end
-- ==== Proof.RefLayerG.lean ====
/-
  One layer with its denominator column given as an operand: what a block computes when the degree's column was
  left in a buffer by an earlier block. With the denominator of the same adjacency matrix it is the layer.
-/
import proofs.«145371_j38732015075674_2_alg».proof.Proof.RefHeadFn

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- relu of (edge mean times edge weights, plus adjacency times projection) over a given denominator column. -/
def layerG (EM : C F S512x128) (A : C F S512x512) (D : C F S512x1) (We : C F S128x32) (P : C F S512x32) : C F S512x32 :=
  maximumf
    (Host.divf
      (addf (Host.dotGeneral dot_S512x128_S128x32_S512x32_1_0_0_1_n_n none EM We)
        (Host.dotGeneral dot_S512x512_S512x32_S512x32_1_0_0_1_n_n none A P))
      (broadcastInDim S512x32 ![0, 1] bcast_S512x1_S512x32_0_1 D))
    (broadcastInDim S512x32 ![] bcast_S_S512x32 (constant S_ .f32 0x00000000#32))

theorem layerF_eq (EM : C F S512x128) (A : C F S512x512) (We : C F S128x32) (P : C F S512x32) :
    layerF EM A We P = layerG EM A (denF A) We P := rfl

end Cert.ReferenceIdeal.RefValue

end
-- ==== Proof.RefHead0.lean ====
/-
  Head 0's block of the reference, cut before each joining of features: the adjacency slice with its degree column
  and layer 0; layers 1, 2, 3, each from the node features joined with the earlier layers' outputs; the four layers
  side by side plus the node features. From any contents the block leaves the head's features in its result buffer
  and touches no buffer outside its own.
-/
import proofs.«145371_j38732015075674_2_alg».proof.Proof.RefOps
import proofs.«145371_j38732015075674_2_alg».proof.Proof.RefHeadFn
import proofs.«145371_j38732015075674_2_alg».proof.Proof.RefLayerG

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev h0a : List (HloOp τ sig (Elt F)) :=
  [ unary main_arg2 main_v3 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v3 main_v4 rfl shapeCasts_S1x512x512_S512x512,
    nullary main_cst_1 (constant S_ .f32 0x00000000#32),
    binary main_v4 main_cst_1 main_v5 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_2 (constant S_ .f32 0x00000000#32),
    unary main_cst_2 main_v6 (broadcastInDim S512 ![] bcast_S_S512 : (⟨S_, .f32⟩ : BufTy).Contents (Elt F) → (⟨S512, .f32⟩ : BufTy).Contents (Elt F)),
    binary main_v5 main_v6 main_v7 (cmpf .oeq : (⟨S512, .f32⟩ : BufTy).Contents (Elt F) → (⟨S512, .f32⟩ : BufTy).Contents (Elt F) → (⟨S512, .i1⟩ : BufTy).Contents (Elt F)),
    unary main_v7 main_v8 (uitofp .f32 : (⟨S512, .i1⟩ : BufTy).Contents (Elt F) → (⟨S512, .f32⟩ : BufTy).Contents (Elt F)),
    binary main_v5 main_v8 main_v9 (addf : (⟨S512, .f32⟩ : BufTy).Contents (Elt F) → (⟨S512, .f32⟩ : BufTy).Contents (Elt F) → (⟨S512, .f32⟩ : BufTy).Contents (Elt F)),
    unary main_v9 main_v10 (broadcastInDim S512x1 ![0] bcast_S512_S512x1_0 : (⟨S512, .f32⟩ : BufTy).Contents (Elt F) → (⟨S512x1, .f32⟩ : BufTy).Contents (Elt F)),
    unary main_arg3 main_v11 ((extractStridedSlice S1x1x128x32 ![0, 0, 0, 0] · slices_S4x4x128x32_S1x1x128x32_0_0_0_0) : (⟨S4x4x128x32, .f32⟩ : BufTy).Contents (Elt F) → (⟨S1x1x128x32, .f32⟩ : BufTy).Contents (Elt F)),
    reshape main_v11 main_v12 rfl shapeCasts_S1x1x128x32_S128x32,
    binary main_v2 main_v12 main_v13 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v14 ((extractStridedSlice S1x128x32 ![0, 0, 0] · slices_S4x128x32_S1x128x32_0_0_0) : (⟨S4x128x32, .f32⟩ : BufTy).Contents (Elt F) → (⟨S1x128x32, .f32⟩ : BufTy).Contents (Elt F)),
    reshape main_v14 main_v15 rfl shapeCasts_S1x128x32_S128x32,
    binary main_arg0 main_v15 main_v16 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v4 main_v16 main_v17 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v13 main_v17 main_v18 (addf : (⟨S512x32, .f32⟩ : BufTy).Contents (Elt F) → (⟨S512x32, .f32⟩ : BufTy).Contents (Elt F) → (⟨S512x32, .f32⟩ : BufTy).Contents (Elt F)),
    unary main_v10 main_v19 (broadcastInDim S512x32 ![0, 1] bcast_S512x1_S512x32_0_1 : (⟨S512x1, .f32⟩ : BufTy).Contents (Elt F) → (⟨S512x32, .f32⟩ : BufTy).Contents (Elt F)),
    binary main_v18 main_v19 main_v20 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S512x32, .f32⟩) main_call0_v0) (broadcastInDim S512x32 ![] bcast_S_S512x32),
    TRef.binary (TRef.of (T := ⟨S512x32, .f32⟩) main_v20) (TRef.of (T := ⟨S512x32, .f32⟩) main_call0_v0) (TRef.of (T := ⟨S512x32, .f32⟩) main_v21) maximumf ]

abbrev h0b : List (HloOp τ sig (Elt F)) :=
  [ binary main_arg0 main_v21 main_v22 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v23 ((extractStridedSlice S1x1x128x32 ![0, 1, 0, 0] · slices_S4x4x128x32_S1x1x128x32_0_1_0_0) : (⟨S4x4x128x32, .f32⟩ : BufTy).Contents (Elt F) → (⟨S1x1x128x32, .f32⟩ : BufTy).Contents (Elt F)),
    reshape main_v23 main_v24 rfl shapeCasts_S1x1x128x32_S128x32,
    binary main_v2 main_v24 main_v25 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v26 ((extractStridedSlice S1x160x32 ![0, 0, 0] · slices_S4x160x32_S1x160x32_0_0_0) : (⟨S4x160x32, .f32⟩ : BufTy).Contents (Elt F) → (⟨S1x160x32, .f32⟩ : BufTy).Contents (Elt F)),
    reshape main_v26 main_v27 rfl shapeCasts_S1x160x32_S160x32,
    binary main_v22 main_v27 main_v28 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v4 main_v28 main_v29 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v25 main_v29 main_v30 (addf : (⟨S512x32, .f32⟩ : BufTy).Contents (Elt F) → (⟨S512x32, .f32⟩ : BufTy).Contents (Elt F) → (⟨S512x32, .f32⟩ : BufTy).Contents (Elt F)),
    unary main_v10 main_v31 (broadcastInDim S512x32 ![0, 1] bcast_S512x1_S512x32_0_1 : (⟨S512x1, .f32⟩ : BufTy).Contents (Elt F) → (⟨S512x32, .f32⟩ : BufTy).Contents (Elt F)),
    binary main_v30 main_v31 main_v32 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S512x32, .f32⟩) main_call1_v0) (broadcastInDim S512x32 ![] bcast_S_S512x32),
    TRef.binary (TRef.of (T := ⟨S512x32, .f32⟩) main_v32) (TRef.of (T := ⟨S512x32, .f32⟩) main_call1_v0) (TRef.of (T := ⟨S512x32, .f32⟩) main_v33) maximumf ]

abbrev h0c : List (HloOp τ sig (Elt F)) :=
  [ nary ![main_arg0, main_v21, main_v33] main_v34 (fun u => concatenate S512x192 1 [⟨S512x128, u 0⟩, ⟨S512x32, u 1⟩, ⟨S512x32, u 2⟩] concatenates_S512x128_S512x32_S512x32_S512x192_d1),
    unary main_arg3 main_v35 ((extractStridedSlice S1x1x128x32 ![0, 2, 0, 0] · slices_S4x4x128x32_S1x1x128x32_0_2_0_0) : (⟨S4x4x128x32, .f32⟩ : BufTy).Contents (Elt F) → (⟨S1x1x128x32, .f32⟩ : BufTy).Contents (Elt F)),
    reshape main_v35 main_v36 rfl shapeCasts_S1x1x128x32_S128x32,
    binary main_v2 main_v36 main_v37 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v38 ((extractStridedSlice S1x192x32 ![0, 0, 0] · slices_S4x192x32_S1x192x32_0_0_0) : (⟨S4x192x32, .f32⟩ : BufTy).Contents (Elt F) → (⟨S1x192x32, .f32⟩ : BufTy).Contents (Elt F)),
    reshape main_v38 main_v39 rfl shapeCasts_S1x192x32_S192x32,
    binary main_v34 main_v39 main_v40 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v4 main_v40 main_v41 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v37 main_v41 main_v42 (addf : (⟨S512x32, .f32⟩ : BufTy).Contents (Elt F) → (⟨S512x32, .f32⟩ : BufTy).Contents (Elt F) → (⟨S512x32, .f32⟩ : BufTy).Contents (Elt F)),
    unary main_v10 main_v43 (broadcastInDim S512x32 ![0, 1] bcast_S512x1_S512x32_0_1 : (⟨S512x1, .f32⟩ : BufTy).Contents (Elt F) → (⟨S512x32, .f32⟩ : BufTy).Contents (Elt F)),
    binary main_v42 main_v43 main_v44 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x32, .f32⟩) main_call2_v0) (broadcastInDim S512x32 ![] bcast_S_S512x32),
    TRef.binary (TRef.of (T := ⟨S512x32, .f32⟩) main_v44) (TRef.of (T := ⟨S512x32, .f32⟩) main_call2_v0) (TRef.of (T := ⟨S512x32, .f32⟩) main_v45) maximumf ]

abbrev h0d : List (HloOp τ sig (Elt F)) :=
  [ nary ![main_arg0, main_v21, main_v33, main_v45] main_v46 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v47 ((extractStridedSlice S1x1x128x32 ![0, 3, 0, 0] · slices_S4x4x128x32_S1x1x128x32_0_3_0_0) : (⟨S4x4x128x32, .f32⟩ : BufTy).Contents (Elt F) → (⟨S1x1x128x32, .f32⟩ : BufTy).Contents (Elt F)),
    reshape main_v47 main_v48 rfl shapeCasts_S1x1x128x32_S128x32,
    binary main_v2 main_v48 main_v49 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v50 ((extractStridedSlice S1x224x32 ![0, 0, 0] · slices_S4x224x32_S1x224x32_0_0_0) : (⟨S4x224x32, .f32⟩ : BufTy).Contents (Elt F) → (⟨S1x224x32, .f32⟩ : BufTy).Contents (Elt F)),
    reshape main_v50 main_v51 rfl shapeCasts_S1x224x32_S224x32,
    binary main_v46 main_v51 main_v52 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v4 main_v52 main_v53 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v49 main_v53 main_v54 (addf : (⟨S512x32, .f32⟩ : BufTy).Contents (Elt F) → (⟨S512x32, .f32⟩ : BufTy).Contents (Elt F) → (⟨S512x32, .f32⟩ : BufTy).Contents (Elt F)),
    unary main_v10 main_v55 (broadcastInDim S512x32 ![0, 1] bcast_S512x1_S512x32_0_1 : (⟨S512x1, .f32⟩ : BufTy).Contents (Elt F) → (⟨S512x32, .f32⟩ : BufTy).Contents (Elt F)),
    binary main_v54 main_v55 main_v56 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x32, .f32⟩) main_call3_v0) (broadcastInDim S512x32 ![] bcast_S_S512x32),
    TRef.binary (TRef.of (T := ⟨S512x32, .f32⟩) main_v56) (TRef.of (T := ⟨S512x32, .f32⟩) main_call3_v0) (TRef.of (T := ⟨S512x32, .f32⟩) main_v57) maximumf,
    nary ![main_arg0, main_v21, main_v33, main_v45, main_v57] main_v58 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1) ]

abbrev h0e : List (HloOp τ sig (Elt F)) :=
  [ nary ![main_v21, main_v33, main_v45, main_v57] main_v59 (fun u => concatenate S512x128 1 [⟨S512x32, u 0⟩, ⟨S512x32, u 1⟩, ⟨S512x32, u 2⟩, ⟨S512x32, u 3⟩] concatenates_S512x32_S512x32_S512x32_S512x32_S512x128_d1),
    binary main_v59 main_arg0 main_v60 (addf : (⟨S512x128, .f32⟩ : BufTy).Contents (Elt F) → (⟨S512x128, .f32⟩ : BufTy).Contents (Elt F) → (⟨S512x128, .f32⟩ : BufTy).Contents (Elt F)) ]

/-- The head's operations are the five parts in order. -/
theorem h0_split : (h0 : List (HloOp τ sig (Elt F))) = h0a ++ (h0b ++ (h0c ++ (h0d ++ h0e))) := rfl

abbrev h0a_W : List (Ref sig .tc) := [main_v3, main_v4, main_cst_1, main_v5, main_cst_2, main_v6, main_v7, main_v8, main_v9, main_v10, main_v11, main_v12, main_v13, main_v14, main_v15, main_v16, main_v17, main_v18, main_v19, main_v20, main_call0_cst, main_call0_v0, main_v21]
theorem h0a_writes : (h0a : List (HloOp τ sig (Elt F))).Forall fun op =>
    op.writes ⊆ (h0a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h0a_keep (V : Valuation τ sig (Elt F)) (r : Ref sig .tc) (h : r ∉ h0a_W) :
    after h0a V (Proc.devRef .tc r) = V (Proc.devRef .tc r) :=
  after_of_writes_sub h0a _ h0a_writes h

abbrev h0b_W : List (Ref sig .tc) := [main_v22, main_v23, main_v24, main_v25, main_v26, main_v27, main_v28, main_v29, main_v30, main_v31, main_v32, main_call1_cst, main_call1_v0, main_v33]
theorem h0b_writes : (h0b : List (HloOp τ sig (Elt F))).Forall fun op =>
    op.writes ⊆ (h0b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h0b_keep (V : Valuation τ sig (Elt F)) (r : Ref sig .tc) (h : r ∉ h0b_W) :
    after h0b V (Proc.devRef .tc r) = V (Proc.devRef .tc r) :=
  after_of_writes_sub h0b _ h0b_writes h

abbrev h0c_W : List (Ref sig .tc) := [main_v34, main_v35, main_v36, main_v37, main_v38, main_v39, main_v40, main_v41, main_v42, main_v43, main_v44, main_call2_cst, main_call2_v0, main_v45]
theorem h0c_writes : (h0c : List (HloOp τ sig (Elt F))).Forall fun op =>
    op.writes ⊆ (h0c_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h0c_keep (V : Valuation τ sig (Elt F)) (r : Ref sig .tc) (h : r ∉ h0c_W) :
    after h0c V (Proc.devRef .tc r) = V (Proc.devRef .tc r) :=
  after_of_writes_sub h0c _ h0c_writes h

abbrev h0d_W : List (Ref sig .tc) := [main_v46, main_v47, main_v48, main_v49, main_v50, main_v51, main_v52, main_v53, main_v54, main_v55, main_v56, main_call3_cst, main_call3_v0, main_v57, main_v58]
theorem h0d_writes : (h0d : List (HloOp τ sig (Elt F))).Forall fun op =>
    op.writes ⊆ (h0d_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h0d_keep (V : Valuation τ sig (Elt F)) (r : Ref sig .tc) (h : r ∉ h0d_W) :
    after h0d V (Proc.devRef .tc r) = V (Proc.devRef .tc r) :=
  after_of_writes_sub h0d _ h0d_writes h

abbrev h0e_W : List (Ref sig .tc) := [main_v59, main_v60]
theorem h0e_writes : (h0e : List (HloOp τ sig (Elt F))).Forall fun op =>
    op.writes ⊆ (h0e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h0e_keep (V : Valuation τ sig (Elt F)) (r : Ref sig .tc) (h : r ∉ h0e_W) :
    after h0e V (Proc.devRef .tc r) = V (Proc.devRef .tc r) :=
  after_of_writes_sub h0e _ h0e_writes h

/-! ## What each part leaves -/

theorem h0a_A (V : Valuation τ sig (Elt F)) : after h0a V (Proc.devRef .tc main_v4) = adjF 0 slices_S4x512x512_S1x512x512_0_0_0 (V (Proc.devRef .tc main_arg2)) := by
  simp only [h0a]
  after_results_simp
  rfl

theorem h0a_D (V : Valuation τ sig (Elt F)) : after h0a V (Proc.devRef .tc main_v10) = denF (adjF 0 slices_S4x512x512_S1x512x512_0_0_0 (V (Proc.devRef .tc main_arg2))) := by
  simp only [h0a]
  after_results_simp
  rfl

set_option maxHeartbeats 2000000 in
theorem h0a_G (V : Valuation τ sig (Elt F)) :
    after h0a V (Proc.devRef .tc main_v21) = g0F (V (Proc.devRef .tc main_arg0)) (V (Proc.devRef .tc main_v2)) (adjF 0 slices_S4x512x512_S1x512x512_0_0_0 (V (Proc.devRef .tc main_arg2))) (weF 0 0 slices_S4x4x128x32_S1x1x128x32_0_0_0_0 (V (Proc.devRef .tc main_arg3))) (w0F 0 slices_S4x128x32_S1x128x32_0_0_0 (V (Proc.devRef .tc main_arg4))) := by
  simp only [h0a]
  after_results_simp
  rfl

set_option maxHeartbeats 2000000 in
theorem h0b_G (V : Valuation τ sig (Elt F)) :
    after h0b V (Proc.devRef .tc main_v33)
      = layerG (V (Proc.devRef .tc main_v2)) (V (Proc.devRef .tc main_v4)) (V (Proc.devRef .tc main_v10)) (weF 0 1 slices_S4x4x128x32_S1x1x128x32_0_1_0_0 (V (Proc.devRef .tc main_arg3)))
          (Host.dotGeneral dot_S512x160_S160x32_S512x32_1_0_0_1_n_n none
            (concatenate S512x160 1 [⟨S512x128, V (Proc.devRef .tc main_arg0)⟩, ⟨S512x32, V (Proc.devRef .tc main_v21)⟩] concatenates_S512x128_S512x32_S512x160_d1) (w1F 0 slices_S4x160x32_S1x160x32_0_0_0 (V (Proc.devRef .tc main_arg5)))) := by
  simp only [h0b]
  after_results_simp
  rfl

set_option maxHeartbeats 2000000 in
theorem h0c_G (V : Valuation τ sig (Elt F)) :
    after h0c V (Proc.devRef .tc main_v45)
      = layerG (V (Proc.devRef .tc main_v2)) (V (Proc.devRef .tc main_v4)) (V (Proc.devRef .tc main_v10)) (weF 0 2 slices_S4x4x128x32_S1x1x128x32_0_2_0_0 (V (Proc.devRef .tc main_arg3)))
          (Host.dotGeneral dot_S512x192_S192x32_S512x32_1_0_0_1_n_n none
            (concatenate S512x192 1 [⟨S512x128, V (Proc.devRef .tc main_arg0)⟩, ⟨S512x32, V (Proc.devRef .tc main_v21)⟩, ⟨S512x32, V (Proc.devRef .tc main_v33)⟩]
              concatenates_S512x128_S512x32_S512x32_S512x192_d1) (w2F 0 slices_S4x192x32_S1x192x32_0_0_0 (V (Proc.devRef .tc main_arg6)))) := by
  simp only [h0c]
  after_results_simp
  rfl

set_option maxHeartbeats 2000000 in
theorem h0d_G (V : Valuation τ sig (Elt F)) :
    after h0d V (Proc.devRef .tc main_v57)
      = layerG (V (Proc.devRef .tc main_v2)) (V (Proc.devRef .tc main_v4)) (V (Proc.devRef .tc main_v10)) (weF 0 3 slices_S4x4x128x32_S1x1x128x32_0_3_0_0 (V (Proc.devRef .tc main_arg3)))
          (Host.dotGeneral dot_S512x224_S224x32_S512x32_1_0_0_1_n_n none
            (concatenate S512x224 1 [⟨S512x128, V (Proc.devRef .tc main_arg0)⟩, ⟨S512x32, V (Proc.devRef .tc main_v21)⟩, ⟨S512x32, V (Proc.devRef .tc main_v33)⟩, ⟨S512x32, V (Proc.devRef .tc main_v45)⟩]
              concatenates_S512x128_S512x32_S512x32_S512x32_S512x224_d1) (w3F 0 slices_S4x224x32_S1x224x32_0_0_0 (V (Proc.devRef .tc main_arg7)))) := by
  simp only [h0d]
  after_results_simp
  rfl

theorem h0e_H (V : Valuation τ sig (Elt F)) :
    after h0e V (Proc.devRef .tc main_v60)
      = addf (concatenate S512x128 1 [⟨S512x32, V (Proc.devRef .tc main_v21)⟩, ⟨S512x32, V (Proc.devRef .tc main_v33)⟩, ⟨S512x32, V (Proc.devRef .tc main_v45)⟩, ⟨S512x32, V (Proc.devRef .tc main_v57)⟩]
          concatenates_S512x32_S512x32_S512x32_S512x32_S512x128_d1) (V (Proc.devRef .tc main_arg0)) := by
  simp only [h0e]
  after_results_simp
  rfl

/-! ## The head -/

set_option maxRecDepth 16384 in
/-- What the block leaves in the head's result buffer. -/
theorem h0_val (V : Valuation τ sig (Elt F)) :
    after h0 V (Proc.devRef .tc main_v60)
      = head0F (V (Proc.devRef .tc main_arg0)) (V (Proc.devRef .tc main_v2)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [h0_split, after_append, after_append, after_append, after_append, h0e_H]
  rw [h0d_G, h0d_keep _ main_v21 (by decide), h0d_keep _ main_v33 (by decide), h0d_keep _ main_v45 (by decide), h0d_keep _ main_arg0 (by decide)]
  rw [h0c_G, h0c_keep _ main_v21 (by decide), h0c_keep _ main_v33 (by decide), h0c_keep _ main_arg0 (by decide), h0c_keep _ main_v2 (by decide), h0c_keep _ main_v4 (by decide), h0c_keep _ main_v10 (by decide), h0c_keep _ main_arg3 (by decide), h0c_keep _ main_arg7 (by decide)]
  rw [h0b_G, h0b_keep _ main_v21 (by decide), h0b_keep _ main_arg0 (by decide), h0b_keep _ main_v2 (by decide), h0b_keep _ main_v4 (by decide), h0b_keep _ main_v10 (by decide), h0b_keep _ main_arg3 (by decide), h0b_keep _ main_arg6 (by decide), h0b_keep _ main_arg7 (by decide)]
  rw [h0a_G, h0a_A, h0a_D, h0a_keep _ main_arg0 (by decide), h0a_keep _ main_v2 (by decide), h0a_keep _ main_arg3 (by decide), h0a_keep _ main_arg5 (by decide), h0a_keep _ main_arg6 (by decide), h0a_keep _ main_arg7 (by decide)]
  rfl

/-- The buffers the head's block writes. -/
abbrev h0_W : List (Ref sig .tc) := h0a_W ++ (h0b_W ++ (h0c_W ++ (h0d_W ++ h0e_W)))

/-- A buffer the block does not write keeps its contents through it. -/
theorem h0_keep (V : Valuation τ sig (Elt F)) (r : Ref sig .tc) (h : r ∉ h0_W) :
    after h0 V (Proc.devRef .tc r) = V (Proc.devRef .tc r) := by
  have ha : r ∉ h0a_W := fun m => h (List.mem_append_left _ m)
  have hb : r ∉ h0b_W := fun m => h (List.mem_append_right _ (List.mem_append_left _ m))
  have hc : r ∉ h0c_W := fun m => h (List.mem_append_right _ (List.mem_append_right _ (List.mem_append_left _ m)))
  have hd : r ∉ h0d_W := fun m => h (List.mem_append_right _ (List.mem_append_right _ (List.mem_append_right _ (List.mem_append_left _ m))))
  have he : r ∉ h0e_W := fun m => h (List.mem_append_right _ (List.mem_append_right _ (List.mem_append_right _ (List.mem_append_right _ m))))
  rw [h0_split, after_append, after_append, after_append, after_append,
    h0e_keep _ r he, h0d_keep _ r hd, h0c_keep _ r hc, h0b_keep _ r hb, h0a_keep _ r ha]

end Cert.ReferenceIdeal.RefValue

end
-- ==== Proof.RefHead1.lean ====
/-
  Head 1's block of the reference, cut before each joining of features: the adjacency slice with its degree column
  and layer 0; layers 1, 2, 3, each from the node features joined with the earlier layers' outputs; the four layers
  side by side plus the node features. From any contents the block leaves the head's features in its result buffer
  and touches no buffer outside its own.
-/
import proofs.«145371_j38732015075674_2_alg».proof.Proof.RefOps
import proofs.«145371_j38732015075674_2_alg».proof.Proof.RefHeadFn
import proofs.«145371_j38732015075674_2_alg».proof.Proof.RefLayerG

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev h1a : List (HloOp τ sig (Elt F)) :=
  [ unary main_arg2 main_v61 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v61 main_v62 rfl shapeCasts_S1x512x512_S512x512,
    nullary main_cst_3 (constant S_ .f32 0x00000000#32),
    binary main_v62 main_cst_3 main_v63 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_4 (constant S_ .f32 0x00000000#32),
    unary main_cst_4 main_v64 (broadcastInDim S512 ![] bcast_S_S512 : (⟨S_, .f32⟩ : BufTy).Contents (Elt F) → (⟨S512, .f32⟩ : BufTy).Contents (Elt F)),
    binary main_v63 main_v64 main_v65 (cmpf .oeq : (⟨S512, .f32⟩ : BufTy).Contents (Elt F) → (⟨S512, .f32⟩ : BufTy).Contents (Elt F) → (⟨S512, .i1⟩ : BufTy).Contents (Elt F)),
    unary main_v65 main_v66 (uitofp .f32 : (⟨S512, .i1⟩ : BufTy).Contents (Elt F) → (⟨S512, .f32⟩ : BufTy).Contents (Elt F)),
    binary main_v63 main_v66 main_v67 (addf : (⟨S512, .f32⟩ : BufTy).Contents (Elt F) → (⟨S512, .f32⟩ : BufTy).Contents (Elt F) → (⟨S512, .f32⟩ : BufTy).Contents (Elt F)),
    unary main_v67 main_v68 (broadcastInDim S512x1 ![0] bcast_S512_S512x1_0 : (⟨S512, .f32⟩ : BufTy).Contents (Elt F) → (⟨S512x1, .f32⟩ : BufTy).Contents (Elt F)),
    unary main_arg3 main_v69 ((extractStridedSlice S1x1x128x32 ![1, 0, 0, 0] · slices_S4x4x128x32_S1x1x128x32_1_0_0_0) : (⟨S4x4x128x32, .f32⟩ : BufTy).Contents (Elt F) → (⟨S1x1x128x32, .f32⟩ : BufTy).Contents (Elt F)),
    reshape main_v69 main_v70 rfl shapeCasts_S1x1x128x32_S128x32,
    binary main_v2 main_v70 main_v71 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v72 ((extractStridedSlice S1x128x32 ![1, 0, 0] · slices_S4x128x32_S1x128x32_1_0_0) : (⟨S4x128x32, .f32⟩ : BufTy).Contents (Elt F) → (⟨S1x128x32, .f32⟩ : BufTy).Contents (Elt F)),
    reshape main_v72 main_v73 rfl shapeCasts_S1x128x32_S128x32,
    binary main_arg0 main_v73 main_v74 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v62 main_v74 main_v75 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v71 main_v75 main_v76 (addf : (⟨S512x32, .f32⟩ : BufTy).Contents (Elt F) → (⟨S512x32, .f32⟩ : BufTy).Contents (Elt F) → (⟨S512x32, .f32⟩ : BufTy).Contents (Elt F)),
    unary main_v68 main_v77 (broadcastInDim S512x32 ![0, 1] bcast_S512x1_S512x32_0_1 : (⟨S512x1, .f32⟩ : BufTy).Contents (Elt F) → (⟨S512x32, .f32⟩ : BufTy).Contents (Elt F)),
    binary main_v76 main_v77 main_v78 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x32, .f32⟩) main_call4_v0) (broadcastInDim S512x32 ![] bcast_S_S512x32),
    TRef.binary (TRef.of (T := ⟨S512x32, .f32⟩) main_v78) (TRef.of (T := ⟨S512x32, .f32⟩) main_call4_v0) (TRef.of (T := ⟨S512x32, .f32⟩) main_v79) maximumf ]

abbrev h1b : List (HloOp τ sig (Elt F)) :=
  [ binary main_arg0 main_v79 main_v80 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v81 ((extractStridedSlice S1x1x128x32 ![1, 1, 0, 0] · slices_S4x4x128x32_S1x1x128x32_1_1_0_0) : (⟨S4x4x128x32, .f32⟩ : BufTy).Contents (Elt F) → (⟨S1x1x128x32, .f32⟩ : BufTy).Contents (Elt F)),
    reshape main_v81 main_v82 rfl shapeCasts_S1x1x128x32_S128x32,
    binary main_v2 main_v82 main_v83 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v84 ((extractStridedSlice S1x160x32 ![1, 0, 0] · slices_S4x160x32_S1x160x32_1_0_0) : (⟨S4x160x32, .f32⟩ : BufTy).Contents (Elt F) → (⟨S1x160x32, .f32⟩ : BufTy).Contents (Elt F)),
    reshape main_v84 main_v85 rfl shapeCasts_S1x160x32_S160x32,
    binary main_v80 main_v85 main_v86 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v62 main_v86 main_v87 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v83 main_v87 main_v88 (addf : (⟨S512x32, .f32⟩ : BufTy).Contents (Elt F) → (⟨S512x32, .f32⟩ : BufTy).Contents (Elt F) → (⟨S512x32, .f32⟩ : BufTy).Contents (Elt F)),
    unary main_v68 main_v89 (broadcastInDim S512x32 ![0, 1] bcast_S512x1_S512x32_0_1 : (⟨S512x1, .f32⟩ : BufTy).Contents (Elt F) → (⟨S512x32, .f32⟩ : BufTy).Contents (Elt F)),
    binary main_v88 main_v89 main_v90 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x32, .f32⟩) main_call5_v0) (broadcastInDim S512x32 ![] bcast_S_S512x32),
    TRef.binary (TRef.of (T := ⟨S512x32, .f32⟩) main_v90) (TRef.of (T := ⟨S512x32, .f32⟩) main_call5_v0) (TRef.of (T := ⟨S512x32, .f32⟩) main_v91) maximumf ]

abbrev h1c : List (HloOp τ sig (Elt F)) :=
  [ nary ![main_arg0, main_v79, main_v91] main_v92 (fun u => concatenate S512x192 1 [⟨S512x128, u 0⟩, ⟨S512x32, u 1⟩, ⟨S512x32, u 2⟩] concatenates_S512x128_S512x32_S512x32_S512x192_d1),
    unary main_arg3 main_v93 ((extractStridedSlice S1x1x128x32 ![1, 2, 0, 0] · slices_S4x4x128x32_S1x1x128x32_1_2_0_0) : (⟨S4x4x128x32, .f32⟩ : BufTy).Contents (Elt F) → (⟨S1x1x128x32, .f32⟩ : BufTy).Contents (Elt F)),
    reshape main_v93 main_v94 rfl shapeCasts_S1x1x128x32_S128x32,
    binary main_v2 main_v94 main_v95 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v96 ((extractStridedSlice S1x192x32 ![1, 0, 0] · slices_S4x192x32_S1x192x32_1_0_0) : (⟨S4x192x32, .f32⟩ : BufTy).Contents (Elt F) → (⟨S1x192x32, .f32⟩ : BufTy).Contents (Elt F)),
    reshape main_v96 main_v97 rfl shapeCasts_S1x192x32_S192x32,
    binary main_v92 main_v97 main_v98 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v62 main_v98 main_v99 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v95 main_v99 main_v100 (addf : (⟨S512x32, .f32⟩ : BufTy).Contents (Elt F) → (⟨S512x32, .f32⟩ : BufTy).Contents (Elt F) → (⟨S512x32, .f32⟩ : BufTy).Contents (Elt F)),
    unary main_v68 main_v101 (broadcastInDim S512x32 ![0, 1] bcast_S512x1_S512x32_0_1 : (⟨S512x1, .f32⟩ : BufTy).Contents (Elt F) → (⟨S512x32, .f32⟩ : BufTy).Contents (Elt F)),
    binary main_v100 main_v101 main_v102 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x32, .f32⟩) main_call6_v0) (broadcastInDim S512x32 ![] bcast_S_S512x32),
    TRef.binary (TRef.of (T := ⟨S512x32, .f32⟩) main_v102) (TRef.of (T := ⟨S512x32, .f32⟩) main_call6_v0) (TRef.of (T := ⟨S512x32, .f32⟩) main_v103) maximumf ]

abbrev h1d : List (HloOp τ sig (Elt F)) :=
  [ nary ![main_arg0, main_v79, main_v91, main_v103] main_v104 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v105 ((extractStridedSlice S1x1x128x32 ![1, 3, 0, 0] · slices_S4x4x128x32_S1x1x128x32_1_3_0_0) : (⟨S4x4x128x32, .f32⟩ : BufTy).Contents (Elt F) → (⟨S1x1x128x32, .f32⟩ : BufTy).Contents (Elt F)),
    reshape main_v105 main_v106 rfl shapeCasts_S1x1x128x32_S128x32,
    binary main_v2 main_v106 main_v107 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v108 ((extractStridedSlice S1x224x32 ![1, 0, 0] · slices_S4x224x32_S1x224x32_1_0_0) : (⟨S4x224x32, .f32⟩ : BufTy).Contents (Elt F) → (⟨S1x224x32, .f32⟩ : BufTy).Contents (Elt F)),
    reshape main_v108 main_v109 rfl shapeCasts_S1x224x32_S224x32,
    binary main_v104 main_v109 main_v110 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v62 main_v110 main_v111 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v107 main_v111 main_v112 (addf : (⟨S512x32, .f32⟩ : BufTy).Contents (Elt F) → (⟨S512x32, .f32⟩ : BufTy).Contents (Elt F) → (⟨S512x32, .f32⟩ : BufTy).Contents (Elt F)),
    unary main_v68 main_v113 (broadcastInDim S512x32 ![0, 1] bcast_S512x1_S512x32_0_1 : (⟨S512x1, .f32⟩ : BufTy).Contents (Elt F) → (⟨S512x32, .f32⟩ : BufTy).Contents (Elt F)),
    binary main_v112 main_v113 main_v114 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x32, .f32⟩) main_call7_v0) (broadcastInDim S512x32 ![] bcast_S_S512x32),
    TRef.binary (TRef.of (T := ⟨S512x32, .f32⟩) main_v114) (TRef.of (T := ⟨S512x32, .f32⟩) main_call7_v0) (TRef.of (T := ⟨S512x32, .f32⟩) main_v115) maximumf,
    nary ![main_arg0, main_v79, main_v91, main_v103, main_v115] main_v116 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1) ]

abbrev h1e : List (HloOp τ sig (Elt F)) :=
  [ nary ![main_v79, main_v91, main_v103, main_v115] main_v117 (fun u => concatenate S512x128 1 [⟨S512x32, u 0⟩, ⟨S512x32, u 1⟩, ⟨S512x32, u 2⟩, ⟨S512x32, u 3⟩] concatenates_S512x32_S512x32_S512x32_S512x32_S512x128_d1),
    binary main_v117 main_arg0 main_v118 (addf : (⟨S512x128, .f32⟩ : BufTy).Contents (Elt F) → (⟨S512x128, .f32⟩ : BufTy).Contents (Elt F) → (⟨S512x128, .f32⟩ : BufTy).Contents (Elt F)) ]

/-- The head's operations are the five parts in order. -/
theorem h1_split : (h1 : List (HloOp τ sig (Elt F))) = h1a ++ (h1b ++ (h1c ++ (h1d ++ h1e))) := rfl

abbrev h1a_W : List (Ref sig .tc) := [main_v61, main_v62, main_cst_3, main_v63, main_cst_4, main_v64, main_v65, main_v66, main_v67, main_v68, main_v69, main_v70, main_v71, main_v72, main_v73, main_v74, main_v75, main_v76, main_v77, main_v78, main_call4_cst, main_call4_v0, main_v79]
theorem h1a_writes : (h1a : List (HloOp τ sig (Elt F))).Forall fun op =>
    op.writes ⊆ (h1a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h1a_keep (V : Valuation τ sig (Elt F)) (r : Ref sig .tc) (h : r ∉ h1a_W) :
    after h1a V (Proc.devRef .tc r) = V (Proc.devRef .tc r) :=
  after_of_writes_sub h1a _ h1a_writes h

abbrev h1b_W : List (Ref sig .tc) := [main_v80, main_v81, main_v82, main_v83, main_v84, main_v85, main_v86, main_v87, main_v88, main_v89, main_v90, main_call5_cst, main_call5_v0, main_v91]
theorem h1b_writes : (h1b : List (HloOp τ sig (Elt F))).Forall fun op =>
    op.writes ⊆ (h1b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h1b_keep (V : Valuation τ sig (Elt F)) (r : Ref sig .tc) (h : r ∉ h1b_W) :
    after h1b V (Proc.devRef .tc r) = V (Proc.devRef .tc r) :=
  after_of_writes_sub h1b _ h1b_writes h

abbrev h1c_W : List (Ref sig .tc) := [main_v92, main_v93, main_v94, main_v95, main_v96, main_v97, main_v98, main_v99, main_v100, main_v101, main_v102, main_call6_cst, main_call6_v0, main_v103]
theorem h1c_writes : (h1c : List (HloOp τ sig (Elt F))).Forall fun op =>
    op.writes ⊆ (h1c_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h1c_keep (V : Valuation τ sig (Elt F)) (r : Ref sig .tc) (h : r ∉ h1c_W) :
    after h1c V (Proc.devRef .tc r) = V (Proc.devRef .tc r) :=
  after_of_writes_sub h1c _ h1c_writes h

abbrev h1d_W : List (Ref sig .tc) := [main_v104, main_v105, main_v106, main_v107, main_v108, main_v109, main_v110, main_v111, main_v112, main_v113, main_v114, main_call7_cst, main_call7_v0, main_v115, main_v116]
theorem h1d_writes : (h1d : List (HloOp τ sig (Elt F))).Forall fun op =>
    op.writes ⊆ (h1d_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h1d_keep (V : Valuation τ sig (Elt F)) (r : Ref sig .tc) (h : r ∉ h1d_W) :
    after h1d V (Proc.devRef .tc r) = V (Proc.devRef .tc r) :=
  after_of_writes_sub h1d _ h1d_writes h

abbrev h1e_W : List (Ref sig .tc) := [main_v117, main_v118]
theorem h1e_writes : (h1e : List (HloOp τ sig (Elt F))).Forall fun op =>
    op.writes ⊆ (h1e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h1e_keep (V : Valuation τ sig (Elt F)) (r : Ref sig .tc) (h : r ∉ h1e_W) :
    after h1e V (Proc.devRef .tc r) = V (Proc.devRef .tc r) :=
  after_of_writes_sub h1e _ h1e_writes h

/-! ## What each part leaves -/

theorem h1a_A (V : Valuation τ sig (Elt F)) : after h1a V (Proc.devRef .tc main_v62) = adjF 1 slices_S4x512x512_S1x512x512_1_0_0 (V (Proc.devRef .tc main_arg2)) := by
  simp only [h1a]
  after_results_simp
  rfl

theorem h1a_D (V : Valuation τ sig (Elt F)) : after h1a V (Proc.devRef .tc main_v68) = denF (adjF 1 slices_S4x512x512_S1x512x512_1_0_0 (V (Proc.devRef .tc main_arg2))) := by
  simp only [h1a]
  after_results_simp
  rfl

set_option maxHeartbeats 2000000 in
theorem h1a_G (V : Valuation τ sig (Elt F)) :
    after h1a V (Proc.devRef .tc main_v79) = g0F (V (Proc.devRef .tc main_arg0)) (V (Proc.devRef .tc main_v2)) (adjF 1 slices_S4x512x512_S1x512x512_1_0_0 (V (Proc.devRef .tc main_arg2))) (weF 1 0 slices_S4x4x128x32_S1x1x128x32_1_0_0_0 (V (Proc.devRef .tc main_arg3))) (w0F 1 slices_S4x128x32_S1x128x32_1_0_0 (V (Proc.devRef .tc main_arg4))) := by
  simp only [h1a]
  after_results_simp
  rfl

set_option maxHeartbeats 2000000 in
theorem h1b_G (V : Valuation τ sig (Elt F)) :
    after h1b V (Proc.devRef .tc main_v91)
      = layerG (V (Proc.devRef .tc main_v2)) (V (Proc.devRef .tc main_v62)) (V (Proc.devRef .tc main_v68)) (weF 1 1 slices_S4x4x128x32_S1x1x128x32_1_1_0_0 (V (Proc.devRef .tc main_arg3)))
          (Host.dotGeneral dot_S512x160_S160x32_S512x32_1_0_0_1_n_n none
            (concatenate S512x160 1 [⟨S512x128, V (Proc.devRef .tc main_arg0)⟩, ⟨S512x32, V (Proc.devRef .tc main_v79)⟩] concatenates_S512x128_S512x32_S512x160_d1) (w1F 1 slices_S4x160x32_S1x160x32_1_0_0 (V (Proc.devRef .tc main_arg5)))) := by
  simp only [h1b]
  after_results_simp
  rfl

set_option maxHeartbeats 2000000 in
theorem h1c_G (V : Valuation τ sig (Elt F)) :
    after h1c V (Proc.devRef .tc main_v103)
      = layerG (V (Proc.devRef .tc main_v2)) (V (Proc.devRef .tc main_v62)) (V (Proc.devRef .tc main_v68)) (weF 1 2 slices_S4x4x128x32_S1x1x128x32_1_2_0_0 (V (Proc.devRef .tc main_arg3)))
          (Host.dotGeneral dot_S512x192_S192x32_S512x32_1_0_0_1_n_n none
            (concatenate S512x192 1 [⟨S512x128, V (Proc.devRef .tc main_arg0)⟩, ⟨S512x32, V (Proc.devRef .tc main_v79)⟩, ⟨S512x32, V (Proc.devRef .tc main_v91)⟩]
              concatenates_S512x128_S512x32_S512x32_S512x192_d1) (w2F 1 slices_S4x192x32_S1x192x32_1_0_0 (V (Proc.devRef .tc main_arg6)))) := by
  simp only [h1c]
  after_results_simp
  rfl

set_option maxHeartbeats 2000000 in
theorem h1d_G (V : Valuation τ sig (Elt F)) :
    after h1d V (Proc.devRef .tc main_v115)
      = layerG (V (Proc.devRef .tc main_v2)) (V (Proc.devRef .tc main_v62)) (V (Proc.devRef .tc main_v68)) (weF 1 3 slices_S4x4x128x32_S1x1x128x32_1_3_0_0 (V (Proc.devRef .tc main_arg3)))
          (Host.dotGeneral dot_S512x224_S224x32_S512x32_1_0_0_1_n_n none
            (concatenate S512x224 1 [⟨S512x128, V (Proc.devRef .tc main_arg0)⟩, ⟨S512x32, V (Proc.devRef .tc main_v79)⟩, ⟨S512x32, V (Proc.devRef .tc main_v91)⟩, ⟨S512x32, V (Proc.devRef .tc main_v103)⟩]
              concatenates_S512x128_S512x32_S512x32_S512x32_S512x224_d1) (w3F 1 slices_S4x224x32_S1x224x32_1_0_0 (V (Proc.devRef .tc main_arg7)))) := by
  simp only [h1d]
  after_results_simp
  rfl

theorem h1e_H (V : Valuation τ sig (Elt F)) :
    after h1e V (Proc.devRef .tc main_v118)
      = addf (concatenate S512x128 1 [⟨S512x32, V (Proc.devRef .tc main_v79)⟩, ⟨S512x32, V (Proc.devRef .tc main_v91)⟩, ⟨S512x32, V (Proc.devRef .tc main_v103)⟩, ⟨S512x32, V (Proc.devRef .tc main_v115)⟩]
          concatenates_S512x32_S512x32_S512x32_S512x32_S512x128_d1) (V (Proc.devRef .tc main_arg0)) := by
  simp only [h1e]
  after_results_simp
  rfl

/-! ## The head -/

set_option maxRecDepth 16384 in
/-- What the block leaves in the head's result buffer. -/
theorem h1_val (V : Valuation τ sig (Elt F)) :
    after h1 V (Proc.devRef .tc main_v118)
      = head1F (V (Proc.devRef .tc main_arg0)) (V (Proc.devRef .tc main_v2)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [h1_split, after_append, after_append, after_append, after_append, h1e_H]
  rw [h1d_G, h1d_keep _ main_v79 (by decide), h1d_keep _ main_v91 (by decide), h1d_keep _ main_v103 (by decide), h1d_keep _ main_arg0 (by decide)]
  rw [h1c_G, h1c_keep _ main_v79 (by decide), h1c_keep _ main_v91 (by decide), h1c_keep _ main_arg0 (by decide), h1c_keep _ main_v2 (by decide), h1c_keep _ main_v62 (by decide), h1c_keep _ main_v68 (by decide), h1c_keep _ main_arg3 (by decide), h1c_keep _ main_arg7 (by decide)]
  rw [h1b_G, h1b_keep _ main_v79 (by decide), h1b_keep _ main_arg0 (by decide), h1b_keep _ main_v2 (by decide), h1b_keep _ main_v62 (by decide), h1b_keep _ main_v68 (by decide), h1b_keep _ main_arg3 (by decide), h1b_keep _ main_arg6 (by decide), h1b_keep _ main_arg7 (by decide)]
  rw [h1a_G, h1a_A, h1a_D, h1a_keep _ main_arg0 (by decide), h1a_keep _ main_v2 (by decide), h1a_keep _ main_arg3 (by decide), h1a_keep _ main_arg5 (by decide), h1a_keep _ main_arg6 (by decide), h1a_keep _ main_arg7 (by decide)]
  rfl

/-- The buffers the head's block writes. -/
abbrev h1_W : List (Ref sig .tc) := h1a_W ++ (h1b_W ++ (h1c_W ++ (h1d_W ++ h1e_W)))

/-- A buffer the block does not write keeps its contents through it. -/
theorem h1_keep (V : Valuation τ sig (Elt F)) (r : Ref sig .tc) (h : r ∉ h1_W) :
    after h1 V (Proc.devRef .tc r) = V (Proc.devRef .tc r) := by
  have ha : r ∉ h1a_W := fun m => h (List.mem_append_left _ m)
  have hb : r ∉ h1b_W := fun m => h (List.mem_append_right _ (List.mem_append_left _ m))
  have hc : r ∉ h1c_W := fun m => h (List.mem_append_right _ (List.mem_append_right _ (List.mem_append_left _ m)))
  have hd : r ∉ h1d_W := fun m => h (List.mem_append_right _ (List.mem_append_right _ (List.mem_append_right _ (List.mem_append_left _ m))))
  have he : r ∉ h1e_W := fun m => h (List.mem_append_right _ (List.mem_append_right _ (List.mem_append_right _ (List.mem_append_right _ m))))
  rw [h1_split, after_append, after_append, after_append, after_append,
    h1e_keep _ r he, h1d_keep _ r hd, h1c_keep _ r hc, h1b_keep _ r hb, h1a_keep _ r ha]

end Cert.ReferenceIdeal.RefValue

end
-- ==== Proof.RefHead2.lean ====
/-
  Head 2's block of the reference, cut before each joining of features: the adjacency slice with its degree column
  and layer 0; layers 1, 2, 3, each from the node features joined with the earlier layers' outputs; the four layers
  side by side plus the node features. From any contents the block leaves the head's features in its result buffer
  and touches no buffer outside its own.
-/
import proofs.«145371_j38732015075674_2_alg».proof.Proof.RefOps
import proofs.«145371_j38732015075674_2_alg».proof.Proof.RefHeadFn
import proofs.«145371_j38732015075674_2_alg».proof.Proof.RefLayerG

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev h2a : List (HloOp τ sig (Elt F)) :=
  [ unary main_arg2 main_v119 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v119 main_v120 rfl shapeCasts_S1x512x512_S512x512,
    nullary main_cst_5 (constant S_ .f32 0x00000000#32),
    binary main_v120 main_cst_5 main_v121 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_6 (constant S_ .f32 0x00000000#32),
    unary main_cst_6 main_v122 (broadcastInDim S512 ![] bcast_S_S512 : (⟨S_, .f32⟩ : BufTy).Contents (Elt F) → (⟨S512, .f32⟩ : BufTy).Contents (Elt F)),
    binary main_v121 main_v122 main_v123 (cmpf .oeq : (⟨S512, .f32⟩ : BufTy).Contents (Elt F) → (⟨S512, .f32⟩ : BufTy).Contents (Elt F) → (⟨S512, .i1⟩ : BufTy).Contents (Elt F)),
    unary main_v123 main_v124 (uitofp .f32 : (⟨S512, .i1⟩ : BufTy).Contents (Elt F) → (⟨S512, .f32⟩ : BufTy).Contents (Elt F)),
    binary main_v121 main_v124 main_v125 (addf : (⟨S512, .f32⟩ : BufTy).Contents (Elt F) → (⟨S512, .f32⟩ : BufTy).Contents (Elt F) → (⟨S512, .f32⟩ : BufTy).Contents (Elt F)),
    unary main_v125 main_v126 (broadcastInDim S512x1 ![0] bcast_S512_S512x1_0 : (⟨S512, .f32⟩ : BufTy).Contents (Elt F) → (⟨S512x1, .f32⟩ : BufTy).Contents (Elt F)),
    unary main_arg3 main_v127 ((extractStridedSlice S1x1x128x32 ![2, 0, 0, 0] · slices_S4x4x128x32_S1x1x128x32_2_0_0_0) : (⟨S4x4x128x32, .f32⟩ : BufTy).Contents (Elt F) → (⟨S1x1x128x32, .f32⟩ : BufTy).Contents (Elt F)),
    reshape main_v127 main_v128 rfl shapeCasts_S1x1x128x32_S128x32,
    binary main_v2 main_v128 main_v129 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v130 ((extractStridedSlice S1x128x32 ![2, 0, 0] · slices_S4x128x32_S1x128x32_2_0_0) : (⟨S4x128x32, .f32⟩ : BufTy).Contents (Elt F) → (⟨S1x128x32, .f32⟩ : BufTy).Contents (Elt F)),
    reshape main_v130 main_v131 rfl shapeCasts_S1x128x32_S128x32,
    binary main_arg0 main_v131 main_v132 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v120 main_v132 main_v133 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v129 main_v133 main_v134 (addf : (⟨S512x32, .f32⟩ : BufTy).Contents (Elt F) → (⟨S512x32, .f32⟩ : BufTy).Contents (Elt F) → (⟨S512x32, .f32⟩ : BufTy).Contents (Elt F)),
    unary main_v126 main_v135 (broadcastInDim S512x32 ![0, 1] bcast_S512x1_S512x32_0_1 : (⟨S512x1, .f32⟩ : BufTy).Contents (Elt F) → (⟨S512x32, .f32⟩ : BufTy).Contents (Elt F)),
    binary main_v134 main_v135 main_v136 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S512x32, .f32⟩) main_call8_v0) (broadcastInDim S512x32 ![] bcast_S_S512x32),
    TRef.binary (TRef.of (T := ⟨S512x32, .f32⟩) main_v136) (TRef.of (T := ⟨S512x32, .f32⟩) main_call8_v0) (TRef.of (T := ⟨S512x32, .f32⟩) main_v137) maximumf ]

abbrev h2b : List (HloOp τ sig (Elt F)) :=
  [ binary main_arg0 main_v137 main_v138 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v139 ((extractStridedSlice S1x1x128x32 ![2, 1, 0, 0] · slices_S4x4x128x32_S1x1x128x32_2_1_0_0) : (⟨S4x4x128x32, .f32⟩ : BufTy).Contents (Elt F) → (⟨S1x1x128x32, .f32⟩ : BufTy).Contents (Elt F)),
    reshape main_v139 main_v140 rfl shapeCasts_S1x1x128x32_S128x32,
    binary main_v2 main_v140 main_v141 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v142 ((extractStridedSlice S1x160x32 ![2, 0, 0] · slices_S4x160x32_S1x160x32_2_0_0) : (⟨S4x160x32, .f32⟩ : BufTy).Contents (Elt F) → (⟨S1x160x32, .f32⟩ : BufTy).Contents (Elt F)),
    reshape main_v142 main_v143 rfl shapeCasts_S1x160x32_S160x32,
    binary main_v138 main_v143 main_v144 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v120 main_v144 main_v145 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v141 main_v145 main_v146 (addf : (⟨S512x32, .f32⟩ : BufTy).Contents (Elt F) → (⟨S512x32, .f32⟩ : BufTy).Contents (Elt F) → (⟨S512x32, .f32⟩ : BufTy).Contents (Elt F)),
    unary main_v126 main_v147 (broadcastInDim S512x32 ![0, 1] bcast_S512x1_S512x32_0_1 : (⟨S512x1, .f32⟩ : BufTy).Contents (Elt F) → (⟨S512x32, .f32⟩ : BufTy).Contents (Elt F)),
    binary main_v146 main_v147 main_v148 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S512x32, .f32⟩) main_call9_v0) (broadcastInDim S512x32 ![] bcast_S_S512x32),
    TRef.binary (TRef.of (T := ⟨S512x32, .f32⟩) main_v148) (TRef.of (T := ⟨S512x32, .f32⟩) main_call9_v0) (TRef.of (T := ⟨S512x32, .f32⟩) main_v149) maximumf ]

abbrev h2c : List (HloOp τ sig (Elt F)) :=
  [ nary ![main_arg0, main_v137, main_v149] main_v150 (fun u => concatenate S512x192 1 [⟨S512x128, u 0⟩, ⟨S512x32, u 1⟩, ⟨S512x32, u 2⟩] concatenates_S512x128_S512x32_S512x32_S512x192_d1),
    unary main_arg3 main_v151 ((extractStridedSlice S1x1x128x32 ![2, 2, 0, 0] · slices_S4x4x128x32_S1x1x128x32_2_2_0_0) : (⟨S4x4x128x32, .f32⟩ : BufTy).Contents (Elt F) → (⟨S1x1x128x32, .f32⟩ : BufTy).Contents (Elt F)),
    reshape main_v151 main_v152 rfl shapeCasts_S1x1x128x32_S128x32,
    binary main_v2 main_v152 main_v153 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v154 ((extractStridedSlice S1x192x32 ![2, 0, 0] · slices_S4x192x32_S1x192x32_2_0_0) : (⟨S4x192x32, .f32⟩ : BufTy).Contents (Elt F) → (⟨S1x192x32, .f32⟩ : BufTy).Contents (Elt F)),
    reshape main_v154 main_v155 rfl shapeCasts_S1x192x32_S192x32,
    binary main_v150 main_v155 main_v156 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v120 main_v156 main_v157 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v153 main_v157 main_v158 (addf : (⟨S512x32, .f32⟩ : BufTy).Contents (Elt F) → (⟨S512x32, .f32⟩ : BufTy).Contents (Elt F) → (⟨S512x32, .f32⟩ : BufTy).Contents (Elt F)),
    unary main_v126 main_v159 (broadcastInDim S512x32 ![0, 1] bcast_S512x1_S512x32_0_1 : (⟨S512x1, .f32⟩ : BufTy).Contents (Elt F) → (⟨S512x32, .f32⟩ : BufTy).Contents (Elt F)),
    binary main_v158 main_v159 main_v160 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S512x32, .f32⟩) main_call10_v0) (broadcastInDim S512x32 ![] bcast_S_S512x32),
    TRef.binary (TRef.of (T := ⟨S512x32, .f32⟩) main_v160) (TRef.of (T := ⟨S512x32, .f32⟩) main_call10_v0) (TRef.of (T := ⟨S512x32, .f32⟩) main_v161) maximumf ]

abbrev h2d : List (HloOp τ sig (Elt F)) :=
  [ nary ![main_arg0, main_v137, main_v149, main_v161] main_v162 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v163 ((extractStridedSlice S1x1x128x32 ![2, 3, 0, 0] · slices_S4x4x128x32_S1x1x128x32_2_3_0_0) : (⟨S4x4x128x32, .f32⟩ : BufTy).Contents (Elt F) → (⟨S1x1x128x32, .f32⟩ : BufTy).Contents (Elt F)),
    reshape main_v163 main_v164 rfl shapeCasts_S1x1x128x32_S128x32,
    binary main_v2 main_v164 main_v165 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v166 ((extractStridedSlice S1x224x32 ![2, 0, 0] · slices_S4x224x32_S1x224x32_2_0_0) : (⟨S4x224x32, .f32⟩ : BufTy).Contents (Elt F) → (⟨S1x224x32, .f32⟩ : BufTy).Contents (Elt F)),
    reshape main_v166 main_v167 rfl shapeCasts_S1x224x32_S224x32,
    binary main_v162 main_v167 main_v168 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v120 main_v168 main_v169 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v165 main_v169 main_v170 (addf : (⟨S512x32, .f32⟩ : BufTy).Contents (Elt F) → (⟨S512x32, .f32⟩ : BufTy).Contents (Elt F) → (⟨S512x32, .f32⟩ : BufTy).Contents (Elt F)),
    unary main_v126 main_v171 (broadcastInDim S512x32 ![0, 1] bcast_S512x1_S512x32_0_1 : (⟨S512x1, .f32⟩ : BufTy).Contents (Elt F) → (⟨S512x32, .f32⟩ : BufTy).Contents (Elt F)),
    binary main_v170 main_v171 main_v172 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S512x32, .f32⟩) main_call11_v0) (broadcastInDim S512x32 ![] bcast_S_S512x32),
    TRef.binary (TRef.of (T := ⟨S512x32, .f32⟩) main_v172) (TRef.of (T := ⟨S512x32, .f32⟩) main_call11_v0) (TRef.of (T := ⟨S512x32, .f32⟩) main_v173) maximumf,
    nary ![main_arg0, main_v137, main_v149, main_v161, main_v173] main_v174 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1) ]

abbrev h2e : List (HloOp τ sig (Elt F)) :=
  [ nary ![main_v137, main_v149, main_v161, main_v173] main_v175 (fun u => concatenate S512x128 1 [⟨S512x32, u 0⟩, ⟨S512x32, u 1⟩, ⟨S512x32, u 2⟩, ⟨S512x32, u 3⟩] concatenates_S512x32_S512x32_S512x32_S512x32_S512x128_d1),
    binary main_v175 main_arg0 main_v176 (addf : (⟨S512x128, .f32⟩ : BufTy).Contents (Elt F) → (⟨S512x128, .f32⟩ : BufTy).Contents (Elt F) → (⟨S512x128, .f32⟩ : BufTy).Contents (Elt F)) ]

/-- The head's operations are the five parts in order. -/
theorem h2_split : (h2 : List (HloOp τ sig (Elt F))) = h2a ++ (h2b ++ (h2c ++ (h2d ++ h2e))) := rfl

abbrev h2a_W : List (Ref sig .tc) := [main_v119, main_v120, main_cst_5, main_v121, main_cst_6, main_v122, main_v123, main_v124, main_v125, main_v126, main_v127, main_v128, main_v129, main_v130, main_v131, main_v132, main_v133, main_v134, main_v135, main_v136, main_call8_cst, main_call8_v0, main_v137]
theorem h2a_writes : (h2a : List (HloOp τ sig (Elt F))).Forall fun op =>
    op.writes ⊆ (h2a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h2a_keep (V : Valuation τ sig (Elt F)) (r : Ref sig .tc) (h : r ∉ h2a_W) :
    after h2a V (Proc.devRef .tc r) = V (Proc.devRef .tc r) :=
  after_of_writes_sub h2a _ h2a_writes h

abbrev h2b_W : List (Ref sig .tc) := [main_v138, main_v139, main_v140, main_v141, main_v142, main_v143, main_v144, main_v145, main_v146, main_v147, main_v148, main_call9_cst, main_call9_v0, main_v149]
theorem h2b_writes : (h2b : List (HloOp τ sig (Elt F))).Forall fun op =>
    op.writes ⊆ (h2b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h2b_keep (V : Valuation τ sig (Elt F)) (r : Ref sig .tc) (h : r ∉ h2b_W) :
    after h2b V (Proc.devRef .tc r) = V (Proc.devRef .tc r) :=
  after_of_writes_sub h2b _ h2b_writes h

abbrev h2c_W : List (Ref sig .tc) := [main_v150, main_v151, main_v152, main_v153, main_v154, main_v155, main_v156, main_v157, main_v158, main_v159, main_v160, main_call10_cst, main_call10_v0, main_v161]
theorem h2c_writes : (h2c : List (HloOp τ sig (Elt F))).Forall fun op =>
    op.writes ⊆ (h2c_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h2c_keep (V : Valuation τ sig (Elt F)) (r : Ref sig .tc) (h : r ∉ h2c_W) :
    after h2c V (Proc.devRef .tc r) = V (Proc.devRef .tc r) :=
  after_of_writes_sub h2c _ h2c_writes h

abbrev h2d_W : List (Ref sig .tc) := [main_v162, main_v163, main_v164, main_v165, main_v166, main_v167, main_v168, main_v169, main_v170, main_v171, main_v172, main_call11_cst, main_call11_v0, main_v173, main_v174]
theorem h2d_writes : (h2d : List (HloOp τ sig (Elt F))).Forall fun op =>
    op.writes ⊆ (h2d_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h2d_keep (V : Valuation τ sig (Elt F)) (r : Ref sig .tc) (h : r ∉ h2d_W) :
    after h2d V (Proc.devRef .tc r) = V (Proc.devRef .tc r) :=
  after_of_writes_sub h2d _ h2d_writes h

abbrev h2e_W : List (Ref sig .tc) := [main_v175, main_v176]
theorem h2e_writes : (h2e : List (HloOp τ sig (Elt F))).Forall fun op =>
    op.writes ⊆ (h2e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h2e_keep (V : Valuation τ sig (Elt F)) (r : Ref sig .tc) (h : r ∉ h2e_W) :
    after h2e V (Proc.devRef .tc r) = V (Proc.devRef .tc r) :=
  after_of_writes_sub h2e _ h2e_writes h

/-! ## What each part leaves -/

theorem h2a_A (V : Valuation τ sig (Elt F)) : after h2a V (Proc.devRef .tc main_v120) = adjF 2 slices_S4x512x512_S1x512x512_2_0_0 (V (Proc.devRef .tc main_arg2)) := by
  simp only [h2a]
  after_results_simp
  rfl

theorem h2a_D (V : Valuation τ sig (Elt F)) : after h2a V (Proc.devRef .tc main_v126) = denF (adjF 2 slices_S4x512x512_S1x512x512_2_0_0 (V (Proc.devRef .tc main_arg2))) := by
  simp only [h2a]
  after_results_simp
  rfl

set_option maxHeartbeats 2000000 in
theorem h2a_G (V : Valuation τ sig (Elt F)) :
    after h2a V (Proc.devRef .tc main_v137) = g0F (V (Proc.devRef .tc main_arg0)) (V (Proc.devRef .tc main_v2)) (adjF 2 slices_S4x512x512_S1x512x512_2_0_0 (V (Proc.devRef .tc main_arg2))) (weF 2 0 slices_S4x4x128x32_S1x1x128x32_2_0_0_0 (V (Proc.devRef .tc main_arg3))) (w0F 2 slices_S4x128x32_S1x128x32_2_0_0 (V (Proc.devRef .tc main_arg4))) := by
  simp only [h2a]
  after_results_simp
  rfl

set_option maxHeartbeats 2000000 in
theorem h2b_G (V : Valuation τ sig (Elt F)) :
    after h2b V (Proc.devRef .tc main_v149)
      = layerG (V (Proc.devRef .tc main_v2)) (V (Proc.devRef .tc main_v120)) (V (Proc.devRef .tc main_v126)) (weF 2 1 slices_S4x4x128x32_S1x1x128x32_2_1_0_0 (V (Proc.devRef .tc main_arg3)))
          (Host.dotGeneral dot_S512x160_S160x32_S512x32_1_0_0_1_n_n none
            (concatenate S512x160 1 [⟨S512x128, V (Proc.devRef .tc main_arg0)⟩, ⟨S512x32, V (Proc.devRef .tc main_v137)⟩] concatenates_S512x128_S512x32_S512x160_d1) (w1F 2 slices_S4x160x32_S1x160x32_2_0_0 (V (Proc.devRef .tc main_arg5)))) := by
  simp only [h2b]
  after_results_simp
  rfl

set_option maxHeartbeats 2000000 in
theorem h2c_G (V : Valuation τ sig (Elt F)) :
    after h2c V (Proc.devRef .tc main_v161)
      = layerG (V (Proc.devRef .tc main_v2)) (V (Proc.devRef .tc main_v120)) (V (Proc.devRef .tc main_v126)) (weF 2 2 slices_S4x4x128x32_S1x1x128x32_2_2_0_0 (V (Proc.devRef .tc main_arg3)))
          (Host.dotGeneral dot_S512x192_S192x32_S512x32_1_0_0_1_n_n none
            (concatenate S512x192 1 [⟨S512x128, V (Proc.devRef .tc main_arg0)⟩, ⟨S512x32, V (Proc.devRef .tc main_v137)⟩, ⟨S512x32, V (Proc.devRef .tc main_v149)⟩]
              concatenates_S512x128_S512x32_S512x32_S512x192_d1) (w2F 2 slices_S4x192x32_S1x192x32_2_0_0 (V (Proc.devRef .tc main_arg6)))) := by
  simp only [h2c]
  after_results_simp
  rfl

set_option maxHeartbeats 2000000 in
theorem h2d_G (V : Valuation τ sig (Elt F)) :
    after h2d V (Proc.devRef .tc main_v173)
      = layerG (V (Proc.devRef .tc main_v2)) (V (Proc.devRef .tc main_v120)) (V (Proc.devRef .tc main_v126)) (weF 2 3 slices_S4x4x128x32_S1x1x128x32_2_3_0_0 (V (Proc.devRef .tc main_arg3)))
          (Host.dotGeneral dot_S512x224_S224x32_S512x32_1_0_0_1_n_n none
            (concatenate S512x224 1 [⟨S512x128, V (Proc.devRef .tc main_arg0)⟩, ⟨S512x32, V (Proc.devRef .tc main_v137)⟩, ⟨S512x32, V (Proc.devRef .tc main_v149)⟩, ⟨S512x32, V (Proc.devRef .tc main_v161)⟩]
              concatenates_S512x128_S512x32_S512x32_S512x32_S512x224_d1) (w3F 2 slices_S4x224x32_S1x224x32_2_0_0 (V (Proc.devRef .tc main_arg7)))) := by
  simp only [h2d]
  after_results_simp
  rfl

theorem h2e_H (V : Valuation τ sig (Elt F)) :
    after h2e V (Proc.devRef .tc main_v176)
      = addf (concatenate S512x128 1 [⟨S512x32, V (Proc.devRef .tc main_v137)⟩, ⟨S512x32, V (Proc.devRef .tc main_v149)⟩, ⟨S512x32, V (Proc.devRef .tc main_v161)⟩, ⟨S512x32, V (Proc.devRef .tc main_v173)⟩]
          concatenates_S512x32_S512x32_S512x32_S512x32_S512x128_d1) (V (Proc.devRef .tc main_arg0)) := by
  simp only [h2e]
  after_results_simp
  rfl

/-! ## The head -/

set_option maxRecDepth 16384 in
/-- What the block leaves in the head's result buffer. -/
theorem h2_val (V : Valuation τ sig (Elt F)) :
    after h2 V (Proc.devRef .tc main_v176)
      = head2F (V (Proc.devRef .tc main_arg0)) (V (Proc.devRef .tc main_v2)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [h2_split, after_append, after_append, after_append, after_append, h2e_H]
  rw [h2d_G, h2d_keep _ main_v137 (by decide), h2d_keep _ main_v149 (by decide), h2d_keep _ main_v161 (by decide), h2d_keep _ main_arg0 (by decide)]
  rw [h2c_G, h2c_keep _ main_v137 (by decide), h2c_keep _ main_v149 (by decide), h2c_keep _ main_arg0 (by decide), h2c_keep _ main_v2 (by decide), h2c_keep _ main_v120 (by decide), h2c_keep _ main_v126 (by decide), h2c_keep _ main_arg3 (by decide), h2c_keep _ main_arg7 (by decide)]
  rw [h2b_G, h2b_keep _ main_v137 (by decide), h2b_keep _ main_arg0 (by decide), h2b_keep _ main_v2 (by decide), h2b_keep _ main_v120 (by decide), h2b_keep _ main_v126 (by decide), h2b_keep _ main_arg3 (by decide), h2b_keep _ main_arg6 (by decide), h2b_keep _ main_arg7 (by decide)]
  rw [h2a_G, h2a_A, h2a_D, h2a_keep _ main_arg0 (by decide), h2a_keep _ main_v2 (by decide), h2a_keep _ main_arg3 (by decide), h2a_keep _ main_arg5 (by decide), h2a_keep _ main_arg6 (by decide), h2a_keep _ main_arg7 (by decide)]
  rfl

/-- The buffers the head's block writes. -/
abbrev h2_W : List (Ref sig .tc) := h2a_W ++ (h2b_W ++ (h2c_W ++ (h2d_W ++ h2e_W)))

/-- A buffer the block does not write keeps its contents through it. -/
theorem h2_keep (V : Valuation τ sig (Elt F)) (r : Ref sig .tc) (h : r ∉ h2_W) :
    after h2 V (Proc.devRef .tc r) = V (Proc.devRef .tc r) := by
  have ha : r ∉ h2a_W := fun m => h (List.mem_append_left _ m)
  have hb : r ∉ h2b_W := fun m => h (List.mem_append_right _ (List.mem_append_left _ m))
  have hc : r ∉ h2c_W := fun m => h (List.mem_append_right _ (List.mem_append_right _ (List.mem_append_left _ m)))
  have hd : r ∉ h2d_W := fun m => h (List.mem_append_right _ (List.mem_append_right _ (List.mem_append_right _ (List.mem_append_left _ m))))
  have he : r ∉ h2e_W := fun m => h (List.mem_append_right _ (List.mem_append_right _ (List.mem_append_right _ (List.mem_append_right _ m))))
  rw [h2_split, after_append, after_append, after_append, after_append,
    h2e_keep _ r he, h2d_keep _ r hd, h2c_keep _ r hc, h2b_keep _ r hb, h2a_keep _ r ha]

end Cert.ReferenceIdeal.RefValue

end
-- ==== Proof.RefHead3.lean ====
/-
  Head 3's block of the reference, cut before each joining of features: the adjacency slice with its degree column
  and layer 0; layers 1, 2, 3, each from the node features joined with the earlier layers' outputs; the four layers
  side by side plus the node features. From any contents the block leaves the head's features in its result buffer
  and touches no buffer outside its own.
-/
import proofs.«145371_j38732015075674_2_alg».proof.Proof.RefOps
import proofs.«145371_j38732015075674_2_alg».proof.Proof.RefHeadFn
import proofs.«145371_j38732015075674_2_alg».proof.Proof.RefLayerG

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev h3a : List (HloOp τ sig (Elt F)) :=
  [ unary main_arg2 main_v177 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v177 main_v178 rfl shapeCasts_S1x512x512_S512x512,
    nullary main_cst_7 (constant S_ .f32 0x00000000#32),
    binary main_v178 main_cst_7 main_v179 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_8 (constant S_ .f32 0x00000000#32),
    unary main_cst_8 main_v180 (broadcastInDim S512 ![] bcast_S_S512 : (⟨S_, .f32⟩ : BufTy).Contents (Elt F) → (⟨S512, .f32⟩ : BufTy).Contents (Elt F)),
    binary main_v179 main_v180 main_v181 (cmpf .oeq : (⟨S512, .f32⟩ : BufTy).Contents (Elt F) → (⟨S512, .f32⟩ : BufTy).Contents (Elt F) → (⟨S512, .i1⟩ : BufTy).Contents (Elt F)),
    unary main_v181 main_v182 (uitofp .f32 : (⟨S512, .i1⟩ : BufTy).Contents (Elt F) → (⟨S512, .f32⟩ : BufTy).Contents (Elt F)),
    binary main_v179 main_v182 main_v183 (addf : (⟨S512, .f32⟩ : BufTy).Contents (Elt F) → (⟨S512, .f32⟩ : BufTy).Contents (Elt F) → (⟨S512, .f32⟩ : BufTy).Contents (Elt F)),
    unary main_v183 main_v184 (broadcastInDim S512x1 ![0] bcast_S512_S512x1_0 : (⟨S512, .f32⟩ : BufTy).Contents (Elt F) → (⟨S512x1, .f32⟩ : BufTy).Contents (Elt F)),
    unary main_arg3 main_v185 ((extractStridedSlice S1x1x128x32 ![3, 0, 0, 0] · slices_S4x4x128x32_S1x1x128x32_3_0_0_0) : (⟨S4x4x128x32, .f32⟩ : BufTy).Contents (Elt F) → (⟨S1x1x128x32, .f32⟩ : BufTy).Contents (Elt F)),
    reshape main_v185 main_v186 rfl shapeCasts_S1x1x128x32_S128x32,
    binary main_v2 main_v186 main_v187 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg4 main_v188 ((extractStridedSlice S1x128x32 ![3, 0, 0] · slices_S4x128x32_S1x128x32_3_0_0) : (⟨S4x128x32, .f32⟩ : BufTy).Contents (Elt F) → (⟨S1x128x32, .f32⟩ : BufTy).Contents (Elt F)),
    reshape main_v188 main_v189 rfl shapeCasts_S1x128x32_S128x32,
    binary main_arg0 main_v189 main_v190 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    binary main_v178 main_v190 main_v191 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v187 main_v191 main_v192 (addf : (⟨S512x32, .f32⟩ : BufTy).Contents (Elt F) → (⟨S512x32, .f32⟩ : BufTy).Contents (Elt F) → (⟨S512x32, .f32⟩ : BufTy).Contents (Elt F)),
    unary main_v184 main_v193 (broadcastInDim S512x32 ![0, 1] bcast_S512x1_S512x32_0_1 : (⟨S512x1, .f32⟩ : BufTy).Contents (Elt F) → (⟨S512x32, .f32⟩ : BufTy).Contents (Elt F)),
    binary main_v192 main_v193 main_v194 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S512x32, .f32⟩) main_call12_v0) (broadcastInDim S512x32 ![] bcast_S_S512x32),
    TRef.binary (TRef.of (T := ⟨S512x32, .f32⟩) main_v194) (TRef.of (T := ⟨S512x32, .f32⟩) main_call12_v0) (TRef.of (T := ⟨S512x32, .f32⟩) main_v195) maximumf ]

abbrev h3b : List (HloOp τ sig (Elt F)) :=
  [ binary main_arg0 main_v195 main_v196 ((fun a b => concatenate S512x160 1 [⟨S512x128, a⟩, ⟨S512x32, b⟩] concatenates_S512x128_S512x32_S512x160_d1) : (⟨S512x128, .f32⟩ : BufTy).Contents (Elt F) → (⟨S512x32, .f32⟩ : BufTy).Contents (Elt F) → (⟨S512x160, .f32⟩ : BufTy).Contents (Elt F)),
    unary main_arg3 main_v197 ((extractStridedSlice S1x1x128x32 ![3, 1, 0, 0] · slices_S4x4x128x32_S1x1x128x32_3_1_0_0) : (⟨S4x4x128x32, .f32⟩ : BufTy).Contents (Elt F) → (⟨S1x1x128x32, .f32⟩ : BufTy).Contents (Elt F)),
    reshape main_v197 main_v198 rfl shapeCasts_S1x1x128x32_S128x32,
    binary main_v2 main_v198 main_v199 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg5 main_v200 ((extractStridedSlice S1x160x32 ![3, 0, 0] · slices_S4x160x32_S1x160x32_3_0_0) : (⟨S4x160x32, .f32⟩ : BufTy).Contents (Elt F) → (⟨S1x160x32, .f32⟩ : BufTy).Contents (Elt F)),
    reshape main_v200 main_v201 rfl shapeCasts_S1x160x32_S160x32,
    binary main_v196 main_v201 main_v202 ((fun l r => Host.dotGeneral dot_S512x160_S160x32_S512x32_1_0_0_1_n_n none l r) : (⟨S512x160, .f32⟩ : BufTy).Contents (Elt F) → (⟨S160x32, .f32⟩ : BufTy).Contents (Elt F) → (⟨S512x32, .f32⟩ : BufTy).Contents (Elt F)),
    binary main_v178 main_v202 main_v203 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v199 main_v203 main_v204 (addf : (⟨S512x32, .f32⟩ : BufTy).Contents (Elt F) → (⟨S512x32, .f32⟩ : BufTy).Contents (Elt F) → (⟨S512x32, .f32⟩ : BufTy).Contents (Elt F)),
    unary main_v184 main_v205 (broadcastInDim S512x32 ![0, 1] bcast_S512x1_S512x32_0_1 : (⟨S512x1, .f32⟩ : BufTy).Contents (Elt F) → (⟨S512x32, .f32⟩ : BufTy).Contents (Elt F)),
    binary main_v204 main_v205 main_v206 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S512x32, .f32⟩) main_call13_v0) (broadcastInDim S512x32 ![] bcast_S_S512x32),
    TRef.binary (TRef.of (T := ⟨S512x32, .f32⟩) main_v206) (TRef.of (T := ⟨S512x32, .f32⟩) main_call13_v0) (TRef.of (T := ⟨S512x32, .f32⟩) main_v207) maximumf ]

abbrev h3c : List (HloOp τ sig (Elt F)) :=
  [ nary ![main_arg0, main_v195, main_v207] main_v208 (fun u => concatenate S512x192 1 [⟨S512x128, u 0⟩, ⟨S512x32, u 1⟩, ⟨S512x32, u 2⟩] concatenates_S512x128_S512x32_S512x32_S512x192_d1),
    unary main_arg3 main_v209 ((extractStridedSlice S1x1x128x32 ![3, 2, 0, 0] · slices_S4x4x128x32_S1x1x128x32_3_2_0_0) : (⟨S4x4x128x32, .f32⟩ : BufTy).Contents (Elt F) → (⟨S1x1x128x32, .f32⟩ : BufTy).Contents (Elt F)),
    reshape main_v209 main_v210 rfl shapeCasts_S1x1x128x32_S128x32,
    binary main_v2 main_v210 main_v211 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg6 main_v212 ((extractStridedSlice S1x192x32 ![3, 0, 0] · slices_S4x192x32_S1x192x32_3_0_0) : (⟨S4x192x32, .f32⟩ : BufTy).Contents (Elt F) → (⟨S1x192x32, .f32⟩ : BufTy).Contents (Elt F)),
    reshape main_v212 main_v213 rfl shapeCasts_S1x192x32_S192x32,
    binary main_v208 main_v213 main_v214 ((fun l r => Host.dotGeneral dot_S512x192_S192x32_S512x32_1_0_0_1_n_n none l r) : (⟨S512x192, .f32⟩ : BufTy).Contents (Elt F) → (⟨S192x32, .f32⟩ : BufTy).Contents (Elt F) → (⟨S512x32, .f32⟩ : BufTy).Contents (Elt F)),
    binary main_v178 main_v214 main_v215 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v211 main_v215 main_v216 (addf : (⟨S512x32, .f32⟩ : BufTy).Contents (Elt F) → (⟨S512x32, .f32⟩ : BufTy).Contents (Elt F) → (⟨S512x32, .f32⟩ : BufTy).Contents (Elt F)),
    unary main_v184 main_v217 (broadcastInDim S512x32 ![0, 1] bcast_S512x1_S512x32_0_1 : (⟨S512x1, .f32⟩ : BufTy).Contents (Elt F) → (⟨S512x32, .f32⟩ : BufTy).Contents (Elt F)),
    binary main_v216 main_v217 main_v218 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S512x32, .f32⟩) main_call14_v0) (broadcastInDim S512x32 ![] bcast_S_S512x32),
    TRef.binary (TRef.of (T := ⟨S512x32, .f32⟩) main_v218) (TRef.of (T := ⟨S512x32, .f32⟩) main_call14_v0) (TRef.of (T := ⟨S512x32, .f32⟩) main_v219) maximumf ]

abbrev h3d : List (HloOp τ sig (Elt F)) :=
  [ nary ![main_arg0, main_v195, main_v207, main_v219] main_v220 (fun u => concatenate S512x224 1 [⟨S512x128, u 0⟩, ⟨S512x32, u 1⟩, ⟨S512x32, u 2⟩, ⟨S512x32, u 3⟩] concatenates_S512x128_S512x32_S512x32_S512x32_S512x224_d1),
    unary main_arg3 main_v221 ((extractStridedSlice S1x1x128x32 ![3, 3, 0, 0] · slices_S4x4x128x32_S1x1x128x32_3_3_0_0) : (⟨S4x4x128x32, .f32⟩ : BufTy).Contents (Elt F) → (⟨S1x1x128x32, .f32⟩ : BufTy).Contents (Elt F)),
    reshape main_v221 main_v222 rfl shapeCasts_S1x1x128x32_S128x32,
    binary main_v2 main_v222 main_v223 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg7 main_v224 ((extractStridedSlice S1x224x32 ![3, 0, 0] · slices_S4x224x32_S1x224x32_3_0_0) : (⟨S4x224x32, .f32⟩ : BufTy).Contents (Elt F) → (⟨S1x224x32, .f32⟩ : BufTy).Contents (Elt F)),
    reshape main_v224 main_v225 rfl shapeCasts_S1x224x32_S224x32,
    binary main_v220 main_v225 main_v226 ((fun l r => Host.dotGeneral dot_S512x224_S224x32_S512x32_1_0_0_1_n_n none l r) : (⟨S512x224, .f32⟩ : BufTy).Contents (Elt F) → (⟨S224x32, .f32⟩ : BufTy).Contents (Elt F) → (⟨S512x32, .f32⟩ : BufTy).Contents (Elt F)),
    binary main_v178 main_v226 main_v227 ((fun l r => Host.dotGeneral dot_S512x512_S512x32_S512x32_1_0_0_1_n_n none l r) : (⟨S512x512, .f32⟩ : BufTy).Contents (Elt F) → (⟨S512x32, .f32⟩ : BufTy).Contents (Elt F) → (⟨S512x32, .f32⟩ : BufTy).Contents (Elt F)),
    binary main_v223 main_v227 main_v228 (addf : (⟨S512x32, .f32⟩ : BufTy).Contents (Elt F) → (⟨S512x32, .f32⟩ : BufTy).Contents (Elt F) → (⟨S512x32, .f32⟩ : BufTy).Contents (Elt F)),
    unary main_v184 main_v229 (broadcastInDim S512x32 ![0, 1] bcast_S512x1_S512x32_0_1 : (⟨S512x1, .f32⟩ : BufTy).Contents (Elt F) → (⟨S512x32, .f32⟩ : BufTy).Contents (Elt F)),
    binary main_v228 main_v229 main_v230 (Host.divf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S512x32, .f32⟩) main_call15_v0) (broadcastInDim S512x32 ![] bcast_S_S512x32),
    TRef.binary (TRef.of (T := ⟨S512x32, .f32⟩) main_v230) (TRef.of (T := ⟨S512x32, .f32⟩) main_call15_v0) (TRef.of (T := ⟨S512x32, .f32⟩) main_v231) maximumf,
    nary ![main_arg0, main_v195, main_v207, main_v219, main_v231] main_v232 (fun u => concatenate S512x256 1 [⟨S512x128, u 0⟩, ⟨S512x32, u 1⟩, ⟨S512x32, u 2⟩, ⟨S512x32, u 3⟩, ⟨S512x32, u 4⟩] concatenates_S512x128_S512x32_S512x32_S512x32_S512x32_S512x256_d1) ]

abbrev h3e : List (HloOp τ sig (Elt F)) :=
  [ nary ![main_v195, main_v207, main_v219, main_v231] main_v233 (fun u => concatenate S512x128 1 [⟨S512x32, u 0⟩, ⟨S512x32, u 1⟩, ⟨S512x32, u 2⟩, ⟨S512x32, u 3⟩] concatenates_S512x32_S512x32_S512x32_S512x32_S512x128_d1),
    binary main_v233 main_arg0 main_v234 (addf : (⟨S512x128, .f32⟩ : BufTy).Contents (Elt F) → (⟨S512x128, .f32⟩ : BufTy).Contents (Elt F) → (⟨S512x128, .f32⟩ : BufTy).Contents (Elt F)) ]

/-- The head's operations are the five parts in order. -/
theorem h3_split : (h3 : List (HloOp τ sig (Elt F))) = h3a ++ (h3b ++ (h3c ++ (h3d ++ h3e))) := rfl

abbrev h3a_W : List (Ref sig .tc) := [main_v177, main_v178, main_cst_7, main_v179, main_cst_8, main_v180, main_v181, main_v182, main_v183, main_v184, main_v185, main_v186, main_v187, main_v188, main_v189, main_v190, main_v191, main_v192, main_v193, main_v194, main_call12_cst, main_call12_v0, main_v195]
theorem h3a_writes : (h3a : List (HloOp τ sig (Elt F))).Forall fun op =>
    op.writes ⊆ (h3a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h3a_keep (V : Valuation τ sig (Elt F)) (r : Ref sig .tc) (h : r ∉ h3a_W) :
    after h3a V (Proc.devRef .tc r) = V (Proc.devRef .tc r) :=
  after_of_writes_sub h3a _ h3a_writes h

abbrev h3b_W : List (Ref sig .tc) := [main_v196, main_v197, main_v198, main_v199, main_v200, main_v201, main_v202, main_v203, main_v204, main_v205, main_v206, main_call13_cst, main_call13_v0, main_v207]
theorem h3b_writes : (h3b : List (HloOp τ sig (Elt F))).Forall fun op =>
    op.writes ⊆ (h3b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h3b_keep (V : Valuation τ sig (Elt F)) (r : Ref sig .tc) (h : r ∉ h3b_W) :
    after h3b V (Proc.devRef .tc r) = V (Proc.devRef .tc r) :=
  after_of_writes_sub h3b _ h3b_writes h

abbrev h3c_W : List (Ref sig .tc) := [main_v208, main_v209, main_v210, main_v211, main_v212, main_v213, main_v214, main_v215, main_v216, main_v217, main_v218, main_call14_cst, main_call14_v0, main_v219]
theorem h3c_writes : (h3c : List (HloOp τ sig (Elt F))).Forall fun op =>
    op.writes ⊆ (h3c_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h3c_keep (V : Valuation τ sig (Elt F)) (r : Ref sig .tc) (h : r ∉ h3c_W) :
    after h3c V (Proc.devRef .tc r) = V (Proc.devRef .tc r) :=
  after_of_writes_sub h3c _ h3c_writes h

abbrev h3d_W : List (Ref sig .tc) := [main_v220, main_v221, main_v222, main_v223, main_v224, main_v225, main_v226, main_v227, main_v228, main_v229, main_v230, main_call15_cst, main_call15_v0, main_v231, main_v232]
theorem h3d_writes : (h3d : List (HloOp τ sig (Elt F))).Forall fun op =>
    op.writes ⊆ (h3d_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h3d_keep (V : Valuation τ sig (Elt F)) (r : Ref sig .tc) (h : r ∉ h3d_W) :
    after h3d V (Proc.devRef .tc r) = V (Proc.devRef .tc r) :=
  after_of_writes_sub h3d _ h3d_writes h

abbrev h3e_W : List (Ref sig .tc) := [main_v233, main_v234]
theorem h3e_writes : (h3e : List (HloOp τ sig (Elt F))).Forall fun op =>
    op.writes ⊆ (h3e_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem h3e_keep (V : Valuation τ sig (Elt F)) (r : Ref sig .tc) (h : r ∉ h3e_W) :
    after h3e V (Proc.devRef .tc r) = V (Proc.devRef .tc r) :=
  after_of_writes_sub h3e _ h3e_writes h

/-! ## What each part leaves -/

theorem h3a_A (V : Valuation τ sig (Elt F)) : after h3a V (Proc.devRef .tc main_v178) = adjF 3 slices_S4x512x512_S1x512x512_3_0_0 (V (Proc.devRef .tc main_arg2)) := by
  simp only [h3a]
  after_results_simp
  rfl

theorem h3a_D (V : Valuation τ sig (Elt F)) : after h3a V (Proc.devRef .tc main_v184) = denF (adjF 3 slices_S4x512x512_S1x512x512_3_0_0 (V (Proc.devRef .tc main_arg2))) := by
  simp only [h3a]
  after_results_simp
  rfl

set_option maxHeartbeats 2000000 in
theorem h3a_G (V : Valuation τ sig (Elt F)) :
    after h3a V (Proc.devRef .tc main_v195) = g0F (V (Proc.devRef .tc main_arg0)) (V (Proc.devRef .tc main_v2)) (adjF 3 slices_S4x512x512_S1x512x512_3_0_0 (V (Proc.devRef .tc main_arg2))) (weF 3 0 slices_S4x4x128x32_S1x1x128x32_3_0_0_0 (V (Proc.devRef .tc main_arg3))) (w0F 3 slices_S4x128x32_S1x128x32_3_0_0 (V (Proc.devRef .tc main_arg4))) := by
  simp only [h3a]
  after_results_simp
  rfl

set_option maxHeartbeats 2000000 in
theorem h3b_G (V : Valuation τ sig (Elt F)) :
    after h3b V (Proc.devRef .tc main_v207)
      = layerG (V (Proc.devRef .tc main_v2)) (V (Proc.devRef .tc main_v178)) (V (Proc.devRef .tc main_v184)) (weF 3 1 slices_S4x4x128x32_S1x1x128x32_3_1_0_0 (V (Proc.devRef .tc main_arg3)))
          (Host.dotGeneral dot_S512x160_S160x32_S512x32_1_0_0_1_n_n none
            (concatenate S512x160 1 [⟨S512x128, V (Proc.devRef .tc main_arg0)⟩, ⟨S512x32, V (Proc.devRef .tc main_v195)⟩] concatenates_S512x128_S512x32_S512x160_d1) (w1F 3 slices_S4x160x32_S1x160x32_3_0_0 (V (Proc.devRef .tc main_arg5)))) := by
  simp only [h3b]
  after_results_simp
  rfl

set_option maxHeartbeats 2000000 in
theorem h3c_G (V : Valuation τ sig (Elt F)) :
    after h3c V (Proc.devRef .tc main_v219)
      = layerG (V (Proc.devRef .tc main_v2)) (V (Proc.devRef .tc main_v178)) (V (Proc.devRef .tc main_v184)) (weF 3 2 slices_S4x4x128x32_S1x1x128x32_3_2_0_0 (V (Proc.devRef .tc main_arg3)))
          (Host.dotGeneral dot_S512x192_S192x32_S512x32_1_0_0_1_n_n none
            (concatenate S512x192 1 [⟨S512x128, V (Proc.devRef .tc main_arg0)⟩, ⟨S512x32, V (Proc.devRef .tc main_v195)⟩, ⟨S512x32, V (Proc.devRef .tc main_v207)⟩]
              concatenates_S512x128_S512x32_S512x32_S512x192_d1) (w2F 3 slices_S4x192x32_S1x192x32_3_0_0 (V (Proc.devRef .tc main_arg6)))) := by
  simp only [h3c]
  after_results_simp
  rfl

set_option maxHeartbeats 2000000 in
theorem h3d_G (V : Valuation τ sig (Elt F)) :
    after h3d V (Proc.devRef .tc main_v231)
      = layerG (V (Proc.devRef .tc main_v2)) (V (Proc.devRef .tc main_v178)) (V (Proc.devRef .tc main_v184)) (weF 3 3 slices_S4x4x128x32_S1x1x128x32_3_3_0_0 (V (Proc.devRef .tc main_arg3)))
          (Host.dotGeneral dot_S512x224_S224x32_S512x32_1_0_0_1_n_n none
            (concatenate S512x224 1 [⟨S512x128, V (Proc.devRef .tc main_arg0)⟩, ⟨S512x32, V (Proc.devRef .tc main_v195)⟩, ⟨S512x32, V (Proc.devRef .tc main_v207)⟩, ⟨S512x32, V (Proc.devRef .tc main_v219)⟩]
              concatenates_S512x128_S512x32_S512x32_S512x32_S512x224_d1) (w3F 3 slices_S4x224x32_S1x224x32_3_0_0 (V (Proc.devRef .tc main_arg7)))) := by
  simp only [h3d]
  after_results_simp
  rfl

theorem h3e_H (V : Valuation τ sig (Elt F)) :
    after h3e V (Proc.devRef .tc main_v234)
      = addf (concatenate S512x128 1 [⟨S512x32, V (Proc.devRef .tc main_v195)⟩, ⟨S512x32, V (Proc.devRef .tc main_v207)⟩, ⟨S512x32, V (Proc.devRef .tc main_v219)⟩, ⟨S512x32, V (Proc.devRef .tc main_v231)⟩]
          concatenates_S512x32_S512x32_S512x32_S512x32_S512x128_d1) (V (Proc.devRef .tc main_arg0)) := by
  simp only [h3e]
  after_results_simp
  rfl

/-! ## The head -/

set_option maxRecDepth 16384 in
/-- What the block leaves in the head's result buffer. -/
theorem h3_val (V : Valuation τ sig (Elt F)) :
    after h3 V (Proc.devRef .tc main_v234)
      = head3F (V (Proc.devRef .tc main_arg0)) (V (Proc.devRef .tc main_v2)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [h3_split, after_append, after_append, after_append, after_append, h3e_H]
  rw [h3d_G, h3d_keep _ main_v195 (by decide), h3d_keep _ main_v207 (by decide), h3d_keep _ main_v219 (by decide), h3d_keep _ main_arg0 (by decide)]
  rw [h3c_G, h3c_keep _ main_v195 (by decide), h3c_keep _ main_v207 (by decide), h3c_keep _ main_arg0 (by decide), h3c_keep _ main_v2 (by decide), h3c_keep _ main_v178 (by decide), h3c_keep _ main_v184 (by decide), h3c_keep _ main_arg3 (by decide), h3c_keep _ main_arg7 (by decide)]
  rw [h3b_G, h3b_keep _ main_v195 (by decide), h3b_keep _ main_arg0 (by decide), h3b_keep _ main_v2 (by decide), h3b_keep _ main_v178 (by decide), h3b_keep _ main_v184 (by decide), h3b_keep _ main_arg3 (by decide), h3b_keep _ main_arg6 (by decide), h3b_keep _ main_arg7 (by decide)]
  rw [h3a_G, h3a_A, h3a_D, h3a_keep _ main_arg0 (by decide), h3a_keep _ main_v2 (by decide), h3a_keep _ main_arg3 (by decide), h3a_keep _ main_arg5 (by decide), h3a_keep _ main_arg6 (by decide), h3a_keep _ main_arg7 (by decide)]
  rfl

/-- The buffers the head's block writes. -/
abbrev h3_W : List (Ref sig .tc) := h3a_W ++ (h3b_W ++ (h3c_W ++ (h3d_W ++ h3e_W)))

/-- A buffer the block does not write keeps its contents through it. -/
theorem h3_keep (V : Valuation τ sig (Elt F)) (r : Ref sig .tc) (h : r ∉ h3_W) :
    after h3 V (Proc.devRef .tc r) = V (Proc.devRef .tc r) := by
  have ha : r ∉ h3a_W := fun m => h (List.mem_append_left _ m)
  have hb : r ∉ h3b_W := fun m => h (List.mem_append_right _ (List.mem_append_left _ m))
  have hc : r ∉ h3c_W := fun m => h (List.mem_append_right _ (List.mem_append_right _ (List.mem_append_left _ m)))
  have hd : r ∉ h3d_W := fun m => h (List.mem_append_right _ (List.mem_append_right _ (List.mem_append_right _ (List.mem_append_left _ m))))
  have he : r ∉ h3e_W := fun m => h (List.mem_append_right _ (List.mem_append_right _ (List.mem_append_right _ (List.mem_append_right _ m))))
  rw [h3_split, after_append, after_append, after_append, after_append,
    h3e_keep _ r he, h3d_keep _ r hd, h3c_keep _ r hc, h3b_keep _ r hb, h3a_keep _ r ha]

end Cert.ReferenceIdeal.RefValue

end
-- ==== Proof.RefTail.lean ====
/-
  The last block of the reference: from any contents it leaves, in the result buffer, the four heads' features
  side by side against the final weights plus the bias, and touches no buffer outside its own.
-/
import proofs.«145371_j38732015075674_2_alg».proof.Proof.RefOps
import proofs.«145371_j38732015075674_2_alg».proof.Proof.RefHeadFn

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the block writes. -/
abbrev tl_W : List (Ref sig .tc) := [main_v235, main_v236, main_v237, main_v238, main_v239]

set_option maxRecDepth 8192 in
theorem tl_writes : (tl : List (HloOp τ sig (Elt F))).Forall fun op =>
    op.writes ⊆ (tl_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the block does not write keeps its contents through it. -/
theorem tl_keep (V : Valuation τ sig (Elt F)) (r : Ref sig .tc) (h : r ∉ tl_W) :
    after tl V (Proc.devRef .tc r) = V (Proc.devRef .tc r) :=
  after_of_writes_sub tl _ tl_writes h

/-- What the block leaves in the result buffer. -/
theorem tl_val (V : Valuation τ sig (Elt F)) :
    after tl V (Proc.devRef .tc main_v239)
      = tailF (V (Proc.devRef .tc main_v60)) (V (Proc.devRef .tc main_v118)) (V (Proc.devRef .tc main_v176)) (V (Proc.devRef .tc main_v234))
          (V (Proc.devRef .tc main_arg8)) (V (Proc.devRef .tc main_arg9)) := by
  simp only [tl]
  after_results_simp
  rfl

end Cert.ReferenceIdeal.RefValue

end
-- ==== Proof.RefRunChunks.lean ====
/-
  The reference's run, block by block: the result buffer ends at the output function of the ten argument arrays —
  the final linear map of the four heads' features, each head a function of the node features, the edge mean and the
  stacked arrays — and every argument array ends as it began.
-/
import proofs.«145371_j38732015075674_2_alg».proof.Proof.RefOps
import proofs.«145371_j38732015075674_2_alg».proof.Proof.RefHeadFn
import proofs.«145371_j38732015075674_2_alg».proof.Proof.RefChunk0
import proofs.«145371_j38732015075674_2_alg».proof.Proof.RefHead0
import proofs.«145371_j38732015075674_2_alg».proof.Proof.RefHead1
import proofs.«145371_j38732015075674_2_alg».proof.Proof.RefHead2
import proofs.«145371_j38732015075674_2_alg».proof.Proof.RefHead3
import proofs.«145371_j38732015075674_2_alg».proof.Proof.RefTail

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- What the whole line leaves in the result buffer, from any contents: the output function of the contents of the
    ten argument buffers. Each block's result is read off that block; the blocks after it leave it alone. -/
theorem value (V : Valuation τ sig (Elt F)) :
    after ops V (Proc.devRef .tc main_v239)
      = outF (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) := by
  rw [after_ops, tl_val]
  rw [h3_val, h3_keep _ main_v60 (by decide), h3_keep _ main_v118 (by decide), h3_keep _ main_v176 (by decide), h3_keep _ main_arg8 (by decide), h3_keep _ main_arg9 (by decide)]
  rw [h2_val, h2_keep _ main_v60 (by decide), h2_keep _ main_v118 (by decide), h2_keep _ main_arg8 (by decide), h2_keep _ main_arg9 (by decide), h2_keep _ main_arg0 (by decide), h2_keep _ main_v2 (by decide), h2_keep _ main_arg2 (by decide), h2_keep _ main_arg3 (by decide), h2_keep _ main_arg4 (by decide), h2_keep _ main_arg5 (by decide), h2_keep _ main_arg6 (by decide), h2_keep _ main_arg7 (by decide)]
  rw [h1_val, h1_keep _ main_v60 (by decide), h1_keep _ main_arg8 (by decide), h1_keep _ main_arg9 (by decide), h1_keep _ main_arg0 (by decide), h1_keep _ main_v2 (by decide), h1_keep _ main_arg2 (by decide), h1_keep _ main_arg3 (by decide), h1_keep _ main_arg4 (by decide), h1_keep _ main_arg5 (by decide), h1_keep _ main_arg6 (by decide), h1_keep _ main_arg7 (by decide)]
  rw [h0_val, h0_keep _ main_arg8 (by decide), h0_keep _ main_arg9 (by decide), h0_keep _ main_arg0 (by decide), h0_keep _ main_v2 (by decide), h0_keep _ main_arg2 (by decide), h0_keep _ main_arg3 (by decide), h0_keep _ main_arg4 (by decide), h0_keep _ main_arg5 (by decide), h0_keep _ main_arg6 (by decide), h0_keep _ main_arg7 (by decide)]
  rw [c0_val, c0_keep _ main_arg0 (by decide), c0_keep _ main_arg2 (by decide), c0_keep _ main_arg3 (by decide), c0_keep _ main_arg4 (by decide), c0_keep _ main_arg5 (by decide), c0_keep _ main_arg6 (by decide), c0_keep _ main_arg7 (by decide), c0_keep _ main_arg8 (by decide), c0_keep _ main_arg9 (by decide)]
  rfl

/-- A buffer no block writes keeps its contents through the whole line. -/
theorem ops_keep (V : Valuation τ sig (Elt F)) (r : Ref sig .tc) (k0 : r ∉ c0_W) (k1 : r ∉ h0_W) (k2 : r ∉ h1_W)
    (k3 : r ∉ h2_W) (k4 : r ∉ h3_W) (k5 : r ∉ tl_W) : after ops V (Proc.devRef .tc r) = V (Proc.devRef .tc r) := by
  rw [after_ops, tl_keep _ r k5, h3_keep _ r k4, h2_keep _ r k3, h1_keep _ r k2, h0_keep _ r k1, c0_keep _ r k0]

/-- On every device, for any float values, from any memory with zero counters: every weakly fair execution of the
    reference terminates with the result buffer at the output function of the argument arrays, the arguments unchanged. -/
theorem run_chunks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v239)
        = outF (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v239).trans (value (launchContents m c)),
      (h c main_arg0).trans (ops_keep (launchContents m c) main_arg0 (by decide) (by decide) (by decide) (by decide) (by decide) (by decide)),
      (h c main_arg1).trans (ops_keep (launchContents m c) main_arg1 (by decide) (by decide) (by decide) (by decide) (by decide) (by decide)),
      (h c main_arg2).trans (ops_keep (launchContents m c) main_arg2 (by decide) (by decide) (by decide) (by decide) (by decide) (by decide)),
      (h c main_arg3).trans (ops_keep (launchContents m c) main_arg3 (by decide) (by decide) (by decide) (by decide) (by decide) (by decide)),
      (h c main_arg4).trans (ops_keep (launchContents m c) main_arg4 (by decide) (by decide) (by decide) (by decide) (by decide) (by decide)),
      (h c main_arg5).trans (ops_keep (launchContents m c) main_arg5 (by decide) (by decide) (by decide) (by decide) (by decide) (by decide)),
      (h c main_arg6).trans (ops_keep (launchContents m c) main_arg6 (by decide) (by decide) (by decide) (by decide) (by decide) (by decide)),
      (h c main_arg7).trans (ops_keep (launchContents m c) main_arg7 (by decide) (by decide) (by decide) (by decide) (by decide) (by decide)),
      (h c main_arg8).trans (ops_keep (launchContents m c) main_arg8 (by decide) (by decide) (by decide) (by decide) (by decide) (by decide)),
      (h c main_arg9).trans (ops_keep (launchContents m c) main_arg9 (by decide) (by decide) (by decide) (by decide) (by decide) (by decide))⟩)
    (run0 m ρ)

end Cert.ReferenceIdeal.RefValue

end
-- ==== Proof.RefRead1.lean ====
/-
  Reading the reference's operations at an index, over the extended reals: a matrix product is the sum over the
  contracted coordinate of the operands' products; a row sum onto zero is the sum over the row; the comparison with
  zero turned into a float is the indicator of zero; a concatenation along the columns reads the piece whose span
  holds the column.
-/
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx

/-- The operand indices of a plain `M × K` by `K × N` product at an output index and a contraction index. -/
theorem plain_lhs0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl
theorem plain_lhs1 (M K N : Nat) (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem plain_rhs0 (M K N : Nat) (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem plain_rhs1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The product of an `M × K` by a `K × N` matrix at row `n`, column `q`. -/
theorem dot_plain_apply (M K N : Nat) (l : FVec Ideal ⟨2, ![M, K]⟩ .f32) (r : FVec Ideal ⟨2, ![K, N]⟩ .f32)
    (n : Fin M) (q : Fin N) :
    Host.dotGeneral (DotDims.plain M K N) none l r (ix2 n q) = ∑ k : Fin K, l (ix2 n k) * r (ix2 k q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n q) ((contrEquiv1 (DotDims.plain M K N) K rfl rfl).symm k) = ix2 n k :=
    funext fun a => Fin.ext (by
      match a with
      | ⟨0, _⟩ => exact plain_lhs0 M K N _ _
      | ⟨1, _⟩ => exact (plain_lhs1 M K N _ _).trans hk)
  have er : (DotDims.plain M K N).rhsIdx (ix2 n q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

/-- The comparison with zero, turned into a float: one at zero, zero elsewhere. -/
theorem indicator_read (x : EReal) :
    (FloatOps.uitofp (F := Ideal) .f32 (FloatOps.cmpf (F := Ideal) (φ := .f32) .oeq x (Ideal.ofBits .f32 0x00000000#32)) : EReal)
      = if x = 0 then 1 else 0 := by
  rw [Ideal.ofBits_zero_f32]
  show (((Ideal.cmp .oeq x 0).toNat : ℝ) : EReal) = _
  unfold Ideal.cmp
  by_cases h : x = 0
  · simp [h]
  · simp [h]

/-- One piece of a concatenation along the columns: column `pre + c'` of the whole is column `c'` of the piece that
    starts at column `pre`. -/
theorem cat_piece {α : Type} {M T : Nat} (xs : List ((s : Shape) × (s.Idx → α)))
    (h : Shape.Concatenates (xs.map (·.1)) ⟨2, ![M, T]⟩ 1) (n : Fin M) (c : Fin T)
    (k : Nat) (hk : k < xs.length) (w : Nat) (x₁ : (⟨2, ![M, w]⟩ : Shape).Idx → α) (hxk : xs[k] = ⟨⟨2, ![M, w]⟩, x₁⟩)
    (pre : Nat)
    (hpre : (((xs.take k).map (·.1)).map fun s : Shape =>
        if h : s.rank = (⟨2, ![M, T]⟩ : Shape).rank then s.size ((1 : Fin (⟨2, ![M, T]⟩ : Shape).rank).cast h.symm) else 0).sum = pre)
    (c' : Fin w) (hc : pre + c'.val = c.val) :
    concatenate ⟨2, ![M, T]⟩ 1 xs h (ix2 n c) = x₁ (ix2 n c') :=
  concatenate_apply_piece 1 xs h (ix2 n c) k hk ⟨2, ![M, w]⟩ x₁ hxk rfl pre hpre (ix2 n c')
    (fun b hb => by
      match b with
      | ⟨0, _⟩ => rfl
      | ⟨1, _⟩ => exact absurd (Fin.ext rfl) hb)
    hc

end Cert.ReferenceIdeal.RefValue

end
-- ==== Proof.RefRead2.lean ====
/-
  The reference's stages read at an index over the extended reals: a head's slices of the stacked arrays; the six
  matrix products; the edge mean (zero plus the sum over the neighbours, divided by 512); a head's degree (the row
  sum) and guarded denominator (the degree plus the indicator of a zero degree); one layer.
-/
import proofs.«145371_j38732015075674_2_alg».proof.Proof.RefHeadFn
import proofs.«145371_j38732015075674_2_alg».proof.Proof.RefRead1
import proofs.«145371_j38732015075674_2_alg».proof.Proof.Spec

noncomputable section

open scoped BigOperators

namespace Cert.ReferenceIdeal.RefValue

open Cert.ReferenceIdeal Cert.ReferenceIdeal.Gen Idealize.ShloMosaic Idealize.ShloMosaic.ValueIdx

/-! ## The slices, for any float values -/

section Slices
variable {F : FTy → Type} [FloatOps F]

theorem adjF_apply (k : Nat) (kk : Fin 4) (hk : kk.val = k) (h : S4x512x512.Slices ![k, 0, 0] S1x512x512)
    (x : C F S4x512x512) (n j : Fin 512) : adjF k h x (ix2 n j) = x (ix3 kk n j) := by
  unfold adjF
  refine (shapeCast_apply _ shapeCasts_S1x512x512_S512x512 (ix2 n j) (ix3 (0 : Fin 1) n j) ?_).trans ?_
  · rewrite [Shape.rowMajor_val_three, Shape.rowMajor_val_two]
    show (0 * 512 + n.val) * 512 + j.val = n.val * 512 + j.val
    omega
  · exact extractStridedSlice_apply ![k, 0, 0] x h (ix3 (0 : Fin 1) n j) (ix3 kk n j) (fun a => match a with
      | ⟨0, _⟩ => by show kk.val = k + 0; omega
      | ⟨1, _⟩ => by show n.val = 0 + n.val; omega
      | ⟨2, _⟩ => by show j.val = 0 + j.val; omega)

theorem weF_apply (k l : Nat) (kk ll : Fin 4) (hk : kk.val = k) (hl : ll.val = l)
    (h : S4x4x128x32.Slices ![k, l, 0, 0] S1x1x128x32) (x : C F S4x4x128x32) (d : Fin 128) (q : Fin 32) :
    weF k l h x (ix2 d q) = x (ix4 kk ll d q) := by
  unfold weF
  refine (shapeCast_apply _ shapeCasts_S1x1x128x32_S128x32 (ix2 d q) (ix4 (0 : Fin 1) (0 : Fin 1) d q) ?_).trans ?_
  · rewrite [Shape.rowMajor_val_four, Shape.rowMajor_val_two]
    show ((0 * 1 + 0) * 128 + d.val) * 32 + q.val = d.val * 32 + q.val
    omega
  · exact extractStridedSlice_apply ![k, l, 0, 0] x h (ix4 (0 : Fin 1) (0 : Fin 1) d q) (ix4 kk ll d q) (fun a => match a with
      | ⟨0, _⟩ => by show kk.val = k + 0; omega
      | ⟨1, _⟩ => by show ll.val = l + 0; omega
      | ⟨2, _⟩ => by show d.val = 0 + d.val; omega
      | ⟨3, _⟩ => by show q.val = 0 + q.val; omega)

theorem w0F_apply (k : Nat) (kk : Fin 4) (hk : kk.val = k) (h : S4x128x32.Slices ![k, 0, 0] S1x128x32)
    (x : C F S4x128x32) (r : Fin 128) (q : Fin 32) : w0F k h x (ix2 r q) = x (ix3 kk r q) := by
  unfold w0F
  refine (shapeCast_apply _ shapeCasts_S1x128x32_S128x32 (ix2 r q) (ix3 (0 : Fin 1) r q) ?_).trans ?_
  · rewrite [Shape.rowMajor_val_three, Shape.rowMajor_val_two]
    show (0 * 128 + r.val) * 32 + q.val = r.val * 32 + q.val
    omega
  · exact extractStridedSlice_apply ![k, 0, 0] x h (ix3 (0 : Fin 1) r q) (ix3 kk r q) (fun a => match a with
      | ⟨0, _⟩ => by show kk.val = k + 0; omega
      | ⟨1, _⟩ => by show r.val = 0 + r.val; omega
      | ⟨2, _⟩ => by show q.val = 0 + q.val; omega)

theorem w1F_apply (k : Nat) (kk : Fin 4) (hk : kk.val = k) (h : S4x160x32.Slices ![k, 0, 0] S1x160x32)
    (x : C F S4x160x32) (r : Fin 160) (q : Fin 32) : w1F k h x (ix2 r q) = x (ix3 kk r q) := by
  unfold w1F
  refine (shapeCast_apply _ shapeCasts_S1x160x32_S160x32 (ix2 r q) (ix3 (0 : Fin 1) r q) ?_).trans ?_
  · rewrite [Shape.rowMajor_val_three, Shape.rowMajor_val_two]
    show (0 * 160 + r.val) * 32 + q.val = r.val * 32 + q.val
    omega
  · exact extractStridedSlice_apply ![k, 0, 0] x h (ix3 (0 : Fin 1) r q) (ix3 kk r q) (fun a => match a with
      | ⟨0, _⟩ => by show kk.val = k + 0; omega
      | ⟨1, _⟩ => by show r.val = 0 + r.val; omega
      | ⟨2, _⟩ => by show q.val = 0 + q.val; omega)

theorem w2F_apply (k : Nat) (kk : Fin 4) (hk : kk.val = k) (h : S4x192x32.Slices ![k, 0, 0] S1x192x32)
    (x : C F S4x192x32) (r : Fin 192) (q : Fin 32) : w2F k h x (ix2 r q) = x (ix3 kk r q) := by
  unfold w2F
  refine (shapeCast_apply _ shapeCasts_S1x192x32_S192x32 (ix2 r q) (ix3 (0 : Fin 1) r q) ?_).trans ?_
  · rewrite [Shape.rowMajor_val_three, Shape.rowMajor_val_two]
    show (0 * 192 + r.val) * 32 + q.val = r.val * 32 + q.val
    omega
  · exact extractStridedSlice_apply ![k, 0, 0] x h (ix3 (0 : Fin 1) r q) (ix3 kk r q) (fun a => match a with
      | ⟨0, _⟩ => by show kk.val = k + 0; omega
      | ⟨1, _⟩ => by show r.val = 0 + r.val; omega
      | ⟨2, _⟩ => by show q.val = 0 + q.val; omega)

theorem w3F_apply (k : Nat) (kk : Fin 4) (hk : kk.val = k) (h : S4x224x32.Slices ![k, 0, 0] S1x224x32)
    (x : C F S4x224x32) (r : Fin 224) (q : Fin 32) : w3F k h x (ix2 r q) = x (ix3 kk r q) := by
  unfold w3F
  refine (shapeCast_apply _ shapeCasts_S1x224x32_S224x32 (ix2 r q) (ix3 (0 : Fin 1) r q) ?_).trans ?_
  · rewrite [Shape.rowMajor_val_three, Shape.rowMajor_val_two]
    show (0 * 224 + r.val) * 32 + q.val = r.val * 32 + q.val
    omega
  · exact extractStridedSlice_apply ![k, 0, 0] x h (ix3 (0 : Fin 1) r q) (ix3 kk r q) (fun a => match a with
      | ⟨0, _⟩ => by show kk.val = k + 0; omega
      | ⟨1, _⟩ => by show r.val = 0 + r.val; omega
      | ⟨2, _⟩ => by show q.val = 0 + q.val; omega)

end Slices

/-! ## The matrix products -/

theorem dotE_apply (l : FVec Ideal S512x128 .f32) (r : FVec Ideal S128x32 .f32) (n : Fin 512) (q : Fin 32) :
    Host.dotGeneral (F := Ideal) dot_S512x128_S128x32_S512x32_1_0_0_1_n_n none l r (ix2 n q) = ∑ k : Fin 128, l (ix2 n k) * r (ix2 k q) :=
  dot_plain_apply 512 128 32 l r n q

theorem dotA_apply (l : FVec Ideal S512x512 .f32) (r : FVec Ideal S512x32 .f32) (n : Fin 512) (q : Fin 32) :
    Host.dotGeneral (F := Ideal) dot_S512x512_S512x32_S512x32_1_0_0_1_n_n none l r (ix2 n q) = ∑ k : Fin 512, l (ix2 n k) * r (ix2 k q) :=
  dot_plain_apply 512 512 32 l r n q

theorem dot160_apply (l : FVec Ideal S512x160 .f32) (r : FVec Ideal S160x32 .f32) (n : Fin 512) (q : Fin 32) :
    Host.dotGeneral (F := Ideal) dot_S512x160_S160x32_S512x32_1_0_0_1_n_n none l r (ix2 n q) = ∑ k : Fin 160, l (ix2 n k) * r (ix2 k q) :=
  dot_plain_apply 512 160 32 l r n q

theorem dot192_apply (l : FVec Ideal S512x192 .f32) (r : FVec Ideal S192x32 .f32) (n : Fin 512) (q : Fin 32) :
    Host.dotGeneral (F := Ideal) dot_S512x192_S192x32_S512x32_1_0_0_1_n_n none l r (ix2 n q) = ∑ k : Fin 192, l (ix2 n k) * r (ix2 k q) :=
  dot_plain_apply 512 192 32 l r n q

theorem dot224_apply (l : FVec Ideal S512x224 .f32) (r : FVec Ideal S224x32 .f32) (n : Fin 512) (q : Fin 32) :
    Host.dotGeneral (F := Ideal) dot_S512x224_S224x32_S512x32_1_0_0_1_n_n none l r (ix2 n q) = ∑ k : Fin 224, l (ix2 n k) * r (ix2 k q) :=
  dot_plain_apply 512 224 32 l r n q

theorem dotL_apply (l : FVec Ideal S512x512 .f32) (r : FVec Ideal S512x128 .f32) (n : Fin 512) (q : Fin 128) :
    Host.dotGeneral (F := Ideal) dot_S512x512_S512x128_S512x128_1_0_0_1_n_n none l r (ix2 n q) = ∑ k : Fin 512, l (ix2 n k) * r (ix2 k q) :=
  dot_plain_apply 512 512 128 l r n q

/-! ## The edge mean, the degree, the denominator, a layer -/

/-- A host quotient at an index. -/
theorem hostDivf_apply {s : Shape} (a b : FVec Ideal s .f32) (i : s.Idx) : Host.divf a b i = Ideal.div (a i) (b i) := rfl

/-- The edge mean at node `n`, feature `d`. -/
theorem emF_apply (E : C Ideal S512x512x128) (n : Fin 512) (d : Fin 128) :
    emF E (ix2 n d) = Cert.GcnSpec.emR E n d := by
  unfold emF Cert.GcnSpec.emR
  rw [hostDivf_apply]
  refine congrArg₂ Ideal.div ?_ ?_
  · simp only [Host.reduceAdd, Ideal.hostReduceAdd_def]
    rw [Ideal.hostReduceAdd_single reducesTo_S512x512x128_S512x128_d1 (by decide)]
    show Ideal.ofBits .f32 0x00000000#32 + _ = 0 + _
    rw [Ideal.ofBits_zero_f32]
    refine congrArg (0 + ·) (Finset.sum_congr rfl fun k _ => ?_)
    exact congrArg E (funext fun a => Fin.ext (by match a with | ⟨0, _⟩ => rfl | ⟨1, _⟩ => rfl | ⟨2, _⟩ => rfl))
  · exact broadcastInDim_apply _ bcast_S_S512x128 _ (ix2 n d) ix0 (fun a => a.elim0)

/-- A head's degree at node `n`: the row sum. -/
theorem degF_apply (A : C Ideal S512x512) (n : Fin 512) : degF A (ix1 n) = ∑ j : Fin 512, A (ix2 n j) := by
  unfold degF
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl))

/-- The guarded denominator at node `n`: the degree, plus one where it is zero. -/
theorem denF_apply (A : C Ideal S512x512) (n : Fin 512) (z : Fin 1) :
    denF A (ix2 n z) = (∑ j : Fin 512, A (ix2 n j)) + Cert.GcnSpec.isZero (∑ j : Fin 512, A (ix2 n j)) := by
  unfold denF
  refine (broadcastInDim_apply _ bcast_S512_S512x1_0 _ (ix2 n z) (ix1 n) (fun a => match a with
    | ⟨0, _⟩ => by show n.val = if (512 : Nat) = 1 then 0 else n.val; rw [if_neg (by decide)])).trans ?_
  rw [addf_apply]
  have hb : broadcastInDim S512 ![] bcast_S_S512 (constant (F := Ideal) S_ .f32 0x00000000#32) (ix1 n)
      = Ideal.ofBits .f32 0x00000000#32 :=
    broadcastInDim_apply _ bcast_S_S512 _ (ix1 n) ix0 (fun a => a.elim0)
  show degF A (ix1 n) + FloatOps.uitofp (F := Ideal) .f32 (FloatOps.cmpf (F := Ideal) (φ := .f32) .oeq (degF A (ix1 n)) (broadcastInDim S512 ![] bcast_S_S512 (constant (F := Ideal) S_ .f32 0x00000000#32) (ix1 n))) = _
  rw [hb, indicator_read, degF_apply]
  rfl

/-- One layer at node `n`, column `q`. -/
theorem layerF_apply (EM : C Ideal S512x128) (A : C Ideal S512x512) (We : C Ideal S128x32) (P : C Ideal S512x32)
    (n : Fin 512) (q : Fin 32) :
    layerF EM A We P (ix2 n q)
      = max (Ideal.div ((∑ d : Fin 128, EM (ix2 n d) * We (ix2 d q)) + ∑ j : Fin 512, A (ix2 n j) * P (ix2 j q))
          ((∑ j : Fin 512, A (ix2 n j)) + Cert.GcnSpec.isZero (∑ j : Fin 512, A (ix2 n j)))) 0 := by
  unfold layerF
  rw [maximumf_apply, hostDivf_apply, addf_apply, dotE_apply, dotA_apply]
  have hd : broadcastInDim S512x32 ![0, 1] bcast_S512x1_S512x32_0_1 (denF A) (ix2 n q) = denF A (ix2 n (0 : Fin 1)) :=
    broadcastInDim_apply _ bcast_S512x1_S512x32_0_1 _ (ix2 n q) (ix2 n (0 : Fin 1)) (fun a => match a with
      | ⟨0, _⟩ => by show n.val = if (512 : Nat) = 1 then 0 else n.val; rw [if_neg (by decide)]
      | ⟨1, _⟩ => by show (0 : Nat) = if (1 : Nat) = 1 then 0 else q.val; rw [if_pos rfl])
  have hz : broadcastInDim S512x32 ![] bcast_S_S512x32 (constant (F := Ideal) S_ .f32 0x00000000#32) (ix2 n q) = 0 :=
    (broadcastInDim_apply _ bcast_S_S512x32 _ (ix2 n q) ix0 (fun a => a.elim0)).trans Ideal.ofBits_zero_f32
  rw [hd, hz, denF_apply]

end Cert.ReferenceIdeal.RefValue

end
-- ==== Proof.RefRead3.lean ====
/-
  A head read at an index: the joined operands of layers 1, 2, 3 are the node features followed by the earlier
  layers' outputs, column by column; each layer of the sliced operands is the specification's layer of the stacked
  arrays at that head; the head's features are the four layers side by side plus the node features.
-/
import proofs.«145371_j38732015075674_2_alg».proof.Proof.RefHeadFn
import proofs.«145371_j38732015075674_2_alg».proof.Proof.RefRead1
import proofs.«145371_j38732015075674_2_alg».proof.Proof.RefRead2
import proofs.«145371_j38732015075674_2_alg».proof.Proof.Spec

noncomputable section

open scoped BigOperators

namespace Cert.ReferenceIdeal.RefValue

open Cert.ReferenceIdeal Cert.ReferenceIdeal.Gen Idealize.ShloMosaic Idealize.ShloMosaic.ValueIdx

/-- A 512-row array as a function of its row and column. -/
def mat {w : Nat} (x : (⟨2, ![512, w]⟩ : Shape).Idx → EReal) : Cert.GcnSpec.Mat w := fun n q => x (ix2 n q)

theorem mat_apply {w : Nat} (x : (⟨2, ![512, w]⟩ : Shape).Idx → EReal) (n : Fin 512) (q : Fin w) : mat x n q = x (ix2 n q) := rfl

/-! ## The joined operands -/

/-- Node features and one layer, side by side, at a column. -/
theorem cat1_read (X : C Ideal S512x128) (g0 : C Ideal S512x32) (j : Fin 512) (k : Fin 160) :
    concatenate (α := Ideal .f32) S512x160 1 [⟨S512x128, X⟩, ⟨S512x32, g0⟩] concatenates_S512x128_S512x32_S512x160_d1 (ix2 j k)
      = Cert.GcnSpec.cat1 X (mat g0) j k := by
  unfold Cert.GcnSpec.cat1
  by_cases h0 : k.val < 128
  · rw [dif_pos h0]
    exact cat_piece (M := 512) (T := 160) ([⟨S512x128, X⟩, ⟨S512x32, g0⟩] : List ((s : Shape) × (s.Idx → EReal))) concatenates_S512x128_S512x32_S512x160_d1 j k 0 (by show (0 : Nat) < 2; decide) 128 X rfl 0 rfl ⟨k.val, h0⟩ (by show 0 + k.val = k.val; omega)
  · rw [dif_neg h0]
    exact cat_piece (M := 512) (T := 160) ([⟨S512x128, X⟩, ⟨S512x32, g0⟩] : List ((s : Shape) × (s.Idx → EReal))) concatenates_S512x128_S512x32_S512x160_d1 j k 1 (by show (1 : Nat) < 2; decide) 32 g0 rfl 128 rfl ⟨k.val - 128, by have := k.isLt; omega⟩ (by show 128 + (k.val - 128) = k.val; omega)

/-- Node features and two layers, side by side, at a column. -/
theorem cat2_read (X : C Ideal S512x128) (g0 g1 : C Ideal S512x32) (j : Fin 512) (k : Fin 192) :
    concatenate (α := Ideal .f32) S512x192 1 [⟨S512x128, X⟩, ⟨S512x32, g0⟩, ⟨S512x32, g1⟩] concatenates_S512x128_S512x32_S512x32_S512x192_d1 (ix2 j k)
      = Cert.GcnSpec.cat2 X (mat g0) (mat g1) j k := by
  unfold Cert.GcnSpec.cat2
  by_cases h0 : k.val < 128
  · rw [dif_pos h0]
    exact cat_piece (M := 512) (T := 192) ([⟨S512x128, X⟩, ⟨S512x32, g0⟩, ⟨S512x32, g1⟩] : List ((s : Shape) × (s.Idx → EReal))) concatenates_S512x128_S512x32_S512x32_S512x192_d1 j k 0 (by show (0 : Nat) < 3; decide) 128 X rfl 0 rfl ⟨k.val, h0⟩ (by show 0 + k.val = k.val; omega)
  · rw [dif_neg h0]
    by_cases h1 : k.val < 160
    · rw [dif_pos h1]
      exact cat_piece (M := 512) (T := 192) ([⟨S512x128, X⟩, ⟨S512x32, g0⟩, ⟨S512x32, g1⟩] : List ((s : Shape) × (s.Idx → EReal))) concatenates_S512x128_S512x32_S512x32_S512x192_d1 j k 1 (by show (1 : Nat) < 3; decide) 32 g0 rfl 128 rfl ⟨k.val - 128, by have := k.isLt; omega⟩ (by show 128 + (k.val - 128) = k.val; omega)
    · rw [dif_neg h1]
      exact cat_piece (M := 512) (T := 192) ([⟨S512x128, X⟩, ⟨S512x32, g0⟩, ⟨S512x32, g1⟩] : List ((s : Shape) × (s.Idx → EReal))) concatenates_S512x128_S512x32_S512x32_S512x192_d1 j k 2 (by show (2 : Nat) < 3; decide) 32 g1 rfl 160 rfl ⟨k.val - 160, by have := k.isLt; omega⟩ (by show 160 + (k.val - 160) = k.val; omega)

/-- Node features and three layers, side by side, at a column. -/
theorem cat3_read (X : C Ideal S512x128) (g0 g1 g2 : C Ideal S512x32) (j : Fin 512) (k : Fin 224) :
    concatenate (α := Ideal .f32) S512x224 1 [⟨S512x128, X⟩, ⟨S512x32, g0⟩, ⟨S512x32, g1⟩, ⟨S512x32, g2⟩] concatenates_S512x128_S512x32_S512x32_S512x32_S512x224_d1 (ix2 j k)
      = Cert.GcnSpec.cat3 X (mat g0) (mat g1) (mat g2) j k := by
  unfold Cert.GcnSpec.cat3
  by_cases h0 : k.val < 128
  · rw [dif_pos h0]
    exact cat_piece (M := 512) (T := 224) ([⟨S512x128, X⟩, ⟨S512x32, g0⟩, ⟨S512x32, g1⟩, ⟨S512x32, g2⟩] : List ((s : Shape) × (s.Idx → EReal))) concatenates_S512x128_S512x32_S512x32_S512x32_S512x224_d1 j k 0 (by show (0 : Nat) < 4; decide) 128 X rfl 0 rfl ⟨k.val, h0⟩ (by show 0 + k.val = k.val; omega)
  · rw [dif_neg h0]
    by_cases h1 : k.val < 160
    · rw [dif_pos h1]
      exact cat_piece (M := 512) (T := 224) ([⟨S512x128, X⟩, ⟨S512x32, g0⟩, ⟨S512x32, g1⟩, ⟨S512x32, g2⟩] : List ((s : Shape) × (s.Idx → EReal))) concatenates_S512x128_S512x32_S512x32_S512x32_S512x224_d1 j k 1 (by show (1 : Nat) < 4; decide) 32 g0 rfl 128 rfl ⟨k.val - 128, by have := k.isLt; omega⟩ (by show 128 + (k.val - 128) = k.val; omega)
    · rw [dif_neg h1]
      by_cases h2 : k.val < 192
      · rw [dif_pos h2]
        exact cat_piece (M := 512) (T := 224) ([⟨S512x128, X⟩, ⟨S512x32, g0⟩, ⟨S512x32, g1⟩, ⟨S512x32, g2⟩] : List ((s : Shape) × (s.Idx → EReal))) concatenates_S512x128_S512x32_S512x32_S512x32_S512x224_d1 j k 2 (by show (2 : Nat) < 4; decide) 32 g1 rfl 160 rfl ⟨k.val - 160, by have := k.isLt; omega⟩ (by show 160 + (k.val - 160) = k.val; omega)
      · rw [dif_neg h2]
        exact cat_piece (M := 512) (T := 224) ([⟨S512x128, X⟩, ⟨S512x32, g0⟩, ⟨S512x32, g1⟩, ⟨S512x32, g2⟩] : List ((s : Shape) × (s.Idx → EReal))) concatenates_S512x128_S512x32_S512x32_S512x32_S512x224_d1 j k 3 (by show (3 : Nat) < 4; decide) 32 g2 rfl 192 rfl ⟨k.val - 192, by have := k.isLt; omega⟩ (by show 192 + (k.val - 192) = k.val; omega)

/-- Four layers side by side, at a column. -/
theorem cat4_read (g0 g1 g2 g3 : C Ideal S512x32) (j : Fin 512) (k : Fin 128) :
    concatenate (α := Ideal .f32) S512x128 1 [⟨S512x32, g0⟩, ⟨S512x32, g1⟩, ⟨S512x32, g2⟩, ⟨S512x32, g3⟩] concatenates_S512x32_S512x32_S512x32_S512x32_S512x128_d1 (ix2 j k)
      = Cert.GcnSpec.cat4 (mat g0) (mat g1) (mat g2) (mat g3) j k := by
  unfold Cert.GcnSpec.cat4
  by_cases h0 : k.val < 32
  · rw [dif_pos h0]
    exact cat_piece (M := 512) (T := 128) ([⟨S512x32, g0⟩, ⟨S512x32, g1⟩, ⟨S512x32, g2⟩, ⟨S512x32, g3⟩] : List ((s : Shape) × (s.Idx → EReal))) concatenates_S512x32_S512x32_S512x32_S512x32_S512x128_d1 j k 0 (by show (0 : Nat) < 4; decide) 32 g0 rfl 0 rfl ⟨k.val, h0⟩ (by show 0 + k.val = k.val; omega)
  · rw [dif_neg h0]
    by_cases h1 : k.val < 64
    · rw [dif_pos h1]
      exact cat_piece (M := 512) (T := 128) ([⟨S512x32, g0⟩, ⟨S512x32, g1⟩, ⟨S512x32, g2⟩, ⟨S512x32, g3⟩] : List ((s : Shape) × (s.Idx → EReal))) concatenates_S512x32_S512x32_S512x32_S512x32_S512x128_d1 j k 1 (by show (1 : Nat) < 4; decide) 32 g1 rfl 32 rfl ⟨k.val - 32, by have := k.isLt; omega⟩ (by show 32 + (k.val - 32) = k.val; omega)
    · rw [dif_neg h1]
      by_cases h2 : k.val < 96
      · rw [dif_pos h2]
        exact cat_piece (M := 512) (T := 128) ([⟨S512x32, g0⟩, ⟨S512x32, g1⟩, ⟨S512x32, g2⟩, ⟨S512x32, g3⟩] : List ((s : Shape) × (s.Idx → EReal))) concatenates_S512x32_S512x32_S512x32_S512x32_S512x128_d1 j k 2 (by show (2 : Nat) < 4; decide) 32 g2 rfl 64 rfl ⟨k.val - 64, by have := k.isLt; omega⟩ (by show 64 + (k.val - 64) = k.val; omega)
      · rw [dif_neg h2]
        exact cat_piece (M := 512) (T := 128) ([⟨S512x32, g0⟩, ⟨S512x32, g1⟩, ⟨S512x32, g2⟩, ⟨S512x32, g3⟩] : List ((s : Shape) × (s.Idx → EReal))) concatenates_S512x32_S512x32_S512x32_S512x32_S512x128_d1 j k 3 (by show (3 : Nat) < 4; decide) 32 g3 rfl 96 rfl ⟨k.val - 96, by have := k.isLt; omega⟩ (by show 96 + (k.val - 96) = k.val; omega)

/-! ## The layers and the features of head `k` -/

section Head
variable (k : Nat) (hh : Fin 4) (hk : hh.val = k)
  (hA : S4x512x512.Slices ![k, 0, 0] S1x512x512)
  (hE0 : S4x4x128x32.Slices ![k, 0, 0, 0] S1x1x128x32) (hE1 : S4x4x128x32.Slices ![k, 1, 0, 0] S1x1x128x32)
  (hE2 : S4x4x128x32.Slices ![k, 2, 0, 0] S1x1x128x32) (hE3 : S4x4x128x32.Slices ![k, 3, 0, 0] S1x1x128x32)
  (h0 : S4x128x32.Slices ![k, 0, 0] S1x128x32) (h1 : S4x160x32.Slices ![k, 0, 0] S1x160x32)
  (h2 : S4x192x32.Slices ![k, 0, 0] S1x192x32) (h3 : S4x224x32.Slices ![k, 0, 0] S1x224x32)
  (X EM : C Ideal S512x128) (Adj : C Ideal S4x512x512) (We : C Ideal S4x4x128x32)
  (Wn0 : C Ideal S4x128x32) (Wn1 : C Ideal S4x160x32) (Wn2 : C Ideal S4x192x32) (Wn3 : C Ideal S4x224x32)
include hk

theorem g0F_read :
    mat (g0F X EM (adjF k hA Adj) (weF k 0 hE0 We) (w0F k h0 Wn0)) = Cert.GcnSpec.g0R (mat EM) X Adj We Wn0 hh := by
  funext n q
  rw [mat_apply, g0F, layerF_apply]
  unfold Cert.GcnSpec.g0R Cert.GcnSpec.layer Cert.GcnSpec.den Cert.GcnSpec.deg Cert.GcnSpec.eterm
  simp only [adjF_apply k hh hk, weF_apply k 0 hh (0 : Fin 4) hk rfl, dotE_apply, w0F_apply k hh hk, mat_apply]

theorem g1F_read :
    mat (g1F X EM (adjF k hA Adj) (weF k 0 hE0 We) (weF k 1 hE1 We) (w0F k h0 Wn0) (w1F k h1 Wn1))
      = Cert.GcnSpec.g1R (mat EM) X Adj We Wn0 Wn1 hh := by
  funext n q
  rw [mat_apply, g1F, layerF_apply]
  unfold Cert.GcnSpec.g1R Cert.GcnSpec.layer Cert.GcnSpec.den Cert.GcnSpec.deg Cert.GcnSpec.eterm
  simp only [adjF_apply k hh hk, weF_apply k 1 hh (1 : Fin 4) hk rfl, dot160_apply, w1F_apply k hh hk, mat_apply,
    cat1_read, g0F_read k hh hk hA hE0 h0 X EM Adj We Wn0]

theorem g2F_read :
    mat (g2F X EM (adjF k hA Adj) (weF k 0 hE0 We) (weF k 1 hE1 We) (weF k 2 hE2 We) (w0F k h0 Wn0) (w1F k h1 Wn1) (w2F k h2 Wn2))
      = Cert.GcnSpec.g2R (mat EM) X Adj We Wn0 Wn1 Wn2 hh := by
  funext n q
  rw [mat_apply, g2F, layerF_apply]
  unfold Cert.GcnSpec.g2R Cert.GcnSpec.layer Cert.GcnSpec.den Cert.GcnSpec.deg Cert.GcnSpec.eterm
  simp only [adjF_apply k hh hk, weF_apply k 2 hh (2 : Fin 4) hk rfl, dot192_apply, w2F_apply k hh hk, mat_apply,
    cat2_read, g0F_read k hh hk hA hE0 h0 X EM Adj We Wn0, g1F_read k hh hk hA hE0 hE1 h0 h1 X EM Adj We Wn0 Wn1]

theorem g3F_read :
    mat (g3F X EM (adjF k hA Adj) (weF k 0 hE0 We) (weF k 1 hE1 We) (weF k 2 hE2 We) (weF k 3 hE3 We)
        (w0F k h0 Wn0) (w1F k h1 Wn1) (w2F k h2 Wn2) (w3F k h3 Wn3))
      = Cert.GcnSpec.g3R (mat EM) X Adj We Wn0 Wn1 Wn2 Wn3 hh := by
  funext n q
  rw [mat_apply, g3F, layerF_apply]
  unfold Cert.GcnSpec.g3R Cert.GcnSpec.layer Cert.GcnSpec.den Cert.GcnSpec.deg Cert.GcnSpec.eterm
  simp only [adjF_apply k hh hk, weF_apply k 3 hh (3 : Fin 4) hk rfl, dot224_apply, w3F_apply k hh hk, mat_apply,
    cat3_read, g0F_read k hh hk hA hE0 h0 X EM Adj We Wn0, g1F_read k hh hk hA hE0 hE1 h0 h1 X EM Adj We Wn0 Wn1,
    g2F_read k hh hk hA hE0 hE1 hE2 h0 h1 h2 X EM Adj We Wn0 Wn1 Wn2]

/-- Head `k`'s features at node `n`, column `c`. -/
theorem headF_read (n : Fin 512) (c : Fin 128) :
    headF X EM (adjF k hA Adj) (weF k 0 hE0 We) (weF k 1 hE1 We) (weF k 2 hE2 We) (weF k 3 hE3 We)
        (w0F k h0 Wn0) (w1F k h1 Wn1) (w2F k h2 Wn2) (w3F k h3 Wn3) (ix2 n c)
      = Cert.GcnSpec.headR (mat EM) X Adj We Wn0 Wn1 Wn2 Wn3 hh n c := by
  unfold headF Cert.GcnSpec.headR
  rw [addf_apply, cat4_read, g0F_read k hh hk hA hE0 h0 X EM Adj We Wn0, g1F_read k hh hk hA hE0 hE1 h0 h1 X EM Adj We Wn0 Wn1,
    g2F_read k hh hk hA hE0 hE1 hE2 h0 h1 h2 X EM Adj We Wn0 Wn1 Wn2,
    g3F_read k hh hk hA hE0 hE1 hE2 hE3 h0 h1 h2 h3 X EM Adj We Wn0 Wn1 Wn2 Wn3]

end Head

end Cert.ReferenceIdeal.RefValue

end
-- ==== Proof.RefRead4.lean ====
/-
  The reference's output read at an index: the four heads' features side by side are, column by column, the head the
  column falls in at the column's offset in it; the final linear map is the sum over those 512 columns against the
  weights, plus the bias of the output column; with each head read as the specification's head and the edge mean as
  the specification's edge mean, the output is the specification's.
-/
import proofs.«145371_j38732015075674_2_alg».proof.Proof.RefHeadFn
import proofs.«145371_j38732015075674_2_alg».proof.Proof.RefRead1
import proofs.«145371_j38732015075674_2_alg».proof.Proof.RefRead2
import proofs.«145371_j38732015075674_2_alg».proof.Proof.RefRead3
import proofs.«145371_j38732015075674_2_alg».proof.Proof.Spec

noncomputable section

open scoped BigOperators

namespace Cert.ReferenceIdeal.RefValue

open Cert.ReferenceIdeal Cert.ReferenceIdeal.Gen Idealize.ShloMosaic Idealize.ShloMosaic.ValueIdx

/-- The four heads' features side by side, at column `k`: head `k / 128` at column `k % 128`. -/
theorem catHeads_read (H0 H1 H2 H3 : C Ideal S512x128) (hf : Fin 4 → Cert.GcnSpec.Mat 128)
    (e0 : ∀ n c, H0 (ix2 n c) = hf 0 n c) (e1 : ∀ n c, H1 (ix2 n c) = hf 1 n c)
    (e2 : ∀ n c, H2 (ix2 n c) = hf 2 n c) (e3 : ∀ n c, H3 (ix2 n c) = hf 3 n c) (n : Fin 512) (k : Fin 512) :
    concatenate (α := Ideal .f32) S512x512 1 [⟨S512x128, H0⟩, ⟨S512x128, H1⟩, ⟨S512x128, H2⟩, ⟨S512x128, H3⟩] concatenates_S512x128_S512x128_S512x128_S512x128_S512x512_d1 (ix2 n k)
      = Cert.GcnSpec.catHeads hf n k := by
  unfold Cert.GcnSpec.catHeads
  by_cases h0 : k.val < 128
  · refine (cat_piece (M := 512) (T := 512) ([⟨S512x128, H0⟩, ⟨S512x128, H1⟩, ⟨S512x128, H2⟩, ⟨S512x128, H3⟩] : List ((s : Shape) × (s.Idx → EReal))) concatenates_S512x128_S512x128_S512x128_S512x128_S512x512_d1 n k 0 (by show (0 : Nat) < 4; decide) 128 H0 rfl 0 rfl ⟨k.val - 0, by have := k.isLt; omega⟩ (by show 0 + (k.val - 0) = k.val; omega)).trans ?_; rw [e0]; exact congrArg₂ (fun (a : Fin 4) (b : Fin 128) => hf a n b) (Fin.ext (by show 0 = k.val / 128; omega)) (Fin.ext (by show k.val - 0 = k.val % 128; omega))
  · by_cases h1 : k.val < 256
    · refine (cat_piece (M := 512) (T := 512) ([⟨S512x128, H0⟩, ⟨S512x128, H1⟩, ⟨S512x128, H2⟩, ⟨S512x128, H3⟩] : List ((s : Shape) × (s.Idx → EReal))) concatenates_S512x128_S512x128_S512x128_S512x128_S512x512_d1 n k 1 (by show (1 : Nat) < 4; decide) 128 H1 rfl 128 rfl ⟨k.val - 128, by have := k.isLt; omega⟩ (by show 128 + (k.val - 128) = k.val; omega)).trans ?_; rw [e1]; exact congrArg₂ (fun (a : Fin 4) (b : Fin 128) => hf a n b) (Fin.ext (by show 1 = k.val / 128; omega)) (Fin.ext (by show k.val - 128 = k.val % 128; omega))
    · by_cases h2 : k.val < 384
      · refine (cat_piece (M := 512) (T := 512) ([⟨S512x128, H0⟩, ⟨S512x128, H1⟩, ⟨S512x128, H2⟩, ⟨S512x128, H3⟩] : List ((s : Shape) × (s.Idx → EReal))) concatenates_S512x128_S512x128_S512x128_S512x128_S512x512_d1 n k 2 (by show (2 : Nat) < 4; decide) 128 H2 rfl 256 rfl ⟨k.val - 256, by have := k.isLt; omega⟩ (by show 256 + (k.val - 256) = k.val; omega)).trans ?_; rw [e2]; exact congrArg₂ (fun (a : Fin 4) (b : Fin 128) => hf a n b) (Fin.ext (by show 2 = k.val / 128; omega)) (Fin.ext (by show k.val - 256 = k.val % 128; omega))
      · refine (cat_piece (M := 512) (T := 512) ([⟨S512x128, H0⟩, ⟨S512x128, H1⟩, ⟨S512x128, H2⟩, ⟨S512x128, H3⟩] : List ((s : Shape) × (s.Idx → EReal))) concatenates_S512x128_S512x128_S512x128_S512x128_S512x512_d1 n k 3 (by show (3 : Nat) < 4; decide) 128 H3 rfl 384 rfl ⟨k.val - 384, by have := k.isLt; omega⟩ (by show 384 + (k.val - 384) = k.val; omega)).trans ?_; rw [e3]; exact congrArg₂ (fun (a : Fin 4) (b : Fin 128) => hf a n b) (Fin.ext (by show 3 = k.val / 128; omega)) (Fin.ext (by show k.val - 384 = k.val % 128; omega))

/-- The final linear map with its bias at node `n`, output column `o`. -/
theorem tailF_read (H0 H1 H2 H3 Wl : C Ideal S512x128) (B : C Ideal S128) (hf : Fin 4 → Cert.GcnSpec.Mat 128)
    (e0 : ∀ n c, H0 (ix2 n c) = hf 0 n c) (e1 : ∀ n c, H1 (ix2 n c) = hf 1 n c)
    (e2 : ∀ n c, H2 (ix2 n c) = hf 2 n c) (e3 : ∀ n c, H3 (ix2 n c) = hf 3 n c) (n : Fin 512) (o : Fin 128) :
    tailF H0 H1 H2 H3 Wl B (ix2 n o) = (∑ k : Fin 512, Cert.GcnSpec.catHeads hf n k * Wl (ix2 k o)) + B (ix1 o) := by
  unfold tailF
  rw [addf_apply, dotL_apply]
  have hb : broadcastInDim S512x128 ![0, 1] bcast_S1x128_S512x128_0_1 (broadcastInDim S1x128 ![1] bcast_S128_S1x128_1 B) (ix2 n o)
      = B (ix1 o) :=
    (broadcastInDim_apply _ bcast_S1x128_S512x128_0_1 _ (ix2 n o) (ix2 (0 : Fin 1) o) (fun a => match a with
      | ⟨0, _⟩ => by show (0 : Nat) = if (1 : Nat) = 1 then 0 else n.val; rw [if_pos rfl]
      | ⟨1, _⟩ => by show o.val = if (128 : Nat) = 1 then 0 else o.val; rw [if_neg (by decide)])).trans
    (broadcastInDim_apply _ bcast_S128_S1x128_1 _ (ix2 (0 : Fin 1) o) (ix1 o) (fun a => match a with
      | ⟨0, _⟩ => by show o.val = if (128 : Nat) = 1 then 0 else o.val; rw [if_neg (by decide)]))
  rw [hb]
  refine congrArg (· + B (ix1 o)) (Finset.sum_congr rfl fun k _ => ?_)
  rw [catHeads_read H0 H1 H2 H3 hf e0 e1 e2 e3 n k]

/-- The reference's output at node `n`, column `o`. -/
theorem out_read (X : C Ideal S512x128) (E : C Ideal S512x512x128) (Adj : C Ideal S4x512x512) (We : C Ideal S4x4x128x32)
    (Wn0 : C Ideal S4x128x32) (Wn1 : C Ideal S4x160x32) (Wn2 : C Ideal S4x192x32) (Wn3 : C Ideal S4x224x32)
    (Wl : C Ideal S512x128) (B : C Ideal S128) (n : Fin 512) (o : Fin 128) :
    outF X E Adj We Wn0 Wn1 Wn2 Wn3 Wl B (ix2 n o)
      = Cert.GcnSpec.outR X Adj We Wn0 Wn1 Wn2 Wn3 Wl B (Cert.GcnSpec.emR E) n o := by
  unfold outF Cert.GcnSpec.outR
  have hem : mat (emF E) = Cert.GcnSpec.emR E := funext fun n => funext fun d => emF_apply E n d
  refine tailF_read _ _ _ _ Wl B (fun h => Cert.GcnSpec.headR (Cert.GcnSpec.emR E) X Adj We Wn0 Wn1 Wn2 Wn3 h) ?_ ?_ ?_ ?_ n o
  · intro n c; rw [← hem]
    exact headF_read 0 (0 : Fin 4) rfl slices_S4x512x512_S1x512x512_0_0_0 slices_S4x4x128x32_S1x1x128x32_0_0_0_0 slices_S4x4x128x32_S1x1x128x32_0_1_0_0 slices_S4x4x128x32_S1x1x128x32_0_2_0_0 slices_S4x4x128x32_S1x1x128x32_0_3_0_0 slices_S4x128x32_S1x128x32_0_0_0 slices_S4x160x32_S1x160x32_0_0_0 slices_S4x192x32_S1x192x32_0_0_0 slices_S4x224x32_S1x224x32_0_0_0 X (emF E) Adj We Wn0 Wn1 Wn2 Wn3 n c
  · intro n c; rw [← hem]
    exact headF_read 1 (1 : Fin 4) rfl slices_S4x512x512_S1x512x512_1_0_0 slices_S4x4x128x32_S1x1x128x32_1_0_0_0 slices_S4x4x128x32_S1x1x128x32_1_1_0_0 slices_S4x4x128x32_S1x1x128x32_1_2_0_0 slices_S4x4x128x32_S1x1x128x32_1_3_0_0 slices_S4x128x32_S1x128x32_1_0_0 slices_S4x160x32_S1x160x32_1_0_0 slices_S4x192x32_S1x192x32_1_0_0 slices_S4x224x32_S1x224x32_1_0_0 X (emF E) Adj We Wn0 Wn1 Wn2 Wn3 n c
  · intro n c; rw [← hem]
    exact headF_read 2 (2 : Fin 4) rfl slices_S4x512x512_S1x512x512_2_0_0 slices_S4x4x128x32_S1x1x128x32_2_0_0_0 slices_S4x4x128x32_S1x1x128x32_2_1_0_0 slices_S4x4x128x32_S1x1x128x32_2_2_0_0 slices_S4x4x128x32_S1x1x128x32_2_3_0_0 slices_S4x128x32_S1x128x32_2_0_0 slices_S4x160x32_S1x160x32_2_0_0 slices_S4x192x32_S1x192x32_2_0_0 slices_S4x224x32_S1x224x32_2_0_0 X (emF E) Adj We Wn0 Wn1 Wn2 Wn3 n c
  · intro n c; rw [← hem]
    exact headF_read 3 (3 : Fin 4) rfl slices_S4x512x512_S1x512x512_3_0_0 slices_S4x4x128x32_S1x1x128x32_3_0_0_0 slices_S4x4x128x32_S1x1x128x32_3_1_0_0 slices_S4x4x128x32_S1x1x128x32_3_2_0_0 slices_S4x4x128x32_S1x1x128x32_3_3_0_0 slices_S4x128x32_S1x128x32_3_0_0 slices_S4x160x32_S1x160x32_3_0_0 slices_S4x192x32_S1x192x32_3_0_0 slices_S4x224x32_S1x224x32_3_0_0 X (emF E) Adj We Wn0 Wn1 Wn2 Wn3 n c

/-- The reference's output as a function of its index. -/
theorem outF_eq (X : C Ideal S512x128) (E : C Ideal S512x512x128) (Adj : C Ideal S4x512x512) (We : C Ideal S4x4x128x32)
    (Wn0 : C Ideal S4x128x32) (Wn1 : C Ideal S4x160x32) (Wn2 : C Ideal S4x192x32) (Wn3 : C Ideal S4x224x32)
    (Wl : C Ideal S512x128) (B : C Ideal S128) :
    outF X E Adj We Wn0 Wn1 Wn2 Wn3 Wl B
      = fun i => Cert.GcnSpec.outR X Adj We Wn0 Wn1 Wn2 Wn3 Wl B (Cert.GcnSpec.emR E) (i 0) (i 1) := by
  funext i
  obtain ⟨n, o, rfl⟩ : ∃ (n : Fin 512) (o : Fin 128), i = ix2 n o := ⟨i 0, i 1, eq_ix2 i⟩
  exact out_read X E Adj We Wn0 Wn1 Wn2 Wn3 Wl B n o

end Cert.ReferenceIdeal.RefValue

end
-- ==== Proof.RefRun.lean ====
/-
  The reference's run and value: every weakly fair execution of the idealized reference terminates with its result
  array at the specification's output function (the reference's arrangement) of its argument arrays, the edge mean
  being the specification's, and with every argument array unchanged.
-/
import proofs.«145371_j38732015075674_2_alg».proof.Proof.RefRunChunks
import proofs.«145371_j38732015075674_2_alg».proof.Proof.RefRead4
import proofs.«145371_j38732015075674_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v239) = (fun i => Cert.GcnSpec.outR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Cert.GcnSpec.emR (m ((c.tc : Thread nD τ).loc main_arg1))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (outF_eq _ _ _ _ _ _ _ _ _ _), (h c).2⟩) (run_chunks (F := Ideal) m ρ)

end Cert.ReferenceIdeal.RefValue

end
-- ==== Proof.lean ====
/-
  The certificate: a graph-convolution stack computed in two kernel regions — a streamed edge-feature mean (four
  partial sums per row block, each scaled by 2^-9), then per head a four-layer stack of relu((edge term + adjacency ·
  projection) / guarded degree) with the layers' outputs fed forward, the heads split over two cores and the final
  linear map taken head by head, the cores' partial outputs and the bias added by host operations — computes, over the
  extended reals and on finite inputs, the same function as the plain reference (mean over all neighbours,
  concatenated features against whole weight matrices, one final product).

  The three frames: the two kernels' are the generated frame certificates; the reference's is its run with the result
  dropped. The idealization rewrote no operation, so `preserves` is trivial. For `algebraic`, the kernel's run ends with
  its result array at the kernel's arrangement `outK` of the argument arrays at the kernel's edge mean `emK`; the
  reference's at the reference's arrangement `outR` at `emR`. The two arrangements are one function: regrouping sums
  needs only that addition on the extended reals is commutative and associative; the one step that needs the inputs
  finite is the edge mean, where scaling each of four partial sums by 2^-9 is dividing their total by 512 because
  multiplication distributes over sums of real numbers.
-/
import proofs.«145371_j38732015075674_2_alg».proof.Defs
import proofs.«145371_j38732015075674_2_alg».proof.Proof.Gen.Kernel
import proofs.«145371_j38732015075674_2_alg».proof.Proof.Gen.Kernel.Skeleton
import proofs.«145371_j38732015075674_2_alg».proof.Proof.Gen.Kernel.Launch
import proofs.«145371_j38732015075674_2_alg».proof.Proof.Gen.Kernel.Points
import proofs.«145371_j38732015075674_2_alg».proof.Proof.Gen.Kernel.Frame
import proofs.«145371_j38732015075674_2_alg».proof.Proof.Gen.KernelIdeal
import proofs.«145371_j38732015075674_2_alg».proof.Proof.Gen.KernelIdeal.Skeleton
import proofs.«145371_j38732015075674_2_alg».proof.Proof.Gen.KernelIdeal.Launch
import proofs.«145371_j38732015075674_2_alg».proof.Proof.Gen.KernelIdeal.Points
import proofs.«145371_j38732015075674_2_alg».proof.Proof.Gen.KernelIdeal.Frame
import proofs.«145371_j38732015075674_2_alg».proof.Proof.Gen.ReferenceIdeal
import proofs.«145371_j38732015075674_2_alg».proof.Proof.Gen.Pre_finite_inputs
import proofs.«145371_j38732015075674_2_alg».proof.Proof.KValue
import proofs.«145371_j38732015075674_2_alg».proof.Proof.Bridge
import proofs.«145371_j38732015075674_2_alg».proof.Proof.Finite
import proofs.«145371_j38732015075674_2_alg».proof.Proof.RefRun
import Idealize.ShloMosaic.Adequacy
import Idealize.ShloMosaic.Init

noncomputable section

namespace Cert.Proof

open Idealize.ShloMosaic Idealize.SL.Sem Cert.GcnSpec

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both runs end at the reference's arrangement of the function at the reference's edge mean: the kernel's by the two
    equalities of arrangements (the edge mean's under finiteness of the edge features), the reference's directly, its
    arguments being the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i => outR (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (emR (m ((c.tc : Thread Cert.KernelIdeal.nD Cert.KernelIdeal.τ).loc Cert.KernelIdeal.main_arg1))) (i 0) (i 1)), ?_, ?_⟩
  · refine (θ_run Cert.KernelIdeal.defs _ _).mono (fun r h c => ⟨(h c).1.trans ?_, (h c).2⟩) (Cert.KernelIdeal.KValue.run m ρ)
    rw [emK_eq_emR _ (fun i => Cert.KernelIdeal.Finite.edge_finite m hpre c i), outK_eq_outR]
  · refine (θ_run Cert.ReferenceIdeal.defs _ _).mono (fun r h c => ⟨(h c).1.trans ?_, (h c).2⟩) (Cert.ReferenceIdeal.RefValue.run m' ρ')
    obtain ⟨a0, a1, a2, a3, a4, a5, a6, a7, a8, a9⟩ := hagree c
    rw [a0, a1, a2, a3, a4, a5, a6, a7, a8, a9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
